-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S256x4096 .f32 .bf16
  ∧ IdealRules.truncf_extf.Statement Cert.KernelIdeal.S256x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x3x16x16x16 : Shape := ⟨5, ![1, 3, 16, 16, 16]⟩
abbrev S1x21x16x16x16 : Shape := ⟨5, ![1, 21, 16, 16, 16]⟩
abbrev S21x21 : Shape := ⟨2, ![21, 21]⟩
abbrev S_ : Shape := ⟨0, ![]⟩

class Facts : Prop where
  bcast_S_S1x3x16x16x16 : S_.BroadcastsInDim S1x3x16x16x16 (![] : Fin 0 → Fin S1x3x16x16x16.rank)
  reducesTo_S1x3x16x16x16_S_d0_1_2_3_4 : S1x3x16x16x16.ReducesTo [0, 1, 2, 3, 4] S_
  h_S_ : 0 < S_.numel
  bcast_S_S1x21x16x16x16 : S_.BroadcastsInDim S1x21x16x16x16 (![] : Fin 0 → Fin S1x21x16x16x16.rank)
  reducesTo_S1x21x16x16x16_S_d0_1_2_3_4 : S1x21x16x16x16.ReducesTo [0, 1, 2, 3, 4] S_
  bcast_S_S21x21 : S_.BroadcastsInDim S21x21 (![] : Fin 0 → Fin S21x21.rank)
  reducesTo_S21x21_S_d0_1 : S21x21.ReducesTo [0, 1] S_

variable [Facts]

def fn_part1 {F : FTy → Type} [FloatOps F] (main_arg4 : FVec F S21x21 .f32) (main_v13 : IVec S_ 1) (main_v16 : IVec S21x21 1) : IVec S_ 1 :=
  let main_c_5 : IVec S_ 1 := constantI S_ 1 1#1
  let main_v17 : IVec S_ 1 := (fun x v => Host.reduce IntOp.andi x v reducesTo_S21x21_S_d0_1 h_S_) main_v16 main_c_5
  let main_v18 : IVec S_ 1 := andi main_v13 main_v17
  let main_v19 : FVec F S21x21 .f32 := Host.absf main_arg4
  let main_cst_6 : FVec F S_ .f32 := constant S_ .f32 0x7F800000#32
  let main_v20 : FVec F S21x21 .f32 := broadcastInDim S21x21 ![] bcast_S_S21x21 main_cst_6
  let main_v21 : IVec S21x21 1 := cmpf .olt main_v19 main_v20
  let main_c_7 : IVec S_ 1 := constantI S_ 1 1#1
  let main_v22 : IVec S_ 1 := (fun x v => Host.reduce IntOp.andi x v reducesTo_S21x21_S_d0_1 h_S_) main_v21 main_c_7
  let main_v23 : IVec S_ 1 := andi main_v18 main_v22
  main_v23

def fn {F : FTy → Type} [FloatOps F] (main_arg0 : FVec F S1x3x16x16x16 .f32) (main_arg1 : FVec F S1x21x16x16x16 .f32) (main_arg2 : FVec F S21x21 .f32) (main_arg3 : FVec F S21x21 .f32) (main_arg4 : FVec F S21x21 .f32) : IVec S_ 1 :=
  let main_v0 : FVec F S1x3x16x16x16 .f32 := Host.absf main_arg0
  let main_cst : FVec F S_ .f32 := constant S_ .f32 0x7F800000#32
  let main_v1 : FVec F S1x3x16x16x16 .f32 := broadcastInDim S1x3x16x16x16 ![] bcast_S_S1x3x16x16x16 main_cst
  let main_v2 : IVec S1x3x16x16x16 1 := cmpf .olt main_v0 main_v1
  let main_c : IVec S_ 1 := constantI S_ 1 1#1
  let main_v3 : IVec S_ 1 := (fun x v => Host.reduce IntOp.andi x v reducesTo_S1x3x16x16x16_S_d0_1_2_3_4 h_S_) main_v2 main_c
  let main_v4 : FVec F S1x21x16x16x16 .f32 := Host.absf main_arg1
  let main_cst_0 : FVec F S_ .f32 := constant S_ .f32 0x7F800000#32
  let main_v5 : FVec F S1x21x16x16x16 .f32 := broadcastInDim S1x21x16x16x16 ![] bcast_S_S1x21x16x16x16 main_cst_0
  let main_v6 : IVec S1x21x16x16x16 1 := cmpf .olt main_v4 main_v5
  let main_c_1 : IVec S_ 1 := constantI S_ 1 1#1
  let main_v7 : IVec S_ 1 := (fun x v => Host.reduce IntOp.andi x v reducesTo_S1x21x16x16x16_S_d0_1_2_3_4 h_S_) main_v6 main_c_1
  let main_v8 : IVec S_ 1 := andi main_v3 main_v7
  let main_v9 : FVec F S21x21 .f32 := Host.absf main_arg2
  let main_cst_2 : FVec F S_ .f32 := constant S_ .f32 0x7F800000#32
  let main_v10 : FVec F S21x21 .f32 := broadcastInDim S21x21 ![] bcast_S_S21x21 main_cst_2
  let main_v11 : IVec S21x21 1 := cmpf .olt main_v9 main_v10
  let main_c_3 : IVec S_ 1 := constantI S_ 1 1#1
  let main_v12 : IVec S_ 1 := (fun x v => Host.reduce IntOp.andi x v reducesTo_S21x21_S_d0_1 h_S_) main_v11 main_c_3
  let main_v13 : IVec S_ 1 := andi main_v8 main_v12
  let main_v14 : FVec F S21x21 .f32 := Host.absf main_arg3
  let main_cst_4 : FVec F S_ .f32 := constant S_ .f32 0x7F800000#32
  let main_v15 : FVec F S21x21 .f32 := broadcastInDim S21x21 ![] bcast_S_S21x21 main_cst_4
  let main_v16 : IVec S21x21 1 := cmpf .olt main_v14 main_v15
  fn_part1 (F := F) main_arg4 main_v13 main_v16
-- ==== Kernel.lean ====
abbrev S1x3x16x16x16 : Shape := ⟨5, ![1, 3, 16, 16, 16]⟩
abbrev S1x21x16x16x16 : Shape := ⟨5, ![1, 21, 16, 16, 16]⟩
abbrev S21x21 : Shape := ⟨2, ![21, 21]⟩
abbrev S3x16x16x16 : Shape := ⟨4, ![3, 16, 16, 16]⟩
abbrev S21x16x16x16 : Shape := ⟨4, ![21, 16, 16, 16]⟩
abbrev S16 : Shape := ⟨1, ![16]⟩
abbrev S16x16x16 : Shape := ⟨3, ![16, 16, 16]⟩
abbrev S1x16x16x16 : Shape := ⟨4, ![1, 16, 16, 16]⟩
abbrev S3x4096 : Shape := ⟨2, ![3, 4096]⟩
abbrev S_ : Shape := ⟨0, ![]⟩
abbrev S6x4096 : Shape := ⟨2, ![6, 4096]⟩
abbrev S4096x3 : Shape := ⟨2, ![4096, 3]⟩
abbrev S4096x4096 : Shape := ⟨2, ![4096, 4096]⟩
abbrev S1x4096 : Shape := ⟨2, ![1, 4096]⟩
abbrev S256x3 : Shape := ⟨2, ![256, 3]⟩
abbrev S256x4096 : Shape := ⟨2, ![256, 4096]⟩
abbrev S256 : Shape := ⟨1, ![256]⟩
abbrev S256x1 : Shape := ⟨2, ![256, 1]⟩
abbrev S4096 : Shape := ⟨1, ![4096]⟩
abbrev S4096x6 : Shape := ⟨2, ![4096, 6]⟩
abbrev S256x6 : Shape := ⟨2, ![256, 6]⟩
abbrev S21x4096 : Shape := ⟨2, ![21, 4096]⟩
abbrev S21x256 : Shape := ⟨2, ![21, 256]⟩

abbrev nBuf : Space → Nat
  | .hbm => 41
  | .vmem => 25
  | .smem => 0
  | _ => 0

abbrev bufTy : (tb : Table) → Fin (tcTables nBuf tb) → BufTy
  | .hbm, ⟨0, _⟩ => ⟨S1x3x16x16x16, .f32⟩
  | .hbm, ⟨1, _⟩ => ⟨S1x21x16x16x16, .f32⟩
  | .hbm, ⟨2, _⟩ => ⟨S21x21, .f32⟩
  | .hbm, ⟨3, _⟩ => ⟨S21x21, .f32⟩
  | .hbm, ⟨4, _⟩ => ⟨S21x21, .f32⟩
  | .hbm, ⟨5, _⟩ => ⟨S3x16x16x16, .f32⟩
  | .hbm, ⟨6, _⟩ => ⟨S21x16x16x16, .f32⟩
  | .hbm, ⟨7, _⟩ => ⟨S16, .i32⟩
  | .hbm, ⟨8, _⟩ => ⟨S16, .i32⟩
  | .hbm, ⟨9, _⟩ => ⟨S16, .i32⟩
  | .hbm, ⟨10, _⟩ => ⟨S16x16x16, .i32⟩
  | .hbm, ⟨11, _⟩ => ⟨S16x16x16, .i32⟩
  | .hbm, ⟨12, _⟩ => ⟨S16x16x16, .i32⟩
  | .hbm, ⟨13, _⟩ => ⟨S1x16x16x16, .i32⟩
  | .hbm, ⟨14, _⟩ => ⟨S1x16x16x16, .i32⟩
  | .hbm, ⟨15, _⟩ => ⟨S1x16x16x16, .i32⟩
  | .hbm, ⟨16, _⟩ => ⟨S3x16x16x16, .i32⟩
  | .hbm, ⟨17, _⟩ => ⟨S3x4096, .i32⟩
  | .hbm, ⟨18, _⟩ => ⟨S3x4096, .f32⟩
  | .hbm, ⟨19, _⟩ => ⟨S_, .f32⟩
  | .hbm, ⟨20, _⟩ => ⟨S3x4096, .f32⟩
  | .hbm, ⟨21, _⟩ => ⟨S3x4096, .f32⟩
  | .hbm, ⟨22, _⟩ => ⟨S_, .f32⟩
  | .hbm, ⟨23, _⟩ => ⟨S3x4096, .f32⟩
  | .hbm, ⟨24, _⟩ => ⟨S3x4096, .f32⟩
  | .hbm, ⟨25, _⟩ => ⟨S3x4096, .f32⟩
  | .hbm, ⟨26, _⟩ => ⟨S_, .f32⟩
  | .hbm, ⟨27, _⟩ => ⟨S3x4096, .f32⟩
  | .hbm, ⟨28, _⟩ => ⟨S3x4096, .f32⟩
  | .hbm, ⟨29, _⟩ => ⟨S6x4096, .f32⟩
  | .hbm, ⟨30, _⟩ => ⟨S4096x3, .f32⟩
  | .hbm, ⟨31, _⟩ => ⟨S4096x4096, .bf16⟩
  | .hbm, ⟨32, _⟩ => ⟨S1x4096, .f32⟩
  | .hbm, ⟨33, _⟩ => ⟨S4096x6, .f32⟩
  | .hbm, ⟨34, _⟩ => ⟨S4096x4096, .bf16⟩
  | .hbm, ⟨35, _⟩ => ⟨S1x4096, .f32⟩
  | .hbm, ⟨36, _⟩ => ⟨S21x4096, .f32⟩
  | .hbm, ⟨37, _⟩ => ⟨S21x21, .f32⟩
  | .hbm, ⟨38, _⟩ => ⟨S21x21, .f32⟩
  | .hbm, ⟨39, _⟩ => ⟨S21x4096, .f32⟩
  | .hbm, ⟨40, _⟩ => ⟨S1x21x16x16x16, .f32⟩
  | .local _ .vmem, ⟨0, _⟩ => ⟨S3x4096, .f32⟩
  | .local _ .vmem, ⟨1, _⟩ => ⟨S256x3, .f32⟩
  | .local _ .vmem, ⟨2, _⟩ => ⟨S256x3, .f32⟩
  | .local _ .vmem, ⟨3, _⟩ => ⟨S256x4096, .bf16⟩
  | .local _ .vmem, ⟨4, _⟩ => ⟨S256x4096, .bf16⟩
  | .local _ .vmem, ⟨5, _⟩ => ⟨S1x4096, .f32⟩
  | .local _ .vmem, ⟨6, _⟩ => ⟨S6x4096, .f32⟩
  | .local _ .vmem, ⟨7, _⟩ => ⟨S256x6, .f32⟩
  | .local _ .vmem, ⟨8, _⟩ => ⟨S256x6, .f32⟩
  | .local _ .vmem, ⟨9, _⟩ => ⟨S256x4096, .bf16⟩
  | .local _ .vmem, ⟨10, _⟩ => ⟨S256x4096, .bf16⟩
  | .local _ .vmem, ⟨11, _⟩ => ⟨S1x4096, .f32⟩
  | .local _ .vmem, ⟨12, _⟩ => ⟨S21x4096, .f32⟩
  | .local _ .vmem, ⟨13, _⟩ => ⟨S21x21, .f32⟩
  | .local _ .vmem, ⟨14, _⟩ => ⟨S21x21, .f32⟩
  | .local _ .vmem, ⟨15, _⟩ => ⟨S256x4096, .bf16⟩
  | .local _ .vmem, ⟨16, _⟩ => ⟨S256x4096, .bf16⟩
  | .local _ .vmem, ⟨17, _⟩ => ⟨S4096x4096, .bf16⟩
  | .local _ .vmem, ⟨18, _⟩ => ⟨S1x4096, .f32⟩
  | .local _ .vmem, ⟨19, _⟩ => ⟨S1x4096, .f32⟩
  | .local _ .vmem, ⟨20, _⟩ => ⟨S21x4096, .f32⟩
  | .local _ .vmem, ⟨21, _⟩ => ⟨S21x4096, .f32⟩
  | .local _ .vmem, ⟨22, _⟩ => ⟨S21x4096, .f32⟩
  | .local _ .vmem, ⟨23, _⟩ => ⟨S21x4096, .f32⟩
  | .local _ .vmem, ⟨24, _⟩ => ⟨S21x4096, .f32⟩
  | _, _ => ⟨S1x3x16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_scratch0 : Ref sig .tc := ⟨.vmem, 21, rfl⟩
abbrev cc2_scratch1 : Ref sig .tc := ⟨.vmem, 22, rfl⟩
abbrev cc2_scratch2 : Ref sig .tc := ⟨.vmem, 23, rfl⟩
abbrev cc2_scratch3 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem3_1 : DmaSem sig := 16
abbrev cc2_sem4_0 : DmaSem sig := 17
abbrev cc2_sem5_0 : DmaSem sig := 18
abbrev cc2_sem6_0 : DmaSem sig := 19
abbrev cc2_sem7_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S6x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x6 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨2, ![5, 16], ![false, false]⟩

def k2_mult1 (i : grid2.Coords) : BitVec 32 :=
  let arg1 : BitVec 32 := BitVec.ofNat 32 (i 1).val
  let c256_i32 : BitVec 32 := 256#32
  let v8 : BitVec 32 := Scalar.muli arg1 c256_i32
  v8
def k2_off1 (i : grid2.Coords) : Fin 2 → Nat :=
  let c0 : Index := 0#32
  let arg1 : BitVec 32 := BitVec.ofNat 32 (i 1).val
  let c256_i32 : BitVec 32 := 256#32
  let v8 : BitVec 32 := Scalar.muli arg1 c256_i32
  let v9 : BitVec 32 := v8
  let v10 : Index := Scalar.indexCast v9
  ![0, v10.toNat]
def k2_off2 (i : grid2.Coords) : Fin 2 → Nat :=
  let arg1 : BitVec 32 := BitVec.ofNat 32 (i 1).val
  let c256_i32 : BitVec 32 := 256#32
  let v8 : BitVec 32 := Scalar.muli arg1 c256_i32
  let v9 : BitVec 32 := v8
  let v15 : Index := Scalar.indexCast v9
  let c0_6 : Index := 0#32
  ![v15.toNat, 0]
def k2_cond4 (i : grid2.Coords) : BitVec 1 :=
  let arg1 : BitVec 32 := BitVec.ofNat 32 (i 1).val
  let c15_i32_17 : BitVec 32 := 15#32
  let v33 : BitVec 1 := Scalar.cmpi .eq arg1 c15_i32_17
  let arg0 : BitVec 32 := BitVec.ofNat 32 (i 0).val
  let c4_i32 : BitVec 32 := 4#32
  let v34 : BitVec 1 := Scalar.cmpi .eq arg0 c4_i32
  let v35 : BitVec 1 := Scalar.andi v33 v34
  let v36 : BitVec 32 := Scalar.extui v35
  let c0_i32_18 : BitVec 32 := 0#32
  let v37 : BitVec 1 := Scalar.cmpi .ne v36 c0_i32_18
  v37

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S21x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .vmem S21x21 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S21x21 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S256x4096 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 1 → Memref sig .tc .vmem S4096x4096 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x4096 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x4096 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S21x4096 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

class Facts₀ : Prop where
  shapeCasts_S1x3x16x16x16_S3x16x16x16 : S1x3x16x16x16.ShapeCasts S3x16x16x16
  shapeCasts_S1x21x16x16x16_S21x16x16x16 : S1x21x16x16x16.ShapeCasts S21x16x16x16
  bcast_S16_S16x16x16_0 : S16.BroadcastsInDim S16x16x16 (![0] : Fin 1 → Fin S16x16x16.rank)
  bcast_S16_S16x16x16_1 : S16.BroadcastsInDim S16x16x16 (![1] : Fin 1 → Fin S16x16x16.rank)
  bcast_S16_S16x16x16_2 : S16.BroadcastsInDim S16x16x16 (![2] : Fin 1 → Fin S16x16x16.rank)
  bcast_S16x16x16_S1x16x16x16_1_2_3 : S16x16x16.BroadcastsInDim S1x16x16x16 (![1, 2, 3] : Fin 3 → Fin S1x16x16x16.rank)
  concatenates_S1x16x16x16_S1x16x16x16_S1x16x16x16_S3x16x16x16_d0 : Shape.Concatenates [S1x16x16x16, S1x16x16x16, S1x16x16x16] S3x16x16x16 0
  shapeCasts_S3x16x16x16_S3x4096 : S3x16x16x16.ShapeCasts S3x4096
  bcast_S_S3x4096 : S_.BroadcastsInDim S3x4096 (![] : Fin 0 → Fin S3x4096.rank)
  concatenates_S3x4096_S3x4096_S6x4096_d0 : Shape.Concatenates [S3x4096, S3x4096] S6x4096 0
  transposes_S3x4096_S4096x3_1_0 : S3x4096.Transposes [1, 0] S4096x3
  inb_S1x4096_S1x4096_0_0 : ∀ a, (![0, 0] : Fin 2 → Nat) a + S1x4096.size a ≤ S1x4096.size a
  h_S1x4096 : 0 < S1x4096.numel
  inb_S256x3_S256x3_0_0 : ∀ a, (![0, 0] : Fin 2 → Nat) a + S256x3.size a ≤ S256x3.size a
  h_S256x3 : 0 < S256x3.numel
  shapeCasts_S256x3_S256x3 : S256x3.ShapeCasts S256x3
  inb_S3x4096_S3x4096_0_0 : ∀ a, (![0, 0] : Fin 2 → Nat) a + S3x4096.size a ≤ S3x4096.size a
  h_S3x4096 : 0 < S3x4096.numel
  shapeCasts_S3x4096_S3x4096 : S3x4096.ShapeCasts S3x4096
  reduces_S256x3_S256 : S256x3.Reduces [1] S256
  shapeCasts_S256_S256x1 : S256.ShapeCasts S256x1
  reduces_S3x4096_S4096 : S3x4096.Reduces [0] S4096
  shapeCasts_S4096_S1x4096 : S4096.ShapeCasts S1x4096
  broadcasts_S256x1_S256x4096 : S256x1.Broadcasts S256x4096
  broadcasts_S1x4096_S256x4096 : S1x4096.Broadcasts S256x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  shapeCasts_S1x4096_S1x4096 : S1x4096.ShapeCasts S1x4096
  reduces_S256x4096_S4096 : S256x4096.Reduces [0] S4096
  transposes_S6x4096_S4096x6_1_0 : S6x4096.Transposes [1, 0] S4096x6
  inb_S256x6_S256x6_0_0 : ∀ a, (![0, 0] : Fin 2 → Nat) a + S256x6.size a ≤ S256x6.size a
  h_S256x6 : 0 < S256x6.numel
  shapeCasts_S256x6_S256x6 : S256x6.ShapeCasts S256x6
  inb_S6x4096_S6x4096_0_0 : ∀ a, (![0, 0] : Fin 2 → Nat) a + S6x4096.size a ≤ S6x4096.size a
  h_S6x4096 : 0 < S6x4096.numel
  shapeCasts_S6x4096_S6x4096 : S6x4096.ShapeCasts S6x4096
  reduces_S256x6_S256 : S256x6.Reduces [1] S256
  reduces_S6x4096_S4096 : S6x4096.Reduces [0] S4096
  shapeCasts_S21x16x16x16_S21x4096 : S21x16x16x16.ShapeCasts S21x4096
  inb_S21x4096_S21x4096_0_0 : ∀ a, (![0, 0] : Fin 2 → Nat) a + S21x4096.size a ≤ S21x4096.size a
  h_S21x4096 : 0 < S21x4096.numel
  shapeCasts_S21x4096_S21x4096 : S21x4096.ShapeCasts S21x4096
  reduces_S21x4096_S4096 : S21x4096.Reduces [0] S4096
  broadcasts_S1x4096_S21x4096 : S1x4096.Broadcasts S21x4096
  h_S21x256 : 0 < S21x256.numel
  shapeCasts_S256x4096_S256x4096 : S256x4096.ShapeCasts S256x4096
  inb_S21x21_S21x21_0_0 : ∀ a, (![0, 0] : Fin 2 → Nat) a + S21x21.size a ≤ S21x21.size a
  h_S21x21 : 0 < S21x21.numel
  shapeCasts_S21x21_S21x21 : S21x21.ShapeCasts S21x21
  shapeCasts_S21x4096_S1x21x16x16x16 : S21x4096.ShapeCasts S1x21x16x16x16
  dot_S256x3_S3x4096_S256x4096_1_0_0_1_n_n_wf : DotDims.WF S256x3 S3x4096 S256x4096 [1] [0] [0] [1] [] []
  dot_S256x6_S6x4096_S256x4096_1_0_0_1_n_n_wf : DotDims.WF S256x6 S6x4096 S256x4096 [1] [0] [0] [1] [] []
  dot_S21x21_S21x21_S21x21_1_0_0_1_n_n_wf : DotDims.WF S21x21 S21x21 S21x21 [1] [0] [0] [1] [] []
  dot_S21x256_S256x4096_S21x4096_1_0_0_1_n_n_wf : DotDims.WF S21x256 S256x4096 S21x4096 [1] [0] [0] [1] [] []
  dot_S21x21_S21x4096_S21x4096_1_0_0_1_n_n_wf : DotDims.WF S21x21 S21x4096 S21x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3x4096.size a ≤ S3x4096.size a
  hwx0_0 : ∀ i : grid0.Coords, EltTy.bits .f32 = 32 ∨ (Rect.block (s := S3x4096) S3x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x3.size a ≤ S4096x3.size a
  hwx0_1 : ∀ i : grid0.Coords, EltTy.bits .f32 = 32 ∨ (Rect.block (s := S4096x3) S256x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .bf16 = 32 ∨ (Rect.block (s := S4096x4096) S256x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S6x4096.size a ≤ S6x4096.size a
  hwx1_0 : ∀ i : grid1.Coords, EltTy.bits .f32 = 32 ∨ (Rect.block (s := S6x4096) S6x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x6.size a ≤ S4096x6.size a
  hwx1_1 : ∀ i : grid1.Coords, EltTy.bits .f32 = 32 ∨ (Rect.block (s := S4096x6) S256x6.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S4096x4096.size a
  hwx1_2 : ∀ i : grid1.Coords, EltTy.bits .bf16 = 32 ∨ (Rect.block (s := S4096x4096) S256x4096.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hrank2 : 0 < grid2.rank
  k2_mult1_dvd : ∀ i : grid2.Coords, 128 ∣ (k2_mult1 i).toNat
  k2_off1_inb : ∀ i : grid2.Coords, ∀ a, (k2_off1 i) a + S21x256.size a ≤ S21x4096.size a
  k2_off2_inb : ∀ i : grid2.Coords, ∀ a, (k2_off2 i) a + S256x4096.size a ≤ S4096x4096.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S21x4096.size a ≤ S21x4096.size a
  hwx2_0 : ∀ i : grid2.Coords, EltTy.bits .f32 = 32 ∨ (Rect.block (s := S21x4096) S21x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S21x21.size a ≤ S21x21.size a
  hwx2_1 : ∀ i : grid2.Coords, EltTy.bits .f32 = 32 ∨ (Rect.block (s := S21x21) S21x21.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S21x21.size a ≤ S21x21.size a
  hwx2_2 : ∀ i : grid2.Coords, EltTy.bits .f32 = 32 ∨ (Rect.block (s := S21x21) S21x21.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x4096.size a ≤ S4096x4096.size a
  hwx2_3 : ∀ i : grid2.Coords, EltTy.bits .bf16 = 32 ∨ (Rect.block (s := S4096x4096) S256x4096.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S4096x4096.size a ≤ S4096x4096.size a
  hwx2_4 : ∀ i : grid2.Coords, EltTy.bits .bf16 = 32 ∨ (Rect.block (s := S4096x4096) S4096x4096.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x4096.size a ≤ S1x4096.size a
  hwx2_5 : ∀ i : grid2.Coords, EltTy.bits .f32 = 32 ∨ (Rect.block (s := S1x4096) S1x4096.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x4096.size a ≤ S1x4096.size a
  hwx2_6 : ∀ i : grid2.Coords, EltTy.bits .f32 = 32 ∨ (Rect.block (s := S1x4096) S1x4096.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S21x4096.size a ≤ S21x4096.size a
  hwx2_7 : ∀ i : grid2.Coords, EltTy.bits .f32 = 32 ∨ (Rect.block (s := S21x4096) S21x4096.size (cc2_transform_7 i) (hinb2_7 i)).WholeWords (EltTy.packing .f32)

variable [Facts₀]

def dot_S256x3_S3x4096_S256x4096_1_0_0_1_n_n : DotDims S256x3 S3x4096 S256x4096 where
  lhsContracting := [1]
  rhsContracting := [0]
  lhsNonContracting := [0]
  rhsNonContracting := [1]
  lhsBatch := []
  rhsBatch := []
  wf := dot_S256x3_S3x4096_S256x4096_1_0_0_1_n_n_wf
def dot_S256x6_S6x4096_S256x4096_1_0_0_1_n_n : DotDims S256x6 S6x4096 S256x4096 where
  lhsContracting := [1]
  rhsContracting := [0]
  lhsNonContracting := [0]
  rhsNonContracting := [1]
  lhsBatch := []
  rhsBatch := []
  wf := dot_S256x6_S6x4096_S256x4096_1_0_0_1_n_n_wf
def dot_S21x21_S21x21_S21x21_1_0_0_1_n_n : DotDims S21x21 S21x21 S21x21 where
  lhsContracting := [1]
  rhsContracting := [0]
  lhsNonContracting := [0]
  rhsNonContracting := [1]
  lhsBatch := []
  rhsBatch := []
  wf := dot_S21x21_S21x21_S21x21_1_0_0_1_n_n_wf
def dot_S21x256_S256x4096_S21x4096_1_0_0_1_n_n : DotDims S21x256 S256x4096 S21x4096 where
  lhsContracting := [1]
  rhsContracting := [0]
  lhsNonContracting := [0]
  rhsNonContracting := [1]
  lhsBatch := []
  rhsBatch := []
  wf := dot_S21x256_S256x4096_S21x4096_1_0_0_1_n_n_wf
def dot_S21x21_S21x4096_S21x4096_1_0_0_1_n_n : DotDims S21x21 S21x4096 S21x4096 where
  lhsContracting := [1]
  rhsContracting := [0]
  lhsNonContracting := [0]
  rhsNonContracting := [1]
  lhsBatch := []
  rhsBatch := []
  wf := dot_S21x21_S21x4096_S21x4096_1_0_0_1_n_n_wf

abbrev win0_0 : Pipeline.Window sig grid0 :=
  Pipeline.Window.ofSpec (Memref.whole main_v15) S3x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v22) S256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23_0) S256x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23_1) S1x4096.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S6x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v24) S256x6.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25_0) S256x4096.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25_1) S1x4096.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S21x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v27) S21x21.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S21x21.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23_0) S256x4096.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v25_0) S4096x4096.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v23_1) S1x4096.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v25_1) S1x4096.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v29) S21x4096.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond4 i == 1#1) | ⟨_ + 8, h⟩ => absurd h (Nat.not_lt.2 (Nat.le_add_left _ _))

class Facts : Prop extends Facts₀ where

variable [Facts]
-- ==== ReferenceIdeal.lean ====
abbrev S1x3x16x16x16 : Shape := ⟨5, ![1, 3, 16, 16, 16]⟩
abbrev S1x21x16x16x16 : Shape := ⟨5, ![1, 21, 16, 16, 16]⟩
abbrev S21x21 : Shape := ⟨2, ![21, 21]⟩
abbrev S3x16x16x16 : Shape := ⟨4, ![3, 16, 16, 16]⟩
abbrev S21x16x16x16 : Shape := ⟨4, ![21, 16, 16, 16]⟩
abbrev S16 : Shape := ⟨1, ![16]⟩
abbrev S16x16x16 : Shape := ⟨3, ![16, 16, 16]⟩
abbrev S1x16x16x16 : Shape := ⟨4, ![1, 16, 16, 16]⟩
abbrev S3x4096 : Shape := ⟨2, ![3, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x3 : Shape := ⟨2, ![4096, 3]⟩
abbrev S6x4096 : Shape := ⟨2, ![6, 4096]⟩
abbrev S4096x6 : Shape := ⟨2, ![4096, 6]⟩
abbrev S21x4096 : Shape := ⟨2, ![21, 4096]⟩

abbrev nBuf : Space → Nat
  | .hbm => 238
  | .vmem => 0
  | .smem => 0
  | _ => 0

abbrev hbmTy0_0 (i : Nat) : BufTy := match i % 128 with
  | 0 => ⟨S1x3x16x16x16, .f32⟩
  | 1 => ⟨S1x21x16x16x16, .f32⟩
  | 2 => ⟨S21x21, .f32⟩
  | 3 => ⟨S21x21, .f32⟩
  | 4 => ⟨S21x21, .f32⟩
  | 5 => ⟨S3x16x16x16, .f32⟩
  | 6 => ⟨S21x16x16x16, .f32⟩
  | 7 => ⟨S16, .i32⟩
  | 8 => ⟨S16, .i32⟩
  | 9 => ⟨S16, .i32⟩
  | 10 => ⟨S16x16x16, .i32⟩
  | 11 => ⟨S16x16x16, .i32⟩
  | 12 => ⟨S16x16x16, .i32⟩
  | 13 => ⟨S1x16x16x16, .i32⟩
  | 14 => ⟨S1x16x16x16, .i32⟩
  | 15 => ⟨S1x16x16x16, .i32⟩
  | 16 => ⟨S3x16x16x16, .i32⟩
  | 17 => ⟨S3x4096, .i32⟩
  | 18 => ⟨S3x4096, .f32⟩
  | 19 => ⟨S_, .f32⟩
  | 20 => ⟨S3x4096, .f32⟩
  | 21 => ⟨S3x4096, .f32⟩
  | 22 => ⟨S3x4096, .f32⟩
  | 23 => ⟨S_, .f32⟩
  | 24 => ⟨S4096, .f32⟩
  | 25 => ⟨S4096x1, .f32⟩
  | 26 => ⟨S1x4096, .f32⟩
  | 27 => ⟨S4096x4096, .f32⟩
  | 28 => ⟨S4096x4096, .f32⟩
  | 29 => ⟨S4096x4096, .f32⟩
  | 30 => ⟨S4096x3, .f32⟩
  | 31 => ⟨S4096x4096, .f32⟩
  | 32 => ⟨S_, .f32⟩
  | 33 => ⟨S4096x4096, .f32⟩
  | 34 => ⟨S4096x4096, .f32⟩
  | 35 => ⟨S4096x4096, .f32⟩
  | 36 => ⟨S_, .f32⟩
  | 37 => ⟨S4096x4096, .f32⟩
  | 38 => ⟨S4096x4096, .f32⟩
  | 39 => ⟨S_, .f32⟩
  | 40 => ⟨S4096x4096, .f32⟩
  | 41 => ⟨S4096x4096, .f32⟩
  | 42 => ⟨S4096x4096, .f32⟩
  | 43 => ⟨S_, .f32⟩
  | 44 => ⟨S3x4096, .f32⟩
  | 45 => ⟨S3x4096, .f32⟩
  | 46 => ⟨S3x4096, .f32⟩
  | 47 => ⟨S_, .f32⟩
  | 48 => ⟨S3x4096, .f32⟩
  | 49 => ⟨S3x4096, .f32⟩
  | 50 => ⟨S6x4096, .f32⟩
  | 51 => ⟨S6x4096, .f32⟩
  | 52 => ⟨S_, .f32⟩
  | 53 => ⟨S4096, .f32⟩
  | 54 => ⟨S4096x1, .f32⟩
  | 55 => ⟨S1x4096, .f32⟩
  | 56 => ⟨S4096x4096, .f32⟩
  | 57 => ⟨S4096x4096, .f32⟩
  | 58 => ⟨S4096x4096, .f32⟩
  | 59 => ⟨S4096x6, .f32⟩
  | 60 => ⟨S4096x4096, .f32⟩
  | 61 => ⟨S_, .f32⟩
  | 62 => ⟨S4096x4096, .f32⟩
  | 63 => ⟨S4096x4096, .f32⟩
  | 64 => ⟨S4096x4096, .f32⟩
  | 65 => ⟨S_, .f32⟩
  | 66 => ⟨S4096x4096, .f32⟩
  | 67 => ⟨S4096x4096, .f32⟩
  | 68 => ⟨S_, .f32⟩
  | 69 => ⟨S4096x4096, .f32⟩
  | 70 => ⟨S4096x4096, .f32⟩
  | 71 => ⟨S4096x4096, .f32⟩
  | 72 => ⟨S_, .f32⟩
  | 73 => ⟨S16x16x16, .f32⟩
  | 74 => ⟨S_, .f32⟩
  | 75 => ⟨S16x16x16, .f32⟩
  | 76 => ⟨S16x16x16, .f32⟩
  | 77 => ⟨S1x16x16x16, .f32⟩
  | 78 => ⟨S21x16x16x16, .f32⟩
  | 79 => ⟨S21x16x16x16, .f32⟩
  | 80 => ⟨S21x16x16x16, .f32⟩
  | 81 => ⟨S_, .f32⟩
  | 82 => ⟨S16x16x16, .f32⟩
  | 83 => ⟨S1x16x16x16, .f32⟩
  | 84 => ⟨S21x16x16x16, .f32⟩
  | 85 => ⟨S21x16x16x16, .f32⟩
  | 86 => ⟨S21x4096, .f32⟩
  | 87 => ⟨S21x4096, .f32⟩
  | 88 => ⟨S_, .f32⟩
  | 89 => ⟨S4096, .f32⟩
  | 90 => ⟨S1x4096, .f32⟩
  | 91 => ⟨S21x4096, .f32⟩
  | 92 => ⟨S21x4096, .f32⟩
  | 93 => ⟨S21x4096, .f32⟩
  | 94 => ⟨S21x4096, .f32⟩
  | 95 => ⟨S_, .f32⟩
  | 96 => ⟨S4096, .f32⟩
  | 97 => ⟨S1x4096, .f32⟩
  | 98 => ⟨S21x4096, .f32⟩
  | 99 => ⟨S21x4096, .f32⟩
  | 100 => ⟨S21x4096, .f32⟩
  | 101 => ⟨S21x4096, .f32⟩
  | 102 => ⟨S21x4096, .f32⟩
  | 103 => ⟨S21x16x16x16, .f32⟩
  | 104 => ⟨S21x16x16x16, .f32⟩
  | 105 => ⟨S_, .f32⟩
  | 106 => ⟨S16x16x16, .f32⟩
  | 107 => ⟨S_, .f32⟩
  | 108 => ⟨S16x16x16, .f32⟩
  | 109 => ⟨S16x16x16, .f32⟩
  | 110 => ⟨S1x16x16x16, .f32⟩
  | 111 => ⟨S21x16x16x16, .f32⟩
  | 112 => ⟨S21x16x16x16, .f32⟩
  | 113 => ⟨S21x16x16x16, .f32⟩
  | 114 => ⟨S_, .f32⟩
  | 115 => ⟨S16x16x16, .f32⟩
  | 116 => ⟨S1x16x16x16, .f32⟩
  | 117 => ⟨S21x16x16x16, .f32⟩
  | 118 => ⟨S21x16x16x16, .f32⟩
  | 119 => ⟨S21x4096, .f32⟩
  | 120 => ⟨S21x4096, .f32⟩
  | 121 => ⟨S_, .f32⟩
  | 122 => ⟨S4096, .f32⟩
  | 123 => ⟨S1x4096, .f32⟩
  | 124 => ⟨S21x4096, .f32⟩
  | 125 => ⟨S21x4096, .f32⟩
  | 126 => ⟨S21x4096, .f32⟩
  | 127 => ⟨S21x4096, .f32⟩
  | _ => ⟨S1x3x16x16x16, .f32⟩

abbrev hbmTy0_1 (i : Nat) : BufTy := match i % 128 with
  | 0 => ⟨S_, .f32⟩
  | 1 => ⟨S4096, .f32⟩
  | 2 => ⟨S1x4096, .f32⟩
  | 3 => ⟨S21x4096, .f32⟩
  | 4 => ⟨S21x4096, .f32⟩
  | 5 => ⟨S21x4096, .f32⟩
  | 6 => ⟨S21x4096, .f32⟩
  | 7 => ⟨S21x4096, .f32⟩
  | 8 => ⟨S21x16x16x16, .f32⟩
  | 9 => ⟨S21x16x16x16, .f32⟩
  | 10 => ⟨S_, .f32⟩
  | 11 => ⟨S16x16x16, .f32⟩
  | 12 => ⟨S_, .f32⟩
  | 13 => ⟨S16x16x16, .f32⟩
  | 14 => ⟨S16x16x16, .f32⟩
  | 15 => ⟨S1x16x16x16, .f32⟩
  | 16 => ⟨S21x16x16x16, .f32⟩
  | 17 => ⟨S21x16x16x16, .f32⟩
  | 18 => ⟨S21x16x16x16, .f32⟩
  | 19 => ⟨S_, .f32⟩
  | 20 => ⟨S16x16x16, .f32⟩
  | 21 => ⟨S1x16x16x16, .f32⟩
  | 22 => ⟨S21x16x16x16, .f32⟩
  | 23 => ⟨S21x16x16x16, .f32⟩
  | 24 => ⟨S21x4096, .f32⟩
  | 25 => ⟨S21x4096, .f32⟩
  | 26 => ⟨S_, .f32⟩
  | 27 => ⟨S4096, .f32⟩
  | 28 => ⟨S1x4096, .f32⟩
  | 29 => ⟨S21x4096, .f32⟩
  | 30 => ⟨S21x4096, .f32⟩
  | 31 => ⟨S21x4096, .f32⟩
  | 32 => ⟨S21x4096, .f32⟩
  | 33 => ⟨S_, .f32⟩
  | 34 => ⟨S4096, .f32⟩
  | 35 => ⟨S1x4096, .f32⟩
  | 36 => ⟨S21x4096, .f32⟩
  | 37 => ⟨S21x4096, .f32⟩
  | 38 => ⟨S21x4096, .f32⟩
  | 39 => ⟨S21x4096, .f32⟩
  | 40 => ⟨S21x4096, .f32⟩
  | 41 => ⟨S21x16x16x16, .f32⟩
  | 42 => ⟨S21x16x16x16, .f32⟩
  | 43 => ⟨S_, .f32⟩
  | 44 => ⟨S16x16x16, .f32⟩
  | 45 => ⟨S_, .f32⟩
  | 46 => ⟨S16x16x16, .f32⟩
  | 47 => ⟨S16x16x16, .f32⟩
  | 48 => ⟨S1x16x16x16, .f32⟩
  | 49 => ⟨S21x16x16x16, .f32⟩
  | 50 => ⟨S21x16x16x16, .f32⟩
  | 51 => ⟨S21x16x16x16, .f32⟩
  | 52 => ⟨S_, .f32⟩
  | 53 => ⟨S16x16x16, .f32⟩
  | 54 => ⟨S1x16x16x16, .f32⟩
  | 55 => ⟨S21x16x16x16, .f32⟩
  | 56 => ⟨S21x16x16x16, .f32⟩
  | 57 => ⟨S21x4096, .f32⟩
  | 58 => ⟨S21x4096, .f32⟩
  | 59 => ⟨S_, .f32⟩
  | 60 => ⟨S4096, .f32⟩
  | 61 => ⟨S1x4096, .f32⟩
  | 62 => ⟨S21x4096, .f32⟩
  | 63 => ⟨S21x4096, .f32⟩
  | 64 => ⟨S21x4096, .f32⟩
  | 65 => ⟨S21x4096, .f32⟩
  | 66 => ⟨S_, .f32⟩
  | 67 => ⟨S4096, .f32⟩
  | 68 => ⟨S1x4096, .f32⟩
  | 69 => ⟨S21x4096, .f32⟩
  | 70 => ⟨S21x4096, .f32⟩
  | 71 => ⟨S21x4096, .f32⟩
  | 72 => ⟨S21x4096, .f32⟩
  | 73 => ⟨S21x4096, .f32⟩
  | 74 => ⟨S21x16x16x16, .f32⟩
  | 75 => ⟨S21x16x16x16, .f32⟩
  | 76 => ⟨S_, .f32⟩
  | 77 => ⟨S16x16x16, .f32⟩
  | 78 => ⟨S_, .f32⟩
  | 79 => ⟨S16x16x16, .f32⟩
  | 80 => ⟨S16x16x16, .f32⟩
  | 81 => ⟨S1x16x16x16, .f32⟩
  | 82 => ⟨S21x16x16x16, .f32⟩
  | 83 => ⟨S21x16x16x16, .f32⟩
  | 84 => ⟨S21x16x16x16, .f32⟩
  | 85 => ⟨S_, .f32⟩
  | 86 => ⟨S16x16x16, .f32⟩
  | 87 => ⟨S1x16x16x16, .f32⟩
  | 88 => ⟨S21x16x16x16, .f32⟩
  | 89 => ⟨S21x16x16x16, .f32⟩
  | 90 => ⟨S21x4096, .f32⟩
  | 91 => ⟨S21x4096, .f32⟩
  | 92 => ⟨S_, .f32⟩
  | 93 => ⟨S4096, .f32⟩
  | 94 => ⟨S1x4096, .f32⟩
  | 95 => ⟨S21x4096, .f32⟩
  | 96 => ⟨S21x4096, .f32⟩
  | 97 => ⟨S21x4096, .f32⟩
  | 98 => ⟨S21x4096, .f32⟩
  | 99 => ⟨S_, .f32⟩
  | 100 => ⟨S4096, .f32⟩
  | 101 => ⟨S1x4096, .f32⟩
  | 102 => ⟨S21x4096, .f32⟩
  | 103 => ⟨S21x4096, .f32⟩
  | 104 => ⟨S21x4096, .f32⟩
  | 105 => ⟨S21x4096, .f32⟩
  | 106 => ⟨S21x4096, .f32⟩
  | 107 => ⟨S21x16x16x16, .f32⟩
  | 108 => ⟨S21x16x16x16, .f32⟩
  | 109 => ⟨S1x21x16x16x16, .f32⟩
  | _ => ⟨S1x3x16x16x16, .f32⟩

abbrev hbmTy (i : Nat) : BufTy := match i / 128 with
  | 0 => hbmTy0_0 i
  | 1 => hbmTy0_1 i
  | _ => ⟨S1x3x16x16x16, .f32⟩

abbrev bufTy : (tb : Table) → Fin (tcTables nBuf tb) → BufTy
  | .hbm, ⟨i, _⟩ => hbmTy i
  | _, _ => ⟨S1x3x16x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_cst_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_12 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_13 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_14 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_15 : Ref sig .tc := ⟨.hbm, 105, rfl⟩
abbrev main_v84 : Ref sig .tc := ⟨.hbm, 106, rfl⟩
abbrev main_cst_16 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_17 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_18 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_cst_19 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_cst_20 : Ref sig .tc := ⟨.hbm, 138, rfl⟩
abbrev main_v112 : Ref sig .tc := ⟨.hbm, 139, rfl⟩
abbrev main_cst_21 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_cst_22 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_cst_23 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_cst_24 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_cst_25 : Ref sig .tc := ⟨.hbm, 171, rfl⟩
abbrev main_v140 : Ref sig .tc := ⟨.hbm, 172, rfl⟩
abbrev main_cst_26 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_cst_27 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_cst_28 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_cst_29 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_cst_30 : Ref sig .tc := ⟨.hbm, 204, rfl⟩
abbrev main_v168 : Ref sig .tc := ⟨.hbm, 205, rfl⟩
abbrev main_cst_31 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_cst_32 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_cst_33 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_cst_34 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩

abbrev nD : Nat := 1
abbrev τ : Topo := Topo.v7x

variable {F : FTy → Type} [FloatOps F]

class Facts₀ : Prop where
  shapeCasts_S1x3x16x16x16_S3x16x16x16 : S1x3x16x16x16.ShapeCasts S3x16x16x16
  shapeCasts_S1x21x16x16x16_S21x16x16x16 : S1x21x16x16x16.ShapeCasts S21x16x16x16
  bcast_S16_S16x16x16_0 : S16.BroadcastsInDim S16x16x16 (![0] : Fin 1 → Fin S16x16x16.rank)
  bcast_S16_S16x16x16_1 : S16.BroadcastsInDim S16x16x16 (![1] : Fin 1 → Fin S16x16x16.rank)
  bcast_S16_S16x16x16_2 : S16.BroadcastsInDim S16x16x16 (![2] : Fin 1 → Fin S16x16x16.rank)
  bcast_S16x16x16_S1x16x16x16_1_2_3 : S16x16x16.BroadcastsInDim S1x16x16x16 (![1, 2, 3] : Fin 3 → Fin S1x16x16x16.rank)
  concatenates_S1x16x16x16_S1x16x16x16_S1x16x16x16_S3x16x16x16_d0 : Shape.Concatenates [S1x16x16x16, S1x16x16x16, S1x16x16x16] S3x16x16x16 0
  shapeCasts_S3x16x16x16_S3x4096 : S3x16x16x16.ShapeCasts S3x4096
  bcast_S_S3x4096 : S_.BroadcastsInDim S3x4096 (![] : Fin 0 → Fin S3x4096.rank)
  reducesTo_S3x4096_S4096_d0 : S3x4096.ReducesTo [0] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S3x4096_S4096x3_1_0 : S3x4096.Transposes [1, 0] S4096x3
  bcast_S_S4096x4096 : S_.BroadcastsInDim S4096x4096 (![] : Fin 0 → Fin S4096x4096.rank)
  concatenates_S3x4096_S3x4096_S6x4096_d0 : Shape.Concatenates [S3x4096, S3x4096] S6x4096 0
  reducesTo_S6x4096_S4096_d0 : S6x4096.ReducesTo [0] S4096
  transposes_S6x4096_S4096x6_1_0 : S6x4096.Transposes [1, 0] S4096x6
  reducesTo_S21x16x16x16_S16x16x16_d0 : S21x16x16x16.ReducesTo [0] S16x16x16
  bcast_S_S16x16x16 : S_.BroadcastsInDim S16x16x16 (![] : Fin 0 → Fin S16x16x16.rank)
  bcast_S1x16x16x16_S21x16x16x16_0_1_2_3 : S1x16x16x16.BroadcastsInDim S21x16x16x16 (![0, 1, 2, 3] : Fin 4 → Fin S21x16x16x16.rank)
  shapeCasts_S21x16x16x16_S21x4096 : S21x16x16x16.ShapeCasts S21x4096
  reducesTo_S4096x4096_S4096_d0 : S4096x4096.ReducesTo [0] S4096
  bcast_S1x4096_S21x4096_0_1 : S1x4096.BroadcastsInDim S21x4096 (![0, 1] : Fin 2 → Fin S21x4096.rank)
  shapeCasts_S21x4096_S21x16x16x16 : S21x4096.ShapeCasts S21x16x16x16
  bcast_S21x16x16x16_S1x21x16x16x16_1_2_3_4 : S21x16x16x16.BroadcastsInDim S1x21x16x16x16 (![1, 2, 3, 4] : Fin 4 → Fin S1x21x16x16x16.rank)
  dot_S4096x3_S3x4096_S4096x4096_1_0_0_1_n_n_wf : DotDims.WF S4096x3 S3x4096 S4096x4096 [1] [0] [0] [1] [] []
  dot_S4096x6_S6x4096_S4096x4096_1_0_0_1_n_n_wf : DotDims.WF S4096x6 S6x4096 S4096x4096 [1] [0] [0] [1] [] []
  dot_S21x4096_S4096x4096_S21x4096_1_0_0_1_n_n_wf : DotDims.WF S21x4096 S4096x4096 S21x4096 [1] [0] [0] [1] [] []
  dot_S21x21_S21x4096_S21x4096_1_0_0_1_n_n_wf : DotDims.WF S21x21 S21x4096 S21x4096 [1] [0] [0] [1] [] []

variable [Facts₀]

def dot_S4096x3_S3x4096_S4096x4096_1_0_0_1_n_n : DotDims S4096x3 S3x4096 S4096x4096 where
  lhsContracting := [1]
  rhsContracting := [0]
  lhsNonContracting := [0]
  rhsNonContracting := [1]
  lhsBatch := []
  rhsBatch := []
  wf := dot_S4096x3_S3x4096_S4096x4096_1_0_0_1_n_n_wf
def dot_S4096x6_S6x4096_S4096x4096_1_0_0_1_n_n : DotDims S4096x6 S6x4096 S4096x4096 where
  lhsContracting := [1]
  rhsContracting := [0]
  lhsNonContracting := [0]
  rhsNonContracting := [1]
  lhsBatch := []
  rhsBatch := []
  wf := dot_S4096x6_S6x4096_S4096x4096_1_0_0_1_n_n_wf
def dot_S21x4096_S4096x4096_S21x4096_1_0_0_1_n_n : DotDims S21x4096 S4096x4096 S21x4096 where
  lhsContracting := [1]
  rhsContracting := [0]
  lhsNonContracting := [0]
  rhsNonContracting := [1]
  lhsBatch := []
  rhsBatch := []
  wf := dot_S21x4096_S4096x4096_S21x4096_1_0_0_1_n_n_wf
def dot_S21x21_S21x4096_S21x4096_1_0_0_1_n_n : DotDims S21x21 S21x4096 S21x4096 where
  lhsContracting := [1]
  rhsContracting := [0]
  lhsNonContracting := [0]
  rhsNonContracting := [1]
  lhsBatch := []
  rhsBatch := []
  wf := dot_S21x21_S21x4096_S21x4096_1_0_0_1_n_n_wf

class Facts : Prop extends Facts₀ where

variable [Facts]
-- ==== Proof.K.R0Runs.lean ====
/-
  Region 0 (a Gaussian-kernel builder, 3 feature rows): what its two control cases share. The grid has 16
  points, one per tile of 256 rows of the kernel matrix. At the first point the body clears the column-sum
  block before adding the tile's column sums to it; at the later points it adds onto what the point before
  left. The entry contents of the unscoped buffers are a parameter V.
-/
import proofs.«171617_j90795608638216_2_alg».proof.Proof.Gen.Kernel.Launch
import proofs.«171617_j90795608638216_2_alg».proof.Proof.Gen.Kernel.Skeleton
import proofs.«171617_j90795608638216_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's one branch condition: the tile is the first. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- One staging buffer of each output window, through which its contents are stated. -/
abbrev VO0_2 : View sig .tc .vmem S256x4096 .bf16 := (Memref.whole cc0_stg2_0 : Memref sig .tc .vmem S256x4096 .bf16).view
abbrev VO0_3 : View sig .tc .vmem S1x4096 .f32 := (Memref.whole cc0_stg3_0 : Memref sig .tc .vmem S1x4096 .f32).view
/-- Each window's current staging memref at point t, as the pipeline passes it. -/
abbrev ms0_0 (t : Fin cfg0.N) : Memref sig .tc .vmem S3x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096 .f32 := win0_3.stage (cfg0.slots t 3)
abbrev hs0_3 (t : Fin cfg0.N) : (ms0_3 t).IsWhole := hstage0_3 ((cfg0.slots t 3).cast nbuf0_3)

end Cert.Kernel.Hand

end
-- ==== Proof.K.R0RunA.lean ====
/-
  Region 0, the first tile: the body clears the column-sum block, stores the tile of the kernel matrix, and
  stores the cleared block plus the tile's column sums. The pieces each output buffer ends with are found by
  running the body.
-/
import proofs.«171617_j90795608638216_2_alg».proof.Proof.K.R0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg1 : Memref sig .tc .vmem S3x4096 .f32) (harg1 : arg1.IsWhole) (arg2 : Memref sig .tc .vmem S256x3 .f32) (harg2 : arg2.IsWhole) (arg3 : Memref sig .tc .vmem S256x4096 .bf16) (harg3 : arg3.IsWhole) (arg4 : Memref sig .tc .vmem S1x4096 .f32) (harg4 : arg4.IsWhole) (hc0 : cond0_0 i)
    (x0 : Vec F S3x4096 .f32) (x1 : Vec F S256x3 .f32) :
    Σ' (L2 : List (View.Piece (Elt F) S256x4096 .bf16)), { L3 : List (View.Piece (Elt F) S1x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0__gauss_kernel_body i arg1 harg1 arg2 harg2 arg3 harg3 arg4 harg4) K } := by
  refine ⟨?_, ?_, fun E K => ?run⟩
  case run =>
    simp only [cc0__gauss_kernel_body_eq_skeleton]; unfold cc0__gauss_kernel_body_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

end Cert.Kernel.Hand

end
-- ==== Proof.K.R0RunB.lean ====
/-
  Region 0, a later tile: the body stores the tile of the kernel matrix, and stores the column-sum block it
  found plus the tile's column sums.
-/
import proofs.«171617_j90795608638216_2_alg».proof.Proof.K.R0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg1 : Memref sig .tc .vmem S3x4096 .f32) (harg1 : arg1.IsWhole) (arg2 : Memref sig .tc .vmem S256x3 .f32) (harg2 : arg2.IsWhole) (arg3 : Memref sig .tc .vmem S256x4096 .bf16) (harg3 : arg3.IsWhole) (arg4 : Memref sig .tc .vmem S1x4096 .f32) (harg4 : arg4.IsWhole) (hc0 : ¬cond0_0 i)
    (x0 : Vec F S3x4096 .f32) (x1 : Vec F S256x3 .f32) (xo3 : Vec F S1x4096 .f32) :
    Σ' (L2 : List (View.Piece (Elt F) S256x4096 .bf16)), { L3 : List (View.Piece (Elt F) S1x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0__gauss_kernel_body i arg1 harg1 arg2 harg2 arg3 harg3 arg4 harg4) K } := by
  refine ⟨?_, ?_, fun E K => ?run⟩
  case run =>
    simp only [cc0__gauss_kernel_body_eq_skeleton]; unfold cc0__gauss_kernel_body_skel
    unfold owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

end Cert.Kernel.Hand

end
-- ==== Proof.K.R0.lean ====
/-
  Region 0: what its two output buffers hold after each of the 16 tiles (the tile of the kernel matrix; the
  running column sums), the pipeline's proof data at entry contents V, and the body obligation.
-/
import proofs.«171617_j90795608638216_2_alg».proof.Proof.K.R0RunA
import proofs.«171617_j90795608638216_2_alg».proof.Proof.K.R0RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the two output buffers -/

theorem cover0_A_2 (c : Dev nD) (i : grid0.Coords) (arg1 : Memref sig .tc .vmem S3x4096 .f32) (harg1 : arg1.IsWhole) (arg2 : Memref sig .tc .vmem S256x3 .f32) (harg2 : arg2.IsWhole) (arg3 : Memref sig .tc .vmem S256x4096 .bf16) (harg3 : arg3.IsWhole) (arg4 : Memref sig .tc .vmem S1x4096 .f32) (harg4 : arg4.IsWhole) (hc0 : cond0_0 i) (x0 : Vec F S3x4096 .f32) (x1 : Vec F S256x3 .f32) (y : S256x4096.Idx) :
    ∃ pc ∈ (kernelRun0_A c i arg1 harg1 arg2 harg2 arg3 harg3 arg4 harg4 hc0 x0 x1).1, y ∈ pc.1.set :=
  View.cover_of_tiledL (kernelRun0_A c i arg1 harg1 arg2 harg2 arg3 harg3 arg4 harg4 hc0 x0 x1).1 S256x4096.size (by sl_kernel_rfl) y
def out0_A_2 (c : Dev nD) (i : grid0.Coords) (arg1 : Memref sig .tc .vmem S3x4096 .f32) (harg1 : arg1.IsWhole) (arg2 : Memref sig .tc .vmem S256x3 .f32) (harg2 : arg2.IsWhole) (arg3 : Memref sig .tc .vmem S256x4096 .bf16) (harg3 : arg3.IsWhole) (arg4 : Memref sig .tc .vmem S1x4096 .f32) (harg4 : arg4.IsWhole) (hc0 : cond0_0 i) (x0 : Vec F S3x4096 .f32) (x1 : Vec F S256x3 .f32) : Vec F S256x4096 .bf16 :=
  VO0_2.read (Elt F) (VO0_2.writes (Elt F) VO0_2.junk (kernelRun0_A c i arg1 harg1 arg2 harg2 arg3 harg3 arg4 harg4 hc0 x0 x1).1)
theorem cover0_A_3 (c : Dev nD) (i : grid0.Coords) (arg1 : Memref sig .tc .vmem S3x4096 .f32) (harg1 : arg1.IsWhole) (arg2 : Memref sig .tc .vmem S256x3 .f32) (harg2 : arg2.IsWhole) (arg3 : Memref sig .tc .vmem S256x4096 .bf16) (harg3 : arg3.IsWhole) (arg4 : Memref sig .tc .vmem S1x4096 .f32) (harg4 : arg4.IsWhole) (hc0 : cond0_0 i) (x0 : Vec F S3x4096 .f32) (x1 : Vec F S256x3 .f32) (y : S1x4096.Idx) :
    ∃ pc ∈ (kernelRun0_A c i arg1 harg1 arg2 harg2 arg3 harg3 arg4 harg4 hc0 x0 x1).2.1, y ∈ pc.1.set :=
  View.cover_of_tiledL (kernelRun0_A c i arg1 harg1 arg2 harg2 arg3 harg3 arg4 harg4 hc0 x0 x1).2.1 S1x4096.size (by sl_kernel_rfl) y
def out0_A_3 (c : Dev nD) (i : grid0.Coords) (arg1 : Memref sig .tc .vmem S3x4096 .f32) (harg1 : arg1.IsWhole) (arg2 : Memref sig .tc .vmem S256x3 .f32) (harg2 : arg2.IsWhole) (arg3 : Memref sig .tc .vmem S256x4096 .bf16) (harg3 : arg3.IsWhole) (arg4 : Memref sig .tc .vmem S1x4096 .f32) (harg4 : arg4.IsWhole) (hc0 : cond0_0 i) (x0 : Vec F S3x4096 .f32) (x1 : Vec F S256x3 .f32) : Vec F S1x4096 .f32 :=
  VO0_3.read (Elt F) (VO0_3.writes (Elt F) VO0_3.junk (kernelRun0_A c i arg1 harg1 arg2 harg2 arg3 harg3 arg4 harg4 hc0 x0 x1).2.1)

theorem cover0_B_2 (c : Dev nD) (i : grid0.Coords) (arg1 : Memref sig .tc .vmem S3x4096 .f32) (harg1 : arg1.IsWhole) (arg2 : Memref sig .tc .vmem S256x3 .f32) (harg2 : arg2.IsWhole) (arg3 : Memref sig .tc .vmem S256x4096 .bf16) (harg3 : arg3.IsWhole) (arg4 : Memref sig .tc .vmem S1x4096 .f32) (harg4 : arg4.IsWhole) (hc0 : ¬cond0_0 i) (x0 : Vec F S3x4096 .f32) (x1 : Vec F S256x3 .f32) (xo3 : Vec F S1x4096 .f32) (y : S256x4096.Idx) :
    ∃ pc ∈ (kernelRun0_B c i arg1 harg1 arg2 harg2 arg3 harg3 arg4 harg4 hc0 x0 x1 xo3).1, y ∈ pc.1.set :=
  View.cover_of_tiledL (kernelRun0_B c i arg1 harg1 arg2 harg2 arg3 harg3 arg4 harg4 hc0 x0 x1 xo3).1 S256x4096.size (by sl_kernel_rfl) y
def out0_B_2 (c : Dev nD) (i : grid0.Coords) (arg1 : Memref sig .tc .vmem S3x4096 .f32) (harg1 : arg1.IsWhole) (arg2 : Memref sig .tc .vmem S256x3 .f32) (harg2 : arg2.IsWhole) (arg3 : Memref sig .tc .vmem S256x4096 .bf16) (harg3 : arg3.IsWhole) (arg4 : Memref sig .tc .vmem S1x4096 .f32) (harg4 : arg4.IsWhole) (hc0 : ¬cond0_0 i) (x0 : Vec F S3x4096 .f32) (x1 : Vec F S256x3 .f32) (xo3 : Vec F S1x4096 .f32) : Vec F S256x4096 .bf16 :=
  VO0_2.read (Elt F) (VO0_2.writes (Elt F) VO0_2.junk (kernelRun0_B c i arg1 harg1 arg2 harg2 arg3 harg3 arg4 harg4 hc0 x0 x1 xo3).1)
theorem cover0_B_3 (c : Dev nD) (i : grid0.Coords) (arg1 : Memref sig .tc .vmem S3x4096 .f32) (harg1 : arg1.IsWhole) (arg2 : Memref sig .tc .vmem S256x3 .f32) (harg2 : arg2.IsWhole) (arg3 : Memref sig .tc .vmem S256x4096 .bf16) (harg3 : arg3.IsWhole) (arg4 : Memref sig .tc .vmem S1x4096 .f32) (harg4 : arg4.IsWhole) (hc0 : ¬cond0_0 i) (x0 : Vec F S3x4096 .f32) (x1 : Vec F S256x3 .f32) (xo3 : Vec F S1x4096 .f32) (y : S1x4096.Idx) :
    ∃ pc ∈ (kernelRun0_B c i arg1 harg1 arg2 harg2 arg3 harg3 arg4 harg4 hc0 x0 x1 xo3).2.1, y ∈ pc.1.set :=
  View.cover_of_tiledL (kernelRun0_B c i arg1 harg1 arg2 harg2 arg3 harg3 arg4 harg4 hc0 x0 x1 xo3).2.1 S1x4096.size (by sl_kernel_rfl) y
def out0_B_3 (c : Dev nD) (i : grid0.Coords) (arg1 : Memref sig .tc .vmem S3x4096 .f32) (harg1 : arg1.IsWhole) (arg2 : Memref sig .tc .vmem S256x3 .f32) (harg2 : arg2.IsWhole) (arg3 : Memref sig .tc .vmem S256x4096 .bf16) (harg3 : arg3.IsWhole) (arg4 : Memref sig .tc .vmem S1x4096 .f32) (harg4 : arg4.IsWhole) (hc0 : ¬cond0_0 i) (x0 : Vec F S3x4096 .f32) (x1 : Vec F S256x3 .f32) (xo3 : Vec F S1x4096 .f32) : Vec F S1x4096 .f32 :=
  VO0_3.read (Elt F) (VO0_3.writes (Elt F) VO0_3.junk (kernelRun0_B c i arg1 harg1 arg2 harg2 arg3 harg3 arg4 harg4 hc0 x0 x1 xo3).2.1)

/-! ## What the outputs hold after each tile -/

/-- After tile n: the tile of the kernel matrix, and the column sums of tiles 0..n. -/
def outsAt0 (c : Dev nD) : (n : ℕ) → n < cfg0.N → Vec F S256x4096 .bf16 × Vec F S1x4096 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk0 V c 0 ⟨0, hn⟩) (iblk0 V c 1 ⟨0, hn⟩),
              out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk0 V c 0 ⟨0, hn⟩) (iblk0 V c 1 ⟨0, hn⟩))
  | n + 1, hn =>
    if h0 : (n + 1) % 16 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk0 V c 0 ⟨n + 1, hn⟩) (iblk0 V c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 16 = 0) :
    outsAt0 V c t.val t.isLt = (out0_A_2 c (grid0.coords t) (ms0_0 t) (hs0_0 t) (ms0_1 t) (hs0_1 t) (ms0_2 t) (hs0_2 t) (ms0_3 t) (hs0_3 t) ((hcond0_0 t).mpr h0) (iblk0 V c 0 t) (iblk0 V c 1 t),
      out0_A_3 c (grid0.coords t) (ms0_0 t) (hs0_0 t) (ms0_1 t) (hs0_1 t) (ms0_2 t) (hs0_2 t) (ms0_3 t) (hs0_3 t) ((hcond0_0 t).mpr h0) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 16 = 0) :
    outsAt0 V c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t) (outsAt0 V c (t.val - 1) (Nat.lt_of_le_of_lt (Nat.sub_le _ _) t.isLt)).2,
      out0_B_3 c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later tile the column-sum block's staging buffer holds what the tile before left: it is written back only
    after the last tile. -/
theorem before0_3_B (c : Dev nD) (t : Fin cfg0.N) (h0 : ¬t.val % 16 = 0) (d) :
    (dat0 V c).before 3 t d = (outsAt0 V c (t.val - 1) (Nat.lt_of_le_of_lt (Nat.sub_le _ _) t.isLt)).2 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  have hN : t.val < 16 := lt_of_lt_of_eq t.isLt (show cfg0.N = 16 from N_0)
  by_cases h0 : t.val % 16 = 0
  · rw [outsAt0_A V c t h0]
    unfold out0_A_2 out0_A_3; (try dsimp only)
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk0 V c 0 t) (iblk0 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    unfold owns; iexists _; isplitr
    swap; · iexact H3
    ipureintro; exact View.read_writes_of_cover _ _ _ _ _ (cover0_A_3 c _ _ _ _ _ _ _ _ _ _ _ _)
  · rw [outsAt0_B V c t h0]
    simp only [before0_3_B V c t h0]
    unfold out0_B_2 out0_B_3; (try dsimp only)
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk0 V c 0 t) (iblk0 V c 1 t) _).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _)
    unfold owns; iexists _; isplitr
    swap; · iexact H3
    ipureintro; exact View.read_writes_of_cover _ _ _ _ _ (cover0_B_3 c _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Runs.lean ====
/-
  Region 1 (a Gaussian-kernel builder, 6 feature rows): what its two control cases share. The grid has 16
  points, one per tile of 256 rows of the kernel matrix. At the first point the body clears the column-sum
  block before adding the tile's column sums to it; at the later points it adds onto what the point before
  left. The entry contents of the unscoped buffers are a parameter V.
-/
import proofs.«171617_j90795608638216_2_alg».proof.Proof.Gen.Kernel.Launch
import proofs.«171617_j90795608638216_2_alg».proof.Proof.Gen.Kernel.Skeleton
import proofs.«171617_j90795608638216_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's one branch condition: the tile is the first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- One staging buffer of each output window, through which its contents are stated. -/
abbrev VO1_2 : View sig .tc .vmem S256x4096 .bf16 := (Memref.whole cc1_stg2_0 : Memref sig .tc .vmem S256x4096 .bf16).view
abbrev VO1_3 : View sig .tc .vmem S1x4096 .f32 := (Memref.whole cc1_stg3_0 : Memref sig .tc .vmem S1x4096 .f32).view
/-- Each window's current staging memref at point t, as the pipeline passes it. -/
abbrev ms1_0 (t : Fin cfg1.N) : Memref sig .tc .vmem S6x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x6 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x4096 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x4096 .f32 := win1_3.stage (cfg1.slots t 3)
abbrev hs1_3 (t : Fin cfg1.N) : (ms1_3 t).IsWhole := hstage1_3 ((cfg1.slots t 3).cast nbuf1_3)

end Cert.Kernel.Hand

end
-- ==== Proof.K.R1RunA.lean ====
/-
  Region 1, the first tile: the body clears the column-sum block, stores the tile of the kernel matrix, and
  stores the cleared block plus the tile's column sums. The pieces each output buffer ends with are found by
  running the body.
-/
import proofs.«171617_j90795608638216_2_alg».proof.Proof.K.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg1 : Memref sig .tc .vmem S6x4096 .f32) (harg1 : arg1.IsWhole) (arg2 : Memref sig .tc .vmem S256x6 .f32) (harg2 : arg2.IsWhole) (arg3 : Memref sig .tc .vmem S256x4096 .bf16) (harg3 : arg3.IsWhole) (arg4 : Memref sig .tc .vmem S1x4096 .f32) (harg4 : arg4.IsWhole) (hc0 : cond1_0 i)
    (x0 : Vec F S6x4096 .f32) (x1 : Vec F S256x6 .f32) :
    Σ' (L2 : List (View.Piece (Elt F) S256x4096 .bf16)), { L3 : List (View.Piece (Elt F) S1x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc1__gauss_kernel_body i arg1 harg1 arg2 harg2 arg3 harg3 arg4 harg4) K } := by
  refine ⟨?_, ?_, fun E K => ?run⟩
  case run =>
    simp only [cc1__gauss_kernel_body_eq_skeleton]; unfold cc1__gauss_kernel_body_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

end Cert.Kernel.Hand

end
-- ==== Proof.K.R1RunB.lean ====
/-
  Region 1, a later tile: the body stores the tile of the kernel matrix, and stores the column-sum block it
  found plus the tile's column sums.
-/
import proofs.«171617_j90795608638216_2_alg».proof.Proof.K.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg1 : Memref sig .tc .vmem S6x4096 .f32) (harg1 : arg1.IsWhole) (arg2 : Memref sig .tc .vmem S256x6 .f32) (harg2 : arg2.IsWhole) (arg3 : Memref sig .tc .vmem S256x4096 .bf16) (harg3 : arg3.IsWhole) (arg4 : Memref sig .tc .vmem S1x4096 .f32) (harg4 : arg4.IsWhole) (hc0 : ¬cond1_0 i)
    (x0 : Vec F S6x4096 .f32) (x1 : Vec F S256x6 .f32) (xo3 : Vec F S1x4096 .f32) :
    Σ' (L2 : List (View.Piece (Elt F) S256x4096 .bf16)), { L3 : List (View.Piece (Elt F) S1x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc1__gauss_kernel_body i arg1 harg1 arg2 harg2 arg3 harg3 arg4 harg4) K } := by
  refine ⟨?_, ?_, fun E K => ?run⟩
  case run =>
    simp only [cc1__gauss_kernel_body_eq_skeleton]; unfold cc1__gauss_kernel_body_skel
    unfold owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

end Cert.Kernel.Hand

end
-- ==== Proof.K.R1.lean ====
/-
  Region 1: what its two output buffers hold after each of the 16 tiles (the tile of the kernel matrix; the
  running column sums), the pipeline's proof data at entry contents V, and the body obligation.
-/
import proofs.«171617_j90795608638216_2_alg».proof.Proof.K.R1RunA
import proofs.«171617_j90795608638216_2_alg».proof.Proof.K.R1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the two output buffers -/

theorem cover1_A_2 (c : Dev nD) (i : grid1.Coords) (arg1 : Memref sig .tc .vmem S6x4096 .f32) (harg1 : arg1.IsWhole) (arg2 : Memref sig .tc .vmem S256x6 .f32) (harg2 : arg2.IsWhole) (arg3 : Memref sig .tc .vmem S256x4096 .bf16) (harg3 : arg3.IsWhole) (arg4 : Memref sig .tc .vmem S1x4096 .f32) (harg4 : arg4.IsWhole) (hc0 : cond1_0 i) (x0 : Vec F S6x4096 .f32) (x1 : Vec F S256x6 .f32) (y : S256x4096.Idx) :
    ∃ pc ∈ (kernelRun1_A c i arg1 harg1 arg2 harg2 arg3 harg3 arg4 harg4 hc0 x0 x1).1, y ∈ pc.1.set :=
  View.cover_of_tiledL (kernelRun1_A c i arg1 harg1 arg2 harg2 arg3 harg3 arg4 harg4 hc0 x0 x1).1 S256x4096.size (by sl_kernel_rfl) y
def out1_A_2 (c : Dev nD) (i : grid1.Coords) (arg1 : Memref sig .tc .vmem S6x4096 .f32) (harg1 : arg1.IsWhole) (arg2 : Memref sig .tc .vmem S256x6 .f32) (harg2 : arg2.IsWhole) (arg3 : Memref sig .tc .vmem S256x4096 .bf16) (harg3 : arg3.IsWhole) (arg4 : Memref sig .tc .vmem S1x4096 .f32) (harg4 : arg4.IsWhole) (hc0 : cond1_0 i) (x0 : Vec F S6x4096 .f32) (x1 : Vec F S256x6 .f32) : Vec F S256x4096 .bf16 :=
  VO1_2.read (Elt F) (VO1_2.writes (Elt F) VO1_2.junk (kernelRun1_A c i arg1 harg1 arg2 harg2 arg3 harg3 arg4 harg4 hc0 x0 x1).1)
theorem cover1_A_3 (c : Dev nD) (i : grid1.Coords) (arg1 : Memref sig .tc .vmem S6x4096 .f32) (harg1 : arg1.IsWhole) (arg2 : Memref sig .tc .vmem S256x6 .f32) (harg2 : arg2.IsWhole) (arg3 : Memref sig .tc .vmem S256x4096 .bf16) (harg3 : arg3.IsWhole) (arg4 : Memref sig .tc .vmem S1x4096 .f32) (harg4 : arg4.IsWhole) (hc0 : cond1_0 i) (x0 : Vec F S6x4096 .f32) (x1 : Vec F S256x6 .f32) (y : S1x4096.Idx) :
    ∃ pc ∈ (kernelRun1_A c i arg1 harg1 arg2 harg2 arg3 harg3 arg4 harg4 hc0 x0 x1).2.1, y ∈ pc.1.set :=
  View.cover_of_tiledL (kernelRun1_A c i arg1 harg1 arg2 harg2 arg3 harg3 arg4 harg4 hc0 x0 x1).2.1 S1x4096.size (by sl_kernel_rfl) y
def out1_A_3 (c : Dev nD) (i : grid1.Coords) (arg1 : Memref sig .tc .vmem S6x4096 .f32) (harg1 : arg1.IsWhole) (arg2 : Memref sig .tc .vmem S256x6 .f32) (harg2 : arg2.IsWhole) (arg3 : Memref sig .tc .vmem S256x4096 .bf16) (harg3 : arg3.IsWhole) (arg4 : Memref sig .tc .vmem S1x4096 .f32) (harg4 : arg4.IsWhole) (hc0 : cond1_0 i) (x0 : Vec F S6x4096 .f32) (x1 : Vec F S256x6 .f32) : Vec F S1x4096 .f32 :=
  VO1_3.read (Elt F) (VO1_3.writes (Elt F) VO1_3.junk (kernelRun1_A c i arg1 harg1 arg2 harg2 arg3 harg3 arg4 harg4 hc0 x0 x1).2.1)

theorem cover1_B_2 (c : Dev nD) (i : grid1.Coords) (arg1 : Memref sig .tc .vmem S6x4096 .f32) (harg1 : arg1.IsWhole) (arg2 : Memref sig .tc .vmem S256x6 .f32) (harg2 : arg2.IsWhole) (arg3 : Memref sig .tc .vmem S256x4096 .bf16) (harg3 : arg3.IsWhole) (arg4 : Memref sig .tc .vmem S1x4096 .f32) (harg4 : arg4.IsWhole) (hc0 : ¬cond1_0 i) (x0 : Vec F S6x4096 .f32) (x1 : Vec F S256x6 .f32) (xo3 : Vec F S1x4096 .f32) (y : S256x4096.Idx) :
    ∃ pc ∈ (kernelRun1_B c i arg1 harg1 arg2 harg2 arg3 harg3 arg4 harg4 hc0 x0 x1 xo3).1, y ∈ pc.1.set :=
  View.cover_of_tiledL (kernelRun1_B c i arg1 harg1 arg2 harg2 arg3 harg3 arg4 harg4 hc0 x0 x1 xo3).1 S256x4096.size (by sl_kernel_rfl) y
def out1_B_2 (c : Dev nD) (i : grid1.Coords) (arg1 : Memref sig .tc .vmem S6x4096 .f32) (harg1 : arg1.IsWhole) (arg2 : Memref sig .tc .vmem S256x6 .f32) (harg2 : arg2.IsWhole) (arg3 : Memref sig .tc .vmem S256x4096 .bf16) (harg3 : arg3.IsWhole) (arg4 : Memref sig .tc .vmem S1x4096 .f32) (harg4 : arg4.IsWhole) (hc0 : ¬cond1_0 i) (x0 : Vec F S6x4096 .f32) (x1 : Vec F S256x6 .f32) (xo3 : Vec F S1x4096 .f32) : Vec F S256x4096 .bf16 :=
  VO1_2.read (Elt F) (VO1_2.writes (Elt F) VO1_2.junk (kernelRun1_B c i arg1 harg1 arg2 harg2 arg3 harg3 arg4 harg4 hc0 x0 x1 xo3).1)
theorem cover1_B_3 (c : Dev nD) (i : grid1.Coords) (arg1 : Memref sig .tc .vmem S6x4096 .f32) (harg1 : arg1.IsWhole) (arg2 : Memref sig .tc .vmem S256x6 .f32) (harg2 : arg2.IsWhole) (arg3 : Memref sig .tc .vmem S256x4096 .bf16) (harg3 : arg3.IsWhole) (arg4 : Memref sig .tc .vmem S1x4096 .f32) (harg4 : arg4.IsWhole) (hc0 : ¬cond1_0 i) (x0 : Vec F S6x4096 .f32) (x1 : Vec F S256x6 .f32) (xo3 : Vec F S1x4096 .f32) (y : S1x4096.Idx) :
    ∃ pc ∈ (kernelRun1_B c i arg1 harg1 arg2 harg2 arg3 harg3 arg4 harg4 hc0 x0 x1 xo3).2.1, y ∈ pc.1.set :=
  View.cover_of_tiledL (kernelRun1_B c i arg1 harg1 arg2 harg2 arg3 harg3 arg4 harg4 hc0 x0 x1 xo3).2.1 S1x4096.size (by sl_kernel_rfl) y
def out1_B_3 (c : Dev nD) (i : grid1.Coords) (arg1 : Memref sig .tc .vmem S6x4096 .f32) (harg1 : arg1.IsWhole) (arg2 : Memref sig .tc .vmem S256x6 .f32) (harg2 : arg2.IsWhole) (arg3 : Memref sig .tc .vmem S256x4096 .bf16) (harg3 : arg3.IsWhole) (arg4 : Memref sig .tc .vmem S1x4096 .f32) (harg4 : arg4.IsWhole) (hc0 : ¬cond1_0 i) (x0 : Vec F S6x4096 .f32) (x1 : Vec F S256x6 .f32) (xo3 : Vec F S1x4096 .f32) : Vec F S1x4096 .f32 :=
  VO1_3.read (Elt F) (VO1_3.writes (Elt F) VO1_3.junk (kernelRun1_B c i arg1 harg1 arg2 harg2 arg3 harg3 arg4 harg4 hc0 x0 x1 xo3).2.1)

/-! ## What the outputs hold after each tile -/

/-- After tile n: the tile of the kernel matrix, and the column sums of tiles 0..n. -/
def outsAt1 (c : Dev nD) : (n : ℕ) → n < cfg1.N → Vec F S256x4096 .bf16 × Vec F S1x4096 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (iblk1 V c 0 ⟨0, hn⟩) (iblk1 V c 1 ⟨0, hn⟩),
              out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (iblk1 V c 0 ⟨0, hn⟩) (iblk1 V c 1 ⟨0, hn⟩))
  | n + 1, hn =>
    if h0 : (n + 1) % 16 = 0 then
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (iblk1 V c 0 ⟨n + 1, hn⟩) (iblk1 V c 1 ⟨n + 1, hn⟩),
       out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (iblk1 V c 0 ⟨n + 1, hn⟩) (iblk1 V c 1 ⟨n + 1, hn⟩))
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn)).2,
       out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 16 = 0) :
    outsAt1 V c t.val t.isLt = (out1_A_2 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t),
      out1_A_3 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 16 = 0) :
    outsAt1 V c t.val t.isLt = (out1_B_2 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (outsAt1 V c (t.val - 1) (Nat.lt_of_le_of_lt (Nat.sub_le _ _) t.isLt)).2,
      out1_B_3 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a later tile the column-sum block's staging buffer holds what the tile before left: it is written back only
    after the last tile. -/
theorem before1_3_B (c : Dev nD) (t : Fin cfg1.N) (h0 : ¬t.val % 16 = 0) (d) :
    (dat1 V c).before 3 t d = (outsAt1 V c (t.val - 1) (Nat.lt_of_le_of_lt (Nat.sub_le _ _) t.isLt)).2 := by
  have hN : t.val < 16 := lt_of_lt_of_eq t.isLt (show cfg1.N = 16 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  have hN : t.val < 16 := lt_of_lt_of_eq t.isLt (show cfg1.N = 16 from N_1)
  by_cases h0 : t.val % 16 = 0
  · rw [outsAt1_A V c t h0]
    unfold out1_A_2 out1_A_3; (try dsimp only)
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_A_2 c _ _ _ _ _ _ _ _ _ _ _ _)
    unfold owns; iexists _; isplitr
    swap; · iexact H3
    ipureintro; exact View.read_writes_of_cover _ _ _ _ _ (cover1_A_3 c _ _ _ _ _ _ _ _ _ _ _ _)
  · rw [outsAt1_B V c t h0]
    simp only [before1_3_B V c t h0]
    unfold out1_B_2 out1_B_3; (try dsimp only)
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) _).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_B_2 c _ _ _ _ _ _ _ _ _ _ _ _ _)
    unfold owns; iexists _; isplitr
    swap; · iexact H3
    ipureintro; exact View.read_writes_of_cover _ _ _ _ _ (cover1_B_3 c _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2Runs.lean ====
/-
  Region 2 (the five mean-field iterations, a grid of 5 x 16 points: iteration by contraction tile): what its
  five control cases share. Four scratch tables are carried from point to point: the current logits, their
  softmax, and the two filter accumulators. At a point with tile 0 the softmax is taken and the accumulators are
  cleared (at the very first point the logits are first set to the unary logits); every point adds one tile's
  products to the accumulators; at a point with tile 15 the accumulators are normalised, multiplied by the folded
  weight matrices and added to the unary logits; the last point copies the logits out.
-/
import proofs.«171617_j90795608638216_2_alg».proof.Proof.Gen.Kernel.Launch
import proofs.«171617_j90795608638216_2_alg».proof.Proof.Gen.Kernel.Skeleton
import proofs.«171617_j90795608638216_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's four branch conditions, in closed form over the 80 points -/

/-- First iteration and tile 0. -/
abbrev cond2_0 (i : grid2.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond2_0 : ∀ t : Fin cfg2.N, cond2_0 (grid2.coords t) ↔ t.val % 80 = 0 :=
  (by decide +kernel : ∀ t : Fin grid2.N, cond2_0 (grid2.coords t) ↔ t.val % 80 = 0)
/-- Tile 0. -/
abbrev cond2_1 (i : grid2.Coords) : Prop := (Scalar.cmpi .ne (Scalar.extui (Scalar.cmpi .eq (BitVec.ofNat 32 (i 1).val) 0#32)) 0#32) = 1#1
theorem hcond2_1 : ∀ t : Fin cfg2.N, cond2_1 (grid2.coords t) ↔ t.val % 16 = 0 :=
  (by decide +kernel : ∀ t : Fin grid2.N, cond2_1 (grid2.coords t) ↔ t.val % 16 = 0)
/-- Tile 15. -/
abbrev cond2_2 (i : grid2.Coords) : Prop := (Scalar.cmpi .ne (Scalar.extui (Scalar.cmpi .eq (BitVec.ofNat 32 (i 1).val) 15#32)) 0#32) = 1#1
theorem hcond2_2 : ∀ t : Fin cfg2.N, cond2_2 (grid2.coords t) ↔ t.val % 16 = 15 :=
  (by decide +kernel : ∀ t : Fin grid2.N, cond2_2 (grid2.coords t) ↔ t.val % 16 = 15)
/-- Last iteration and tile 15. -/
abbrev cond2_3 (i : grid2.Coords) : Prop := k2_cond4 i = 1#1
theorem hcond2_3 : ∀ t : Fin cfg2.N, cond2_3 (grid2.coords t) ↔ t.val % 80 = 79 :=
  (by decide +kernel : ∀ t : Fin grid2.N, cond2_3 (grid2.coords t) ↔ t.val % 80 = 79)

/-! ## Where the output window is idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem idleAt2_7 : ∀ t : Fin cfg2.N, ¬cond2_3 (grid2.coords t) → cfg2.idle 7 (grid2.coords t) = true := by decide +kernel
theorem noFlush2_7 : ∀ t : Fin cfg2.N, ¬cond2_3 (grid2.coords t) → (cfg2.win 7).flush t = false := by decide +kernel
theorem liveAt2_7 : ∀ t : Fin cfg2.N, cond2_3 (grid2.coords t) → cfg2.idle 7 (grid2.coords t) = false := by decide +kernel

/-! ## The memrefs the body is called with -/

abbrev VO2_7 : View sig .tc .vmem S21x4096 .f32 := (Memref.whole cc2_stg7_0 : Memref sig .tc .vmem S21x4096 .f32).view
abbrev ms2_0 (t : Fin cfg2.N) : Memref sig .tc .vmem S21x4096 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S21x21 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S21x21 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x4096 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S4096x4096 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x4096 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x4096 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S21x4096 .f32 := win2_7.stage (cfg2.slots t 7)
abbrev hs2_7 (t : Fin cfg2.N) : (ms2_7 t).IsWhole := hstage2_7 ((cfg2.slots t 7).cast nbuf2_7)
abbrev scM2_0 : Memref sig .tc .vmem S21x4096 .f32 := Memref.whole cc2_scratch0
abbrev VS2_0 : View sig .tc .vmem S21x4096 .f32 := scM2_0.view
abbrev scM2_1 : Memref sig .tc .vmem S21x4096 .f32 := Memref.whole cc2_scratch1
abbrev VS2_1 : View sig .tc .vmem S21x4096 .f32 := scM2_1.view
abbrev scM2_2 : Memref sig .tc .vmem S21x4096 .f32 := Memref.whole cc2_scratch2
abbrev VS2_2 : View sig .tc .vmem S21x4096 .f32 := scM2_2.view
abbrev scM2_3 : Memref sig .tc .vmem S21x4096 .f32 := Memref.whole cc2_scratch3
abbrev VS2_3 : View sig .tc .vmem S21x4096 .f32 := scM2_3.view

/-- The scoped buffers no window of this region stages: the other two regions' twelve staging buffers, each at
    some contents, and the four scratch tables at the given ownerships. -/
def scr2 (c : Dev nD) (P0 P1 P2 P3 : sProp 𝕄) : sProp 𝕄 :=
  iprop((∃ d, owns (c : Thread nD τ) (Memref.whole cc0_stg0_0) fullShare d) ∗ (∃ d, owns (c : Thread nD τ) (Memref.whole cc0_stg1_0) fullShare d) ∗ (∃ d, owns (c : Thread nD τ) (Memref.whole cc0_stg1_1) fullShare d) ∗ (∃ d, owns (c : Thread nD τ) (Memref.whole cc0_stg2_0) fullShare d) ∗ (∃ d, owns (c : Thread nD τ) (Memref.whole cc0_stg2_1) fullShare d) ∗ (∃ d, owns (c : Thread nD τ) (Memref.whole cc0_stg3_0) fullShare d) ∗ (∃ d, owns (c : Thread nD τ) (Memref.whole cc1_stg0_0) fullShare d) ∗ (∃ d, owns (c : Thread nD τ) (Memref.whole cc1_stg1_0) fullShare d) ∗ (∃ d, owns (c : Thread nD τ) (Memref.whole cc1_stg1_1) fullShare d) ∗ (∃ d, owns (c : Thread nD τ) (Memref.whole cc1_stg2_0) fullShare d) ∗ (∃ d, owns (c : Thread nD τ) (Memref.whole cc1_stg2_1) fullShare d) ∗ (∃ d, owns (c : Thread nD τ) (Memref.whole cc1_stg3_0) fullShare d) ∗ P0 ∗ P1 ∗ P2 ∗ P3)

theorem PhiA2_eq (c : Dev nD) :
    (Pipeline.ΦA spec2 c : sProp 𝕄)
      = iprop(scr2 c iprop(∃ d, owns (c : Thread nD τ) scM2_0 fullShare d) iprop(∃ d, owns (c : Thread nD τ) scM2_1 fullShare d) iprop(∃ d, owns (c : Thread nD τ) scM2_2 fullShare d) iprop(∃ d, owns (c : Thread nD τ) scM2_3 fullShare d) ∗ (∃ r, prngReg c r)) := by
  unfold Pipeline.ΦA scr2; rw [scopedRest2_eq]; simp only [scM2_0, scM2_1, scM2_2, scM2_3, owns_whole]; try rfl

end Cert.Kernel.Hand

end
-- ==== Proof.K.R2RunA.lean ====
/-
  Region 2, the very first point: the logits are set to the unary logits, the softmax is taken, the accumulators are cleared and the first tile's products added. The pieces each buffer the body stores into ends with are found by running the body.
-/
import proofs.«171617_j90795608638216_2_alg».proof.Proof.K.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : cond2_0 i) (hc1 : cond2_1 i) (hc2 : ¬cond2_2 i) (hc3 : ¬cond2_3 i)
    (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) :
    Σ' (L7 : List (View.Piece (Elt F) S21x4096 .f32)) (LS0 : List (View.Piece (Elt F) S21x4096 .f32)) (LS1 : List (View.Piece (Elt F) S21x4096 .f32)) (LS2 : List (View.Piece (Elt F) S21x4096 .f32)), { LS3 : List (View.Piece (Elt F) S21x4096 .f32) //
      ∀ (xi7 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc2__crf_iter_body i arg2 harg2 arg3 harg3 arg4 harg4 arg5 harg5 arg6 harg6 arg7 harg7 arg8 harg8 arg9 harg9 arg10 harg10 arg11 harg11 arg12 harg12 arg13 harg13) K } := by
  refine ⟨[], ?_, ?_, ?_, ?_, fun xi7 E K => ?run⟩
  case run =>
    simp only [cc2__crf_iter_body_eq_skeleton]; unfold cc2__crf_iter_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; iexact HS0
    isplitl [HS1]
    · iexists _; iexact HS1
    isplitl [HS2]
    · iexists _; iexact HS2
    iexists _; iexact HS3

end Cert.Kernel.Hand

end
-- ==== Proof.K.R2RunB.lean ====
/-
  Region 2, tile 0 of a later iteration: the softmax of the carried logits is taken, the accumulators are cleared and the first tile's products added. The pieces each buffer the body stores into ends with are found by running the body.
-/
import proofs.«171617_j90795608638216_2_alg».proof.Proof.K.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : cond2_1 i) (hc2 : ¬cond2_2 i) (hc3 : ¬cond2_3 i)
    (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) :
    Σ' (L7 : List (View.Piece (Elt F) S21x4096 .f32)) (LS0 : List (View.Piece (Elt F) S21x4096 .f32)) (LS1 : List (View.Piece (Elt F) S21x4096 .f32)) (LS2 : List (View.Piece (Elt F) S21x4096 .f32)), { LS3 : List (View.Piece (Elt F) S21x4096 .f32) //
      ∀ (xi7 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0 ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc2__crf_iter_body i arg2 harg2 arg3 harg3 arg4 harg4 arg5 harg5 arg6 harg6 arg7 harg7 arg8 harg8 arg9 harg9 arg10 harg10 arg11 harg11 arg12 harg12 arg13 harg13) K } := by
  refine ⟨[], [], ?_, ?_, ?_, fun xi7 E K => ?run⟩
  case run =>
    simp only [cc2__crf_iter_body_eq_skeleton]; unfold cc2__crf_iter_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1; obtain rfl := harg12.eq_unread hfs2; obtain rfl := harg13.eq_unread hfs3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; isplitr; · ipureintro; exact harg10.read_unread _
      iexact HS0
    isplitl [HS1]
    · iexists _; iexact HS1
    isplitl [HS2]
    · iexists _; iexact HS2
    iexists _; iexact HS3

end Cert.Kernel.Hand

end
-- ==== Proof.K.R2RunC.lean ====
/-
  Region 2, a middle tile: one tile's products are added to the carried accumulators. The pieces each buffer the body stores into ends with are found by running the body.
-/
import proofs.«171617_j90795608638216_2_alg».proof.Proof.K.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : ¬cond2_2 i) (hc3 : ¬cond2_3 i)
    (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) :
    Σ' (L7 : List (View.Piece (Elt F) S21x4096 .f32)) (LS0 : List (View.Piece (Elt F) S21x4096 .f32)) (LS1 : List (View.Piece (Elt F) S21x4096 .f32)) (LS2 : List (View.Piece (Elt F) S21x4096 .f32)), { LS3 : List (View.Piece (Elt F) S21x4096 .f32) //
      ∀ (xi7 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0 ∗ owns (c : Thread nD τ) arg11 fullShare xs1 ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc2__crf_iter_body i arg2 harg2 arg3 harg3 arg4 harg4 arg5 harg5 arg6 harg6 arg7 harg7 arg8 harg8 arg9 harg9 arg10 harg10 arg11 harg11 arg12 harg12 arg13 harg13) K } := by
  refine ⟨[], [], [], ?_, ?_, fun xi7 E K => ?run⟩
  case run =>
    simp only [cc2__crf_iter_body_eq_skeleton]; unfold cc2__crf_iter_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1; obtain rfl := harg12.eq_unread hfs2; obtain rfl := harg13.eq_unread hfs3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; isplitr; · ipureintro; exact harg10.read_unread _
      iexact HS0
    isplitl [HS1]
    · iexists _; isplitr; · ipureintro; exact harg11.read_unread _
      iexact HS1
    isplitl [HS2]
    · iexists _; iexact HS2
    iexists _; iexact HS3

end Cert.Kernel.Hand

end
-- ==== Proof.K.R2RunD.lean ====
/-
  Region 2, tile 15 of an iteration that is not the last: the last tile's products are added and the new logits are formed from the normalised accumulators. The pieces each buffer the body stores into ends with are found by running the body.
-/
import proofs.«171617_j90795608638216_2_alg».proof.Proof.K.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_D (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : ¬cond2_3 i)
    (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) :
    Σ' (L7 : List (View.Piece (Elt F) S21x4096 .f32)) (LS0 : List (View.Piece (Elt F) S21x4096 .f32)) (LS1 : List (View.Piece (Elt F) S21x4096 .f32)) (LS2 : List (View.Piece (Elt F) S21x4096 .f32)), { LS3 : List (View.Piece (Elt F) S21x4096 .f32) //
      ∀ (xi7 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0) ∗ owns (c : Thread nD τ) arg11 fullShare xs1 ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc2__crf_iter_body i arg2 harg2 arg3 harg3 arg4 harg4 arg5 harg5 arg6 harg6 arg7 harg7 arg8 harg8 arg9 harg9 arg10 harg10 arg11 harg11 arg12 harg12 arg13 harg13) K } := by
  refine ⟨[], ?_, [], ?_, ?_, fun xi7 E K => ?run⟩
  case run =>
    simp only [cc2__crf_iter_body_eq_skeleton]; unfold cc2__crf_iter_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1; obtain rfl := harg12.eq_unread hfs2; obtain rfl := harg13.eq_unread hfs3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; iexact HS0
    isplitl [HS1]
    · iexists _; isplitr; · ipureintro; exact harg11.read_unread _
      iexact HS1
    isplitl [HS2]
    · iexists _; iexact HS2
    iexists _; iexact HS3

end Cert.Kernel.Hand

end
-- ==== Proof.K.R2RunE.lean ====
/-
  Region 2, the very last point: as at any tile 15, and the new logits are copied to the output block. The pieces each buffer the body stores into ends with are found by running the body.
-/
import proofs.«171617_j90795608638216_2_alg».proof.Proof.K.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_E (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : cond2_3 i)
    (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) :
    Σ' (L7 : List (View.Piece (Elt F) S21x4096 .f32)) (LS0 : List (View.Piece (Elt F) S21x4096 .f32)) (LS1 : List (View.Piece (Elt F) S21x4096 .f32)) (LS2 : List (View.Piece (Elt F) S21x4096 .f32)), { LS3 : List (View.Piece (Elt F) S21x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ owns (c : Thread nD τ) arg11 fullShare xs1 ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc2__crf_iter_body i arg2 harg2 arg3 harg3 arg4 harg4 arg5 harg5 arg6 harg6 arg7 harg7 arg8 harg8 arg9 harg9 arg10 harg10 arg11 harg11 arg12 harg12 arg13 harg13) K } := by
  refine ⟨?_, ?_, [], ?_, ?_, fun E K => ?run⟩
  case run =>
    simp only [cc2__crf_iter_body_eq_skeleton]; unfold cc2__crf_iter_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0; obtain rfl := harg11.eq_unread hfs1; obtain rfl := harg12.eq_unread hfs2; obtain rfl := harg13.eq_unread hfs3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [HS0]
    · iexists _; iexact HS0
    isplitl [HS1]
    · iexists _; isplitr; · ipureintro; exact harg11.read_unread _
      iexact HS1
    isplitl [HS2]
    · iexists _; iexact HS2
    iexists _; iexact HS3

end Cert.Kernel.Hand

end
-- ==== Proof.K.R2.lean ====
/-
  Region 2: what the output block and the four carried scratch tables hold after each of the 80 points, the
  pipeline's proof data at entry contents V (the invariant carries the scratch tables' contents from point to
  point), and the body obligation.
-/
import proofs.«171617_j90795608638216_2_alg».proof.Proof.K.R2RunA
import proofs.«171617_j90795608638216_2_alg».proof.Proof.K.R2RunB
import proofs.«171617_j90795608638216_2_alg».proof.Proof.K.R2RunC
import proofs.«171617_j90795608638216_2_alg».proof.Proof.K.R2RunD
import proofs.«171617_j90795608638216_2_alg».proof.Proof.K.R2RunE
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions at a point, from its number -/

theorem hN2 (t : Fin cfg2.N) : t.val < 80 := lt_of_lt_of_eq t.isLt (show cfg2.N = 80 from N_2)
theorem c0_of (t : Fin cfg2.N) (h : t.val = 0) : cond2_0 (grid2.coords t) := (hcond2_0 t).mpr (by omega)
theorem nc0_of (t : Fin cfg2.N) (h : t.val ≠ 0) : ¬cond2_0 (grid2.coords t) := fun hc => by
  have h1 := (hcond2_0 t).mp hc; have h2 := hN2 t; omega
theorem c1_of (t : Fin cfg2.N) (h : t.val % 16 = 0) : cond2_1 (grid2.coords t) := (hcond2_1 t).mpr h
theorem nc1_of (t : Fin cfg2.N) (h : ¬t.val % 16 = 0) : ¬cond2_1 (grid2.coords t) := fun hc => h ((hcond2_1 t).mp hc)
theorem c2_of (t : Fin cfg2.N) (h : t.val % 16 = 15) : cond2_2 (grid2.coords t) := (hcond2_2 t).mpr h
theorem nc2_of (t : Fin cfg2.N) (h : ¬t.val % 16 = 15) : ¬cond2_2 (grid2.coords t) := fun hc => h ((hcond2_2 t).mp hc)
theorem c3_of (t : Fin cfg2.N) (h : t.val % 80 = 79) : cond2_3 (grid2.coords t) := (hcond2_3 t).mpr h
theorem nc3_of (t : Fin cfg2.N) (h : ¬t.val % 80 = 79) : ¬cond2_3 (grid2.coords t) := fun hc => h ((hcond2_3 t).mp hc)

/-! ## What each case leaves in the buffers it stores into -/

theorem scover2_A_0 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (y : S21x4096.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.1 S21x4096.size (by sl_kernel_rfl) y
def sout2_A_0 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) : Vec F S21x4096 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.1)
theorem scover2_A_1 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (y : S21x4096.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.2.1 S21x4096.size (by sl_kernel_rfl) y
def sout2_A_1 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) : Vec F S21x4096 .f32 :=
  VS2_1.read (Elt F) (VS2_1.writes (Elt F) VS2_1.junk (kernelRun2_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.2.1)
theorem scover2_A_2 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (y : S21x4096.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.2.2.1 S21x4096.size (by sl_kernel_rfl) y
def sout2_A_2 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) : Vec F S21x4096 .f32 :=
  VS2_2.read (Elt F) (VS2_2.writes (Elt F) VS2_2.junk (kernelRun2_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.2.2.1)
theorem scover2_A_3 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (y : S21x4096.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.2.2.2.1 S21x4096.size (by sl_kernel_rfl) y
def sout2_A_3 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) : Vec F S21x4096 .f32 :=
  VS2_3.read (Elt F) (VS2_3.writes (Elt F) VS2_3.junk (kernelRun2_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.2.2.2.1)
theorem scover2_B_1 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) (y : S21x4096.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.1 S21x4096.size (by sl_kernel_rfl) y
def sout2_B_1 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) : Vec F S21x4096 .f32 :=
  VS2_1.read (Elt F) (VS2_1.writes (Elt F) VS2_1.junk (kernelRun2_B c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.1)
theorem scover2_B_2 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) (y : S21x4096.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.1 S21x4096.size (by sl_kernel_rfl) y
def sout2_B_2 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) : Vec F S21x4096 .f32 :=
  VS2_2.read (Elt F) (VS2_2.writes (Elt F) VS2_2.junk (kernelRun2_B c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.1)
theorem scover2_B_3 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) (y : S21x4096.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.2.1 S21x4096.size (by sl_kernel_rfl) y
def sout2_B_3 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) : Vec F S21x4096 .f32 :=
  VS2_3.read (Elt F) (VS2_3.writes (Elt F) VS2_3.junk (kernelRun2_B c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.2.1)
theorem scover2_C_2 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) (y : S21x4096.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.1 S21x4096.size (by sl_kernel_rfl) y
def sout2_C_2 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) : Vec F S21x4096 .f32 :=
  VS2_2.read (Elt F) (VS2_2.writes (Elt F) VS2_2.junk (kernelRun2_C c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.1)
theorem scover2_C_3 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) (y : S21x4096.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.2.1 S21x4096.size (by sl_kernel_rfl) y
def sout2_C_3 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) : Vec F S21x4096 .f32 :=
  VS2_3.read (Elt F) (VS2_3.writes (Elt F) VS2_3.junk (kernelRun2_C c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.2.1)
theorem scover2_D_0 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) (y : S21x4096.Idx) :
    ∃ pc ∈ (kernelRun2_D c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.1, y ∈ pc.1.set :=
  View.cover_of_tiledL (kernelRun2_D c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.1 S21x4096.size (by sl_kernel_rfl) y
def sout2_D_0 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) : Vec F S21x4096 .f32 :=
  VS2_0.read (Elt F) (VS2_0.writes (Elt F) VS2_0.junk (kernelRun2_D c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.1)
theorem scover2_D_2 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) (y : S21x4096.Idx) :
    ∃ pc ∈ (kernelRun2_D c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.1, y ∈ pc.1.set :=
  View.cover_of_tiledL (kernelRun2_D c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.1 S21x4096.size (by sl_kernel_rfl) y
def sout2_D_2 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) : Vec F S21x4096 .f32 :=
  VS2_2.read (Elt F) (VS2_2.writes (Elt F) VS2_2.junk (kernelRun2_D c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.1)
theorem scover2_D_3 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) (y : S21x4096.Idx) :
    ∃ pc ∈ (kernelRun2_D c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.2.1, y ∈ pc.1.set :=
  View.cover_of_tiledL (kernelRun2_D c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.2.1 S21x4096.size (by sl_kernel_rfl) y
def sout2_D_3 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) : Vec F S21x4096 .f32 :=
  VS2_3.read (Elt F) (VS2_3.writes (Elt F) VS2_3.junk (kernelRun2_D c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.2.1)
theorem scover2_E_0 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) (y : S21x4096.Idx) :
    ∃ pc ∈ (kernelRun2_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.1, y ∈ pc.1.set :=
  View.cover_of_tiledL (kernelRun2_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.1 S21x4096.size (by sl_kernel_rfl) y
def sout2_E_0 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) : Vec F S21x4096 .f32 :=
  VS2_0.read (Elt F) (VS2_0.writes (Elt F) VS2_0.junk (kernelRun2_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.1)
theorem scover2_E_2 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) (y : S21x4096.Idx) :
    ∃ pc ∈ (kernelRun2_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.1, y ∈ pc.1.set :=
  View.cover_of_tiledL (kernelRun2_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.1 S21x4096.size (by sl_kernel_rfl) y
def sout2_E_2 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) : Vec F S21x4096 .f32 :=
  VS2_2.read (Elt F) (VS2_2.writes (Elt F) VS2_2.junk (kernelRun2_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.1)
theorem scover2_E_3 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) (y : S21x4096.Idx) :
    ∃ pc ∈ (kernelRun2_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.2.1, y ∈ pc.1.set :=
  View.cover_of_tiledL (kernelRun2_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.2.1 S21x4096.size (by sl_kernel_rfl) y
def sout2_E_3 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) : Vec F S21x4096 .f32 :=
  VS2_3.read (Elt F) (VS2_3.writes (Elt F) VS2_3.junk (kernelRun2_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.2.1)
theorem cover2_E_7 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) (y : S21x4096.Idx) :
    ∃ pc ∈ (kernelRun2_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).1, y ∈ pc.1.set :=
  View.cover_of_tiledL (kernelRun2_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).1 S21x4096.size (by sl_kernel_rfl) y
def out2_E_7 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) : Vec F S21x4096 .f32 :=
  VO2_7.read (Elt F) (VO2_7.writes (Elt F) VO2_7.junk (kernelRun2_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).1)

/-- What the output window's staging buffer is said to hold at the points where the body stores nothing into it and
    the pipeline does not write it back: a placeholder nothing consults. -/
def idleOut2 : Vec F S21x4096 .f32 := VO2_7.read (Elt F) VO2_7.junk

/-- The output block and the four scratch tables (logits, softmax, two accumulators). -/
abbrev T5 (F : FTy → Type) [FloatOps F] : Type := Vec F S21x4096 .f32 × Vec F S21x4096 .f32 × Vec F S21x4096 .f32 × Vec F S21x4096 .f32 × Vec F S21x4096 .f32

/-- The five tables after a point of case A. -/
def stepA (c : Dev nD) (t : Fin cfg2.N) (hz : t.val = 0) : T5 F :=
  (idleOut2,
   sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (c0_of t hz) (c1_of t (by omega)) (nc2_of t (by omega)) (nc3_of t (by omega)) (iblk2 V c 0 t) (iblk2 V c 1 t) (iblk2 V c 2 t) (iblk2 V c 3 t) (iblk2 V c 4 t) (iblk2 V c 5 t) (iblk2 V c 6 t),
   sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (c0_of t hz) (c1_of t (by omega)) (nc2_of t (by omega)) (nc3_of t (by omega)) (iblk2 V c 0 t) (iblk2 V c 1 t) (iblk2 V c 2 t) (iblk2 V c 3 t) (iblk2 V c 4 t) (iblk2 V c 5 t) (iblk2 V c 6 t),
   sout2_A_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (c0_of t hz) (c1_of t (by omega)) (nc2_of t (by omega)) (nc3_of t (by omega)) (iblk2 V c 0 t) (iblk2 V c 1 t) (iblk2 V c 2 t) (iblk2 V c 3 t) (iblk2 V c 4 t) (iblk2 V c 5 t) (iblk2 V c 6 t),
   sout2_A_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (c0_of t hz) (c1_of t (by omega)) (nc2_of t (by omega)) (nc3_of t (by omega)) (iblk2 V c 0 t) (iblk2 V c 1 t) (iblk2 V c 2 t) (iblk2 V c 3 t) (iblk2 V c 4 t) (iblk2 V c 5 t) (iblk2 V c 6 t))

/-- The five tables after a point of case B, from what the point before left (p). -/
def stepB (c : Dev nD) (t : Fin cfg2.N) (hz : t.val ≠ 0) (h1 : t.val % 16 = 0) (p : T5 F) : T5 F :=
  (idleOut2,
   p.2.1,
   sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (nc0_of t hz) (c1_of t h1) (nc2_of t (by omega)) (nc3_of t (by have := hN2 t; omega)) (iblk2 V c 0 t) (iblk2 V c 1 t) (iblk2 V c 2 t) (iblk2 V c 3 t) (iblk2 V c 4 t) (iblk2 V c 5 t) (iblk2 V c 6 t) p.2.1 p.2.2.1 p.2.2.2.1 p.2.2.2.2,
   sout2_B_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (nc0_of t hz) (c1_of t h1) (nc2_of t (by omega)) (nc3_of t (by have := hN2 t; omega)) (iblk2 V c 0 t) (iblk2 V c 1 t) (iblk2 V c 2 t) (iblk2 V c 3 t) (iblk2 V c 4 t) (iblk2 V c 5 t) (iblk2 V c 6 t) p.2.1 p.2.2.1 p.2.2.2.1 p.2.2.2.2,
   sout2_B_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (nc0_of t hz) (c1_of t h1) (nc2_of t (by omega)) (nc3_of t (by have := hN2 t; omega)) (iblk2 V c 0 t) (iblk2 V c 1 t) (iblk2 V c 2 t) (iblk2 V c 3 t) (iblk2 V c 4 t) (iblk2 V c 5 t) (iblk2 V c 6 t) p.2.1 p.2.2.1 p.2.2.2.1 p.2.2.2.2)

/-- The five tables after a point of case C, from what the point before left (p). -/
def stepC (c : Dev nD) (t : Fin cfg2.N) (hz : t.val ≠ 0) (h1 : ¬t.val % 16 = 0) (h2 : ¬t.val % 16 = 15) (p : T5 F) : T5 F :=
  (idleOut2,
   p.2.1,
   p.2.2.1,
   sout2_C_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (nc0_of t hz) (nc1_of t h1) (nc2_of t h2) (nc3_of t (by have := hN2 t; omega)) (iblk2 V c 0 t) (iblk2 V c 1 t) (iblk2 V c 2 t) (iblk2 V c 3 t) (iblk2 V c 4 t) (iblk2 V c 5 t) (iblk2 V c 6 t) p.2.1 p.2.2.1 p.2.2.2.1 p.2.2.2.2,
   sout2_C_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (nc0_of t hz) (nc1_of t h1) (nc2_of t h2) (nc3_of t (by have := hN2 t; omega)) (iblk2 V c 0 t) (iblk2 V c 1 t) (iblk2 V c 2 t) (iblk2 V c 3 t) (iblk2 V c 4 t) (iblk2 V c 5 t) (iblk2 V c 6 t) p.2.1 p.2.2.1 p.2.2.2.1 p.2.2.2.2)

/-- The five tables after a point of case D, from what the point before left (p). -/
def stepD (c : Dev nD) (t : Fin cfg2.N) (h2 : t.val % 16 = 15) (h3 : ¬t.val % 80 = 79) (p : T5 F) : T5 F :=
  (idleOut2,
   sout2_D_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (nc0_of t (by omega)) (nc1_of t (by omega)) (c2_of t h2) (nc3_of t h3) (iblk2 V c 0 t) (iblk2 V c 1 t) (iblk2 V c 2 t) (iblk2 V c 3 t) (iblk2 V c 4 t) (iblk2 V c 5 t) (iblk2 V c 6 t) p.2.1 p.2.2.1 p.2.2.2.1 p.2.2.2.2,
   p.2.2.1,
   sout2_D_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (nc0_of t (by omega)) (nc1_of t (by omega)) (c2_of t h2) (nc3_of t h3) (iblk2 V c 0 t) (iblk2 V c 1 t) (iblk2 V c 2 t) (iblk2 V c 3 t) (iblk2 V c 4 t) (iblk2 V c 5 t) (iblk2 V c 6 t) p.2.1 p.2.2.1 p.2.2.2.1 p.2.2.2.2,
   sout2_D_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (nc0_of t (by omega)) (nc1_of t (by omega)) (c2_of t h2) (nc3_of t h3) (iblk2 V c 0 t) (iblk2 V c 1 t) (iblk2 V c 2 t) (iblk2 V c 3 t) (iblk2 V c 4 t) (iblk2 V c 5 t) (iblk2 V c 6 t) p.2.1 p.2.2.1 p.2.2.2.1 p.2.2.2.2)

/-- The five tables after a point of case E, from what the point before left (p). -/
def stepE (c : Dev nD) (t : Fin cfg2.N) (h3 : t.val % 80 = 79) (p : T5 F) : T5 F :=
  (out2_E_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (nc0_of t (by omega)) (nc1_of t (by omega)) (c2_of t (by have := hN2 t; omega)) (c3_of t h3) (iblk2 V c 0 t) (iblk2 V c 1 t) (iblk2 V c 2 t) (iblk2 V c 3 t) (iblk2 V c 4 t) (iblk2 V c 5 t) (iblk2 V c 6 t) p.2.1 p.2.2.1 p.2.2.2.1 p.2.2.2.2,
   sout2_E_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (nc0_of t (by omega)) (nc1_of t (by omega)) (c2_of t (by have := hN2 t; omega)) (c3_of t h3) (iblk2 V c 0 t) (iblk2 V c 1 t) (iblk2 V c 2 t) (iblk2 V c 3 t) (iblk2 V c 4 t) (iblk2 V c 5 t) (iblk2 V c 6 t) p.2.1 p.2.2.1 p.2.2.2.1 p.2.2.2.2,
   p.2.2.1,
   sout2_E_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (nc0_of t (by omega)) (nc1_of t (by omega)) (c2_of t (by have := hN2 t; omega)) (c3_of t h3) (iblk2 V c 0 t) (iblk2 V c 1 t) (iblk2 V c 2 t) (iblk2 V c 3 t) (iblk2 V c 4 t) (iblk2 V c 5 t) (iblk2 V c 6 t) p.2.1 p.2.2.1 p.2.2.2.1 p.2.2.2.2,
   sout2_E_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (nc0_of t (by omega)) (nc1_of t (by omega)) (c2_of t (by have := hN2 t; omega)) (c3_of t h3) (iblk2 V c 0 t) (iblk2 V c 1 t) (iblk2 V c 2 t) (iblk2 V c 3 t) (iblk2 V c 4 t) (iblk2 V c 5 t) (iblk2 V c 6 t) p.2.1 p.2.2.1 p.2.2.2.1 p.2.2.2.2)

/-! ## What the tables hold after each point -/

def outsAt2 (c : Dev nD) : (n : ℕ) → n < cfg2.N → T5 F
  | 0, hn => stepA V c ⟨0, hn⟩ rfl
  | n + 1, hn =>
    if h1 : (n + 1) % 16 = 0 then stepB V c ⟨n + 1, hn⟩ (Nat.succ_ne_zero n) h1 (outsAt2 c n (Nat.lt_of_succ_lt hn))
    else if h2 : (n + 1) % 16 = 15 then
      if h3 : (n + 1) % 80 = 79 then stepE V c ⟨n + 1, hn⟩ h3 (outsAt2 c n (Nat.lt_of_succ_lt hn))
      else stepD V c ⟨n + 1, hn⟩ h2 h3 (outsAt2 c n (Nat.lt_of_succ_lt hn))
    else stepC V c ⟨n + 1, hn⟩ (Nat.succ_ne_zero n) h1 h2 (outsAt2 c n (Nat.lt_of_succ_lt hn))

theorem outsAt2_A (c : Dev nD) (t : Fin cfg2.N) (hz : t.val = 0) : outsAt2 V c t.val t.isLt = stepA V c t hz := by
  obtain ⟨n, hn⟩ := t
  cases n with
  | zero => rfl
  | succ n => exact absurd hz (Nat.succ_ne_zero n)

theorem outsAt2_B (c : Dev nD) (t : Fin cfg2.N) (hz : t.val ≠ 0) (h1 : t.val % 16 = 0) :
    outsAt2 V c t.val t.isLt = stepB V c t hz h1 (outsAt2 V c (t.val - 1) (Nat.lt_of_le_of_lt (Nat.sub_le _ _) t.isLt)) := by
  obtain ⟨n, hn⟩ := t
  cases n with
  | zero => exact absurd rfl hz
  | succ n => exact (dif_pos h1).trans rfl

theorem outsAt2_C (c : Dev nD) (t : Fin cfg2.N) (hz : t.val ≠ 0) (h1 : ¬t.val % 16 = 0) (h2 : ¬t.val % 16 = 15) :
    outsAt2 V c t.val t.isLt = stepC V c t hz h1 h2 (outsAt2 V c (t.val - 1) (Nat.lt_of_le_of_lt (Nat.sub_le _ _) t.isLt)) := by
  obtain ⟨n, hn⟩ := t
  cases n with
  | zero => exact absurd rfl hz
  | succ n => exact (dif_neg h1).trans ((dif_neg h2).trans rfl)

theorem outsAt2_D (c : Dev nD) (t : Fin cfg2.N) (h2 : t.val % 16 = 15) (h3 : ¬t.val % 80 = 79) :
    outsAt2 V c t.val t.isLt = stepD V c t h2 h3 (outsAt2 V c (t.val - 1) (Nat.lt_of_le_of_lt (Nat.sub_le _ _) t.isLt)) := by
  obtain ⟨n, hn⟩ := t
  cases n with
  | zero => exact absurd (show (0 : ℕ) % 16 = 15 from h2) (by decide)
  | succ n => exact (dif_neg (by (try dsimp only at h2); omega)).trans ((dif_pos h2).trans ((dif_neg h3).trans rfl))

theorem outsAt2_E (c : Dev nD) (t : Fin cfg2.N) (h3 : t.val % 80 = 79) :
    outsAt2 V c t.val t.isLt = stepE V c t h3 (outsAt2 V c (t.val - 1) (Nat.lt_of_le_of_lt (Nat.sub_le _ _) t.isLt)) := by
  obtain ⟨n, hn⟩ := t
  cases n with
  | zero => exact absurd (show (0 : ℕ) % 80 = 79 from h3) (by decide)
  | succ n =>
    have hN : n + 1 < 80 := lt_of_lt_of_eq hn (show cfg2.N = 80 from N_2)
    exact (dif_neg (by (try dsimp only at h3); omega)).trans ((dif_pos (by (try dsimp only at h3); omega)).trans ((dif_pos h3).trans rfl))

/-! ## The region invariant: the scratch tables at what the point before left -/

def PhiS (c : Dev nD) : (n : ℕ) → n ≤ cfg2.N → sProp 𝕄
  | 0, _ => Pipeline.ΦA spec2 c
  | n + 1, hn => iprop(scr2 c iprop(owns (c : Thread nD τ) scM2_0 fullShare (outsAt2 V c n hn).2.1) iprop(owns (c : Thread nD τ) scM2_1 fullShare (outsAt2 V c n hn).2.2.1) iprop(owns (c : Thread nD τ) scM2_2 fullShare (outsAt2 V c n hn).2.2.2.1) iprop(owns (c : Thread nD τ) scM2_3 fullShare (outsAt2 V c n hn).2.2.2.2) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(scr2 c iprop(owns (c : Thread nD τ) scM2_0 fullShare (outsAt2 V c n hn).2.1) iprop(owns (c : Thread nD τ) scM2_1 fullShare (outsAt2 V c n hn).2.2.1) iprop(owns (c : Thread nD τ) scM2_2 fullShare (outsAt2 V c n hn).2.2.2.1) iprop(owns (c : Thread nD τ) scM2_3 fullShare (outsAt2 V c n hn).2.2.2.2) ∗ (∃ r, prngReg c r)) := rfl

theorem PhiS_pos (c : Dev nD) (n : ℕ) (h : n ≤ cfg2.N) (hz : n ≠ 0) :
    PhiS V c n h = iprop(scr2 c iprop(owns (c : Thread nD τ) scM2_0 fullShare (outsAt2 V c (n - 1) (by omega)).2.1) iprop(owns (c : Thread nD τ) scM2_1 fullShare (outsAt2 V c (n - 1) (by omega)).2.2.1) iprop(owns (c : Thread nD τ) scM2_2 fullShare (outsAt2 V c (n - 1) (by omega)).2.2.2.1) iprop(owns (c : Thread nD τ) scM2_3 fullShare (outsAt2 V c (n - 1) (by omega)).2.2.2.2) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

end Cert.Kernel.Hand

end
-- ==== Proof.K.Fold.lean ====
/-
  The contents of the unscoped buffers at each boundary between @main's seven items (four stretches of host
  operations around the three regions), as a fold from the launch memory: a stretch applies its operations;
  a region leaves its arrays at what its write-backs leave and every other buffer as entered.
-/
import proofs.«171617_j90795608638216_2_alg».proof.Proof.K.R0
import proofs.«171617_j90795608638216_2_alg».proof.Proof.K.R1
import proofs.«171617_j90795608638216_2_alg».proof.Proof.K.R2
import proofs.«171617_j90795608638216_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At launch. -/
abbrev W0 : Dev nD → Valuation τ sig (Elt F) := fun c b => m (c, b)
/-- After the first stretch (region 0's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second stretch (region 1's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-- After the third stretch (region 2's entry). -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- At region 2's exit. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)

/-- After the last stretch: what @main returns from. -/
abbrev W7 : Dev nD → Valuation τ sig (Elt F) := fun c => StableHlo.after hostOps3 (W6 m c)

/-! ## No item writes an argument -/

theorem W7_of_arg (c : Dev nD) (r : Ref sig .tc) (h0 : r ∉ hostOps0_W) (h1 : r ∉ hostOps1_W) (h2 : r ∉ hostOps2_W) (h3 : r ∉ hostOps3_W)
    (a0 : ∀ w, Pipeline.arrRef spec0 w ≠ r) (a1 : ∀ w, Pipeline.arrRef spec1 w ≠ r) (a2 : ∀ w, Pipeline.arrRef spec2 w ≠ r) :
    W7 m c (Proc.devRef .tc r) = m ((c : Thread nD τ).loc r) :=
  (StableHlo.after_of_writes_sub hostOps3 _ hostOps3_writes h3).trans <|
  (W6_of_ne m c r a2).trans <|
  (StableHlo.after_of_writes_sub hostOps2 _ hostOps2_writes h2).trans <|
  (W4_of_ne m c r a1).trans <|
  (StableHlo.after_of_writes_sub hostOps1 _ hostOps1_writes h1).trans <|
  (W2_of_ne m c r a0).trans <|
  (StableHlo.after_of_writes_sub hostOps0 _ hostOps0_writes h0).trans rfl

theorem W7_main_arg0 (c : Dev nD) : W7 m c (Proc.devRef .tc main_arg0) = m ((c : Thread nD τ).loc main_arg0) :=
  W7_of_arg m c main_arg0 (by decide) (by decide) (by decide) (by decide) (by decide) (by decide) (by decide)
theorem W7_main_arg1 (c : Dev nD) : W7 m c (Proc.devRef .tc main_arg1) = m ((c : Thread nD τ).loc main_arg1) :=
  W7_of_arg m c main_arg1 (by decide) (by decide) (by decide) (by decide) (by decide) (by decide) (by decide)
theorem W7_main_arg2 (c : Dev nD) : W7 m c (Proc.devRef .tc main_arg2) = m ((c : Thread nD τ).loc main_arg2) :=
  W7_of_arg m c main_arg2 (by decide) (by decide) (by decide) (by decide) (by decide) (by decide) (by decide)
theorem W7_main_arg3 (c : Dev nD) : W7 m c (Proc.devRef .tc main_arg3) = m ((c : Thread nD τ).loc main_arg3) :=
  W7_of_arg m c main_arg3 (by decide) (by decide) (by decide) (by decide) (by decide) (by decide) (by decide)
theorem W7_main_arg4 (c : Dev nD) : W7 m c (Proc.devRef .tc main_arg4) = m ((c : Thread nD τ).loc main_arg4) :=
  W7_of_arg m c main_arg4 (by decide) (by decide) (by decide) (by decide) (by decide) (by decide) (by decide)

end Cert.Kernel.Hand

end
-- ==== Proof.K.R2Body.lean ====
/-
  Region 2: the body obligation. At each point the closed forms of the four branch conditions say which of the
  five cases the point is in; the invariant hands the body the scratch tables at what the point before left
  (at anything before the first point) and takes them back at this point's contents.
-/
import proofs.«171617_j90795608638216_2_alg».proof.Proof.K.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 16000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS V c (t.val + 1) t.isLt from rfl, PhiS_succ]
  have hN := hN2 t
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  by_cases hz : t.val = 0
  · rw [Dat.leavesExact_idle (dat2 V c) 7 t (idleAt2_7 t (nc3_of t (by omega))) (noFlush2_7 t (nc3_of t (by omega)))]
    rw [outsAt2_A V c t hz]
    unfold stepA sout2_A_0 sout2_A_1 sout2_A_2 sout2_A_3; (try dsimp only)
    rw [PhiS_castSucc V c t, PhiS_zero V c _ _ hz, PhiA2_eq]
    unfold scr2
    iintro ⟨⟨⟨T0, T1, T2, T3, T4, T5, T6, T7, T8, T9, T10, T11, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_A c (grid2.coords t) _ _ _ _ _ _ _ _ _ _ _ _ _ _ _ _ _ _ _ _ _ _ _ _ (c0_of t hz) (c1_of t (by omega)) (nc2_of t (by omega)) (nc3_of t (by omega)) (iblk2 V c 0 t) (iblk2 V c 1 t) (iblk2 V c 2 t) (iblk2 V c 3 t) (iblk2 V c 4 t) (iblk2 V c 5 t) (iblk2 V c 6 t)).2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    iintro ⟨H0, H1, H2, H3, H4, H5, H6, H7, ⟨%es0, HS0⟩, ⟨%es1, HS1⟩, ⟨%es2, HS2⟩, ⟨%es3, HS3⟩⟩
    isplitl [T0 T1 T2 T3 T4 T5 T6 T7 T8 T9 T10 T11 HS0 HS1 HS2 HS3 Hg]
    · isplitl [T0 T1 T2 T3 T4 T5 T6 T7 T8 T9 T10 T11 HS0 HS1 HS2 HS3]
      · isplitl [T0]; · iexact T0
        isplitl [T1]; · iexact T1
        isplitl [T2]; · iexact T2
        isplitl [T3]; · iexact T3
        isplitl [T4]; · iexact T4
        isplitl [T5]; · iexact T5
        isplitl [T6]; · iexact T6
        isplitl [T7]; · iexact T7
        isplitl [T8]; · iexact T8
        isplitl [T9]; · iexact T9
        isplitl [T10]; · iexact T10
        isplitl [T11]; · iexact T11
        isplitl [HS0]
        · unfold owns; iexists _; isplitr
          swap; · iexact HS0
          ipureintro; exact View.read_writes_of_cover _ _ _ _ _ (scover2_A_0 c _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_A_1 c _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover2_A_2 c _ _ _ _ _ _ _ _ _ _ _ _ _ _ _ _ _ _ _ _ _ _ _ _ _ _ _ _ _ _ _ _ _ _ _ _)
        unfold owns; iexists _; isplitr
        swap; · iexact HS3
        ipureintro; exact View.read_writes_of_cover _ _ _ _ _ (scover2_A_3 c _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h1 : t.val % 16 = 0
    · rw [Dat.leavesExact_idle (dat2 V c) 7 t (idleAt2_7 t (nc3_of t (by omega))) (noFlush2_7 t (nc3_of t (by omega)))]
      rw [outsAt2_B V c t hz h1]
      unfold stepB sout2_B_1 sout2_B_2 sout2_B_3; (try dsimp only)
      rw [PhiS_castSucc V c t, PhiS_pos V c _ _ hz]
      unfold scr2
      iintro ⟨⟨⟨T0, T1, T2, T3, T4, T5, T6, T7, T8, T9, T10, T11, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_B c (grid2.coords t) _ _ _ _ _ _ _ _ _ _ _ _ _ _ _ _ _ _ _ _ _ _ _ _ (nc0_of t hz) (c1_of t h1) (nc2_of t (by omega)) (nc3_of t (by omega)) (iblk2 V c 0 t) (iblk2 V c 1 t) (iblk2 V c 2 t) (iblk2 V c 3 t) (iblk2 V c 4 t) (iblk2 V c 5 t) (iblk2 V c 6 t) _ _ _ _).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, ⟨%es1, HS1⟩, ⟨%es2, HS2⟩, ⟨%es3, HS3⟩⟩
      isplitl [T0 T1 T2 T3 T4 T5 T6 T7 T8 T9 T10 T11 HS0 HS1 HS2 HS3 Hg]
      · isplitl [T0 T1 T2 T3 T4 T5 T6 T7 T8 T9 T10 T11 HS0 HS1 HS2 HS3]
        · isplitl [T0]; · iexact T0
          isplitl [T1]; · iexact T1
          isplitl [T2]; · iexact T2
          isplitl [T3]; · iexact T3
          isplitl [T4]; · iexact T4
          isplitl [T5]; · iexact T5
          isplitl [T6]; · iexact T6
          isplitl [T7]; · iexact T7
          isplitl [T8]; · iexact T8
          isplitl [T9]; · iexact T9
          isplitl [T10]; · iexact T10
          isplitl [T11]; · iexact T11
          isplitl [HS0]; · iexact HS0
          isplitl [HS1]
          · unfold owns; iexists _; isplitr
            swap; · iexact HS1
            ipureintro; exact View.read_writes_of_cover _ _ _ _ _ (scover2_B_1 c _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover2_B_2 c _ _ _ _ _ _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover2_B_3 c _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · by_cases h2 : t.val % 16 = 15
      · by_cases h3 : t.val % 80 = 79
        · rw [show (dat2 V c).leavesExact 7 t = owns (c : Thread nD τ) (ms2_7 t) fullShare ((dat2 V c).after 7 t) from by
            unfold Dat.leavesExact; rw [liveAt2_7 t (c3_of t h3)], after2_7]
          rw [outsAt2_E V c t h3]
          unfold stepE sout2_E_0 sout2_E_2 sout2_E_3 out2_E_7; (try dsimp only)
          rw [PhiS_castSucc V c t, PhiS_pos V c _ _ hz]
          unfold scr2
          iintro ⟨⟨⟨T0, T1, T2, T3, T4, T5, T6, T7, T8, T9, T10, T11, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun2_E c (grid2.coords t) _ _ _ _ _ _ _ _ _ _ _ _ _ _ _ _ _ _ _ _ _ _ _ _ (nc0_of t hz) (nc1_of t h1) (c2_of t h2) (c3_of t h3) (iblk2 V c 0 t) (iblk2 V c 1 t) (iblk2 V c 2 t) (iblk2 V c 3 t) (iblk2 V c 4 t) (iblk2 V c 5 t) (iblk2 V c 6 t) _ _ _ _).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [HS0]; · iexact HS0
          isplitl [HS1]; · iexact HS1
          isplitl [HS2]; · iexact HS2
          isplitl [HS3]; · iexact HS3
          iintro ⟨H0, H1, H2, H3, H4, H5, H6, ⟨%e7, H7⟩, ⟨%es0, HS0⟩, HS1, ⟨%es2, HS2⟩, ⟨%es3, HS3⟩⟩
          isplitl [T0 T1 T2 T3 T4 T5 T6 T7 T8 T9 T10 T11 HS0 HS1 HS2 HS3 Hg]
          · isplitl [T0 T1 T2 T3 T4 T5 T6 T7 T8 T9 T10 T11 HS0 HS1 HS2 HS3]
            · isplitl [T0]; · iexact T0
              isplitl [T1]; · iexact T1
              isplitl [T2]; · iexact T2
              isplitl [T3]; · iexact T3
              isplitl [T4]; · iexact T4
              isplitl [T5]; · iexact T5
              isplitl [T6]; · iexact T6
              isplitl [T7]; · iexact T7
              isplitl [T8]; · iexact T8
              isplitl [T9]; · iexact T9
              isplitl [T10]; · iexact T10
              isplitl [T11]; · iexact T11
              isplitl [HS0]
              · unfold owns; iexists _; isplitr
                swap; · iexact HS0
                ipureintro; exact View.read_writes_of_cover _ _ _ _ _ (scover2_E_0 c _ _ _ _ _ _ _ _ _ _ _ _ _ _ _ _ _ _ _ _ _ _ _ _ _ _ _ _ _ _ _ _ _ _ _ _ _ _ _ _)
              isplitl [HS1]; · iexact HS1
              isplitl [HS2]
              · unfold owns; iexists _; isplitr
                swap; · iexact HS2
                ipureintro; exact View.read_writes_of_cover _ _ _ _ _ (scover2_E_2 c _ _ _ _ _ _ _ _ _ _ _ _ _ _ _ _ _ _ _ _ _ _ _ _ _ _ _ _ _ _ _ _ _ _ _ _ _ _ _ _)
              unfold owns; iexists _; isplitr
              swap; · iexact HS3
              ipureintro; exact View.read_writes_of_cover _ _ _ _ _ (scover2_E_3 c _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          unfold owns; iexists _; isplitr
          swap; · iexact H7
          ipureintro; exact View.read_writes_of_cover _ _ _ _ _ (cover2_E_7 c _ _ _ _ _ _ _ _ _ _ _ _ _ _ _ _ _ _ _ _ _ _ _ _ _ _ _ _ _ _ _ _ _ _ _ _ _ _ _ _)
        · rw [Dat.leavesExact_idle (dat2 V c) 7 t (idleAt2_7 t (nc3_of t h3)) (noFlush2_7 t (nc3_of t h3))]
          rw [outsAt2_D V c t h2 h3]
          unfold stepD sout2_D_0 sout2_D_2 sout2_D_3; (try dsimp only)
          rw [PhiS_castSucc V c t, PhiS_pos V c _ _ hz]
          unfold scr2
          iintro ⟨⟨⟨T0, T1, T2, T3, T4, T5, T6, T7, T8, T9, T10, T11, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun2_D c (grid2.coords t) _ _ _ _ _ _ _ _ _ _ _ _ _ _ _ _ _ _ _ _ _ _ _ _ (nc0_of t hz) (nc1_of t h1) (c2_of t h2) (nc3_of t h3) (iblk2 V c 0 t) (iblk2 V c 1 t) (iblk2 V c 2 t) (iblk2 V c 3 t) (iblk2 V c 4 t) (iblk2 V c 5 t) (iblk2 V c 6 t) _ _ _ _).2.2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [HS0]; · iexact HS0
          isplitl [HS1]; · iexact HS1
          isplitl [HS2]; · iexact HS2
          isplitl [HS3]; · iexact HS3
          iintro ⟨H0, H1, H2, H3, H4, H5, H6, H7, ⟨%es0, HS0⟩, HS1, ⟨%es2, HS2⟩, ⟨%es3, HS3⟩⟩
          isplitl [T0 T1 T2 T3 T4 T5 T6 T7 T8 T9 T10 T11 HS0 HS1 HS2 HS3 Hg]
          · isplitl [T0 T1 T2 T3 T4 T5 T6 T7 T8 T9 T10 T11 HS0 HS1 HS2 HS3]
            · isplitl [T0]; · iexact T0
              isplitl [T1]; · iexact T1
              isplitl [T2]; · iexact T2
              isplitl [T3]; · iexact T3
              isplitl [T4]; · iexact T4
              isplitl [T5]; · iexact T5
              isplitl [T6]; · iexact T6
              isplitl [T7]; · iexact T7
              isplitl [T8]; · iexact T8
              isplitl [T9]; · iexact T9
              isplitl [T10]; · iexact T10
              isplitl [T11]; · iexact T11
              isplitl [HS0]
              · unfold owns; iexists _; isplitr
                swap; · iexact HS0
                ipureintro; exact View.read_writes_of_cover _ _ _ _ _ (scover2_D_0 c _ _ _ _ _ _ _ _ _ _ _ _ _ _ _ _ _ _ _ _ _ _ _ _ _ _ _ _ _ _ _ _ _ _ _ _ _ _ _ _)
              isplitl [HS1]; · iexact HS1
              isplitl [HS2]
              · unfold owns; iexists _; isplitr
                swap; · iexact HS2
                ipureintro; exact View.read_writes_of_cover _ _ _ _ _ (scover2_D_2 c _ _ _ _ _ _ _ _ _ _ _ _ _ _ _ _ _ _ _ _ _ _ _ _ _ _ _ _ _ _ _ _ _ _ _ _ _ _ _ _)
              unfold owns; iexists _; isplitr
              swap; · iexact HS3
              ipureintro; exact View.read_writes_of_cover _ _ _ _ _ (scover2_D_3 c _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          iexists _; iexact H7
      · rw [Dat.leavesExact_idle (dat2 V c) 7 t (idleAt2_7 t (nc3_of t (by omega))) (noFlush2_7 t (nc3_of t (by omega)))]
        rw [outsAt2_C V c t hz h1 h2]
        unfold stepC sout2_C_2 sout2_C_3; (try dsimp only)
        rw [PhiS_castSucc V c t, PhiS_pos V c _ _ hz]
        unfold scr2
        iintro ⟨⟨⟨T0, T1, T2, T3, T4, T5, T6, T7, T8, T9, T10, T11, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_C c (grid2.coords t) _ _ _ _ _ _ _ _ _ _ _ _ _ _ _ _ _ _ _ _ _ _ _ _ (nc0_of t hz) (nc1_of t h1) (nc2_of t h2) (nc3_of t (by omega)) (iblk2 V c 0 t) (iblk2 V c 1 t) (iblk2 V c 2 t) (iblk2 V c 3 t) (iblk2 V c 4 t) (iblk2 V c 5 t) (iblk2 V c 6 t) _ _ _ _).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        isplitl [HS3]; · iexact HS3
        iintro ⟨H0, H1, H2, H3, H4, H5, H6, H7, HS0, HS1, ⟨%es2, HS2⟩, ⟨%es3, HS3⟩⟩
        isplitl [T0 T1 T2 T3 T4 T5 T6 T7 T8 T9 T10 T11 HS0 HS1 HS2 HS3 Hg]
        · isplitl [T0 T1 T2 T3 T4 T5 T6 T7 T8 T9 T10 T11 HS0 HS1 HS2 HS3]
          · isplitl [T0]; · iexact T0
            isplitl [T1]; · iexact T1
            isplitl [T2]; · iexact T2
            isplitl [T3]; · iexact T3
            isplitl [T4]; · iexact T4
            isplitl [T5]; · iexact T5
            isplitl [T6]; · iexact T6
            isplitl [T7]; · iexact T7
            isplitl [T8]; · iexact T8
            isplitl [T9]; · iexact T9
            isplitl [T10]; · iexact T10
            isplitl [T11]; · iexact T11
            isplitl [HS0]; · iexact HS0
            isplitl [HS1]; · iexact HS1
            isplitl [HS2]
            · unfold owns; iexists _; isplitr
              swap; · iexact HS2
              ipureintro; exact View.read_writes_of_cover _ _ _ _ _ (scover2_C_2 c _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover2_C_3 c _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After any point but the first the invariant gives the launch's back: the scratch tables' named contents are
    forgotten. -/
theorem Phi_out2 (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA2_eq]
  unfold scr2
  iintro ⟨⟨T0, T1, T2, T3, T4, T5, T6, T7, T8, T9, T10, T11, HS0, HS1, HS2, HS3⟩, Hg⟩
  isplitl [T0 T1 T2 T3 T4 T5 T6 T7 T8 T9 T10 T11 HS0 HS1 HS2 HS3]
  · isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [HS0]; · iexists _; iexact HS0
    isplitl [HS1]; · iexists _; iexact HS1
    isplitl [HS2]; · iexists _; iexact HS2
    iexists _; iexact HS3
  iexact Hg

theorem hout2 (c : Dev nD) : (dat2 V c).Φ (Fin.last cfg2.N) ⊢ Pipeline.ΦA spec2 c :=
  Phi_out2 V c _ (by rw [Fin.val_last]; have : cfg2.N = 80 := N_2; omega)

end Cert.Kernel.Hand

end
-- ==== Proof.K.Run.lean ====
/-
  @main as seven segments, each region a segment over the thread state "every unscoped buffer at the boundary's
  contents, the generator register at some state, nothing owed", and the run: every weakly fair execution of
  @main terminates with every unscoped buffer at the last boundary's contents.
-/
import proofs.«171617_j90795608638216_2_alg».proof.Proof.K.Fold
import proofs.«171617_j90795608638216_2_alg».proof.Proof.K.R2Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W7 m c) ∗ ∃ r, prngReg c r)

set_option backward.isDefEq.respectTransparency.types false in
/-- Region 0 over the thread state: entered from every unscoped buffer at the boundary's contents, left at the
    next boundary's. Its arrays are split out of the unscoped buffers and put back at the exit contents; the
    generator register goes into the region's invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the
    next boundary's. Its arrays are split out of the unscoped buffers and put back at the exit contents; the
    generator register goes into the region's invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary's contents, left at the
    next boundary's. Its arrays are split out of the unscoped buffers and put back at the exit contents; the
    generator register goes into the region's invariant and comes back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = (dat2 (U5 m) c).Φ (Fin.last cfg2.N) from rfl]
    iintro H
    ihave H' := (hout2 (U5 m) c) $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c)⟩) (run_all m ρ)

end Cert.Kernel.Hand

end
-- ==== Proof.KI.R0Runs.lean ====
/-
  Region 0 (a Gaussian-kernel builder, 3 feature rows): what its two control cases share. The grid has 16
  points, one per tile of 256 rows of the kernel matrix. At the first point the body clears the column-sum
  block before adding the tile's column sums to it; at the later points it adds onto what the point before
  left. The entry contents of the unscoped buffers are a parameter V.
-/
import proofs.«171617_j90795608638216_2_alg».proof.Proof.Gen.KernelIdeal.Launch
import proofs.«171617_j90795608638216_2_alg».proof.Proof.Gen.KernelIdeal.Skeleton
import proofs.«171617_j90795608638216_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's one branch condition: the tile is the first. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- One staging buffer of each output window, through which its contents are stated. -/
abbrev VO0_2 : View sig .tc .vmem S256x4096 .bf16 := (Memref.whole cc0_stg2_0 : Memref sig .tc .vmem S256x4096 .bf16).view
abbrev VO0_3 : View sig .tc .vmem S1x4096 .f32 := (Memref.whole cc0_stg3_0 : Memref sig .tc .vmem S1x4096 .f32).view
/-- Each window's current staging memref at point t, as the pipeline passes it. -/
abbrev ms0_0 (t : Fin cfg0.N) : Memref sig .tc .vmem S3x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096 .f32 := win0_3.stage (cfg0.slots t 3)
abbrev hs0_3 (t : Fin cfg0.N) : (ms0_3 t).IsWhole := hstage0_3 ((cfg0.slots t 3).cast nbuf0_3)

end Cert.KernelIdeal.Hand

end
-- ==== Proof.KI.R0RunA.lean ====
/-
  Region 0, the first tile: the body clears the column-sum block, stores the tile of the kernel matrix, and
  stores the cleared block plus the tile's column sums. The pieces each output buffer ends with are found by
  running the body.
-/
import proofs.«171617_j90795608638216_2_alg».proof.Proof.KI.R0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg1 : Memref sig .tc .vmem S3x4096 .f32) (harg1 : arg1.IsWhole) (arg2 : Memref sig .tc .vmem S256x3 .f32) (harg2 : arg2.IsWhole) (arg3 : Memref sig .tc .vmem S256x4096 .bf16) (harg3 : arg3.IsWhole) (arg4 : Memref sig .tc .vmem S1x4096 .f32) (harg4 : arg4.IsWhole) (hc0 : cond0_0 i)
    (x0 : Vec F S3x4096 .f32) (x1 : Vec F S256x3 .f32) :
    Σ' (L2 : List (View.Piece (Elt F) S256x4096 .bf16)), { L3 : List (View.Piece (Elt F) S1x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0__gauss_kernel_body i arg1 harg1 arg2 harg2 arg3 harg3 arg4 harg4) K } := by
  refine ⟨?_, ?_, fun E K => ?run⟩
  case run =>
    simp only [cc0__gauss_kernel_body_eq_skeleton]; unfold cc0__gauss_kernel_body_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

end Cert.KernelIdeal.Hand

end
-- ==== Proof.KI.R0RunB.lean ====
/-
  Region 0, a later tile: the body stores the tile of the kernel matrix, and stores the column-sum block it
  found plus the tile's column sums.
-/
import proofs.«171617_j90795608638216_2_alg».proof.Proof.KI.R0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg1 : Memref sig .tc .vmem S3x4096 .f32) (harg1 : arg1.IsWhole) (arg2 : Memref sig .tc .vmem S256x3 .f32) (harg2 : arg2.IsWhole) (arg3 : Memref sig .tc .vmem S256x4096 .bf16) (harg3 : arg3.IsWhole) (arg4 : Memref sig .tc .vmem S1x4096 .f32) (harg4 : arg4.IsWhole) (hc0 : ¬cond0_0 i)
    (x0 : Vec F S3x4096 .f32) (x1 : Vec F S256x3 .f32) (xo3 : Vec F S1x4096 .f32) :
    Σ' (L2 : List (View.Piece (Elt F) S256x4096 .bf16)), { L3 : List (View.Piece (Elt F) S1x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0__gauss_kernel_body i arg1 harg1 arg2 harg2 arg3 harg3 arg4 harg4) K } := by
  refine ⟨?_, ?_, fun E K => ?run⟩
  case run =>
    simp only [cc0__gauss_kernel_body_eq_skeleton]; unfold cc0__gauss_kernel_body_skel
    unfold owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

end Cert.KernelIdeal.Hand

end
-- ==== Proof.KI.R0.lean ====
/-
  Region 0: what its two output buffers hold after each of the 16 tiles (the tile of the kernel matrix; the
  running column sums), the pipeline's proof data at entry contents V, and the body obligation.
-/
import proofs.«171617_j90795608638216_2_alg».proof.Proof.KI.R0RunA
import proofs.«171617_j90795608638216_2_alg».proof.Proof.KI.R0RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the two output buffers -/

theorem cover0_A_2 (c : Dev nD) (i : grid0.Coords) (arg1 : Memref sig .tc .vmem S3x4096 .f32) (harg1 : arg1.IsWhole) (arg2 : Memref sig .tc .vmem S256x3 .f32) (harg2 : arg2.IsWhole) (arg3 : Memref sig .tc .vmem S256x4096 .bf16) (harg3 : arg3.IsWhole) (arg4 : Memref sig .tc .vmem S1x4096 .f32) (harg4 : arg4.IsWhole) (hc0 : cond0_0 i) (x0 : Vec F S3x4096 .f32) (x1 : Vec F S256x3 .f32) (y : S256x4096.Idx) :
    ∃ pc ∈ (kernelRun0_A c i arg1 harg1 arg2 harg2 arg3 harg3 arg4 harg4 hc0 x0 x1).1, y ∈ pc.1.set :=
  View.cover_of_tiledL (kernelRun0_A c i arg1 harg1 arg2 harg2 arg3 harg3 arg4 harg4 hc0 x0 x1).1 S256x4096.size (by sl_kernel_rfl) y
def out0_A_2 (c : Dev nD) (i : grid0.Coords) (arg1 : Memref sig .tc .vmem S3x4096 .f32) (harg1 : arg1.IsWhole) (arg2 : Memref sig .tc .vmem S256x3 .f32) (harg2 : arg2.IsWhole) (arg3 : Memref sig .tc .vmem S256x4096 .bf16) (harg3 : arg3.IsWhole) (arg4 : Memref sig .tc .vmem S1x4096 .f32) (harg4 : arg4.IsWhole) (hc0 : cond0_0 i) (x0 : Vec F S3x4096 .f32) (x1 : Vec F S256x3 .f32) : Vec F S256x4096 .bf16 :=
  VO0_2.read (Elt F) (VO0_2.writes (Elt F) VO0_2.junk (kernelRun0_A c i arg1 harg1 arg2 harg2 arg3 harg3 arg4 harg4 hc0 x0 x1).1)
theorem cover0_A_3 (c : Dev nD) (i : grid0.Coords) (arg1 : Memref sig .tc .vmem S3x4096 .f32) (harg1 : arg1.IsWhole) (arg2 : Memref sig .tc .vmem S256x3 .f32) (harg2 : arg2.IsWhole) (arg3 : Memref sig .tc .vmem S256x4096 .bf16) (harg3 : arg3.IsWhole) (arg4 : Memref sig .tc .vmem S1x4096 .f32) (harg4 : arg4.IsWhole) (hc0 : cond0_0 i) (x0 : Vec F S3x4096 .f32) (x1 : Vec F S256x3 .f32) (y : S1x4096.Idx) :
    ∃ pc ∈ (kernelRun0_A c i arg1 harg1 arg2 harg2 arg3 harg3 arg4 harg4 hc0 x0 x1).2.1, y ∈ pc.1.set :=
  View.cover_of_tiledL (kernelRun0_A c i arg1 harg1 arg2 harg2 arg3 harg3 arg4 harg4 hc0 x0 x1).2.1 S1x4096.size (by sl_kernel_rfl) y
def out0_A_3 (c : Dev nD) (i : grid0.Coords) (arg1 : Memref sig .tc .vmem S3x4096 .f32) (harg1 : arg1.IsWhole) (arg2 : Memref sig .tc .vmem S256x3 .f32) (harg2 : arg2.IsWhole) (arg3 : Memref sig .tc .vmem S256x4096 .bf16) (harg3 : arg3.IsWhole) (arg4 : Memref sig .tc .vmem S1x4096 .f32) (harg4 : arg4.IsWhole) (hc0 : cond0_0 i) (x0 : Vec F S3x4096 .f32) (x1 : Vec F S256x3 .f32) : Vec F S1x4096 .f32 :=
  VO0_3.read (Elt F) (VO0_3.writes (Elt F) VO0_3.junk (kernelRun0_A c i arg1 harg1 arg2 harg2 arg3 harg3 arg4 harg4 hc0 x0 x1).2.1)

theorem cover0_B_2 (c : Dev nD) (i : grid0.Coords) (arg1 : Memref sig .tc .vmem S3x4096 .f32) (harg1 : arg1.IsWhole) (arg2 : Memref sig .tc .vmem S256x3 .f32) (harg2 : arg2.IsWhole) (arg3 : Memref sig .tc .vmem S256x4096 .bf16) (harg3 : arg3.IsWhole) (arg4 : Memref sig .tc .vmem S1x4096 .f32) (harg4 : arg4.IsWhole) (hc0 : ¬cond0_0 i) (x0 : Vec F S3x4096 .f32) (x1 : Vec F S256x3 .f32) (xo3 : Vec F S1x4096 .f32) (y : S256x4096.Idx) :
    ∃ pc ∈ (kernelRun0_B c i arg1 harg1 arg2 harg2 arg3 harg3 arg4 harg4 hc0 x0 x1 xo3).1, y ∈ pc.1.set :=
  View.cover_of_tiledL (kernelRun0_B c i arg1 harg1 arg2 harg2 arg3 harg3 arg4 harg4 hc0 x0 x1 xo3).1 S256x4096.size (by sl_kernel_rfl) y
def out0_B_2 (c : Dev nD) (i : grid0.Coords) (arg1 : Memref sig .tc .vmem S3x4096 .f32) (harg1 : arg1.IsWhole) (arg2 : Memref sig .tc .vmem S256x3 .f32) (harg2 : arg2.IsWhole) (arg3 : Memref sig .tc .vmem S256x4096 .bf16) (harg3 : arg3.IsWhole) (arg4 : Memref sig .tc .vmem S1x4096 .f32) (harg4 : arg4.IsWhole) (hc0 : ¬cond0_0 i) (x0 : Vec F S3x4096 .f32) (x1 : Vec F S256x3 .f32) (xo3 : Vec F S1x4096 .f32) : Vec F S256x4096 .bf16 :=
  VO0_2.read (Elt F) (VO0_2.writes (Elt F) VO0_2.junk (kernelRun0_B c i arg1 harg1 arg2 harg2 arg3 harg3 arg4 harg4 hc0 x0 x1 xo3).1)
theorem cover0_B_3 (c : Dev nD) (i : grid0.Coords) (arg1 : Memref sig .tc .vmem S3x4096 .f32) (harg1 : arg1.IsWhole) (arg2 : Memref sig .tc .vmem S256x3 .f32) (harg2 : arg2.IsWhole) (arg3 : Memref sig .tc .vmem S256x4096 .bf16) (harg3 : arg3.IsWhole) (arg4 : Memref sig .tc .vmem S1x4096 .f32) (harg4 : arg4.IsWhole) (hc0 : ¬cond0_0 i) (x0 : Vec F S3x4096 .f32) (x1 : Vec F S256x3 .f32) (xo3 : Vec F S1x4096 .f32) (y : S1x4096.Idx) :
    ∃ pc ∈ (kernelRun0_B c i arg1 harg1 arg2 harg2 arg3 harg3 arg4 harg4 hc0 x0 x1 xo3).2.1, y ∈ pc.1.set :=
  View.cover_of_tiledL (kernelRun0_B c i arg1 harg1 arg2 harg2 arg3 harg3 arg4 harg4 hc0 x0 x1 xo3).2.1 S1x4096.size (by sl_kernel_rfl) y
def out0_B_3 (c : Dev nD) (i : grid0.Coords) (arg1 : Memref sig .tc .vmem S3x4096 .f32) (harg1 : arg1.IsWhole) (arg2 : Memref sig .tc .vmem S256x3 .f32) (harg2 : arg2.IsWhole) (arg3 : Memref sig .tc .vmem S256x4096 .bf16) (harg3 : arg3.IsWhole) (arg4 : Memref sig .tc .vmem S1x4096 .f32) (harg4 : arg4.IsWhole) (hc0 : ¬cond0_0 i) (x0 : Vec F S3x4096 .f32) (x1 : Vec F S256x3 .f32) (xo3 : Vec F S1x4096 .f32) : Vec F S1x4096 .f32 :=
  VO0_3.read (Elt F) (VO0_3.writes (Elt F) VO0_3.junk (kernelRun0_B c i arg1 harg1 arg2 harg2 arg3 harg3 arg4 harg4 hc0 x0 x1 xo3).2.1)

/-! ## What the outputs hold after each tile -/

/-- After tile n: the tile of the kernel matrix, and the column sums of tiles 0..n. -/
def outsAt0 (c : Dev nD) : (n : ℕ) → n < cfg0.N → Vec F S256x4096 .bf16 × Vec F S1x4096 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk0 V c 0 ⟨0, hn⟩) (iblk0 V c 1 ⟨0, hn⟩),
              out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk0 V c 0 ⟨0, hn⟩) (iblk0 V c 1 ⟨0, hn⟩))
  | n + 1, hn =>
    if h0 : (n + 1) % 16 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk0 V c 0 ⟨n + 1, hn⟩) (iblk0 V c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 16 = 0) :
    outsAt0 V c t.val t.isLt = (out0_A_2 c (grid0.coords t) (ms0_0 t) (hs0_0 t) (ms0_1 t) (hs0_1 t) (ms0_2 t) (hs0_2 t) (ms0_3 t) (hs0_3 t) ((hcond0_0 t).mpr h0) (iblk0 V c 0 t) (iblk0 V c 1 t),
      out0_A_3 c (grid0.coords t) (ms0_0 t) (hs0_0 t) (ms0_1 t) (hs0_1 t) (ms0_2 t) (hs0_2 t) (ms0_3 t) (hs0_3 t) ((hcond0_0 t).mpr h0) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 16 = 0) :
    outsAt0 V c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t) (outsAt0 V c (t.val - 1) (Nat.lt_of_le_of_lt (Nat.sub_le _ _) t.isLt)).2,
      out0_B_3 c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later tile the column-sum block's staging buffer holds what the tile before left: it is written back only
    after the last tile. -/
theorem before0_3_B (c : Dev nD) (t : Fin cfg0.N) (h0 : ¬t.val % 16 = 0) (d) :
    (dat0 V c).before 3 t d = (outsAt0 V c (t.val - 1) (Nat.lt_of_le_of_lt (Nat.sub_le _ _) t.isLt)).2 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  have hN : t.val < 16 := lt_of_lt_of_eq t.isLt (show cfg0.N = 16 from N_0)
  by_cases h0 : t.val % 16 = 0
  · rw [outsAt0_A V c t h0]
    unfold out0_A_2 out0_A_3; (try dsimp only)
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk0 V c 0 t) (iblk0 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    unfold owns; iexists _; isplitr
    swap; · iexact H3
    ipureintro; exact View.read_writes_of_cover _ _ _ _ _ (cover0_A_3 c _ _ _ _ _ _ _ _ _ _ _ _)
  · rw [outsAt0_B V c t h0]
    simp only [before0_3_B V c t h0]
    unfold out0_B_2 out0_B_3; (try dsimp only)
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk0 V c 0 t) (iblk0 V c 1 t) _).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _)
    unfold owns; iexists _; isplitr
    swap; · iexact H3
    ipureintro; exact View.read_writes_of_cover _ _ _ _ _ (cover0_B_3 c _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
/-
  Region 1 (a Gaussian-kernel builder, 6 feature rows): what its two control cases share. The grid has 16
  points, one per tile of 256 rows of the kernel matrix. At the first point the body clears the column-sum
  block before adding the tile's column sums to it; at the later points it adds onto what the point before
  left. The entry contents of the unscoped buffers are a parameter V.
-/
import proofs.«171617_j90795608638216_2_alg».proof.Proof.Gen.KernelIdeal.Launch
import proofs.«171617_j90795608638216_2_alg».proof.Proof.Gen.KernelIdeal.Skeleton
import proofs.«171617_j90795608638216_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's one branch condition: the tile is the first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- One staging buffer of each output window, through which its contents are stated. -/
abbrev VO1_2 : View sig .tc .vmem S256x4096 .bf16 := (Memref.whole cc1_stg2_0 : Memref sig .tc .vmem S256x4096 .bf16).view
abbrev VO1_3 : View sig .tc .vmem S1x4096 .f32 := (Memref.whole cc1_stg3_0 : Memref sig .tc .vmem S1x4096 .f32).view
/-- Each window's current staging memref at point t, as the pipeline passes it. -/
abbrev ms1_0 (t : Fin cfg1.N) : Memref sig .tc .vmem S6x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x6 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x4096 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x4096 .f32 := win1_3.stage (cfg1.slots t 3)
abbrev hs1_3 (t : Fin cfg1.N) : (ms1_3 t).IsWhole := hstage1_3 ((cfg1.slots t 3).cast nbuf1_3)

end Cert.KernelIdeal.Hand

end
-- ==== Proof.KI.R1RunA.lean ====
/-
  Region 1, the first tile: the body clears the column-sum block, stores the tile of the kernel matrix, and
  stores the cleared block plus the tile's column sums. The pieces each output buffer ends with are found by
  running the body.
-/
import proofs.«171617_j90795608638216_2_alg».proof.Proof.KI.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg1 : Memref sig .tc .vmem S6x4096 .f32) (harg1 : arg1.IsWhole) (arg2 : Memref sig .tc .vmem S256x6 .f32) (harg2 : arg2.IsWhole) (arg3 : Memref sig .tc .vmem S256x4096 .bf16) (harg3 : arg3.IsWhole) (arg4 : Memref sig .tc .vmem S1x4096 .f32) (harg4 : arg4.IsWhole) (hc0 : cond1_0 i)
    (x0 : Vec F S6x4096 .f32) (x1 : Vec F S256x6 .f32) :
    Σ' (L2 : List (View.Piece (Elt F) S256x4096 .bf16)), { L3 : List (View.Piece (Elt F) S1x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc1__gauss_kernel_body i arg1 harg1 arg2 harg2 arg3 harg3 arg4 harg4) K } := by
  refine ⟨?_, ?_, fun E K => ?run⟩
  case run =>
    simp only [cc1__gauss_kernel_body_eq_skeleton]; unfold cc1__gauss_kernel_body_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

end Cert.KernelIdeal.Hand

end
-- ==== Proof.KI.R1RunB.lean ====
/-
  Region 1, a later tile: the body stores the tile of the kernel matrix, and stores the column-sum block it
  found plus the tile's column sums.
-/
import proofs.«171617_j90795608638216_2_alg».proof.Proof.KI.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg1 : Memref sig .tc .vmem S6x4096 .f32) (harg1 : arg1.IsWhole) (arg2 : Memref sig .tc .vmem S256x6 .f32) (harg2 : arg2.IsWhole) (arg3 : Memref sig .tc .vmem S256x4096 .bf16) (harg3 : arg3.IsWhole) (arg4 : Memref sig .tc .vmem S1x4096 .f32) (harg4 : arg4.IsWhole) (hc0 : ¬cond1_0 i)
    (x0 : Vec F S6x4096 .f32) (x1 : Vec F S256x6 .f32) (xo3 : Vec F S1x4096 .f32) :
    Σ' (L2 : List (View.Piece (Elt F) S256x4096 .bf16)), { L3 : List (View.Piece (Elt F) S1x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc1__gauss_kernel_body i arg1 harg1 arg2 harg2 arg3 harg3 arg4 harg4) K } := by
  refine ⟨?_, ?_, fun E K => ?run⟩
  case run =>
    simp only [cc1__gauss_kernel_body_eq_skeleton]; unfold cc1__gauss_kernel_body_skel
    unfold owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact H3

end Cert.KernelIdeal.Hand

end
-- ==== Proof.KI.R1.lean ====
/-
  Region 1: what its two output buffers hold after each of the 16 tiles (the tile of the kernel matrix; the
  running column sums), the pipeline's proof data at entry contents V, and the body obligation.
-/
import proofs.«171617_j90795608638216_2_alg».proof.Proof.KI.R1RunA
import proofs.«171617_j90795608638216_2_alg».proof.Proof.KI.R1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the two output buffers -/

theorem cover1_A_2 (c : Dev nD) (i : grid1.Coords) (arg1 : Memref sig .tc .vmem S6x4096 .f32) (harg1 : arg1.IsWhole) (arg2 : Memref sig .tc .vmem S256x6 .f32) (harg2 : arg2.IsWhole) (arg3 : Memref sig .tc .vmem S256x4096 .bf16) (harg3 : arg3.IsWhole) (arg4 : Memref sig .tc .vmem S1x4096 .f32) (harg4 : arg4.IsWhole) (hc0 : cond1_0 i) (x0 : Vec F S6x4096 .f32) (x1 : Vec F S256x6 .f32) (y : S256x4096.Idx) :
    ∃ pc ∈ (kernelRun1_A c i arg1 harg1 arg2 harg2 arg3 harg3 arg4 harg4 hc0 x0 x1).1, y ∈ pc.1.set :=
  View.cover_of_tiledL (kernelRun1_A c i arg1 harg1 arg2 harg2 arg3 harg3 arg4 harg4 hc0 x0 x1).1 S256x4096.size (by sl_kernel_rfl) y
def out1_A_2 (c : Dev nD) (i : grid1.Coords) (arg1 : Memref sig .tc .vmem S6x4096 .f32) (harg1 : arg1.IsWhole) (arg2 : Memref sig .tc .vmem S256x6 .f32) (harg2 : arg2.IsWhole) (arg3 : Memref sig .tc .vmem S256x4096 .bf16) (harg3 : arg3.IsWhole) (arg4 : Memref sig .tc .vmem S1x4096 .f32) (harg4 : arg4.IsWhole) (hc0 : cond1_0 i) (x0 : Vec F S6x4096 .f32) (x1 : Vec F S256x6 .f32) : Vec F S256x4096 .bf16 :=
  VO1_2.read (Elt F) (VO1_2.writes (Elt F) VO1_2.junk (kernelRun1_A c i arg1 harg1 arg2 harg2 arg3 harg3 arg4 harg4 hc0 x0 x1).1)
theorem cover1_A_3 (c : Dev nD) (i : grid1.Coords) (arg1 : Memref sig .tc .vmem S6x4096 .f32) (harg1 : arg1.IsWhole) (arg2 : Memref sig .tc .vmem S256x6 .f32) (harg2 : arg2.IsWhole) (arg3 : Memref sig .tc .vmem S256x4096 .bf16) (harg3 : arg3.IsWhole) (arg4 : Memref sig .tc .vmem S1x4096 .f32) (harg4 : arg4.IsWhole) (hc0 : cond1_0 i) (x0 : Vec F S6x4096 .f32) (x1 : Vec F S256x6 .f32) (y : S1x4096.Idx) :
    ∃ pc ∈ (kernelRun1_A c i arg1 harg1 arg2 harg2 arg3 harg3 arg4 harg4 hc0 x0 x1).2.1, y ∈ pc.1.set :=
  View.cover_of_tiledL (kernelRun1_A c i arg1 harg1 arg2 harg2 arg3 harg3 arg4 harg4 hc0 x0 x1).2.1 S1x4096.size (by sl_kernel_rfl) y
def out1_A_3 (c : Dev nD) (i : grid1.Coords) (arg1 : Memref sig .tc .vmem S6x4096 .f32) (harg1 : arg1.IsWhole) (arg2 : Memref sig .tc .vmem S256x6 .f32) (harg2 : arg2.IsWhole) (arg3 : Memref sig .tc .vmem S256x4096 .bf16) (harg3 : arg3.IsWhole) (arg4 : Memref sig .tc .vmem S1x4096 .f32) (harg4 : arg4.IsWhole) (hc0 : cond1_0 i) (x0 : Vec F S6x4096 .f32) (x1 : Vec F S256x6 .f32) : Vec F S1x4096 .f32 :=
  VO1_3.read (Elt F) (VO1_3.writes (Elt F) VO1_3.junk (kernelRun1_A c i arg1 harg1 arg2 harg2 arg3 harg3 arg4 harg4 hc0 x0 x1).2.1)

theorem cover1_B_2 (c : Dev nD) (i : grid1.Coords) (arg1 : Memref sig .tc .vmem S6x4096 .f32) (harg1 : arg1.IsWhole) (arg2 : Memref sig .tc .vmem S256x6 .f32) (harg2 : arg2.IsWhole) (arg3 : Memref sig .tc .vmem S256x4096 .bf16) (harg3 : arg3.IsWhole) (arg4 : Memref sig .tc .vmem S1x4096 .f32) (harg4 : arg4.IsWhole) (hc0 : ¬cond1_0 i) (x0 : Vec F S6x4096 .f32) (x1 : Vec F S256x6 .f32) (xo3 : Vec F S1x4096 .f32) (y : S256x4096.Idx) :
    ∃ pc ∈ (kernelRun1_B c i arg1 harg1 arg2 harg2 arg3 harg3 arg4 harg4 hc0 x0 x1 xo3).1, y ∈ pc.1.set :=
  View.cover_of_tiledL (kernelRun1_B c i arg1 harg1 arg2 harg2 arg3 harg3 arg4 harg4 hc0 x0 x1 xo3).1 S256x4096.size (by sl_kernel_rfl) y
def out1_B_2 (c : Dev nD) (i : grid1.Coords) (arg1 : Memref sig .tc .vmem S6x4096 .f32) (harg1 : arg1.IsWhole) (arg2 : Memref sig .tc .vmem S256x6 .f32) (harg2 : arg2.IsWhole) (arg3 : Memref sig .tc .vmem S256x4096 .bf16) (harg3 : arg3.IsWhole) (arg4 : Memref sig .tc .vmem S1x4096 .f32) (harg4 : arg4.IsWhole) (hc0 : ¬cond1_0 i) (x0 : Vec F S6x4096 .f32) (x1 : Vec F S256x6 .f32) (xo3 : Vec F S1x4096 .f32) : Vec F S256x4096 .bf16 :=
  VO1_2.read (Elt F) (VO1_2.writes (Elt F) VO1_2.junk (kernelRun1_B c i arg1 harg1 arg2 harg2 arg3 harg3 arg4 harg4 hc0 x0 x1 xo3).1)
theorem cover1_B_3 (c : Dev nD) (i : grid1.Coords) (arg1 : Memref sig .tc .vmem S6x4096 .f32) (harg1 : arg1.IsWhole) (arg2 : Memref sig .tc .vmem S256x6 .f32) (harg2 : arg2.IsWhole) (arg3 : Memref sig .tc .vmem S256x4096 .bf16) (harg3 : arg3.IsWhole) (arg4 : Memref sig .tc .vmem S1x4096 .f32) (harg4 : arg4.IsWhole) (hc0 : ¬cond1_0 i) (x0 : Vec F S6x4096 .f32) (x1 : Vec F S256x6 .f32) (xo3 : Vec F S1x4096 .f32) (y : S1x4096.Idx) :
    ∃ pc ∈ (kernelRun1_B c i arg1 harg1 arg2 harg2 arg3 harg3 arg4 harg4 hc0 x0 x1 xo3).2.1, y ∈ pc.1.set :=
  View.cover_of_tiledL (kernelRun1_B c i arg1 harg1 arg2 harg2 arg3 harg3 arg4 harg4 hc0 x0 x1 xo3).2.1 S1x4096.size (by sl_kernel_rfl) y
def out1_B_3 (c : Dev nD) (i : grid1.Coords) (arg1 : Memref sig .tc .vmem S6x4096 .f32) (harg1 : arg1.IsWhole) (arg2 : Memref sig .tc .vmem S256x6 .f32) (harg2 : arg2.IsWhole) (arg3 : Memref sig .tc .vmem S256x4096 .bf16) (harg3 : arg3.IsWhole) (arg4 : Memref sig .tc .vmem S1x4096 .f32) (harg4 : arg4.IsWhole) (hc0 : ¬cond1_0 i) (x0 : Vec F S6x4096 .f32) (x1 : Vec F S256x6 .f32) (xo3 : Vec F S1x4096 .f32) : Vec F S1x4096 .f32 :=
  VO1_3.read (Elt F) (VO1_3.writes (Elt F) VO1_3.junk (kernelRun1_B c i arg1 harg1 arg2 harg2 arg3 harg3 arg4 harg4 hc0 x0 x1 xo3).2.1)

/-! ## What the outputs hold after each tile -/

/-- After tile n: the tile of the kernel matrix, and the column sums of tiles 0..n. -/
def outsAt1 (c : Dev nD) : (n : ℕ) → n < cfg1.N → Vec F S256x4096 .bf16 × Vec F S1x4096 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (iblk1 V c 0 ⟨0, hn⟩) (iblk1 V c 1 ⟨0, hn⟩),
              out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (iblk1 V c 0 ⟨0, hn⟩) (iblk1 V c 1 ⟨0, hn⟩))
  | n + 1, hn =>
    if h0 : (n + 1) % 16 = 0 then
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (iblk1 V c 0 ⟨n + 1, hn⟩) (iblk1 V c 1 ⟨n + 1, hn⟩),
       out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (iblk1 V c 0 ⟨n + 1, hn⟩) (iblk1 V c 1 ⟨n + 1, hn⟩))
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn)).2,
       out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 16 = 0) :
    outsAt1 V c t.val t.isLt = (out1_A_2 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t),
      out1_A_3 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 16 = 0) :
    outsAt1 V c t.val t.isLt = (out1_B_2 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (outsAt1 V c (t.val - 1) (Nat.lt_of_le_of_lt (Nat.sub_le _ _) t.isLt)).2,
      out1_B_3 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a later tile the column-sum block's staging buffer holds what the tile before left: it is written back only
    after the last tile. -/
theorem before1_3_B (c : Dev nD) (t : Fin cfg1.N) (h0 : ¬t.val % 16 = 0) (d) :
    (dat1 V c).before 3 t d = (outsAt1 V c (t.val - 1) (Nat.lt_of_le_of_lt (Nat.sub_le _ _) t.isLt)).2 := by
  have hN : t.val < 16 := lt_of_lt_of_eq t.isLt (show cfg1.N = 16 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  have hN : t.val < 16 := lt_of_lt_of_eq t.isLt (show cfg1.N = 16 from N_1)
  by_cases h0 : t.val % 16 = 0
  · rw [outsAt1_A V c t h0]
    unfold out1_A_2 out1_A_3; (try dsimp only)
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_A_2 c _ _ _ _ _ _ _ _ _ _ _ _)
    unfold owns; iexists _; isplitr
    swap; · iexact H3
    ipureintro; exact View.read_writes_of_cover _ _ _ _ _ (cover1_A_3 c _ _ _ _ _ _ _ _ _ _ _ _)
  · rw [outsAt1_B V c t h0]
    simp only [before1_3_B V c t h0]
    unfold out1_B_2 out1_B_3; (try dsimp only)
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) _).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_B_2 c _ _ _ _ _ _ _ _ _ _ _ _ _)
    unfold owns; iexists _; isplitr
    swap; · iexact H3
    ipureintro; exact View.read_writes_of_cover _ _ _ _ _ (cover1_B_3 c _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2Runs.lean ====
/-
  Region 2 (the five mean-field iterations, a grid of 5 x 16 points: iteration by contraction tile): what its
  five control cases share. Four scratch tables are carried from point to point: the current logits, their
  softmax, and the two filter accumulators. At a point with tile 0 the softmax is taken and the accumulators are
  cleared (at the very first point the logits are first set to the unary logits); every point adds one tile's
  products to the accumulators; at a point with tile 15 the accumulators are normalised, multiplied by the folded
  weight matrices and added to the unary logits; the last point copies the logits out.
-/
import proofs.«171617_j90795608638216_2_alg».proof.Proof.Gen.KernelIdeal.Launch
import proofs.«171617_j90795608638216_2_alg».proof.Proof.Gen.KernelIdeal.Skeleton
import proofs.«171617_j90795608638216_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's four branch conditions, in closed form over the 80 points -/

/-- First iteration and tile 0. -/
abbrev cond2_0 (i : grid2.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond2_0 : ∀ t : Fin cfg2.N, cond2_0 (grid2.coords t) ↔ t.val % 80 = 0 :=
  (by decide +kernel : ∀ t : Fin grid2.N, cond2_0 (grid2.coords t) ↔ t.val % 80 = 0)
/-- Tile 0. -/
abbrev cond2_1 (i : grid2.Coords) : Prop := (Scalar.cmpi .ne (Scalar.extui (Scalar.cmpi .eq (BitVec.ofNat 32 (i 1).val) 0#32)) 0#32) = 1#1
theorem hcond2_1 : ∀ t : Fin cfg2.N, cond2_1 (grid2.coords t) ↔ t.val % 16 = 0 :=
  (by decide +kernel : ∀ t : Fin grid2.N, cond2_1 (grid2.coords t) ↔ t.val % 16 = 0)
/-- Tile 15. -/
abbrev cond2_2 (i : grid2.Coords) : Prop := (Scalar.cmpi .ne (Scalar.extui (Scalar.cmpi .eq (BitVec.ofNat 32 (i 1).val) 15#32)) 0#32) = 1#1
theorem hcond2_2 : ∀ t : Fin cfg2.N, cond2_2 (grid2.coords t) ↔ t.val % 16 = 15 :=
  (by decide +kernel : ∀ t : Fin grid2.N, cond2_2 (grid2.coords t) ↔ t.val % 16 = 15)
/-- Last iteration and tile 15. -/
abbrev cond2_3 (i : grid2.Coords) : Prop := k2_cond4 i = 1#1
theorem hcond2_3 : ∀ t : Fin cfg2.N, cond2_3 (grid2.coords t) ↔ t.val % 80 = 79 :=
  (by decide +kernel : ∀ t : Fin grid2.N, cond2_3 (grid2.coords t) ↔ t.val % 80 = 79)

/-! ## Where the output window is idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem idleAt2_7 : ∀ t : Fin cfg2.N, ¬cond2_3 (grid2.coords t) → cfg2.idle 7 (grid2.coords t) = true := by decide +kernel
theorem noFlush2_7 : ∀ t : Fin cfg2.N, ¬cond2_3 (grid2.coords t) → (cfg2.win 7).flush t = false := by decide +kernel
theorem liveAt2_7 : ∀ t : Fin cfg2.N, cond2_3 (grid2.coords t) → cfg2.idle 7 (grid2.coords t) = false := by decide +kernel

/-! ## The memrefs the body is called with -/

abbrev VO2_7 : View sig .tc .vmem S21x4096 .f32 := (Memref.whole cc2_stg7_0 : Memref sig .tc .vmem S21x4096 .f32).view
abbrev ms2_0 (t : Fin cfg2.N) : Memref sig .tc .vmem S21x4096 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S21x21 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S21x21 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x4096 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S4096x4096 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x4096 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x4096 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S21x4096 .f32 := win2_7.stage (cfg2.slots t 7)
abbrev hs2_7 (t : Fin cfg2.N) : (ms2_7 t).IsWhole := hstage2_7 ((cfg2.slots t 7).cast nbuf2_7)
abbrev scM2_0 : Memref sig .tc .vmem S21x4096 .f32 := Memref.whole cc2_scratch0
abbrev VS2_0 : View sig .tc .vmem S21x4096 .f32 := scM2_0.view
abbrev scM2_1 : Memref sig .tc .vmem S21x4096 .f32 := Memref.whole cc2_scratch1
abbrev VS2_1 : View sig .tc .vmem S21x4096 .f32 := scM2_1.view
abbrev scM2_2 : Memref sig .tc .vmem S21x4096 .f32 := Memref.whole cc2_scratch2
abbrev VS2_2 : View sig .tc .vmem S21x4096 .f32 := scM2_2.view
abbrev scM2_3 : Memref sig .tc .vmem S21x4096 .f32 := Memref.whole cc2_scratch3
abbrev VS2_3 : View sig .tc .vmem S21x4096 .f32 := scM2_3.view

/-- The scoped buffers no window of this region stages: the other two regions' twelve staging buffers, each at
    some contents, and the four scratch tables at the given ownerships. -/
def scr2 (c : Dev nD) (P0 P1 P2 P3 : sProp 𝕄) : sProp 𝕄 :=
  iprop((∃ d, owns (c : Thread nD τ) (Memref.whole cc0_stg0_0) fullShare d) ∗ (∃ d, owns (c : Thread nD τ) (Memref.whole cc0_stg1_0) fullShare d) ∗ (∃ d, owns (c : Thread nD τ) (Memref.whole cc0_stg1_1) fullShare d) ∗ (∃ d, owns (c : Thread nD τ) (Memref.whole cc0_stg2_0) fullShare d) ∗ (∃ d, owns (c : Thread nD τ) (Memref.whole cc0_stg2_1) fullShare d) ∗ (∃ d, owns (c : Thread nD τ) (Memref.whole cc0_stg3_0) fullShare d) ∗ (∃ d, owns (c : Thread nD τ) (Memref.whole cc1_stg0_0) fullShare d) ∗ (∃ d, owns (c : Thread nD τ) (Memref.whole cc1_stg1_0) fullShare d) ∗ (∃ d, owns (c : Thread nD τ) (Memref.whole cc1_stg1_1) fullShare d) ∗ (∃ d, owns (c : Thread nD τ) (Memref.whole cc1_stg2_0) fullShare d) ∗ (∃ d, owns (c : Thread nD τ) (Memref.whole cc1_stg2_1) fullShare d) ∗ (∃ d, owns (c : Thread nD τ) (Memref.whole cc1_stg3_0) fullShare d) ∗ P0 ∗ P1 ∗ P2 ∗ P3)

theorem PhiA2_eq (c : Dev nD) :
    (Pipeline.ΦA spec2 c : sProp 𝕄)
      = iprop(scr2 c iprop(∃ d, owns (c : Thread nD τ) scM2_0 fullShare d) iprop(∃ d, owns (c : Thread nD τ) scM2_1 fullShare d) iprop(∃ d, owns (c : Thread nD τ) scM2_2 fullShare d) iprop(∃ d, owns (c : Thread nD τ) scM2_3 fullShare d) ∗ (∃ r, prngReg c r)) := by
  unfold Pipeline.ΦA scr2; rw [scopedRest2_eq]; simp only [scM2_0, scM2_1, scM2_2, scM2_3, owns_whole]; try rfl

end Cert.KernelIdeal.Hand

end
-- ==== Proof.KI.R2RunA.lean ====
/-
  Region 2, the very first point: the logits are set to the unary logits, the softmax is taken, the accumulators are cleared and the first tile's products added. The pieces each buffer the body stores into ends with are found by running the body.
-/
import proofs.«171617_j90795608638216_2_alg».proof.Proof.KI.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : cond2_0 i) (hc1 : cond2_1 i) (hc2 : ¬cond2_2 i) (hc3 : ¬cond2_3 i)
    (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) :
    Σ' (L7 : List (View.Piece (Elt F) S21x4096 .f32)) (LS0 : List (View.Piece (Elt F) S21x4096 .f32)) (LS1 : List (View.Piece (Elt F) S21x4096 .f32)) (LS2 : List (View.Piece (Elt F) S21x4096 .f32)), { LS3 : List (View.Piece (Elt F) S21x4096 .f32) //
      ∀ (xi7 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc2__crf_iter_body i arg2 harg2 arg3 harg3 arg4 harg4 arg5 harg5 arg6 harg6 arg7 harg7 arg8 harg8 arg9 harg9 arg10 harg10 arg11 harg11 arg12 harg12 arg13 harg13) K } := by
  refine ⟨[], ?_, ?_, ?_, ?_, fun xi7 E K => ?run⟩
  case run =>
    simp only [cc2__crf_iter_body_eq_skeleton]; unfold cc2__crf_iter_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; iexact HS0
    isplitl [HS1]
    · iexists _; iexact HS1
    isplitl [HS2]
    · iexists _; iexact HS2
    iexists _; iexact HS3

end Cert.KernelIdeal.Hand

end
-- ==== Proof.KI.R2RunB.lean ====
/-
  Region 2, tile 0 of a later iteration: the softmax of the carried logits is taken, the accumulators are cleared and the first tile's products added. The pieces each buffer the body stores into ends with are found by running the body.
-/
import proofs.«171617_j90795608638216_2_alg».proof.Proof.KI.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : cond2_1 i) (hc2 : ¬cond2_2 i) (hc3 : ¬cond2_3 i)
    (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) :
    Σ' (L7 : List (View.Piece (Elt F) S21x4096 .f32)) (LS0 : List (View.Piece (Elt F) S21x4096 .f32)) (LS1 : List (View.Piece (Elt F) S21x4096 .f32)) (LS2 : List (View.Piece (Elt F) S21x4096 .f32)), { LS3 : List (View.Piece (Elt F) S21x4096 .f32) //
      ∀ (xi7 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0 ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc2__crf_iter_body i arg2 harg2 arg3 harg3 arg4 harg4 arg5 harg5 arg6 harg6 arg7 harg7 arg8 harg8 arg9 harg9 arg10 harg10 arg11 harg11 arg12 harg12 arg13 harg13) K } := by
  refine ⟨[], [], ?_, ?_, ?_, fun xi7 E K => ?run⟩
  case run =>
    simp only [cc2__crf_iter_body_eq_skeleton]; unfold cc2__crf_iter_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1; obtain rfl := harg12.eq_unread hfs2; obtain rfl := harg13.eq_unread hfs3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; isplitr; · ipureintro; exact harg10.read_unread _
      iexact HS0
    isplitl [HS1]
    · iexists _; iexact HS1
    isplitl [HS2]
    · iexists _; iexact HS2
    iexists _; iexact HS3

end Cert.KernelIdeal.Hand

end
-- ==== Proof.KI.R2RunC.lean ====
/-
  Region 2, a middle tile: one tile's products are added to the carried accumulators. The pieces each buffer the body stores into ends with are found by running the body.
-/
import proofs.«171617_j90795608638216_2_alg».proof.Proof.KI.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : ¬cond2_2 i) (hc3 : ¬cond2_3 i)
    (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) :
    Σ' (L7 : List (View.Piece (Elt F) S21x4096 .f32)) (LS0 : List (View.Piece (Elt F) S21x4096 .f32)) (LS1 : List (View.Piece (Elt F) S21x4096 .f32)) (LS2 : List (View.Piece (Elt F) S21x4096 .f32)), { LS3 : List (View.Piece (Elt F) S21x4096 .f32) //
      ∀ (xi7 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0 ∗ owns (c : Thread nD τ) arg11 fullShare xs1 ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc2__crf_iter_body i arg2 harg2 arg3 harg3 arg4 harg4 arg5 harg5 arg6 harg6 arg7 harg7 arg8 harg8 arg9 harg9 arg10 harg10 arg11 harg11 arg12 harg12 arg13 harg13) K } := by
  refine ⟨[], [], [], ?_, ?_, fun xi7 E K => ?run⟩
  case run =>
    simp only [cc2__crf_iter_body_eq_skeleton]; unfold cc2__crf_iter_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1; obtain rfl := harg12.eq_unread hfs2; obtain rfl := harg13.eq_unread hfs3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; isplitr; · ipureintro; exact harg10.read_unread _
      iexact HS0
    isplitl [HS1]
    · iexists _; isplitr; · ipureintro; exact harg11.read_unread _
      iexact HS1
    isplitl [HS2]
    · iexists _; iexact HS2
    iexists _; iexact HS3

end Cert.KernelIdeal.Hand

end
-- ==== Proof.KI.R2RunD.lean ====
/-
  Region 2, tile 15 of an iteration that is not the last: the last tile's products are added and the new logits are formed from the normalised accumulators. The pieces each buffer the body stores into ends with are found by running the body.
-/
import proofs.«171617_j90795608638216_2_alg».proof.Proof.KI.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_D (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : ¬cond2_3 i)
    (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) :
    Σ' (L7 : List (View.Piece (Elt F) S21x4096 .f32)) (LS0 : List (View.Piece (Elt F) S21x4096 .f32)) (LS1 : List (View.Piece (Elt F) S21x4096 .f32)) (LS2 : List (View.Piece (Elt F) S21x4096 .f32)), { LS3 : List (View.Piece (Elt F) S21x4096 .f32) //
      ∀ (xi7 : Vec F S21x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0) ∗ owns (c : Thread nD τ) arg11 fullShare xs1 ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc2__crf_iter_body i arg2 harg2 arg3 harg3 arg4 harg4 arg5 harg5 arg6 harg6 arg7 harg7 arg8 harg8 arg9 harg9 arg10 harg10 arg11 harg11 arg12 harg12 arg13 harg13) K } := by
  refine ⟨[], ?_, [], ?_, ?_, fun xi7 E K => ?run⟩
  case run =>
    simp only [cc2__crf_iter_body_eq_skeleton]; unfold cc2__crf_iter_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1; obtain rfl := harg12.eq_unread hfs2; obtain rfl := harg13.eq_unread hfs3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; iexact HS0
    isplitl [HS1]
    · iexists _; isplitr; · ipureintro; exact harg11.read_unread _
      iexact HS1
    isplitl [HS2]
    · iexists _; iexact HS2
    iexists _; iexact HS3

end Cert.KernelIdeal.Hand

end
-- ==== Proof.KI.R2RunE.lean ====
/-
  Region 2, the very last point: as at any tile 15, and the new logits are copied to the output block. The pieces each buffer the body stores into ends with are found by running the body.
-/
import proofs.«171617_j90795608638216_2_alg».proof.Proof.KI.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_E (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : cond2_3 i)
    (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) :
    Σ' (L7 : List (View.Piece (Elt F) S21x4096 .f32)) (LS0 : List (View.Piece (Elt F) S21x4096 .f32)) (LS1 : List (View.Piece (Elt F) S21x4096 .f32)) (LS2 : List (View.Piece (Elt F) S21x4096 .f32)), { LS3 : List (View.Piece (Elt F) S21x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ owns (c : Thread nD τ) arg11 fullShare xs1 ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc2__crf_iter_body i arg2 harg2 arg3 harg3 arg4 harg4 arg5 harg5 arg6 harg6 arg7 harg7 arg8 harg8 arg9 harg9 arg10 harg10 arg11 harg11 arg12 harg12 arg13 harg13) K } := by
  refine ⟨?_, ?_, [], ?_, ?_, fun E K => ?run⟩
  case run =>
    simp only [cc2__crf_iter_body_eq_skeleton]; unfold cc2__crf_iter_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0; obtain rfl := harg11.eq_unread hfs1; obtain rfl := harg12.eq_unread hfs2; obtain rfl := harg13.eq_unread hfs3
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    isplitl [HS0]
    · iexists _; iexact HS0
    isplitl [HS1]
    · iexists _; isplitr; · ipureintro; exact harg11.read_unread _
      iexact HS1
    isplitl [HS2]
    · iexists _; iexact HS2
    iexists _; iexact HS3

end Cert.KernelIdeal.Hand

end
-- ==== Proof.KI.R2.lean ====
/-
  Region 2: what the output block and the four carried scratch tables hold after each of the 80 points, the
  pipeline's proof data at entry contents V (the invariant carries the scratch tables' contents from point to
  point), and the body obligation.
-/
import proofs.«171617_j90795608638216_2_alg».proof.Proof.KI.R2RunA
import proofs.«171617_j90795608638216_2_alg».proof.Proof.KI.R2RunB
import proofs.«171617_j90795608638216_2_alg».proof.Proof.KI.R2RunC
import proofs.«171617_j90795608638216_2_alg».proof.Proof.KI.R2RunD
import proofs.«171617_j90795608638216_2_alg».proof.Proof.KI.R2RunE
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions at a point, from its number -/

theorem hN2 (t : Fin cfg2.N) : t.val < 80 := lt_of_lt_of_eq t.isLt (show cfg2.N = 80 from N_2)
theorem c0_of (t : Fin cfg2.N) (h : t.val = 0) : cond2_0 (grid2.coords t) := (hcond2_0 t).mpr (by omega)
theorem nc0_of (t : Fin cfg2.N) (h : t.val ≠ 0) : ¬cond2_0 (grid2.coords t) := fun hc => by
  have h1 := (hcond2_0 t).mp hc; have h2 := hN2 t; omega
theorem c1_of (t : Fin cfg2.N) (h : t.val % 16 = 0) : cond2_1 (grid2.coords t) := (hcond2_1 t).mpr h
theorem nc1_of (t : Fin cfg2.N) (h : ¬t.val % 16 = 0) : ¬cond2_1 (grid2.coords t) := fun hc => h ((hcond2_1 t).mp hc)
theorem c2_of (t : Fin cfg2.N) (h : t.val % 16 = 15) : cond2_2 (grid2.coords t) := (hcond2_2 t).mpr h
theorem nc2_of (t : Fin cfg2.N) (h : ¬t.val % 16 = 15) : ¬cond2_2 (grid2.coords t) := fun hc => h ((hcond2_2 t).mp hc)
theorem c3_of (t : Fin cfg2.N) (h : t.val % 80 = 79) : cond2_3 (grid2.coords t) := (hcond2_3 t).mpr h
theorem nc3_of (t : Fin cfg2.N) (h : ¬t.val % 80 = 79) : ¬cond2_3 (grid2.coords t) := fun hc => h ((hcond2_3 t).mp hc)

/-! ## What each case leaves in the buffers it stores into -/

theorem scover2_A_0 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (y : S21x4096.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.1 S21x4096.size (by sl_kernel_rfl) y
def sout2_A_0 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) : Vec F S21x4096 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.1)
theorem scover2_A_1 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (y : S21x4096.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.2.1 S21x4096.size (by sl_kernel_rfl) y
def sout2_A_1 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) : Vec F S21x4096 .f32 :=
  VS2_1.read (Elt F) (VS2_1.writes (Elt F) VS2_1.junk (kernelRun2_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.2.1)
theorem scover2_A_2 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (y : S21x4096.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.2.2.1 S21x4096.size (by sl_kernel_rfl) y
def sout2_A_2 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) : Vec F S21x4096 .f32 :=
  VS2_2.read (Elt F) (VS2_2.writes (Elt F) VS2_2.junk (kernelRun2_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.2.2.1)
theorem scover2_A_3 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (y : S21x4096.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.2.2.2.1 S21x4096.size (by sl_kernel_rfl) y
def sout2_A_3 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) : Vec F S21x4096 .f32 :=
  VS2_3.read (Elt F) (VS2_3.writes (Elt F) VS2_3.junk (kernelRun2_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6).2.2.2.2.1)
theorem scover2_B_1 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) (y : S21x4096.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.1 S21x4096.size (by sl_kernel_rfl) y
def sout2_B_1 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) : Vec F S21x4096 .f32 :=
  VS2_1.read (Elt F) (VS2_1.writes (Elt F) VS2_1.junk (kernelRun2_B c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.1)
theorem scover2_B_2 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) (y : S21x4096.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.1 S21x4096.size (by sl_kernel_rfl) y
def sout2_B_2 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) : Vec F S21x4096 .f32 :=
  VS2_2.read (Elt F) (VS2_2.writes (Elt F) VS2_2.junk (kernelRun2_B c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.1)
theorem scover2_B_3 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) (y : S21x4096.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.2.1 S21x4096.size (by sl_kernel_rfl) y
def sout2_B_3 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) : Vec F S21x4096 .f32 :=
  VS2_3.read (Elt F) (VS2_3.writes (Elt F) VS2_3.junk (kernelRun2_B c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.2.1)
theorem scover2_C_2 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) (y : S21x4096.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.1 S21x4096.size (by sl_kernel_rfl) y
def sout2_C_2 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) : Vec F S21x4096 .f32 :=
  VS2_2.read (Elt F) (VS2_2.writes (Elt F) VS2_2.junk (kernelRun2_C c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.1)
theorem scover2_C_3 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) (y : S21x4096.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.2.1 S21x4096.size (by sl_kernel_rfl) y
def sout2_C_3 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) : Vec F S21x4096 .f32 :=
  VS2_3.read (Elt F) (VS2_3.writes (Elt F) VS2_3.junk (kernelRun2_C c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.2.1)
theorem scover2_D_0 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) (y : S21x4096.Idx) :
    ∃ pc ∈ (kernelRun2_D c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.1, y ∈ pc.1.set :=
  View.cover_of_tiledL (kernelRun2_D c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.1 S21x4096.size (by sl_kernel_rfl) y
def sout2_D_0 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) : Vec F S21x4096 .f32 :=
  VS2_0.read (Elt F) (VS2_0.writes (Elt F) VS2_0.junk (kernelRun2_D c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.1)
theorem scover2_D_2 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) (y : S21x4096.Idx) :
    ∃ pc ∈ (kernelRun2_D c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.1, y ∈ pc.1.set :=
  View.cover_of_tiledL (kernelRun2_D c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.1 S21x4096.size (by sl_kernel_rfl) y
def sout2_D_2 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) : Vec F S21x4096 .f32 :=
  VS2_2.read (Elt F) (VS2_2.writes (Elt F) VS2_2.junk (kernelRun2_D c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.1)
theorem scover2_D_3 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) (y : S21x4096.Idx) :
    ∃ pc ∈ (kernelRun2_D c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.2.1, y ∈ pc.1.set :=
  View.cover_of_tiledL (kernelRun2_D c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.2.1 S21x4096.size (by sl_kernel_rfl) y
def sout2_D_3 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) : Vec F S21x4096 .f32 :=
  VS2_3.read (Elt F) (VS2_3.writes (Elt F) VS2_3.junk (kernelRun2_D c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.2.1)
theorem scover2_E_0 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) (y : S21x4096.Idx) :
    ∃ pc ∈ (kernelRun2_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.1, y ∈ pc.1.set :=
  View.cover_of_tiledL (kernelRun2_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.1 S21x4096.size (by sl_kernel_rfl) y
def sout2_E_0 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) : Vec F S21x4096 .f32 :=
  VS2_0.read (Elt F) (VS2_0.writes (Elt F) VS2_0.junk (kernelRun2_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.1)
theorem scover2_E_2 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) (y : S21x4096.Idx) :
    ∃ pc ∈ (kernelRun2_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.1, y ∈ pc.1.set :=
  View.cover_of_tiledL (kernelRun2_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.1 S21x4096.size (by sl_kernel_rfl) y
def sout2_E_2 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) : Vec F S21x4096 .f32 :=
  VS2_2.read (Elt F) (VS2_2.writes (Elt F) VS2_2.junk (kernelRun2_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.1)
theorem scover2_E_3 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) (y : S21x4096.Idx) :
    ∃ pc ∈ (kernelRun2_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.2.1, y ∈ pc.1.set :=
  View.cover_of_tiledL (kernelRun2_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.2.1 S21x4096.size (by sl_kernel_rfl) y
def sout2_E_3 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) : Vec F S21x4096 .f32 :=
  VS2_3.read (Elt F) (VS2_3.writes (Elt F) VS2_3.junk (kernelRun2_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).2.2.2.2.1)
theorem cover2_E_7 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) (y : S21x4096.Idx) :
    ∃ pc ∈ (kernelRun2_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).1, y ∈ pc.1.set :=
  View.cover_of_tiledL (kernelRun2_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).1 S21x4096.size (by sl_kernel_rfl) y
def out2_E_7 (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) : Vec F S21x4096 .f32 :=
  VO2_7.read (Elt F) (VO2_7.writes (Elt F) VO2_7.junk (kernelRun2_E c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3).1)

/-- What the output window's staging buffer is said to hold at the points where the body stores nothing into it and
    the pipeline does not write it back: a placeholder nothing consults. -/
def idleOut2 : Vec F S21x4096 .f32 := VO2_7.read (Elt F) VO2_7.junk

/-- The output block and the four scratch tables (logits, softmax, two accumulators). -/
abbrev T5 (F : FTy → Type) [FloatOps F] : Type := Vec F S21x4096 .f32 × Vec F S21x4096 .f32 × Vec F S21x4096 .f32 × Vec F S21x4096 .f32 × Vec F S21x4096 .f32

/-- The five tables after a point of case A. -/
def stepA (c : Dev nD) (t : Fin cfg2.N) (hz : t.val = 0) : T5 F :=
  (idleOut2,
   sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (c0_of t hz) (c1_of t (by omega)) (nc2_of t (by omega)) (nc3_of t (by omega)) (iblk2 V c 0 t) (iblk2 V c 1 t) (iblk2 V c 2 t) (iblk2 V c 3 t) (iblk2 V c 4 t) (iblk2 V c 5 t) (iblk2 V c 6 t),
   sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (c0_of t hz) (c1_of t (by omega)) (nc2_of t (by omega)) (nc3_of t (by omega)) (iblk2 V c 0 t) (iblk2 V c 1 t) (iblk2 V c 2 t) (iblk2 V c 3 t) (iblk2 V c 4 t) (iblk2 V c 5 t) (iblk2 V c 6 t),
   sout2_A_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (c0_of t hz) (c1_of t (by omega)) (nc2_of t (by omega)) (nc3_of t (by omega)) (iblk2 V c 0 t) (iblk2 V c 1 t) (iblk2 V c 2 t) (iblk2 V c 3 t) (iblk2 V c 4 t) (iblk2 V c 5 t) (iblk2 V c 6 t),
   sout2_A_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (c0_of t hz) (c1_of t (by omega)) (nc2_of t (by omega)) (nc3_of t (by omega)) (iblk2 V c 0 t) (iblk2 V c 1 t) (iblk2 V c 2 t) (iblk2 V c 3 t) (iblk2 V c 4 t) (iblk2 V c 5 t) (iblk2 V c 6 t))

/-- The five tables after a point of case B, from what the point before left (p). -/
def stepB (c : Dev nD) (t : Fin cfg2.N) (hz : t.val ≠ 0) (h1 : t.val % 16 = 0) (p : T5 F) : T5 F :=
  (idleOut2,
   p.2.1,
   sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (nc0_of t hz) (c1_of t h1) (nc2_of t (by omega)) (nc3_of t (by have := hN2 t; omega)) (iblk2 V c 0 t) (iblk2 V c 1 t) (iblk2 V c 2 t) (iblk2 V c 3 t) (iblk2 V c 4 t) (iblk2 V c 5 t) (iblk2 V c 6 t) p.2.1 p.2.2.1 p.2.2.2.1 p.2.2.2.2,
   sout2_B_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (nc0_of t hz) (c1_of t h1) (nc2_of t (by omega)) (nc3_of t (by have := hN2 t; omega)) (iblk2 V c 0 t) (iblk2 V c 1 t) (iblk2 V c 2 t) (iblk2 V c 3 t) (iblk2 V c 4 t) (iblk2 V c 5 t) (iblk2 V c 6 t) p.2.1 p.2.2.1 p.2.2.2.1 p.2.2.2.2,
   sout2_B_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (nc0_of t hz) (c1_of t h1) (nc2_of t (by omega)) (nc3_of t (by have := hN2 t; omega)) (iblk2 V c 0 t) (iblk2 V c 1 t) (iblk2 V c 2 t) (iblk2 V c 3 t) (iblk2 V c 4 t) (iblk2 V c 5 t) (iblk2 V c 6 t) p.2.1 p.2.2.1 p.2.2.2.1 p.2.2.2.2)

/-- The five tables after a point of case C, from what the point before left (p). -/
def stepC (c : Dev nD) (t : Fin cfg2.N) (hz : t.val ≠ 0) (h1 : ¬t.val % 16 = 0) (h2 : ¬t.val % 16 = 15) (p : T5 F) : T5 F :=
  (idleOut2,
   p.2.1,
   p.2.2.1,
   sout2_C_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (nc0_of t hz) (nc1_of t h1) (nc2_of t h2) (nc3_of t (by have := hN2 t; omega)) (iblk2 V c 0 t) (iblk2 V c 1 t) (iblk2 V c 2 t) (iblk2 V c 3 t) (iblk2 V c 4 t) (iblk2 V c 5 t) (iblk2 V c 6 t) p.2.1 p.2.2.1 p.2.2.2.1 p.2.2.2.2,
   sout2_C_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (nc0_of t hz) (nc1_of t h1) (nc2_of t h2) (nc3_of t (by have := hN2 t; omega)) (iblk2 V c 0 t) (iblk2 V c 1 t) (iblk2 V c 2 t) (iblk2 V c 3 t) (iblk2 V c 4 t) (iblk2 V c 5 t) (iblk2 V c 6 t) p.2.1 p.2.2.1 p.2.2.2.1 p.2.2.2.2)

/-- The five tables after a point of case D, from what the point before left (p). -/
def stepD (c : Dev nD) (t : Fin cfg2.N) (h2 : t.val % 16 = 15) (h3 : ¬t.val % 80 = 79) (p : T5 F) : T5 F :=
  (idleOut2,
   sout2_D_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (nc0_of t (by omega)) (nc1_of t (by omega)) (c2_of t h2) (nc3_of t h3) (iblk2 V c 0 t) (iblk2 V c 1 t) (iblk2 V c 2 t) (iblk2 V c 3 t) (iblk2 V c 4 t) (iblk2 V c 5 t) (iblk2 V c 6 t) p.2.1 p.2.2.1 p.2.2.2.1 p.2.2.2.2,
   p.2.2.1,
   sout2_D_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (nc0_of t (by omega)) (nc1_of t (by omega)) (c2_of t h2) (nc3_of t h3) (iblk2 V c 0 t) (iblk2 V c 1 t) (iblk2 V c 2 t) (iblk2 V c 3 t) (iblk2 V c 4 t) (iblk2 V c 5 t) (iblk2 V c 6 t) p.2.1 p.2.2.1 p.2.2.2.1 p.2.2.2.2,
   sout2_D_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (nc0_of t (by omega)) (nc1_of t (by omega)) (c2_of t h2) (nc3_of t h3) (iblk2 V c 0 t) (iblk2 V c 1 t) (iblk2 V c 2 t) (iblk2 V c 3 t) (iblk2 V c 4 t) (iblk2 V c 5 t) (iblk2 V c 6 t) p.2.1 p.2.2.1 p.2.2.2.1 p.2.2.2.2)

/-- The five tables after a point of case E, from what the point before left (p). -/
def stepE (c : Dev nD) (t : Fin cfg2.N) (h3 : t.val % 80 = 79) (p : T5 F) : T5 F :=
  (out2_E_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (nc0_of t (by omega)) (nc1_of t (by omega)) (c2_of t (by have := hN2 t; omega)) (c3_of t h3) (iblk2 V c 0 t) (iblk2 V c 1 t) (iblk2 V c 2 t) (iblk2 V c 3 t) (iblk2 V c 4 t) (iblk2 V c 5 t) (iblk2 V c 6 t) p.2.1 p.2.2.1 p.2.2.2.1 p.2.2.2.2,
   sout2_E_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (nc0_of t (by omega)) (nc1_of t (by omega)) (c2_of t (by have := hN2 t; omega)) (c3_of t h3) (iblk2 V c 0 t) (iblk2 V c 1 t) (iblk2 V c 2 t) (iblk2 V c 3 t) (iblk2 V c 4 t) (iblk2 V c 5 t) (iblk2 V c 6 t) p.2.1 p.2.2.1 p.2.2.2.1 p.2.2.2.2,
   p.2.2.1,
   sout2_E_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (nc0_of t (by omega)) (nc1_of t (by omega)) (c2_of t (by have := hN2 t; omega)) (c3_of t h3) (iblk2 V c 0 t) (iblk2 V c 1 t) (iblk2 V c 2 t) (iblk2 V c 3 t) (iblk2 V c 4 t) (iblk2 V c 5 t) (iblk2 V c 6 t) p.2.1 p.2.2.1 p.2.2.2.1 p.2.2.2.2,
   sout2_E_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) scM2_2 (Memref.isWhole_whole _) scM2_3 (Memref.isWhole_whole _) (nc0_of t (by omega)) (nc1_of t (by omega)) (c2_of t (by have := hN2 t; omega)) (c3_of t h3) (iblk2 V c 0 t) (iblk2 V c 1 t) (iblk2 V c 2 t) (iblk2 V c 3 t) (iblk2 V c 4 t) (iblk2 V c 5 t) (iblk2 V c 6 t) p.2.1 p.2.2.1 p.2.2.2.1 p.2.2.2.2)

/-! ## What the tables hold after each point -/

def outsAt2 (c : Dev nD) : (n : ℕ) → n < cfg2.N → T5 F
  | 0, hn => stepA V c ⟨0, hn⟩ rfl
  | n + 1, hn =>
    if h1 : (n + 1) % 16 = 0 then stepB V c ⟨n + 1, hn⟩ (Nat.succ_ne_zero n) h1 (outsAt2 c n (Nat.lt_of_succ_lt hn))
    else if h2 : (n + 1) % 16 = 15 then
      if h3 : (n + 1) % 80 = 79 then stepE V c ⟨n + 1, hn⟩ h3 (outsAt2 c n (Nat.lt_of_succ_lt hn))
      else stepD V c ⟨n + 1, hn⟩ h2 h3 (outsAt2 c n (Nat.lt_of_succ_lt hn))
    else stepC V c ⟨n + 1, hn⟩ (Nat.succ_ne_zero n) h1 h2 (outsAt2 c n (Nat.lt_of_succ_lt hn))

theorem outsAt2_A (c : Dev nD) (t : Fin cfg2.N) (hz : t.val = 0) : outsAt2 V c t.val t.isLt = stepA V c t hz := by
  obtain ⟨n, hn⟩ := t
  cases n with
  | zero => rfl
  | succ n => exact absurd hz (Nat.succ_ne_zero n)

theorem outsAt2_B (c : Dev nD) (t : Fin cfg2.N) (hz : t.val ≠ 0) (h1 : t.val % 16 = 0) :
    outsAt2 V c t.val t.isLt = stepB V c t hz h1 (outsAt2 V c (t.val - 1) (Nat.lt_of_le_of_lt (Nat.sub_le _ _) t.isLt)) := by
  obtain ⟨n, hn⟩ := t
  cases n with
  | zero => exact absurd rfl hz
  | succ n => exact (dif_pos h1).trans rfl

theorem outsAt2_C (c : Dev nD) (t : Fin cfg2.N) (hz : t.val ≠ 0) (h1 : ¬t.val % 16 = 0) (h2 : ¬t.val % 16 = 15) :
    outsAt2 V c t.val t.isLt = stepC V c t hz h1 h2 (outsAt2 V c (t.val - 1) (Nat.lt_of_le_of_lt (Nat.sub_le _ _) t.isLt)) := by
  obtain ⟨n, hn⟩ := t
  cases n with
  | zero => exact absurd rfl hz
  | succ n => exact (dif_neg h1).trans ((dif_neg h2).trans rfl)

theorem outsAt2_D (c : Dev nD) (t : Fin cfg2.N) (h2 : t.val % 16 = 15) (h3 : ¬t.val % 80 = 79) :
    outsAt2 V c t.val t.isLt = stepD V c t h2 h3 (outsAt2 V c (t.val - 1) (Nat.lt_of_le_of_lt (Nat.sub_le _ _) t.isLt)) := by
  obtain ⟨n, hn⟩ := t
  cases n with
  | zero => exact absurd (show (0 : ℕ) % 16 = 15 from h2) (by decide)
  | succ n => exact (dif_neg (by (try dsimp only at h2); omega)).trans ((dif_pos h2).trans ((dif_neg h3).trans rfl))

theorem outsAt2_E (c : Dev nD) (t : Fin cfg2.N) (h3 : t.val % 80 = 79) :
    outsAt2 V c t.val t.isLt = stepE V c t h3 (outsAt2 V c (t.val - 1) (Nat.lt_of_le_of_lt (Nat.sub_le _ _) t.isLt)) := by
  obtain ⟨n, hn⟩ := t
  cases n with
  | zero => exact absurd (show (0 : ℕ) % 80 = 79 from h3) (by decide)
  | succ n =>
    have hN : n + 1 < 80 := lt_of_lt_of_eq hn (show cfg2.N = 80 from N_2)
    exact (dif_neg (by (try dsimp only at h3); omega)).trans ((dif_pos (by (try dsimp only at h3); omega)).trans ((dif_pos h3).trans rfl))

/-! ## The region invariant: the scratch tables at what the point before left -/

def PhiS (c : Dev nD) : (n : ℕ) → n ≤ cfg2.N → sProp 𝕄
  | 0, _ => Pipeline.ΦA spec2 c
  | n + 1, hn => iprop(scr2 c iprop(owns (c : Thread nD τ) scM2_0 fullShare (outsAt2 V c n hn).2.1) iprop(owns (c : Thread nD τ) scM2_1 fullShare (outsAt2 V c n hn).2.2.1) iprop(owns (c : Thread nD τ) scM2_2 fullShare (outsAt2 V c n hn).2.2.2.1) iprop(owns (c : Thread nD τ) scM2_3 fullShare (outsAt2 V c n hn).2.2.2.2) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(scr2 c iprop(owns (c : Thread nD τ) scM2_0 fullShare (outsAt2 V c n hn).2.1) iprop(owns (c : Thread nD τ) scM2_1 fullShare (outsAt2 V c n hn).2.2.1) iprop(owns (c : Thread nD τ) scM2_2 fullShare (outsAt2 V c n hn).2.2.2.1) iprop(owns (c : Thread nD τ) scM2_3 fullShare (outsAt2 V c n hn).2.2.2.2) ∗ (∃ r, prngReg c r)) := rfl

theorem PhiS_pos (c : Dev nD) (n : ℕ) (h : n ≤ cfg2.N) (hz : n ≠ 0) :
    PhiS V c n h = iprop(scr2 c iprop(owns (c : Thread nD τ) scM2_0 fullShare (outsAt2 V c (n - 1) (by omega)).2.1) iprop(owns (c : Thread nD τ) scM2_1 fullShare (outsAt2 V c (n - 1) (by omega)).2.2.1) iprop(owns (c : Thread nD τ) scM2_2 fullShare (outsAt2 V c (n - 1) (by omega)).2.2.2.1) iprop(owns (c : Thread nD τ) scM2_3 fullShare (outsAt2 V c (n - 1) (by omega)).2.2.2.2) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

end Cert.KernelIdeal.Hand

end
-- ==== Proof.KI.Fold.lean ====
/-
  The contents of the unscoped buffers at each boundary between @main's seven items (four stretches of host
  operations around the three regions), as a fold from the launch memory: a stretch applies its operations;
  a region leaves its arrays at what its write-backs leave and every other buffer as entered.
-/
import proofs.«171617_j90795608638216_2_alg».proof.Proof.KI.R0
import proofs.«171617_j90795608638216_2_alg».proof.Proof.KI.R1
import proofs.«171617_j90795608638216_2_alg».proof.Proof.KI.R2
import proofs.«171617_j90795608638216_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At launch. -/
abbrev W0 : Dev nD → Valuation τ sig (Elt F) := fun c b => m (c, b)
/-- After the first stretch (region 0's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second stretch (region 1's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-- After the third stretch (region 2's entry). -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- At region 2's exit. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)

/-- After the last stretch: what @main returns from. -/
abbrev W7 : Dev nD → Valuation τ sig (Elt F) := fun c => StableHlo.after hostOps3 (W6 m c)

/-! ## No item writes an argument -/

theorem W7_of_arg (c : Dev nD) (r : Ref sig .tc) (h0 : r ∉ hostOps0_W) (h1 : r ∉ hostOps1_W) (h2 : r ∉ hostOps2_W) (h3 : r ∉ hostOps3_W)
    (a0 : ∀ w, Pipeline.arrRef spec0 w ≠ r) (a1 : ∀ w, Pipeline.arrRef spec1 w ≠ r) (a2 : ∀ w, Pipeline.arrRef spec2 w ≠ r) :
    W7 m c (Proc.devRef .tc r) = m ((c : Thread nD τ).loc r) :=
  (StableHlo.after_of_writes_sub hostOps3 _ hostOps3_writes h3).trans <|
  (W6_of_ne m c r a2).trans <|
  (StableHlo.after_of_writes_sub hostOps2 _ hostOps2_writes h2).trans <|
  (W4_of_ne m c r a1).trans <|
  (StableHlo.after_of_writes_sub hostOps1 _ hostOps1_writes h1).trans <|
  (W2_of_ne m c r a0).trans <|
  (StableHlo.after_of_writes_sub hostOps0 _ hostOps0_writes h0).trans rfl

theorem W7_main_arg0 (c : Dev nD) : W7 m c (Proc.devRef .tc main_arg0) = m ((c : Thread nD τ).loc main_arg0) :=
  W7_of_arg m c main_arg0 (by decide) (by decide) (by decide) (by decide) (by decide) (by decide) (by decide)
theorem W7_main_arg1 (c : Dev nD) : W7 m c (Proc.devRef .tc main_arg1) = m ((c : Thread nD τ).loc main_arg1) :=
  W7_of_arg m c main_arg1 (by decide) (by decide) (by decide) (by decide) (by decide) (by decide) (by decide)
theorem W7_main_arg2 (c : Dev nD) : W7 m c (Proc.devRef .tc main_arg2) = m ((c : Thread nD τ).loc main_arg2) :=
  W7_of_arg m c main_arg2 (by decide) (by decide) (by decide) (by decide) (by decide) (by decide) (by decide)
theorem W7_main_arg3 (c : Dev nD) : W7 m c (Proc.devRef .tc main_arg3) = m ((c : Thread nD τ).loc main_arg3) :=
  W7_of_arg m c main_arg3 (by decide) (by decide) (by decide) (by decide) (by decide) (by decide) (by decide)
theorem W7_main_arg4 (c : Dev nD) : W7 m c (Proc.devRef .tc main_arg4) = m ((c : Thread nD τ).loc main_arg4) :=
  W7_of_arg m c main_arg4 (by decide) (by decide) (by decide) (by decide) (by decide) (by decide) (by decide)

end Cert.KernelIdeal.Hand

end
-- ==== Proof.KI.R2Body.lean ====
/-
  Region 2: the body obligation. At each point the closed forms of the four branch conditions say which of the
  five cases the point is in; the invariant hands the body the scratch tables at what the point before left
  (at anything before the first point) and takes them back at this point's contents.
-/
import proofs.«171617_j90795608638216_2_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 16000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS V c (t.val + 1) t.isLt from rfl, PhiS_succ]
  have hN := hN2 t
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  by_cases hz : t.val = 0
  · rw [Dat.leavesExact_idle (dat2 V c) 7 t (idleAt2_7 t (nc3_of t (by omega))) (noFlush2_7 t (nc3_of t (by omega)))]
    rw [outsAt2_A V c t hz]
    unfold stepA sout2_A_0 sout2_A_1 sout2_A_2 sout2_A_3; (try dsimp only)
    rw [PhiS_castSucc V c t, PhiS_zero V c _ _ hz, PhiA2_eq]
    unfold scr2
    iintro ⟨⟨⟨T0, T1, T2, T3, T4, T5, T6, T7, T8, T9, T10, T11, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_A c (grid2.coords t) _ _ _ _ _ _ _ _ _ _ _ _ _ _ _ _ _ _ _ _ _ _ _ _ (c0_of t hz) (c1_of t (by omega)) (nc2_of t (by omega)) (nc3_of t (by omega)) (iblk2 V c 0 t) (iblk2 V c 1 t) (iblk2 V c 2 t) (iblk2 V c 3 t) (iblk2 V c 4 t) (iblk2 V c 5 t) (iblk2 V c 6 t)).2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    iintro ⟨H0, H1, H2, H3, H4, H5, H6, H7, ⟨%es0, HS0⟩, ⟨%es1, HS1⟩, ⟨%es2, HS2⟩, ⟨%es3, HS3⟩⟩
    isplitl [T0 T1 T2 T3 T4 T5 T6 T7 T8 T9 T10 T11 HS0 HS1 HS2 HS3 Hg]
    · isplitl [T0 T1 T2 T3 T4 T5 T6 T7 T8 T9 T10 T11 HS0 HS1 HS2 HS3]
      · isplitl [T0]; · iexact T0
        isplitl [T1]; · iexact T1
        isplitl [T2]; · iexact T2
        isplitl [T3]; · iexact T3
        isplitl [T4]; · iexact T4
        isplitl [T5]; · iexact T5
        isplitl [T6]; · iexact T6
        isplitl [T7]; · iexact T7
        isplitl [T8]; · iexact T8
        isplitl [T9]; · iexact T9
        isplitl [T10]; · iexact T10
        isplitl [T11]; · iexact T11
        isplitl [HS0]
        · unfold owns; iexists _; isplitr
          swap; · iexact HS0
          ipureintro; exact View.read_writes_of_cover _ _ _ _ _ (scover2_A_0 c _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover2_A_1 c _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover2_A_2 c _ _ _ _ _ _ _ _ _ _ _ _ _ _ _ _ _ _ _ _ _ _ _ _ _ _ _ _ _ _ _ _ _ _ _ _)
        unfold owns; iexists _; isplitr
        swap; · iexact HS3
        ipureintro; exact View.read_writes_of_cover _ _ _ _ _ (scover2_A_3 c _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h1 : t.val % 16 = 0
    · rw [Dat.leavesExact_idle (dat2 V c) 7 t (idleAt2_7 t (nc3_of t (by omega))) (noFlush2_7 t (nc3_of t (by omega)))]
      rw [outsAt2_B V c t hz h1]
      unfold stepB sout2_B_1 sout2_B_2 sout2_B_3; (try dsimp only)
      rw [PhiS_castSucc V c t, PhiS_pos V c _ _ hz]
      unfold scr2
      iintro ⟨⟨⟨T0, T1, T2, T3, T4, T5, T6, T7, T8, T9, T10, T11, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_B c (grid2.coords t) _ _ _ _ _ _ _ _ _ _ _ _ _ _ _ _ _ _ _ _ _ _ _ _ (nc0_of t hz) (c1_of t h1) (nc2_of t (by omega)) (nc3_of t (by omega)) (iblk2 V c 0 t) (iblk2 V c 1 t) (iblk2 V c 2 t) (iblk2 V c 3 t) (iblk2 V c 4 t) (iblk2 V c 5 t) (iblk2 V c 6 t) _ _ _ _).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, ⟨%es1, HS1⟩, ⟨%es2, HS2⟩, ⟨%es3, HS3⟩⟩
      isplitl [T0 T1 T2 T3 T4 T5 T6 T7 T8 T9 T10 T11 HS0 HS1 HS2 HS3 Hg]
      · isplitl [T0 T1 T2 T3 T4 T5 T6 T7 T8 T9 T10 T11 HS0 HS1 HS2 HS3]
        · isplitl [T0]; · iexact T0
          isplitl [T1]; · iexact T1
          isplitl [T2]; · iexact T2
          isplitl [T3]; · iexact T3
          isplitl [T4]; · iexact T4
          isplitl [T5]; · iexact T5
          isplitl [T6]; · iexact T6
          isplitl [T7]; · iexact T7
          isplitl [T8]; · iexact T8
          isplitl [T9]; · iexact T9
          isplitl [T10]; · iexact T10
          isplitl [T11]; · iexact T11
          isplitl [HS0]; · iexact HS0
          isplitl [HS1]
          · unfold owns; iexists _; isplitr
            swap; · iexact HS1
            ipureintro; exact View.read_writes_of_cover _ _ _ _ _ (scover2_B_1 c _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover2_B_2 c _ _ _ _ _ _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover2_B_3 c _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · by_cases h2 : t.val % 16 = 15
      · by_cases h3 : t.val % 80 = 79
        · rw [show (dat2 V c).leavesExact 7 t = owns (c : Thread nD τ) (ms2_7 t) fullShare ((dat2 V c).after 7 t) from by
            unfold Dat.leavesExact; rw [liveAt2_7 t (c3_of t h3)], after2_7]
          rw [outsAt2_E V c t h3]
          unfold stepE sout2_E_0 sout2_E_2 sout2_E_3 out2_E_7; (try dsimp only)
          rw [PhiS_castSucc V c t, PhiS_pos V c _ _ hz]
          unfold scr2
          iintro ⟨⟨⟨T0, T1, T2, T3, T4, T5, T6, T7, T8, T9, T10, T11, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun2_E c (grid2.coords t) _ _ _ _ _ _ _ _ _ _ _ _ _ _ _ _ _ _ _ _ _ _ _ _ (nc0_of t hz) (nc1_of t h1) (c2_of t h2) (c3_of t h3) (iblk2 V c 0 t) (iblk2 V c 1 t) (iblk2 V c 2 t) (iblk2 V c 3 t) (iblk2 V c 4 t) (iblk2 V c 5 t) (iblk2 V c 6 t) _ _ _ _).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [HS0]; · iexact HS0
          isplitl [HS1]; · iexact HS1
          isplitl [HS2]; · iexact HS2
          isplitl [HS3]; · iexact HS3
          iintro ⟨H0, H1, H2, H3, H4, H5, H6, ⟨%e7, H7⟩, ⟨%es0, HS0⟩, HS1, ⟨%es2, HS2⟩, ⟨%es3, HS3⟩⟩
          isplitl [T0 T1 T2 T3 T4 T5 T6 T7 T8 T9 T10 T11 HS0 HS1 HS2 HS3 Hg]
          · isplitl [T0 T1 T2 T3 T4 T5 T6 T7 T8 T9 T10 T11 HS0 HS1 HS2 HS3]
            · isplitl [T0]; · iexact T0
              isplitl [T1]; · iexact T1
              isplitl [T2]; · iexact T2
              isplitl [T3]; · iexact T3
              isplitl [T4]; · iexact T4
              isplitl [T5]; · iexact T5
              isplitl [T6]; · iexact T6
              isplitl [T7]; · iexact T7
              isplitl [T8]; · iexact T8
              isplitl [T9]; · iexact T9
              isplitl [T10]; · iexact T10
              isplitl [T11]; · iexact T11
              isplitl [HS0]
              · unfold owns; iexists _; isplitr
                swap; · iexact HS0
                ipureintro; exact View.read_writes_of_cover _ _ _ _ _ (scover2_E_0 c _ _ _ _ _ _ _ _ _ _ _ _ _ _ _ _ _ _ _ _ _ _ _ _ _ _ _ _ _ _ _ _ _ _ _ _ _ _ _ _)
              isplitl [HS1]; · iexact HS1
              isplitl [HS2]
              · unfold owns; iexists _; isplitr
                swap; · iexact HS2
                ipureintro; exact View.read_writes_of_cover _ _ _ _ _ (scover2_E_2 c _ _ _ _ _ _ _ _ _ _ _ _ _ _ _ _ _ _ _ _ _ _ _ _ _ _ _ _ _ _ _ _ _ _ _ _ _ _ _ _)
              unfold owns; iexists _; isplitr
              swap; · iexact HS3
              ipureintro; exact View.read_writes_of_cover _ _ _ _ _ (scover2_E_3 c _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          unfold owns; iexists _; isplitr
          swap; · iexact H7
          ipureintro; exact View.read_writes_of_cover _ _ _ _ _ (cover2_E_7 c _ _ _ _ _ _ _ _ _ _ _ _ _ _ _ _ _ _ _ _ _ _ _ _ _ _ _ _ _ _ _ _ _ _ _ _ _ _ _ _)
        · rw [Dat.leavesExact_idle (dat2 V c) 7 t (idleAt2_7 t (nc3_of t h3)) (noFlush2_7 t (nc3_of t h3))]
          rw [outsAt2_D V c t h2 h3]
          unfold stepD sout2_D_0 sout2_D_2 sout2_D_3; (try dsimp only)
          rw [PhiS_castSucc V c t, PhiS_pos V c _ _ hz]
          unfold scr2
          iintro ⟨⟨⟨T0, T1, T2, T3, T4, T5, T6, T7, T8, T9, T10, T11, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun2_D c (grid2.coords t) _ _ _ _ _ _ _ _ _ _ _ _ _ _ _ _ _ _ _ _ _ _ _ _ (nc0_of t hz) (nc1_of t h1) (c2_of t h2) (nc3_of t h3) (iblk2 V c 0 t) (iblk2 V c 1 t) (iblk2 V c 2 t) (iblk2 V c 3 t) (iblk2 V c 4 t) (iblk2 V c 5 t) (iblk2 V c 6 t) _ _ _ _).2.2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [HS0]; · iexact HS0
          isplitl [HS1]; · iexact HS1
          isplitl [HS2]; · iexact HS2
          isplitl [HS3]; · iexact HS3
          iintro ⟨H0, H1, H2, H3, H4, H5, H6, H7, ⟨%es0, HS0⟩, HS1, ⟨%es2, HS2⟩, ⟨%es3, HS3⟩⟩
          isplitl [T0 T1 T2 T3 T4 T5 T6 T7 T8 T9 T10 T11 HS0 HS1 HS2 HS3 Hg]
          · isplitl [T0 T1 T2 T3 T4 T5 T6 T7 T8 T9 T10 T11 HS0 HS1 HS2 HS3]
            · isplitl [T0]; · iexact T0
              isplitl [T1]; · iexact T1
              isplitl [T2]; · iexact T2
              isplitl [T3]; · iexact T3
              isplitl [T4]; · iexact T4
              isplitl [T5]; · iexact T5
              isplitl [T6]; · iexact T6
              isplitl [T7]; · iexact T7
              isplitl [T8]; · iexact T8
              isplitl [T9]; · iexact T9
              isplitl [T10]; · iexact T10
              isplitl [T11]; · iexact T11
              isplitl [HS0]
              · unfold owns; iexists _; isplitr
                swap; · iexact HS0
                ipureintro; exact View.read_writes_of_cover _ _ _ _ _ (scover2_D_0 c _ _ _ _ _ _ _ _ _ _ _ _ _ _ _ _ _ _ _ _ _ _ _ _ _ _ _ _ _ _ _ _ _ _ _ _ _ _ _ _)
              isplitl [HS1]; · iexact HS1
              isplitl [HS2]
              · unfold owns; iexists _; isplitr
                swap; · iexact HS2
                ipureintro; exact View.read_writes_of_cover _ _ _ _ _ (scover2_D_2 c _ _ _ _ _ _ _ _ _ _ _ _ _ _ _ _ _ _ _ _ _ _ _ _ _ _ _ _ _ _ _ _ _ _ _ _ _ _ _ _)
              unfold owns; iexists _; isplitr
              swap; · iexact HS3
              ipureintro; exact View.read_writes_of_cover _ _ _ _ _ (scover2_D_3 c _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          iexists _; iexact H7
      · rw [Dat.leavesExact_idle (dat2 V c) 7 t (idleAt2_7 t (nc3_of t (by omega))) (noFlush2_7 t (nc3_of t (by omega)))]
        rw [outsAt2_C V c t hz h1 h2]
        unfold stepC sout2_C_2 sout2_C_3; (try dsimp only)
        rw [PhiS_castSucc V c t, PhiS_pos V c _ _ hz]
        unfold scr2
        iintro ⟨⟨⟨T0, T1, T2, T3, T4, T5, T6, T7, T8, T9, T10, T11, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_C c (grid2.coords t) _ _ _ _ _ _ _ _ _ _ _ _ _ _ _ _ _ _ _ _ _ _ _ _ (nc0_of t hz) (nc1_of t h1) (nc2_of t h2) (nc3_of t (by omega)) (iblk2 V c 0 t) (iblk2 V c 1 t) (iblk2 V c 2 t) (iblk2 V c 3 t) (iblk2 V c 4 t) (iblk2 V c 5 t) (iblk2 V c 6 t) _ _ _ _).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        isplitl [HS3]; · iexact HS3
        iintro ⟨H0, H1, H2, H3, H4, H5, H6, H7, HS0, HS1, ⟨%es2, HS2⟩, ⟨%es3, HS3⟩⟩
        isplitl [T0 T1 T2 T3 T4 T5 T6 T7 T8 T9 T10 T11 HS0 HS1 HS2 HS3 Hg]
        · isplitl [T0 T1 T2 T3 T4 T5 T6 T7 T8 T9 T10 T11 HS0 HS1 HS2 HS3]
          · isplitl [T0]; · iexact T0
            isplitl [T1]; · iexact T1
            isplitl [T2]; · iexact T2
            isplitl [T3]; · iexact T3
            isplitl [T4]; · iexact T4
            isplitl [T5]; · iexact T5
            isplitl [T6]; · iexact T6
            isplitl [T7]; · iexact T7
            isplitl [T8]; · iexact T8
            isplitl [T9]; · iexact T9
            isplitl [T10]; · iexact T10
            isplitl [T11]; · iexact T11
            isplitl [HS0]; · iexact HS0
            isplitl [HS1]; · iexact HS1
            isplitl [HS2]
            · unfold owns; iexists _; isplitr
              swap; · iexact HS2
              ipureintro; exact View.read_writes_of_cover _ _ _ _ _ (scover2_C_2 c _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover2_C_3 c _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After any point but the first the invariant gives the launch's back: the scratch tables' named contents are
    forgotten. -/
theorem Phi_out2 (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA2_eq]
  unfold scr2
  iintro ⟨⟨T0, T1, T2, T3, T4, T5, T6, T7, T8, T9, T10, T11, HS0, HS1, HS2, HS3⟩, Hg⟩
  isplitl [T0 T1 T2 T3 T4 T5 T6 T7 T8 T9 T10 T11 HS0 HS1 HS2 HS3]
  · isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [HS0]; · iexists _; iexact HS0
    isplitl [HS1]; · iexists _; iexact HS1
    isplitl [HS2]; · iexists _; iexact HS2
    iexists _; iexact HS3
  iexact Hg

theorem hout2 (c : Dev nD) : (dat2 V c).Φ (Fin.last cfg2.N) ⊢ Pipeline.ΦA spec2 c :=
  Phi_out2 V c _ (by rw [Fin.val_last]; have : cfg2.N = 80 := N_2; omega)

end Cert.KernelIdeal.Hand

end
-- ==== Proof.KI.Run.lean ====
/-
  @main as seven segments, each region a segment over the thread state "every unscoped buffer at the boundary's
  contents, the generator register at some state, nothing owed", and the run: every weakly fair execution of
  @main terminates with every unscoped buffer at the last boundary's contents.
-/
import proofs.«171617_j90795608638216_2_alg».proof.Proof.KI.Fold
import proofs.«171617_j90795608638216_2_alg».proof.Proof.KI.R2Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W7 m c) ∗ ∃ r, prngReg c r)

set_option backward.isDefEq.respectTransparency.types false in
/-- Region 0 over the thread state: entered from every unscoped buffer at the boundary's contents, left at the
    next boundary's. Its arrays are split out of the unscoped buffers and put back at the exit contents; the
    generator register goes into the region's invariant and comes back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the
    next boundary's. Its arrays are split out of the unscoped buffers and put back at the exit contents; the
    generator register goes into the region's invariant and comes back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary's contents, left at the
    next boundary's. Its arrays are split out of the unscoped buffers and put back at the exit contents; the
    generator register goes into the region's invariant and comes back; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = (dat2 (U5 m) c).Φ (Fin.last cfg2.N) from rfl]
    iintro H
    ihave H' := (hout2 (U5 m) c) $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c)⟩) (run_all m ρ)

end Cert.KernelIdeal.Hand

end
-- ==== Proof.CrfSpec.lean ====
/-
  The mathematics both programs compute, as plain functions on the extended reals, index by index.

  A dense conditional random field over N = 4096 voxels and L = 21 labels, five mean-field steps.
  From a feature table f (d rows, N columns) the Gaussian kernel is
     gk f i j = exp (-1/2 * max (|f_i|^2 + |f_j|^2 - 2 <f_i, f_j>, 0)),
  its column sums are nrm f j = sum_i gk f i j, and one mean-field step sends the current
  logits cur (L x N) to
     C * (S * F_s + B * F_b) + U        (stepR, the reference's arrangement)
  or to
     (C*S) * F_s + (C*B) * F_b + U      (stepK, the kernel's arrangement, weights folded first)
  where q = softmax of cur over the labels, F_s = (q * gk fs) / nrm fs, F_b = (q * gk fb) / nrm fb,
  S, B, C are the L x L weight matrices and U the unary logits.  The two arrangements agree when
  every entry involved is a real number (matrix products associate and distribute over the reals);
  on the extended reals they need not, which is why finiteness is carried through the five steps.

  The float words are kept as words: the same word on both sides is never evaluated.
-/
import Idealize.ShloMosaic.PureOps.Ideal

noncomputable section

namespace Cert.Crf

open Idealize.ShloMosaic

/-- The f32 words of the two programs: 0, 2, -1/2, -infinity. -/
abbrev w0 : EReal := Ideal.ofBits .f32 0x00000000#32
abbrev w2 : EReal := Ideal.ofBits .f32 0x40000000#32
abbrev wmh : EReal := Ideal.ofBits .f32 0xBF000000#32
abbrev wninf : EReal := Ideal.ofBits .f32 0xFF800000#32

/-- A feature table: d rows, one column per voxel. -/
abbrev Feat (d : ℕ) : Type := Fin d → Fin 4096 → EReal
/-- A label-by-voxel table. -/
abbrev Tab : Type := Fin 21 → Fin 4096 → EReal
/-- A label-by-label weight matrix. -/
abbrev Wt : Type := Fin 21 → Fin 21 → EReal

variable {d : ℕ}

/-- Squared length of feature column j (a sum started from the zero word). -/
def sqn (f : Feat d) (j : Fin 4096) : EReal := w0 + ∑ k, f k j * f k j

/-- Inner product of feature columns i and j. -/
def cross (f : Feat d) (i j : Fin 4096) : EReal := ∑ k, f k i * f k j

/-- The Gaussian kernel entry (i, j). -/
def gk (f : Feat d) (i j : Fin 4096) : EReal :=
  Ideal.exp (wmh * max (sqn f i + sqn f j - w2 * cross f i j) w0)

/-- The kernel's column sum at j. -/
def nrm (f : Feat d) (j : Fin 4096) : EReal := w0 + ∑ i, gk f i j

/-- Largest logit of voxel j. -/
def smax (cur : Tab) (j : Fin 4096) : EReal := Finset.univ.sup fun l => cur l j

/-- Shifted exponential of label l at voxel j. -/
def sexp (cur : Tab) (l : Fin 21) (j : Fin 4096) : EReal := Ideal.exp (cur l j - smax cur j)

/-- The softmax denominator at voxel j. -/
def ssum (cur : Tab) (j : Fin 4096) : EReal := w0 + ∑ l, sexp cur l j

/-- The softmax of cur over the labels. -/
def q (cur : Tab) (l : Fin 21) (j : Fin 4096) : EReal := Ideal.div (sexp cur l j) (ssum cur j)

/-- The normalised filter response: (q * gk f) (l, j) / nrm f j. -/
def filt (f : Feat d) (cur : Tab) (l : Fin 21) (j : Fin 4096) : EReal :=
  Ideal.div (∑ i, q cur l i * gk f i j) (nrm f j)

/-- One mean-field step, the reference's arrangement: C * (S * F_s + B * F_b) + U. -/
def stepR (fs : Feat 3) (fb : Feat 6) (S B C : Wt) (U : Tab) (cur : Tab) : Tab := fun l j =>
  (∑ k, C l k * ((∑ a, S k a * filt fs cur a j) + (∑ a, B k a * filt fb cur a j))) + U l j

/-- One mean-field step, the kernel's arrangement: (C*S) * F_s + (C*B) * F_b + U. -/
def stepK (fs : Feat 3) (fb : Feat 6) (S B C : Wt) (U : Tab) (cur : Tab) : Tab := fun l j =>
  ((∑ a, (∑ k, C l k * S k a) * filt fs cur a j) + (∑ a, (∑ k, C l k * B k a) * filt fb cur a j)) + U l j

/-- Five steps from the unary logits, in each arrangement. -/
def netR (fs : Feat 3) (fb : Feat 6) (S B C : Wt) (U : Tab) : Tab := (stepR fs fb S B C U)^[5] U
def netK (fs : Feat 3) (fb : Feat 6) (S B C : Wt) (U : Tab) : Tab := (stepK fs fb S B C U)^[5] U

/-- Every entry is a real number. -/
def RealTab {α β : Type} (x : α → β → EReal) : Prop := ∀ a b, ∃ r : ℝ, x a b = (r : EReal)

end Cert.Crf

end
-- ==== Proof.CrfShapes.lean ====
/-
  Reading the programs' arrays as the tables of the specification: a [1,21,16,16,16] array as a label-by-voxel
  table (voxel (z,y,x) has number 256 z + 16 y + x, the row-major order a reshape to [21,4096] keeps), a [21,21]
  array as a weight matrix, a [d,4096] array as a feature table, and a table back as a [1,21,16,16,16] array.
-/
import Idealize.ShloMosaic.Lib.ValueIdx
import proofs.«171617_j90795608638216_2_alg».proof.Proof.CrfSpec

noncomputable section

namespace Cert.Crf

open Idealize.ShloMosaic Idealize.ShloMosaic.ValueIdx

/-- The number of voxel (z, y, x). -/
def vox (z y x : Fin 16) : Fin 4096 := ⟨z.val * 256 + y.val * 16 + x.val, by omega⟩
/-- The three coordinates of voxel j. -/
def vz (j : Fin 4096) : Fin 16 := ⟨j.val / 256, by omega⟩
def vy (j : Fin 4096) : Fin 16 := ⟨j.val / 16 % 16, by omega⟩
def vx (j : Fin 4096) : Fin 16 := ⟨j.val % 16, by omega⟩

theorem vox_vz_vy_vx (j : Fin 4096) : vox (vz j) (vy j) (vx j) = j := by
  apply Fin.ext; simp only [vox, vz, vy, vx]; omega

theorem vz_vox (z y x : Fin 16) : vz (vox z y x) = z := by apply Fin.ext; simp only [vox, vz]; omega
theorem vy_vox (z y x : Fin 16) : vy (vox z y x) = y := by apply Fin.ext; simp only [vox, vy]; omega
theorem vx_vox (z y x : Fin 16) : vx (vox z y x) = x := by apply Fin.ext; simp only [vox, vx]; omega

/-- A [1,21,16,16,16] array as a label-by-voxel table. -/
def tabOf (x : (⟨5, ![1, 21, 16, 16, 16]⟩ : Shape).Idx → EReal) : Tab :=
  fun l j => x (ix5 (0 : Fin 1) l (vz j) (vy j) (vx j))

/-- A [21,21] array as a weight matrix. -/
def wtOf (x : (⟨2, ![21, 21]⟩ : Shape).Idx → EReal) : Wt := fun a b => x (ix2 a b)

/-- A [d,4096] array as a feature table. -/
def featOf {d : ℕ} (x : (⟨2, ![d, 4096]⟩ : Shape).Idx → EReal) : Feat d := fun k j => x (ix2 k j)

/-- A [21,4096] array as a label-by-voxel table. -/
def tab2Of (x : (⟨2, ![21, 4096]⟩ : Shape).Idx → EReal) : Tab := fun l j => x (ix2 l j)

/-- A label-by-voxel table as a [1,21,16,16,16] array. -/
def outOf (T : Tab) : (⟨5, ![1, 21, 16, 16, 16]⟩ : Shape).Idx → EReal :=
  fun i => T (i 1) (vox (i 2) (i 3) (i 4))

end Cert.Crf

end
-- ==== Proof.RefFeat.lean ====
/-
  The two feature tables of the reference, as closed terms: the voxel coordinates (z, y, x) divided by 1, and the six
  rows (coordinates / 67, image / 3).  Every entry is a real number: an integer coordinate read as a real, or an
  image entry, divided by a nonzero real word.
-/
import proofs.«171617_j90795608638216_2_alg».proof.ReferenceIdeal
import proofs.«171617_j90795608638216_2_alg».proof.Proof.Gen.ReferenceIdeal
import proofs.«171617_j90795608638216_2_alg».proof.Proof.CrfShapes
import Idealize.ShloMosaic.Lib.Pipeline.Value
import Idealize.ShloMosaic.Lib.IdealHost

noncomputable section

namespace Cert.Crf

open Idealize.ShloMosaic Idealize.ShloMosaic.ValueIdx Cert.ReferenceIdeal Cert.ReferenceIdeal.Facts₀

/-- The coordinate table as integers: row 0 is z, row 1 is y, row 2 is x of each voxel. -/
def posInt : IVec S3x4096 32 :=
  shapeCast _ (concatenate S3x16x16x16 0 [⟨S1x16x16x16, (broadcastInDim S1x16x16x16 ![1, 2, 3] bcast_S16x16x16_S1x16x16x16_1_2_3 (broadcastInDim S16x16x16 ![0] bcast_S16_S16x16x16_0 (iotaInDim S16 32 0)))⟩, ⟨S1x16x16x16, (broadcastInDim S1x16x16x16 ![1, 2, 3] bcast_S16x16x16_S1x16x16x16_1_2_3 (broadcastInDim S16x16x16 ![1] bcast_S16_S16x16x16_1 (iotaInDim S16 32 0)))⟩, ⟨S1x16x16x16, (broadcastInDim S1x16x16x16 ![1, 2, 3] bcast_S16x16x16_S1x16x16x16_1_2_3 (broadcastInDim S16x16x16 ![2] bcast_S16_S16x16x16_2 (iotaInDim S16 32 0)))⟩] concatenates_S1x16x16x16_S1x16x16x16_S1x16x16x16_S3x16x16x16_d0) shapeCasts_S3x16x16x16_S3x4096

/-- The coordinate table as floats. -/
def posTerm : FVec Ideal S3x4096 .f32 := sitofp .f32 posInt

/-- The spatial features: the coordinates divided by the word 1.0. -/
def fsTerm : FVec Ideal S3x4096 .f32 :=
  Host.divf (F := Ideal) posTerm (broadcastInDim S3x4096 ![] bcast_S_S3x4096 (constant (F := Ideal) S_ .f32 0x3F800000#32))

/-- The bilateral features: the coordinates divided by the word 67.0 above the image divided by the word 3.0. -/
def fbTerm (a0 : FVec Ideal S1x3x16x16x16 .f32) : FVec Ideal S6x4096 .f32 :=
  concatenate S6x4096 0 [⟨S3x4096, (Host.divf (F := Ideal) posTerm (broadcastInDim S3x4096 ![] bcast_S_S3x4096 (constant (F := Ideal) S_ .f32 0x42860000#32)))⟩, ⟨S3x4096, (Host.divf (F := Ideal) (shapeCast _ (shapeCast _ a0 shapeCasts_S1x3x16x16x16_S3x16x16x16) shapeCasts_S3x16x16x16_S3x4096) (broadcastInDim S3x4096 ![] bcast_S_S3x4096 (constant (F := Ideal) S_ .f32 0x40400000#32)))⟩] concatenates_S3x4096_S3x4096_S6x4096_d0

/-- The word 0x42860000 is the real 67. -/
theorem ofBits_67 : Ideal.ofBits .f32 0x42860000#32 = ((67 : ℝ) : EReal) := by
  simp [Ideal.ofBits, Ideal.ieee, -EReal.coe_mul]; norm_num

/-- The word 0x40400000 is the real 3. -/
theorem ofBits_3 : Ideal.ofBits .f32 0x40400000#32 = ((3 : ℝ) : EReal) := by
  simp [Ideal.ofBits, Ideal.ieee, -EReal.coe_mul]; norm_num

/-- A real divided by a nonzero real is real. -/
theorem div_real_real (x y : ℝ) (hy : y ≠ 0) : ∃ r : ℝ, Ideal.div (x : EReal) (y : EReal) = (r : EReal) :=
  ⟨x * (1 / y), by rw [Ideal.div_coe hy, EReal.coe_mul]⟩

/-- A table divided entry by entry by a splat nonzero real word is real wherever the table is. -/
theorem divf_word_real (x : FVec Ideal S3x4096 .f32) (w : BitVec 32) (y : ℝ) (hy : y ≠ 0)
    (hw : Ideal.ofBits .f32 w = (y : EReal)) (i : S3x4096.Idx) (hx : ∃ r : ℝ, x i = (r : EReal)) :
    ∃ r : ℝ, Host.divf (F := Ideal) x (broadcastInDim S3x4096 ![] bcast_S_S3x4096 (constant (F := Ideal) S_ .f32 w)) i = (r : EReal) := by
  obtain ⟨r, hr⟩ := hx
  show ∃ r : ℝ, Ideal.div (x i) (broadcastInDim S3x4096 ![] bcast_S_S3x4096 (constant (F := Ideal) S_ .f32 w) i) = (r : EReal)
  rw [hr, broadcastInDim_scalar_apply, constant_apply, hw]
  exact div_real_real r y hy

/-- Every coordinate entry is a real number. -/
theorem posTerm_real (i : S3x4096.Idx) : ∃ r : ℝ, posTerm i = (r : EReal) := ⟨((posInt i).toInt : ℝ), rfl⟩

theorem fsTerm_real : RealTab (featOf fsTerm) := fun k j =>
  divf_word_real posTerm _ 1 one_ne_zero (by rw [Ideal.ofBits_one_f32]; rfl) (ix2 k j) (posTerm_real _)

theorem fbTerm_real (a0 : FVec Ideal S1x3x16x16x16 .f32) (h : ∀ i, ∃ r : ℝ, a0 i = (r : EReal)) :
    RealTab (featOf (fbTerm a0)) := by
  intro k j
  show ∃ r : ℝ, fbTerm a0 (ix2 k j) = (r : EReal)
  unfold fbTerm
  by_cases hk : k.val < 3
  · rw [concatenate_pair_apply_left (t := S6x4096) (s₁ := S3x4096) (s₂ := S3x4096) 0 _ _ _ (ix2 k j) rfl (ix2 (⟨k.val, hk⟩ : Fin 3) j)
      (fun b => by match b with | ⟨0, _⟩ => rfl | ⟨1, _⟩ => rfl)]
    exact divf_word_real posTerm _ 67 (by norm_num) ofBits_67 _ (posTerm_real _)
  · have hk3 : k.val - 3 < 3 := by have := k.isLt; omega
    rw [concatenate_pair_apply_right (t := S6x4096) (s₁ := S3x4096) (s₂ := S3x4096) 0 _ _ _ (ix2 k j) rfl rfl (ix2 (⟨k.val - 3, hk3⟩ : Fin 3) j)
      (fun b hb => by match b with | ⟨0, _⟩ => exact absurd rfl hb | ⟨1, _⟩ => rfl)
      (by show k.val - 3 + 3 = k.val; omega)]
    exact divf_word_real _ _ 3 (by norm_num) ofBits_3 _ (h _)

end Cert.Crf

end
-- ==== Proof.LibPlainDot.lean ====
/-
  A plain matrix product read at an index, over the extended reals.

  For dimension numbers that contract the left operand's axis 1 with the right operand's axis 0 and keep
  (left axis 0, right axis 1) as the result's axes, the contraction at result index `(a, b)` is
  `Σ_{k < K} l(a, k) · r(k, b)`: the same plain sum for a `tpu.matmul` into a zero accumulator and for the host's
  `dot_general`, whatever the rows' extent. The dimension record enters through four coordinate facts about how it
  reads its operands (for a printed record each holds by computation), so the lemmas serve every extent.
-/
import Idealize.ShloMosaic.Lib.ValueIdx
import Idealize.ShloMosaic.PureOps.Ideal.Laws

noncomputable section

namespace Cert.Lib.PlainDot

open Idealize.ShloMosaic Idealize.ShloMosaic.ValueIdx

variable {R K C : Nat} {φ₁ φ₂ : FTy}

/-- How a rows×inner by inner×cols dimension record reads its operands: one contracted axis of extent `K`; at result
    index `i` and contraction position `q` the left operand is read at `(i 0, q)` and the right at `(q, i 1)`. -/
structure Reads (d : DotDims (⟨2, ![R, K]⟩ : Shape) (⟨2, ![K, C]⟩ : Shape) (⟨2, ![R, C]⟩ : Shape)) : Prop where
  rank : d.contr.rank = 1
  size : d.contr.size ⟨0, by omega⟩ = K
  lhs0 : ∀ (i : (⟨2, ![R, C]⟩ : Shape).Idx) (q : d.contr.Idx), (d.lhsIdx i q 0).val = (i 0).val
  lhs1 : ∀ (i : (⟨2, ![R, C]⟩ : Shape).Idx) (q : d.contr.Idx), (d.lhsIdx i q 1).val = (q ⟨0, by omega⟩).val
  rhs0 : ∀ (i : (⟨2, ![R, C]⟩ : Shape).Idx) (q : d.contr.Idx), (d.rhsIdx i q 0).val = (q ⟨0, by omega⟩).val
  rhs1 : ∀ (i : (⟨2, ![R, C]⟩ : Shape).Idx) (q : d.contr.Idx), (d.rhsIdx i q 1).val = (i 1).val

variable {d : DotDims (⟨2, ![R, K]⟩ : Shape) (⟨2, ![K, C]⟩ : Shape) (⟨2, ![R, C]⟩ : Shape)}

/-- The sum over the record's contraction index is the sum over the inner axis' coordinate. -/
theorem sum_contr (h : Reads d) (l : FVec Ideal (⟨2, ![R, K]⟩ : Shape) φ₁) (r : FVec Ideal (⟨2, ![K, C]⟩ : Shape) φ₂)
    (a : Fin R) (b : Fin C) :
    ∑ q : d.contr.Idx, l (d.lhsIdx (ix2 a b) q) * r (d.rhsIdx (ix2 a b) q) = ∑ k : Fin K, l (ix2 a k) * r (ix2 k b) := by
  rw [← Equiv.sum_comp (contrEquiv1 d K h.rank h.size).symm]
  refine Finset.sum_congr rfl fun k _ => ?_
  have hk := contrEquiv1_symm_val d K h.rank h.size k
  have el : d.lhsIdx (ix2 a b) ((contrEquiv1 d K h.rank h.size).symm k) = ix2 a k := funext fun x => Fin.ext (by
    match x with
    | ⟨0, _⟩ => exact h.lhs0 _ _
    | ⟨1, _⟩ => exact (h.lhs1 _ _).trans hk)
  have er : d.rhsIdx (ix2 a b) ((contrEquiv1 d K h.rank h.size).symm k) = ix2 k b := funext fun x => Fin.ext (by
    match x with
    | ⟨0, _⟩ => exact (h.rhs0 _ _).trans hk
    | ⟨1, _⟩ => exact h.rhs1 _ _)
  rw [el, er]

/-- A `tpu.matmul` into the zero accumulator, at `(a, b)`. -/
theorem matmul_zero_apply (h : Reads d) (prec : Option ContractPrecision)
    (l : FVec Ideal (⟨2, ![R, K]⟩ : Shape) φ₁) (r : FVec Ideal (⟨2, ![K, C]⟩ : Shape) φ₂) (a : Fin R) (b : Fin C) :
    FloatOps.matmul d prec l r (constant (⟨2, ![R, C]⟩ : Shape) .f32 0x00000000#32) (ix2 a b)
      = ∑ k : Fin K, l (ix2 a k) * r (ix2 k b) :=
  (Ideal.matmul_constant_zero_apply d prec l r (ix2 a b)).trans (sum_contr h l r a b)

/-- The host's `dot_general`, at `(a, b)`. -/
theorem dotGeneral_apply (h : Reads d) (prec : Option ContractPrecision) (sched : HostSchedule)
    (l : FVec Ideal (⟨2, ![R, K]⟩ : Shape) φ₁) (r : FVec Ideal (⟨2, ![K, C]⟩ : Shape) φ₂) (a : Fin R) (b : Fin C) :
    FloatOps.dotGeneral d prec sched l r (ix2 a b) = ∑ k : Fin K, l (ix2 a k) * r (ix2 k b) :=
  (Ideal.dotGeneral_apply d prec sched l r (ix2 a b)).trans (sum_contr h l r a b)

end Cert.Lib.PlainDot

end
-- ==== Proof.LibColumnBcast.lean ====
/-
  The host's column layouts read at an index: a vector of `a` entries stood up as an `[a, 1]` column by a
  `broadcast_in_dim` along dim 0 (entry `i` stays entry `i`), and an `[a, 1]` column spread along its unit axis to
  `[a, b]` by a `broadcast_in_dim` along dims (0, 1) (row `p` is `b` copies of the column's entry `p`). Generic in the
  extents and in the element type; the companions, for the host's operation, of the vector casts and broadcasts of
  the same layouts.
-/
import Idealize.ShloMosaic.Lib.Pipeline.Value
import Idealize.ShloMosaic.Lib.ValueIdx

namespace Cert.Lib.ColumnBcast

open Idealize.ShloMosaic Idealize.ShloMosaic.ValueIdx

variable {α : Type}

/-- An `[a]` vector broadcast to an `[a, 1]` column along dim 0 reads, at `(i, u)`, the vector at `i`. -/
theorem bcast_vec_col_apply {a : ℕ} (dims : Fin 1 → Fin 2) (hd : dims = ![0])
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  subst hd
  refine broadcastInDim_apply _ h x (ix2 i u) (ix1 i) fun ax => ?_
  match ax with
  | ⟨0, _⟩ =>
    show i.val = if a = 1 then 0 else i.val
    split
    · have := i.isLt; omega
    · rfl

/-- An `[a, 1]` column broadcast to `[a, b]` along dims (0, 1) reads, at `(p, c)`, the column's entry `p`. -/
theorem bcast_col_apply {a b : ℕ} (dims : Fin 2 → Fin 2) (hd : dims = ![0, 1])
    (h : (⟨2, ![a, 1]⟩ : Shape).BroadcastsInDim ⟨2, ![a, b]⟩ dims) (v : (⟨2, ![a, 1]⟩ : Shape).Idx → α)
    (p : Fin a) (c : Fin b) : broadcastInDim ⟨2, ![a, b]⟩ dims h v (ix2 p c) = v (ix2 p (0 : Fin 1)) := by
  subst hd
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnBcast
-- ==== Proof.LibBiasLayout.lean ====
/-
  A bias laid out as a row, and a scalar spread over an array, read at an index.

  `broadcast_in_dim` of a rank-0 value to any shape reads that one value everywhere; of a `[1, b]` row to `[a, b]` along
  dims (0, 1) it reads, at `(p, c)`, the row at `c`; of a `[b]` vector to a `[1, b]` row along dim 1 it reads, at
  `(u, i)`, the vector at `i` — which is also what the reshape `[b] → [1, b]` reads, so the two layouts of a bias as a
  row are one array.
-/
import Idealize.ShloMosaic.Lib.Pipeline.Value
import Idealize.ShloMosaic.Lib.ValueIdx
import Idealize.ShloMosaic.Lib.ValueLayout

noncomputable section

namespace Cert.Lib.BiasLayout

open Idealize.ShloMosaic Idealize.ShloMosaic.ValueIdx

variable {α : Type}

/-- A rank-0 value broadcast to any shape reads that value at every index. -/
theorem bcast_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A `[1, b]` row broadcast to `[a, b]` along dims (0, 1) reads, at `(p, c)`, the row at `c`. -/
theorem bcast_row_apply {a b : ℕ} (dims : Fin 2 → Fin 2) (hd : dims = ![0, 1])
    (h : (⟨2, ![1, b]⟩ : Shape).BroadcastsInDim ⟨2, ![a, b]⟩ dims) (v : (⟨2, ![1, b]⟩ : Shape).Idx → α)
    (p : Fin a) (c : Fin b) : broadcastInDim ⟨2, ![a, b]⟩ dims h v (ix2 p c) = v (ix2 (0 : Fin 1) c) := by
  subst hd
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A `[b]` vector broadcast to a `[1, b]` row along dim 1 reads, at `(u, i)`, the vector at `i`. -/
theorem bcast_vec_row_apply {b : ℕ} (dims : Fin 1 → Fin 2) (hd : dims = ![1])
    (h : (⟨1, ![b]⟩ : Shape).BroadcastsInDim ⟨2, ![1, b]⟩ dims) (x : (⟨1, ![b]⟩ : Shape).Idx → α)
    (u : Fin 1) (i : Fin b) : broadcastInDim ⟨2, ![1, b]⟩ dims h x (ix2 u i) = x (ix1 i) := by
  subst hd
  refine broadcastInDim_apply _ h x (ix2 u i) (ix1 i) fun ax => ?_
  match ax with
  | ⟨0, _⟩ =>
    show i.val = if b = 1 then 0 else i.val
    split
    · have := i.isLt; omega
    · rfl

/-- So the reshape `[b] → [1, b]` and the broadcast `[b] → [1, b]` along dim 1 lay a vector out as the same row. -/
theorem reshape_row_eq_bcast_row {b : ℕ} (dims : Fin 1 → Fin 2) (hd : dims = ![1])
    (hc : (⟨1, ![b]⟩ : Shape).ShapeCasts ⟨2, ![1, b]⟩) (hb : (⟨1, ![b]⟩ : Shape).BroadcastsInDim ⟨2, ![1, b]⟩ dims)
    (x : (⟨1, ![b]⟩ : Shape).Idx → α) :
    shapeCast ⟨2, ![1, b]⟩ x hc = broadcastInDim ⟨2, ![1, b]⟩ dims hb x := by
  funext j
  obtain ⟨u, i, rfl⟩ : ∃ (u : Fin 1) (i : Fin b), j = ix2 u i := ⟨j 0, j 1, eq_ix2 j⟩
  rw [shapeCast_a_1a_apply x hc u i, bcast_vec_row_apply dims hd hb x u i]

end Cert.Lib.BiasLayout

end
-- ==== Proof.RefLayout.lean ====
/-
  The reference's layout operations, sums and maxima read at an index, at the shapes of this program:
  reshapes between [21,16,16,16] and [21,4096] (voxel (z,y,x) has number 256 z + 16 y + x), the keepdims
  broadcasts, column sums and label sums as finite sums, the label maximum as a supremum, and the four matrix
  products as sums over the inner index.
-/
import proofs.«171617_j90795608638216_2_alg».proof.ReferenceIdeal
import proofs.«171617_j90795608638216_2_alg».proof.Proof.Gen.ReferenceIdeal
import proofs.«171617_j90795608638216_2_alg».proof.Proof.CrfShapes
import proofs.«171617_j90795608638216_2_alg».proof.Proof.LibPlainDot
import proofs.«171617_j90795608638216_2_alg».proof.Proof.LibColumnBcast
import proofs.«171617_j90795608638216_2_alg».proof.Proof.LibBiasLayout
import Idealize.ShloMosaic.Lib.Pipeline.Value
import Idealize.ShloMosaic.Lib.IdealHost

noncomputable section

namespace Cert.Crf

open Idealize.ShloMosaic Idealize.ShloMosaic.ValueIdx Cert.ReferenceIdeal Cert.ReferenceIdeal.Facts₀

variable {α : Type}

/-! ## Reshapes -/

/-- [21,16,16,16] → [21,4096]: at (l, j) the operand at (l, z, y, x) of voxel j. -/
theorem cast_tab_apply (x : S21x16x16x16.Idx → α) (l : Fin 21) (j : Fin 4096) :
    shapeCast S21x4096 x shapeCasts_S21x16x16x16_S21x4096 (ix2 l j) = x (ix4 l (vz j) (vy j) (vx j)) :=
  shapeCast_apply x _ _ _ (by
    rw [Shape.rowMajor_val_four, Shape.rowMajor_val_two]
    show ((l.val * 16 + (vz j).val) * 16 + (vy j).val) * 16 + (vx j).val = l.val * 4096 + j.val
    simp only [vz, vy, vx]; omega)

/-- [21,4096] → [21,16,16,16]: at (l, z, y, x) the operand at (l, voxel number). -/
theorem cast_vol_apply (x : S21x4096.Idx → α) (l : Fin 21) (z y w : Fin 16) :
    shapeCast S21x16x16x16 x shapeCasts_S21x4096_S21x16x16x16 (ix4 l z y w) = x (ix2 l (vox z y w)) :=
  shapeCast_apply x _ _ _ (by
    rw [Shape.rowMajor_val_four, Shape.rowMajor_val_two]
    show l.val * 4096 + (vox z y w).val = ((l.val * 16 + z.val) * 16 + y.val) * 16 + w.val
    simp only [vox]; omega)

/-- [1,21,16,16,16] → [21,16,16,16]: the leading unit axis dropped. -/
theorem cast_drop_apply (x : S1x21x16x16x16.Idx → α) (l : Fin 21) (z y w : Fin 16) :
    shapeCast S21x16x16x16 x shapeCasts_S1x21x16x16x16_S21x16x16x16 (ix4 l z y w) = x (ix5 (0 : Fin 1) l z y w) :=
  shapeCast_apply x _ _ _ (by
    rw [Shape.rowMajor_val_four, Shape.rowMajor_val_five]
    show (((0 * 21 + l.val) * 16 + z.val) * 16 + y.val) * 16 + w.val = ((l.val * 16 + z.val) * 16 + y.val) * 16 + w.val
    omega)

/-! ## Broadcasts -/

/-- [16,16,16] → [1,16,16,16] along dims (1,2,3). -/
theorem bcast_unit_apply (v : S16x16x16.Idx → α) (u : Fin 1) (z y w : Fin 16) :
    broadcastInDim S1x16x16x16 ![1, 2, 3] bcast_S16x16x16_S1x16x16x16_1_2_3 v (ix4 u z y w) = v (ix3 z y w) :=
  broadcastInDim_apply _ _ v _ (ix3 z y w) fun ax => by
    match ax with
    | ⟨0, _⟩ => rfl
    | ⟨1, _⟩ => rfl
    | ⟨2, _⟩ => rfl

/-- [1,16,16,16] → [21,16,16,16] along dims (0,1,2,3). -/
theorem bcast_labels_apply (v : S1x16x16x16.Idx → α) (l : Fin 21) (z y w : Fin 16) :
    broadcastInDim S21x16x16x16 ![0, 1, 2, 3] bcast_S1x16x16x16_S21x16x16x16_0_1_2_3 v (ix4 l z y w) = v (ix4 (0 : Fin 1) z y w) :=
  broadcastInDim_apply _ _ v _ (ix4 (0 : Fin 1) z y w) fun ax => by
    match ax with
    | ⟨0, _⟩ => rfl
    | ⟨1, _⟩ => rfl
    | ⟨2, _⟩ => rfl
    | ⟨3, _⟩ => rfl

/-- [21,16,16,16] → [1,21,16,16,16] along dims (1,2,3,4). -/
theorem bcast_lead_apply (v : S21x16x16x16.Idx → α) (i : S1x21x16x16x16.Idx) :
    broadcastInDim S1x21x16x16x16 ![1, 2, 3, 4] bcast_S21x16x16x16_S1x21x16x16x16_1_2_3_4 v i = v (ix4 (i 1) (i 2) (i 3) (i 4)) :=
  broadcastInDim_apply _ _ v _ (ix4 (i 1) (i 2) (i 3) (i 4)) fun ax => by
    match ax with
    | ⟨0, _⟩ => rfl
    | ⟨1, _⟩ => rfl
    | ⟨2, _⟩ => rfl
    | ⟨3, _⟩ => rfl

/-- A [4096] vector as a column spread over the columns: at (i, j) the vector at i. -/
theorem bcast_colmat_apply (v : S4096.Idx → α) (i j : Fin 4096) :
    broadcastInDim S4096x4096 ![0, 1] bcast_S4096x1_S4096x4096_0_1 (broadcastInDim S4096x1 ![0] bcast_S4096_S4096x1_0 v) (ix2 i j) = v (ix1 i) :=
  (Cert.Lib.ColumnBcast.bcast_col_apply _ rfl _ _ i j).trans (Cert.Lib.ColumnBcast.bcast_vec_col_apply _ rfl _ v i 0)

/-- A [4096] vector as a row spread over the rows of a square: at (i, j) the vector at j. -/
theorem bcast_rowmat_apply (v : S4096.Idx → α) (i j : Fin 4096) :
    broadcastInDim S4096x4096 ![0, 1] bcast_S1x4096_S4096x4096_0_1 (broadcastInDim S1x4096 ![1] bcast_S4096_S1x4096_1 v) (ix2 i j) = v (ix1 j) :=
  (Cert.Lib.BiasLayout.bcast_row_apply _ rfl _ _ i j).trans (Cert.Lib.BiasLayout.bcast_vec_row_apply _ rfl _ v 0 j)

/-- A [4096] vector as a row spread over the 21 label rows: at (l, j) the vector at j. -/
theorem bcast_rowtab_apply (v : S4096.Idx → α) (l : Fin 21) (j : Fin 4096) :
    broadcastInDim S21x4096 ![0, 1] bcast_S1x4096_S21x4096_0_1 (broadcastInDim S1x4096 ![1] bcast_S4096_S1x4096_1 v) (ix2 l j) = v (ix1 j) :=
  (Cert.Lib.BiasLayout.bcast_row_apply _ rfl _ _ l j).trans (Cert.Lib.BiasLayout.bcast_vec_row_apply _ rfl _ v 0 j)

/-- A per-voxel [16,16,16] value spread over the labels: at (l, z, y, x) the value at (z, y, x). -/
theorem bcast_vox_apply (v : S16x16x16.Idx → α) (l : Fin 21) (z y w : Fin 16) :
    broadcastInDim S21x16x16x16 ![0, 1, 2, 3] bcast_S1x16x16x16_S21x16x16x16_0_1_2_3
      (broadcastInDim S1x16x16x16 ![1, 2, 3] bcast_S16x16x16_S1x16x16x16_1_2_3 v) (ix4 l z y w) = v (ix3 z y w) :=
  (bcast_labels_apply _ l z y w).trans (bcast_unit_apply v 0 z y w)

end Cert.Crf

end
-- ==== Proof.RefSums.lean ====
/-
  The reference's sums, maxima and matrix products read at an index, at the shapes of this program: a sum over the
  feature rows or over the labels or down a column of a square table is the initial word plus a finite sum, the
  label maximum from the word -infinity is the supremum over the labels, and each matrix product is the sum over the
  inner index of the products.
-/
import proofs.«171617_j90795608638216_2_alg».proof.ReferenceIdeal
import proofs.«171617_j90795608638216_2_alg».proof.Proof.Gen.ReferenceIdeal
import proofs.«171617_j90795608638216_2_alg».proof.Proof.CrfShapes
import proofs.«171617_j90795608638216_2_alg».proof.Proof.LibPlainDot
import Idealize.ShloMosaic.Lib.IdealHost
import Idealize.ShloMosaic.Lib.ValueLayout

noncomputable section

namespace Cert.Crf

open Idealize.ShloMosaic Idealize.ShloMosaic.ValueIdx Cert.ReferenceIdeal Cert.ReferenceIdeal.Facts₀

/-! ## Sums -/

theorem red3 : S3x4096.Reduces [0] S4096 := by decide
theorem red6 : S6x4096.Reduces [0] S4096 := by decide
theorem redN : S4096x4096.Reduces [0] S4096 := by decide
theorem redL : S21x16x16x16.Reduces [0] S16x16x16 := by decide

/-- The sum over the three feature rows, from the zero word. -/
theorem sum3_apply (x : FVec Ideal S3x4096 .f32) (j : Fin 4096) :
    Host.reduceAdd (F := Ideal) x (constant (F := Ideal) S_ .f32 0x00000000#32) reducesTo_S3x4096_S4096_d0 h_S_ (ix1 j)
      = w0 + ∑ k : Fin 3, x (ix2 k j) := by
  rw [hostReduceAdd_apply, Ideal.hostReduceAdd_single _ red3]
  refine congrArg (w0 + ·) (Finset.sum_congr rfl fun k _ => congrArg x (funext fun c => Fin.ext ?_))
  match c with
  | ⟨0, _⟩ => rfl
  | ⟨1, _⟩ => rfl

/-- The sum over the six feature rows, from the zero word. -/
theorem sum6_apply (x : FVec Ideal S6x4096 .f32) (j : Fin 4096) :
    Host.reduceAdd (F := Ideal) x (constant (F := Ideal) S_ .f32 0x00000000#32) reducesTo_S6x4096_S4096_d0 h_S_ (ix1 j)
      = w0 + ∑ k : Fin 6, x (ix2 k j) := by
  rw [hostReduceAdd_apply, Ideal.hostReduceAdd_single _ red6]
  refine congrArg (w0 + ·) (Finset.sum_congr rfl fun k _ => congrArg x (funext fun c => Fin.ext ?_))
  match c with
  | ⟨0, _⟩ => rfl
  | ⟨1, _⟩ => rfl

/-- The column sums of a square table, from the zero word. -/
theorem sumN_apply (x : FVec Ideal S4096x4096 .f32) (j : Fin 4096) :
    Host.reduceAdd (F := Ideal) x (constant (F := Ideal) S_ .f32 0x00000000#32) reducesTo_S4096x4096_S4096_d0 h_S_ (ix1 j)
      = w0 + ∑ i : Fin 4096, x (ix2 i j) := by
  rw [hostReduceAdd_apply, Ideal.hostReduceAdd_single _ redN]
  refine congrArg (w0 + ·) (Finset.sum_congr rfl fun k _ => congrArg x (funext fun c => Fin.ext ?_))
  match c with
  | ⟨0, _⟩ => rfl
  | ⟨1, _⟩ => rfl

/-- The sum over the labels, from the zero word. -/
theorem sumL_apply (x : FVec Ideal S21x16x16x16 .f32) (z y w : Fin 16) :
    Host.reduceAdd (F := Ideal) x (constant (F := Ideal) S_ .f32 0x00000000#32) reducesTo_S21x16x16x16_S16x16x16_d0 h_S_ (ix3 z y w)
      = w0 + ∑ l : Fin 21, x (ix4 l z y w) := by
  rw [hostReduceAdd_apply, Ideal.hostReduceAdd_single _ redL]
  refine congrArg (w0 + ·) (Finset.sum_congr rfl fun k _ => congrArg x (funext fun c => Fin.ext ?_))
  match c with
  | ⟨0, _⟩ => rfl
  | ⟨1, _⟩ => rfl
  | ⟨2, _⟩ => rfl
  | ⟨3, _⟩ => rfl

/-! ## The label maximum -/

/-- The word 0xFF800000 is -infinity. -/
theorem ofBits_ninf : Ideal.ofBits .f32 0xFF800000#32 = (⊥ : EReal) := by
  simp [Ideal.ofBits, Ideal.ieee]

/-- A fold of max from -infinity is the supremum. -/
theorem fold_max_bot {n : ℕ} (f : Fin n → EReal) :
    (Finset.univ : Finset (Fin n)).fold max (⊥ : EReal) f = Finset.univ.sup f := by
  refine eq_of_forall_ge_iff fun c => ?_
  simp only [Finset.fold_max_le, Finset.sup_le_iff, bot_le, true_and]

/-- The maximum over the labels, from the word -infinity, is the supremum over the labels. -/
theorem maxL_apply (x : FVec Ideal S21x16x16x16 .f32) (z y w : Fin 16) :
    Host.reduce (FloatOps.maximumf (F := Ideal) (φ := .f32)) x (constant (F := Ideal) S_ .f32 0xFF800000#32)
        reducesTo_S21x16x16x16_S16x16x16_d0 h_S_ (ix3 z y w)
      = Finset.univ.sup fun l : Fin 21 => x (ix4 l z y w) := by
  rw [Host.reduce_eq_fold_single _ x _ _ redL h_S_ (ix3 z y w)]
  have e : (x ∘ redL.lift (ix3 z y w)) = fun l : Fin 21 => x (ix4 l z y w) := funext fun l =>
    congrArg x (funext fun c => Fin.ext (by
      match c with
      | ⟨0, _⟩ => rfl
      | ⟨1, _⟩ => rfl
      | ⟨2, _⟩ => rfl
      | ⟨3, _⟩ => rfl))
  rw [e]
  show (Finset.univ : Finset (Fin 21)).fold max (Ideal.ofBits .f32 0xFF800000#32) _ = _
  rw [ofBits_ninf]
  exact fold_max_bot _

/-! ## The matrix products -/

theorem reads_gram3 : Cert.Lib.PlainDot.Reads dot_S4096x3_S3x4096_S4096x4096_1_0_0_1_n_n :=
  ⟨rfl, rfl, fun _ _ => rfl, fun _ _ => rfl, fun _ _ => rfl, fun _ _ => rfl⟩
theorem reads_gram6 : Cert.Lib.PlainDot.Reads dot_S4096x6_S6x4096_S4096x4096_1_0_0_1_n_n :=
  ⟨rfl, rfl, fun _ _ => rfl, fun _ _ => rfl, fun _ _ => rfl, fun _ _ => rfl⟩
theorem reads_filter : Cert.Lib.PlainDot.Reads dot_S21x4096_S4096x4096_S21x4096_1_0_0_1_n_n :=
  ⟨rfl, rfl, fun _ _ => rfl, fun _ _ => rfl, fun _ _ => rfl, fun _ _ => rfl⟩
theorem reads_weight : Cert.Lib.PlainDot.Reads dot_S21x21_S21x4096_S21x4096_1_0_0_1_n_n :=
  ⟨rfl, rfl, fun _ _ => rfl, fun _ _ => rfl, fun _ _ => rfl, fun _ _ => rfl⟩

/-- The transposed three-row table times itself: the inner products of its columns. -/
theorem gram3_apply (f : FVec Ideal S3x4096 .f32) (i j : Fin 4096) :
    Host.dotGeneral (F := Ideal) dot_S4096x3_S3x4096_S4096x4096_1_0_0_1_n_n none
        (transpose S4096x3 [1, 0] f transposes_S3x4096_S4096x3_1_0) f (ix2 i j)
      = ∑ k : Fin 3, f (ix2 k i) * f (ix2 k j) := by
  refine (Cert.Lib.PlainDot.dotGeneral_apply reads_gram3 none .single _ f i j).trans ?_
  refine Finset.sum_congr rfl fun k _ => congrArg (· * f (ix2 k j)) ?_
  exact transpose_ix2_apply f _ i k

/-- The transposed six-row table times itself: the inner products of its columns. -/
theorem gram6_apply (f : FVec Ideal S6x4096 .f32) (i j : Fin 4096) :
    Host.dotGeneral (F := Ideal) dot_S4096x6_S6x4096_S4096x4096_1_0_0_1_n_n none
        (transpose S4096x6 [1, 0] f transposes_S6x4096_S4096x6_1_0) f (ix2 i j)
      = ∑ k : Fin 6, f (ix2 k i) * f (ix2 k j) := by
  refine (Cert.Lib.PlainDot.dotGeneral_apply reads_gram6 none .single _ f i j).trans ?_
  refine Finset.sum_congr rfl fun k _ => congrArg (· * f (ix2 k j)) ?_
  exact transpose_ix2_apply f _ i k

/-- A label-by-voxel table times a square voxel table. -/
theorem filter_apply (p : FVec Ideal S21x4096 .f32) (K : FVec Ideal S4096x4096 .f32) (l : Fin 21) (j : Fin 4096) :
    Host.dotGeneral (F := Ideal) dot_S21x4096_S4096x4096_S21x4096_1_0_0_1_n_n none p K (ix2 l j)
      = ∑ i : Fin 4096, p (ix2 l i) * K (ix2 i j) :=
  Cert.Lib.PlainDot.dotGeneral_apply reads_filter none .single p K l j

/-- A weight matrix times a label-by-voxel table. -/
theorem weight_apply (W : FVec Ideal S21x21 .f32) (p : FVec Ideal S21x4096 .f32) (l : Fin 21) (j : Fin 4096) :
    Host.dotGeneral (F := Ideal) dot_S21x21_S21x4096_S21x4096_1_0_0_1_n_n none W p (ix2 l j)
      = ∑ k : Fin 21, W (ix2 l k) * p (ix2 k j) :=
  Cert.Lib.PlainDot.dotGeneral_apply reads_weight none .single W p l j

end Cert.Crf

end
-- ==== Proof.KI.HostReads.lean ====
/-
  What the host operations around the three regions leave in the buffers the regions read: the two feature tables
  and their transposes, the unary logits as a [21,4096] table, the two folded weight matrices, the kernel tables
  and column sums the first two regions wrote, and the result laid out as [1,21,16,16,16].
-/
import proofs.«171617_j90795608638216_2_alg».proof.Proof.KI.Fold
import proofs.«171617_j90795608638216_2_alg».proof.Proof.RefFeat
import proofs.«171617_j90795608638216_2_alg».proof.Proof.RefLayout
import proofs.«171617_j90795608638216_2_alg».proof.Proof.RefSums

set_option maxRecDepth 16384

noncomputable section

namespace Cert.KernelIdeal.Hand

open Cert.KernelIdeal Cert.KernelIdeal.Gen Cert.Crf
open Idealize.ShloMosaic Idealize.ShloMosaic.TcCoe Idealize.ShloMosaic.ValueIdx Idealize.ShloMosaic.StableHlo
open Idealize.SL.Sem

section Ops
variable {F : FTy → Type} [FloatOps F]

/-- The three coordinate arrays stacked: the first stretch's concatenation as a function of its three pieces. -/
def cat3 : (⟨S1x16x16x16, .i32⟩ : BufTy).Contents (Elt F) → (⟨S1x16x16x16, .i32⟩ : BufTy).Contents (Elt F) → (⟨S1x16x16x16, .i32⟩ : BufTy).Contents (Elt F) → (⟨S3x16x16x16, .i32⟩ : BufTy).Contents (Elt F) :=
  fun u0 u1 u2 => concatenate S3x16x16x16 0 [⟨S1x16x16x16, u0⟩, ⟨S1x16x16x16, u1⟩, ⟨S1x16x16x16, u2⟩] concatenates_S1x16x16x16_S1x16x16x16_S1x16x16x16_S3x16x16x16_d0

/-- Two three-row tables stacked: the first stretch's second concatenation as a function of its two pieces. -/
def cat2 : (⟨S3x4096, .f32⟩ : BufTy).Contents (Elt F) → (⟨S3x4096, .f32⟩ : BufTy).Contents (Elt F) → (⟨S6x4096, .f32⟩ : BufTy).Contents (Elt F) :=
  fun a b => concatenate S6x4096 0 [⟨S3x4096, a⟩, ⟨S3x4096, b⟩] concatenates_S3x4096_S3x4096_S6x4096_d0

/-- The first stretch with its two concatenations applied by name. -/
abbrev ops0 : List (HloOp τ sig (Elt F)) :=
  [ StableHlo.reshape main_arg0 main_v0 rfl shapeCasts_S1x3x16x16x16_S3x16x16x16,
    StableHlo.reshape main_arg1 main_v1 rfl shapeCasts_S1x21x16x16x16_S21x16x16x16,
    StableHlo.nullary main_v2 (iotaInDim S16 32 0),
    StableHlo.nullary main_v3 (iotaInDim S16 32 0),
    StableHlo.nullary main_v4 (iotaInDim S16 32 0),
    StableHlo.unary main_v2 main_v5 (broadcastInDim S16x16x16 ![0] bcast_S16_S16x16x16_0 : (⟨S16, .i32⟩ : BufTy).Contents (Elt F) → (⟨S16x16x16, .i32⟩ : BufTy).Contents (Elt F)),
    StableHlo.unary main_v3 main_v6 (broadcastInDim S16x16x16 ![1] bcast_S16_S16x16x16_1 : (⟨S16, .i32⟩ : BufTy).Contents (Elt F) → (⟨S16x16x16, .i32⟩ : BufTy).Contents (Elt F)),
    StableHlo.unary main_v4 main_v7 (broadcastInDim S16x16x16 ![2] bcast_S16_S16x16x16_2 : (⟨S16, .i32⟩ : BufTy).Contents (Elt F) → (⟨S16x16x16, .i32⟩ : BufTy).Contents (Elt F)),
    StableHlo.unary main_v5 main_v8 (broadcastInDim S1x16x16x16 ![1, 2, 3] bcast_S16x16x16_S1x16x16x16_1_2_3 : (⟨S16x16x16, .i32⟩ : BufTy).Contents (Elt F) → (⟨S1x16x16x16, .i32⟩ : BufTy).Contents (Elt F)),
    StableHlo.unary main_v6 main_v9 (broadcastInDim S1x16x16x16 ![1, 2, 3] bcast_S16x16x16_S1x16x16x16_1_2_3 : (⟨S16x16x16, .i32⟩ : BufTy).Contents (Elt F) → (⟨S1x16x16x16, .i32⟩ : BufTy).Contents (Elt F)),
    StableHlo.unary main_v7 main_v10 (broadcastInDim S1x16x16x16 ![1, 2, 3] bcast_S16x16x16_S1x16x16x16_1_2_3 : (⟨S16x16x16, .i32⟩ : BufTy).Contents (Elt F) → (⟨S1x16x16x16, .i32⟩ : BufTy).Contents (Elt F)),
    StableHlo.nary ![main_v8, main_v9, main_v10] main_v11 (fun u => cat3 (u 0) (u 1) (u 2)),
    StableHlo.reshape main_v11 main_v12 rfl shapeCasts_S3x16x16x16_S3x4096,
    StableHlo.unary main_v12 main_v13 (sitofp .f32 : (⟨S3x4096, .i32⟩ : BufTy).Contents (Elt F) → (⟨S3x4096, .f32⟩ : BufTy).Contents (Elt F)),
    StableHlo.nullary main_cst (constant S_ .f32 0x3F800000#32),
    StableHlo.unary main_cst main_v14 (broadcastInDim S3x4096 ![] bcast_S_S3x4096 : (⟨S_, .f32⟩ : BufTy).Contents (Elt F) → (⟨S3x4096, .f32⟩ : BufTy).Contents (Elt F)),
    StableHlo.binary main_v13 main_v14 main_v15 (Host.divf : (⟨S3x4096, .f32⟩ : BufTy).Contents (Elt F) → (⟨S3x4096, .f32⟩ : BufTy).Contents (Elt F) → (⟨S3x4096, .f32⟩ : BufTy).Contents (Elt F)),
    StableHlo.nullary main_cst_0 (constant S_ .f32 0x42860000#32),
    StableHlo.unary main_cst_0 main_v16 (broadcastInDim S3x4096 ![] bcast_S_S3x4096 : (⟨S_, .f32⟩ : BufTy).Contents (Elt F) → (⟨S3x4096, .f32⟩ : BufTy).Contents (Elt F)),
    StableHlo.binary main_v13 main_v16 main_v17 (Host.divf : (⟨S3x4096, .f32⟩ : BufTy).Contents (Elt F) → (⟨S3x4096, .f32⟩ : BufTy).Contents (Elt F) → (⟨S3x4096, .f32⟩ : BufTy).Contents (Elt F)),
    StableHlo.reshape main_v0 main_v18 rfl shapeCasts_S3x16x16x16_S3x4096,
    StableHlo.nullary main_cst_1 (constant S_ .f32 0x40400000#32),
    StableHlo.unary main_cst_1 main_v19 (broadcastInDim S3x4096 ![] bcast_S_S3x4096 : (⟨S_, .f32⟩ : BufTy).Contents (Elt F) → (⟨S3x4096, .f32⟩ : BufTy).Contents (Elt F)),
    StableHlo.binary main_v18 main_v19 main_v20 (Host.divf : (⟨S3x4096, .f32⟩ : BufTy).Contents (Elt F) → (⟨S3x4096, .f32⟩ : BufTy).Contents (Elt F) → (⟨S3x4096, .f32⟩ : BufTy).Contents (Elt F)),
    StableHlo.binary main_v17 main_v20 main_v21 cat2,
    StableHlo.unary main_v15 main_v22 ((transpose S4096x3 [1, 0] · transposes_S3x4096_S4096x3_1_0) : (⟨S3x4096, .f32⟩ : BufTy).Contents (Elt F) → (⟨S4096x3, .f32⟩ : BufTy).Contents (Elt F)) ]

theorem ops0_eq : (hostOps0 : List (HloOp τ sig (Elt F))) = ops0 := rfl

end Ops

variable (m : (ℓ : Loc nD τ sig) → Buf (Elt Ideal) ℓ)

set_option maxHeartbeats 2000000 in
/-- After the first stretch the spatial feature buffer holds the spatial feature table. -/
theorem host1_v15 (c : Dev nD) : W1 (F := Ideal) m c (Proc.devRef .tc main_v15) = fsTerm := by
  show StableHlo.after (hostOps0 (F := Ideal)) (W0 m c) (no_index (Proc.devRef .tc main_v15)) = _
  rw [ops0_eq]
  simp only [ops0]
  after_results_simp
  try dsimp only [Matrix.cons_val]
  try after_results_simp
  all_goals rfl

set_option maxHeartbeats 2000000 in
/-- … and its transpose buffer the transposed table. -/
theorem host1_v22 (c : Dev nD) :
    W1 (F := Ideal) m c (Proc.devRef .tc main_v22) = transpose S4096x3 [1, 0] fsTerm transposes_S3x4096_S4096x3_1_0 := by
  show StableHlo.after (hostOps0 (F := Ideal)) (W0 m c) (no_index (Proc.devRef .tc main_v22)) = _
  rw [ops0_eq]
  simp only [ops0]
  after_results_simp
  try dsimp only [Matrix.cons_val]
  try after_results_simp
  all_goals rfl

set_option maxHeartbeats 2000000 in
/-- After the first stretch the bilateral feature buffer holds the bilateral feature table of the image. -/
theorem host1_v21 (c : Dev nD) :
    W1 (F := Ideal) m c (Proc.devRef .tc main_v21) = fbTerm (m ((c : Thread nD τ).loc main_arg0)) := by
  show StableHlo.after (hostOps0 (F := Ideal)) (W0 m c) (no_index (Proc.devRef .tc main_v21)) = _
  rw [ops0_eq]
  simp only [ops0]
  after_results_simp
  try dsimp only [Matrix.cons_val]
  try after_results_simp
  all_goals rfl

set_option maxHeartbeats 2000000 in
/-- After the first stretch the logits buffer holds the second argument without its leading unit axis. -/
theorem host1_v1 (c : Dev nD) :
    W1 (F := Ideal) m c (Proc.devRef .tc main_v1)
      = shapeCast S21x16x16x16 (m ((c : Thread nD τ).loc main_arg1)) shapeCasts_S1x21x16x16x16_S21x16x16x16 := by
  show StableHlo.after (hostOps0 (F := Ideal)) (W0 m c) (no_index (Proc.devRef .tc main_v1)) = _
  rw [ops0_eq]
  simp only [ops0]
  after_results_simp
  try dsimp only [Matrix.cons_val]
  try after_results_simp
  all_goals rfl

/-! ## The second stretch: one transpose -/

/-- A buffer no item up to region 1's exit writes holds its launch contents there. -/
theorem W4_of_arg (c : Dev nD) (r : Ref sig .tc) (h0 : r ∉ hostOps0_W) (h1 : r ∉ hostOps1_W)
    (a0 : ∀ w, Pipeline.arrRef spec0 w ≠ r) (a1 : ∀ w, Pipeline.arrRef spec1 w ≠ r) :
    W4 (F := Ideal) m c (Proc.devRef .tc r) = m ((c : Thread nD τ).loc r) :=
  (W4_of_ne m c r a1).trans <|
  (StableHlo.after_of_writes_sub hostOps1 _ hostOps1_writes h1).trans <|
  (W2_of_ne m c r a0).trans <|
  (StableHlo.after_of_writes_sub hostOps0 _ hostOps0_writes h0).trans rfl

/-- Region 0 and the second stretch leave the bilateral feature table where it was. -/
theorem host3_v21 (c : Dev nD) :
    W3 (F := Ideal) m c (Proc.devRef .tc main_v21) = fbTerm (m ((c : Thread nD τ).loc main_arg0)) :=
  (StableHlo.after_of_writes_sub hostOps1 _ hostOps1_writes (by decide)).trans <|
  (W2_of_ne m c main_v21 (by decide)).trans (host1_v21 m c)

/-- The second stretch writes its transpose. -/
theorem host3_v24 (c : Dev nD) :
    W3 (F := Ideal) m c (Proc.devRef .tc main_v24)
      = transpose S4096x6 [1, 0] (fbTerm (m ((c : Thread nD τ).loc main_arg0))) transposes_S6x4096_S4096x6_1_0 := by
  have e : W3 (F := Ideal) m c (Proc.devRef .tc main_v24)
      = transpose S4096x6 [1, 0] (W2 (F := Ideal) m c (Proc.devRef .tc main_v21)) transposes_S6x4096_S4096x6_1_0 := by
    show StableHlo.after (hostOps1 (F := Ideal)) (W2 m c) (no_index (Proc.devRef .tc main_v24)) = _
    simp only [hostOps1]
    after_results_simp
    all_goals rfl
  rw [e, W2_of_ne m c main_v21 (by decide), host1_v21]

/-! ## What the first two regions wrote, at region 2's entry -/

theorem host5_v23_0 (c : Dev nD) :
    W5 (F := Ideal) m c (Proc.devRef .tc main_v23_0) = (dat0 (U1 m) c).arrAt 2 cfg0.N :=
  (StableHlo.after_of_writes_sub hostOps2 _ hostOps2_writes (by decide)).trans <|
  (W4_of_ne m c main_v23_0 (by decide)).trans <|
  (StableHlo.after_of_writes_sub hostOps1 _ hostOps1_writes (by decide)).trans (W2_arr m c 2)

theorem host5_v23_1 (c : Dev nD) :
    W5 (F := Ideal) m c (Proc.devRef .tc main_v23_1) = (dat0 (U1 m) c).arrAt 3 cfg0.N :=
  (StableHlo.after_of_writes_sub hostOps2 _ hostOps2_writes (by decide)).trans <|
  (W4_of_ne m c main_v23_1 (by decide)).trans <|
  (StableHlo.after_of_writes_sub hostOps1 _ hostOps1_writes (by decide)).trans (W2_arr m c 3)

theorem host5_v25_0 (c : Dev nD) :
    W5 (F := Ideal) m c (Proc.devRef .tc main_v25_0) = (dat1 (U3 m) c).arrAt 2 cfg1.N :=
  (StableHlo.after_of_writes_sub hostOps2 _ hostOps2_writes (by decide)).trans (W4_arr m c 2)

theorem host5_v25_1 (c : Dev nD) :
    W5 (F := Ideal) m c (Proc.devRef .tc main_v25_1) = (dat1 (U3 m) c).arrAt 3 cfg1.N :=
  (StableHlo.after_of_writes_sub hostOps2 _ hostOps2_writes (by decide)).trans (W4_arr m c 3)

/-! ## The third stretch: the logits as a [21,4096] table and the two folded weight matrices -/

/-- The logits buffer at region 1's exit is still what the first stretch left. -/
theorem W4_v1 (c : Dev nD) :
    W4 (F := Ideal) m c (Proc.devRef .tc main_v1)
      = shapeCast S21x16x16x16 (m ((c : Thread nD τ).loc main_arg1)) shapeCasts_S1x21x16x16x16_S21x16x16x16 :=
  (W4_of_ne m c main_v1 (by decide)).trans <|
  (StableHlo.after_of_writes_sub hostOps1 _ hostOps1_writes (by decide)).trans <|
  (W2_of_ne m c main_v1 (by decide)).trans (host1_v1 m c)

set_option maxHeartbeats 2000000 in
theorem host5_v26_eq (c : Dev nD) :
    W5 (F := Ideal) m c (Proc.devRef .tc main_v26)
      = shapeCast S21x4096 (W4 (F := Ideal) m c (Proc.devRef .tc main_v1)) shapeCasts_S21x16x16x16_S21x4096 := by
  show StableHlo.after (hostOps2 (F := Ideal)) (W4 m c) (no_index (Proc.devRef .tc main_v26)) = _
  simp only [hostOps2]
  after_results_simp
  all_goals rfl

/-- The logits as a [21,4096] table are the second argument read as a label-by-voxel table. -/
theorem host5_v26 (c : Dev nD) :
    tab2Of (W5 (F := Ideal) m c (Proc.devRef .tc main_v26)) = tabOf (m ((c : Thread nD τ).loc main_arg1)) := by
  funext l j
  rw [host5_v26_eq, W4_v1]
  exact (cast_tab_apply _ l j).trans (cast_drop_apply _ l (vz j) (vy j) (vx j))

theorem reads_fold : Cert.Lib.PlainDot.Reads dot_S21x21_S21x21_S21x21_1_0_0_1_n_n :=
  ⟨rfl, rfl, fun _ _ => rfl, fun _ _ => rfl, fun _ _ => rfl, fun _ _ => rfl⟩

set_option maxHeartbeats 2000000 in
theorem host5_v27_eq (c : Dev nD) :
    W5 (F := Ideal) m c (Proc.devRef .tc main_v27)
      = Host.dotGeneral (F := Ideal) (φ₁ := .f32) (φ₂ := .f32) dot_S21x21_S21x21_S21x21_1_0_0_1_n_n none
          (W4 (F := Ideal) m c (Proc.devRef .tc main_arg4)) (W4 (F := Ideal) m c (Proc.devRef .tc main_arg2)) := by
  show StableHlo.after (hostOps2 (F := Ideal)) (W4 m c) (no_index (Proc.devRef .tc main_v27)) = _
  simp only [hostOps2]
  after_results_simp
  all_goals rfl

set_option maxHeartbeats 2000000 in
theorem host5_v28_eq (c : Dev nD) :
    W5 (F := Ideal) m c (Proc.devRef .tc main_v28)
      = Host.dotGeneral (F := Ideal) (φ₁ := .f32) (φ₂ := .f32) dot_S21x21_S21x21_S21x21_1_0_0_1_n_n none
          (W4 (F := Ideal) m c (Proc.devRef .tc main_arg4)) (W4 (F := Ideal) m c (Proc.devRef .tc main_arg3)) := by
  show StableHlo.after (hostOps2 (F := Ideal)) (W4 m c) (no_index (Proc.devRef .tc main_v28)) = _
  simp only [hostOps2]
  after_results_simp
  all_goals rfl

/-- The compatibility matrix times the spatial weights. -/
theorem host5_v27 (c : Dev nD) :
    wtOf (W5 (F := Ideal) m c (Proc.devRef .tc main_v27))
      = fun l a => ∑ k, wtOf (m ((c : Thread nD τ).loc main_arg4)) l k * wtOf (m ((c : Thread nD τ).loc main_arg2)) k a := by
  funext l a
  rw [host5_v27_eq, W4_of_arg m c main_arg4 (by decide) (by decide) (by decide) (by decide),
    W4_of_arg m c main_arg2 (by decide) (by decide) (by decide) (by decide)]
  exact Cert.Lib.PlainDot.dotGeneral_apply reads_fold none .single _ _ l a

/-- The compatibility matrix times the bilateral weights. -/
theorem host5_v28 (c : Dev nD) :
    wtOf (W5 (F := Ideal) m c (Proc.devRef .tc main_v28))
      = fun l a => ∑ k, wtOf (m ((c : Thread nD τ).loc main_arg4)) l k * wtOf (m ((c : Thread nD τ).loc main_arg3)) k a := by
  funext l a
  rw [host5_v28_eq, W4_of_arg m c main_arg4 (by decide) (by decide) (by decide) (by decide),
    W4_of_arg m c main_arg3 (by decide) (by decide) (by decide) (by decide)]
  exact Cert.Lib.PlainDot.dotGeneral_apply reads_fold none .single _ _ l a

/-! ## The last stretch: the result laid out as [1,21,16,16,16] -/

/-- [21,4096] → [1,21,16,16,16]: at (u, l, z, y, x) the operand at (l, voxel number). -/
theorem cast_out_apply {α : Type} (x : S21x4096.Idx → α) (i : S1x21x16x16x16.Idx) :
    shapeCast S1x21x16x16x16 x shapeCasts_S21x4096_S1x21x16x16x16 i = x (ix2 (i 1) (vox (i 2) (i 3) (i 4))) :=
  shapeCast_apply x _ _ _ (by
    rw [Shape.rowMajor_val_five, Shape.rowMajor_val_two]
    show (i 1).val * 4096 + (vox (i 2) (i 3) (i 4)).val
      = ((((i 0).val * 21 + (i 1).val) * 16 + (i 2).val) * 16 + (i 3).val) * 16 + (i 4).val
    have h0 : (i 0).val = 0 := by have h1 : (i 0).val < 1 := (i 0).isLt; omega
    simp only [vox, h0]; omega)

set_option maxHeartbeats 2000000 in
theorem host7_v30 (c : Dev nD) :
    W7 (F := Ideal) m c (Proc.devRef .tc main_v30) = outOf (tab2Of (W6 (F := Ideal) m c (Proc.devRef .tc main_v29))) := by
  have e : W7 (F := Ideal) m c (Proc.devRef .tc main_v30)
      = shapeCast S1x21x16x16x16 (W6 (F := Ideal) m c (Proc.devRef .tc main_v29)) shapeCasts_S21x4096_S1x21x16x16x16 := by
    show StableHlo.after (hostOps3 (F := Ideal)) (W6 m c) (no_index (Proc.devRef .tc main_v30)) = _
    simp only [hostOps3]
    after_results_simp
    all_goals rfl
  rw [e]
  funext i
  exact cast_out_apply _ i

end Cert.KernelIdeal.Hand

end
-- ==== Proof.KI.R0Pieces.lean ====
/-
  Region 0: the pieces the body leaves in its two output buffers, read back as values of the two input blocks.
  The tile's buffer ends holding the tile of the kernel matrix; the column-sum buffer ends holding what it held
  before the tile (the cleared block at the first tile) plus the tile's column sums.
-/
import proofs.«171617_j90795608638216_2_alg».proof.Proof.KI.R0
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-- Every access of the body starts at the origin of its buffer. -/
theorem origin0 : (![0, 0] : Fin 2 → Nat) = fun _ => 0 := funext fun a => by fin_cases a <;> rfl

/-- First tile: the tile's buffer ends holding the tile of the kernel matrix. -/
theorem out0_A_2_eq (c : Dev nD) (i : grid0.Coords) (arg1 : Memref sig .tc .vmem S3x4096 .f32) (harg1 : arg1.IsWhole) (arg2 : Memref sig .tc .vmem S256x3 .f32) (harg2 : arg2.IsWhole) (arg3 : Memref sig .tc .vmem S256x4096 .bf16) (harg3 : arg3.IsWhole) (arg4 : Memref sig .tc .vmem S1x4096 .f32) (harg4 : arg4.IsWhole) (hc0 : cond0_0 i) (x0 : Vec F S3x4096 .f32) (x1 : Vec F S256x3 .f32) :
    out0_A_2 c i arg1 harg1 arg2 harg2 arg3 harg3 arg4 harg4 hc0 x0 x1 = k0_pay3 x1 x0 := by
  unfold out0_A_2
  rw [View.read_writes_eq_canon _ _ _ (cover0_A_2 c i arg1 harg1 arg2 harg2 arg3 harg3 arg4 harg4 hc0 x0 x1)]
  unfold kernelRun0_A
  dsimp only
  rw [View.canon_unit_zero origin0]
  simp only [View.readAt_eq_ld, harg1.read_unread, harg2.read_unread, View.ld_unit_zero (S := S3x4096) origin0,
    View.ld_unit_zero (S := S256x3) origin0]

/-- First tile: the column-sum buffer ends holding the cleared block plus the tile's column sums. -/
theorem out0_A_3_eq (c : Dev nD) (i : grid0.Coords) (arg1 : Memref sig .tc .vmem S3x4096 .f32) (harg1 : arg1.IsWhole) (arg2 : Memref sig .tc .vmem S256x3 .f32) (harg2 : arg2.IsWhole) (arg3 : Memref sig .tc .vmem S256x4096 .bf16) (harg3 : arg3.IsWhole) (arg4 : Memref sig .tc .vmem S1x4096 .f32) (harg4 : arg4.IsWhole) (hc0 : cond0_0 i) (x0 : Vec F S3x4096 .f32) (x1 : Vec F S256x3 .f32) :
    out0_A_3 c i arg1 harg1 arg2 harg2 arg3 harg3 arg4 harg4 hc0 x0 x1 = k0_pay4 x1 x0 k0_pay1 := by
  unfold out0_A_3
  rw [View.read_writes_eq_canon _ _ _ (cover0_A_3 c i arg1 harg1 arg2 harg2 arg3 harg3 arg4 harg4 hc0 x0 x1)]
  unfold kernelRun0_A
  dsimp only
  sl_unfold_words
  rw [View.canon_cons_unit_zero (S := S1x4096) origin0, View.readCov_unit_zero (S := S1x4096) _ origin0]
  simp only [View.readAt_eq_ld, harg1.read_unread, harg2.read_unread, View.ld_unit_zero (S := S3x4096) origin0,
    View.ld_unit_zero (S := S256x3) origin0, View.ld_unit_zero (S := S1x4096) origin0]

/-- A later tile: the tile's buffer ends holding the tile of the kernel matrix. -/
theorem out0_B_2_eq (c : Dev nD) (i : grid0.Coords) (arg1 : Memref sig .tc .vmem S3x4096 .f32) (harg1 : arg1.IsWhole) (arg2 : Memref sig .tc .vmem S256x3 .f32) (harg2 : arg2.IsWhole) (arg3 : Memref sig .tc .vmem S256x4096 .bf16) (harg3 : arg3.IsWhole) (arg4 : Memref sig .tc .vmem S1x4096 .f32) (harg4 : arg4.IsWhole) (hc0 : ¬cond0_0 i) (x0 : Vec F S3x4096 .f32) (x1 : Vec F S256x3 .f32) (xo3 : Vec F S1x4096 .f32) :
    out0_B_2 c i arg1 harg1 arg2 harg2 arg3 harg3 arg4 harg4 hc0 x0 x1 xo3 = k0_pay3 x1 x0 := by
  unfold out0_B_2
  rw [View.read_writes_eq_canon _ _ _ (cover0_B_2 c i arg1 harg1 arg2 harg2 arg3 harg3 arg4 harg4 hc0 x0 x1 xo3)]
  unfold kernelRun0_B
  dsimp only
  rw [View.canon_unit_zero origin0]
  simp only [View.readAt_eq_ld, harg1.read_unread, harg2.read_unread, View.ld_unit_zero (S := S3x4096) origin0,
    View.ld_unit_zero (S := S256x3) origin0]

/-- A later tile: the column-sum buffer ends holding what it held plus the tile's column sums. -/
theorem out0_B_3_eq (c : Dev nD) (i : grid0.Coords) (arg1 : Memref sig .tc .vmem S3x4096 .f32) (harg1 : arg1.IsWhole) (arg2 : Memref sig .tc .vmem S256x3 .f32) (harg2 : arg2.IsWhole) (arg3 : Memref sig .tc .vmem S256x4096 .bf16) (harg3 : arg3.IsWhole) (arg4 : Memref sig .tc .vmem S1x4096 .f32) (harg4 : arg4.IsWhole) (hc0 : ¬cond0_0 i) (x0 : Vec F S3x4096 .f32) (x1 : Vec F S256x3 .f32) (xo3 : Vec F S1x4096 .f32) :
    out0_B_3 c i arg1 harg1 arg2 harg2 arg3 harg3 arg4 harg4 hc0 x0 x1 xo3 = k0_pay4 x1 x0 xo3 := by
  unfold out0_B_3
  rw [View.read_writes_eq_canon _ _ _ (cover0_B_3 c i arg1 harg1 arg2 harg2 arg3 harg3 arg4 harg4 hc0 x0 x1 xo3)]
  unfold kernelRun0_B
  dsimp only
  rw [View.canon_unit_zero origin0]
  simp only [View.readAt_eq_ld, harg1.read_unread, harg2.read_unread, harg4.read_unread, View.ld_unit_zero (S := S3x4096) origin0,
    View.ld_unit_zero (S := S256x3) origin0, View.ld_unit_zero (S := S1x4096) origin0]

end Cert.KernelIdeal.Hand

end
-- ==== Proof.CrfReal.lean ====
/-
  Real numbers inside the extended reals.

  On the extended reals multiplication does not distribute over addition and a difference of infinities is not a
  difference; every law the two arrangements of a mean-field step are compared by is a law of the real numbers.  This
  file names the two properties "is a real number" and "is a positive real number", shows that sums, products,
  differences, maxima, exponentials and quotients by positive reals keep them, and evaluates the float words of the
  two programs as far as needed: the zero word is 0, the word of minus infinity is the bottom element, and the words
  of 2 and of -1/2 are real numbers (which ones is never used).
-/
import Idealize.ShloMosaic.PureOps.Ideal
import proofs.«171617_j90795608638216_2_alg».proof.Proof.CrfSpec

noncomputable section

namespace Cert.Crf

open Idealize.ShloMosaic

/-- An extended real that is a real number. -/
def IsR (x : EReal) : Prop := ∃ r : ℝ, x = (r : EReal)

/-- An extended real that is a positive real number. -/
def IsPos (x : EReal) : Prop := ∃ r : ℝ, 0 < r ∧ x = (r : EReal)

theorem IsPos.isR {x : EReal} (h : IsPos x) : IsR x := by
  obtain ⟨r, _, hr⟩ := h; exact ⟨r, hr⟩

theorem isR_coe (r : ℝ) : IsR (r : EReal) := ⟨r, rfl⟩

theorem isR_zero : IsR 0 := ⟨0, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.max {x y : EReal} (hx : IsR x) (hy : IsR y) : IsR (max x y) := by
  rcases max_choice x y with h | h <;> rw [h] <;> assumption

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem IsR.sum {ι : Type*} (s : Finset ι) (f : ι → EReal) (hf : ∀ i, IsR (f i)) : IsR (∑ i ∈ s, f i) := by
  choose g hg using hf
  exact ⟨∑ i ∈ s, g i, by rw [coe_sum]; exact Finset.sum_congr rfl fun i _ => hg i⟩

/-- A finite nonempty sum of positive real numbers is a positive real number. -/
theorem IsPos.sum {ι : Type*} (s : Finset ι) (hs : s.Nonempty) (f : ι → EReal) (hf : ∀ i, IsPos (f i)) :
    IsPos (∑ i ∈ s, f i) := by
  choose g hg0 hg using hf
  exact ⟨∑ i ∈ s, g i, Finset.sum_pos (fun i _ => hg0 i) hs,
    by rw [coe_sum]; exact Finset.sum_congr rfl fun i _ => hg i⟩

/-- The exponential of a real number is a positive real number. -/
theorem IsPos.exp {x : EReal} (hx : IsR x) : IsPos (Ideal.exp x) := by
  obtain ⟨a, rfl⟩ := hx; exact ⟨Real.exp a, Real.exp_pos a, rfl⟩

/-- A real number divided by a positive real number is a real number. -/
theorem IsR.div {x y : EReal} (hx : IsR x) (hy : IsPos y) : IsR (Ideal.div x y) := by
  obtain ⟨a, rfl⟩ := hx; obtain ⟨b, hb, rfl⟩ := hy
  rw [Ideal.div_coe hb.ne']; exact ⟨a * (1 / b), (EReal.coe_mul _ _).symm⟩

/-! ### The float words -/

/-- The zero word is 0. -/
theorem w0_eq_zero : w0 = 0 := by simp [Ideal.ofBits, Ideal.ieee]

/-- The word of minus infinity is the bottom element. -/
theorem wninf_eq_bot : wninf = ⊥ := by simp [Ideal.ofBits, Ideal.ieee]

/-- A pattern whose exponent field is not all ones denotes a real number. -/
theorem ieee_isR (e m : ℕ) {w : ℕ} (b : BitVec w) (h : (b.extractLsb' m e).toNat ≠ 2 ^ e - 1) :
    IsR (Ideal.ieee e m b) := by
  unfold Ideal.ieee
  simp only [if_neg h]
  split_ifs <;> exact ⟨_, rfl⟩

theorem w2_isR : IsR w2 := by
  show IsR (Ideal.ieee 8 23 (0x40000000#32))
  exact ieee_isR 8 23 _ (by decide)

theorem wmh_isR : IsR wmh := by
  show IsR (Ideal.ieee 8 23 (0xBF000000#32))
  exact ieee_isR 8 23 _ (by decide)

/-- Adding the zero word changes nothing. -/
theorem w0_add (x : EReal) : w0 + x = x := by rw [w0_eq_zero, zero_add]

theorem add_w0 (x : EReal) : x + w0 = x := by rw [w0_eq_zero, add_zero]

theorem w0_isR : IsR w0 := by rw [w0_eq_zero]; exact isR_zero

end Cert.Crf

end
-- ==== Proof.LibColumnLayout.lean ====
/-
  Column forms of three layout operations, read at an index: a vector of `a` entries stood up as an `[a, 1]` column, an
  `[a, 1]` column laid down as a `[1, a]` row (both keep the row-major order, so entry `i` stays entry `i`), and an
  `[a, 1]` column broadcast along its unit axis to `[a, b]` (row `p` is `b` copies of the column's entry `p`).
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the column's entry `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.KI.R0Pay.lean ====
/-
  Region 0's arithmetic, read at an index over the extended reals.

  The body computes, for a tile of 256 rows (the rows of a [256,3] block l) against all 4096 columns of the [3,4096]
  feature table r, the entry exp (-1/2 * max (|l_p|^2 + |r_j|^2 - 2 <l_p, r_j>, 0)) at (p, j): the squared lengths are
  sums over the three feature coordinates (the row one stood up as a column and spread along the rows, the column one
  laid as a row and spread down the columns), the inner products are a matrix product into a zero accumulator, and
  the change to a narrower format is the identity.  The column-sum block is what it held plus, at column j, the sum of
  the tile's 256 entries of that column.  When the tile's rows are columns 256 t + p of the feature table the entry is
  the Gaussian kernel entry (256 t + p, j) of the specification.
-/
import Idealize.ShloMosaic.Lib.ValueLayout
import Idealize.ShloMosaic.PureOps.Ideal.Laws
import proofs.«171617_j90795608638216_2_alg».proof.Proof.Gen.KernelIdeal.Skeleton
import proofs.«171617_j90795608638216_2_alg».proof.Proof.CrfReal
import proofs.«171617_j90795608638216_2_alg».proof.Proof.LibPlainDot
import proofs.«171617_j90795608638216_2_alg».proof.Proof.LibColumnLayout

noncomputable section

namespace Cert.KernelIdeal.Hand

open Cert.KernelIdeal Cert.KernelIdeal.Gen
open Idealize.ShloMosaic Idealize.ShloMosaic.ValueIdx
open Cert.Crf (w0 w2 wmh)

/-- The squared lengths of the tile's rows, spread along the rows. -/
def rowSq0 (v : FVec Ideal S256x3 .f32) : FVec Ideal S256x4096 .f32 :=
  broadcastTo S256x4096 (shapeCast S256x1 (multiReduction (F := Ideal) .add [1] S256 (mulf v v) 0x00000000#32 Facts₀.reduces_S256x3_S256 (.inl rfl) rfl) Facts₀.shapeCasts_S256_S256x1) Facts₀.broadcasts_S256x1_S256x4096

/-- The squared lengths of the table's columns, spread down the columns. -/
def colSq0 (v : FVec Ideal S3x4096 .f32) : FVec Ideal S256x4096 .f32 :=
  broadcastTo S256x4096 (shapeCast S1x4096 (multiReduction (F := Ideal) .add [0] S4096 (mulf v v) 0x00000000#32 Facts₀.reduces_S3x4096_S4096 (.inl rfl) rfl) Facts₀.shapeCasts_S4096_S1x4096) Facts₀.broadcasts_S1x4096_S256x4096

/-- The inner products of the tile's rows with the table's columns. -/
def cross0 (l : FVec Ideal S256x3 .f32) (r : FVec Ideal S3x4096 .f32) : FVec Ideal S256x4096 .f32 :=
  matmul dot_S256x3_S3x4096_S256x4096_1_0_0_1_n_n (some .fp32) l r (constant (F := Ideal) S256x4096 .f32 0x00000000#32)

/-- The sums down the columns of a tile, as a one-row block. -/
def colSum0 (p : FVec Ideal S256x4096 .f32) : FVec Ideal S1x4096 .f32 :=
  shapeCast S1x4096 (multiReduction (F := Ideal) .add [0] S4096 p 0x00000000#32 Facts₀.reduces_S256x4096_S4096 (.inl rfl) rfl) Facts₀.shapeCasts_S4096_S1x4096

theorem rowSq0_apply (v : FVec Ideal S256x3 .f32) (p : Fin 256) (j : Fin 4096) :
    rowSq0 v (ix2 p j) = ∑ k : Fin 3, v (ix2 p k) * v (ix2 p k) := by
  unfold rowSq0
  refine (Cert.ColumnLayout.broadcastTo_a1_ab_apply _ Facts₀.broadcasts_S256x1_S256x4096 p j).trans ?_
  refine (Cert.ColumnLayout.shapeCast_a_a1_apply _ Facts₀.shapeCasts_S256_S256x1 p (0 : Fin 1)).trans ?_
  refine (Ideal.multiReduction_add_single (mulf v v) 0x00000000#32 Facts₀.reduces_S256x3_S256 (.inl rfl) rfl (ix1 p)).trans ?_
  show ∑ k : Fin 3, mulf v v (Facts₀.reduces_S256x3_S256.lift (ix1 p) k) = _
  refine Finset.sum_congr rfl fun k _ => ?_
  have e : Facts₀.reduces_S256x3_S256.lift (ix1 p) k = ix2 p k := funext fun c => Fin.ext (by
    match c with
    | ⟨0, _⟩ => rfl
    | ⟨1, _⟩ => rfl)
  rw [e]
  rfl

theorem colSq0_apply (v : FVec Ideal S3x4096 .f32) (p : Fin 256) (j : Fin 4096) :
    colSq0 v (ix2 p j) = ∑ k : Fin 3, v (ix2 k j) * v (ix2 k j) := by
  unfold colSq0
  refine (broadcastTo_1b_ab_apply _ Facts₀.broadcasts_S1x4096_S256x4096 p j).trans ?_
  refine (shapeCast_a_1a_apply _ Facts₀.shapeCasts_S4096_S1x4096 (0 : Fin 1) j).trans ?_
  refine (Ideal.multiReduction_add_single (mulf v v) 0x00000000#32 Facts₀.reduces_S3x4096_S4096 (.inl rfl) rfl (ix1 j)).trans ?_
  show ∑ k : Fin 3, mulf v v (Facts₀.reduces_S3x4096_S4096.lift (ix1 j) k) = _
  refine Finset.sum_congr rfl fun k _ => ?_
  have e : Facts₀.reduces_S3x4096_S4096.lift (ix1 j) k = ix2 k j := funext fun c => Fin.ext (by
    match c with
    | ⟨0, _⟩ => rfl
    | ⟨1, _⟩ => rfl)
  rw [e]
  rfl

/-- How the body's contraction reads its operands. -/
theorem reads_cross0 : Cert.Lib.PlainDot.Reads dot_S256x3_S3x4096_S256x4096_1_0_0_1_n_n :=
  ⟨rfl, rfl, fun _ _ => rfl, fun _ _ => rfl, fun _ _ => rfl, fun _ _ => rfl⟩

theorem cross0_apply (l : FVec Ideal S256x3 .f32) (r : FVec Ideal S3x4096 .f32) (p : Fin 256) (j : Fin 4096) :
    cross0 l r (ix2 p j) = ∑ k : Fin 3, l (ix2 p k) * r (ix2 k j) :=
  Cert.Lib.PlainDot.matmul_zero_apply reads_cross0 (some .fp32) l r p j

theorem colSum0_apply (x : FVec Ideal S256x4096 .f32) (u : Fin 1) (j : Fin 4096) :
    colSum0 x (ix2 u j) = ∑ p : Fin 256, x (ix2 p j) := by
  unfold colSum0
  refine (shapeCast_a_1a_apply _ Facts₀.shapeCasts_S4096_S1x4096 u j).trans ?_
  refine (Ideal.multiReduction_add_single x 0x00000000#32 Facts₀.reduces_S256x4096_S4096 (.inl rfl) rfl (ix1 j)).trans ?_
  show ∑ p : Fin 256, x (Facts₀.reduces_S256x4096_S4096.lift (ix1 j) p) = _
  refine Finset.sum_congr rfl fun p _ => ?_
  have e : Facts₀.reduces_S256x4096_S4096.lift (ix1 j) p = ix2 p j := funext fun c => Fin.ext (by
    match c with
    | ⟨0, _⟩ => rfl
    | ⟨1, _⟩ => rfl)
  rw [e]

/-- The tile's entry (p, j): the exponential of minus half the clamped squared distance. -/
theorem k0_pay2_apply (l : FVec Ideal S256x3 .f32) (r : FVec Ideal S3x4096 .f32) (p : Fin 256) (j : Fin 4096) :
    k0_pay2 (F := Ideal) l r (ix2 p j)
      = Ideal.exp (wmh * max ((∑ k : Fin 3, l (ix2 p k) * l (ix2 p k)) + (∑ k : Fin 3, r (ix2 k j) * r (ix2 k j))
          - w2 * ∑ k : Fin 3, l (ix2 p k) * r (ix2 k j)) w0) := by
  have e : k0_pay2 (F := Ideal) l r (ix2 p j)
      = Ideal.exp (wmh * max (rowSq0 l (ix2 p j) + colSq0 r (ix2 p j) - w2 * cross0 l r (ix2 p j)) w0) := by
    unfold k0_pay2 rowSq0 colSq0 cross0
    simp only [shapeCast_self]
    rfl
  rw [e, rowSq0_apply, colSq0_apply, cross0_apply]

/-- The stored tile is the computed one: the narrower format holds the same extended real. -/
theorem k0_pay3_apply (l : FVec Ideal S256x3 .f32) (r : FVec Ideal S3x4096 .f32) (p : Fin 256) (j : Fin 4096) :
    k0_pay3 (F := Ideal) l r (ix2 p j) = k0_pay2 (F := Ideal) l r (ix2 p j) := rfl

/-- The cleared column-sum block holds the zero word. -/
theorem k0_pay1_apply (u : Fin 1) (j : Fin 4096) : k0_pay1 (F := Ideal) (ix2 u j) = w0 := rfl

/-- The column-sum block after a tile: what it held plus the tile's column sums. -/
theorem k0_pay4_apply (l : FVec Ideal S256x3 .f32) (r : FVec Ideal S3x4096 .f32) (s : FVec Ideal S1x4096 .f32)
    (u : Fin 1) (j : Fin 4096) :
    k0_pay4 (F := Ideal) l r s (ix2 u j) = s (ix2 u j) + ∑ p : Fin 256, k0_pay2 (F := Ideal) l r (ix2 p j) := by
  have e : k0_pay4 (F := Ideal) l r s = addf s (colSum0 (k0_pay2 (F := Ideal) l r)) := by
    unfold k0_pay4 colSum0
    simp only [shapeCast_self]
  rw [e]
  exact congrArg (s (ix2 u j) + ·) (colSum0_apply _ u j)

/-- When the tile's row p is column i of the feature table f and the second operand is f, the tile's entry (p, j) is
    the Gaussian kernel entry (i, j). -/
theorem k0_pay2_gk (f : Cert.Crf.Feat 3) (l : FVec Ideal S256x3 .f32) (r : FVec Ideal S3x4096 .f32)
    (i : Fin 4096) (p : Fin 256) (j : Fin 4096)
    (hl : ∀ k : Fin 3, l (ix2 p k) = f k i) (hr : ∀ k : Fin 3, r (ix2 k j) = f k j) :
    k0_pay2 (F := Ideal) l r (ix2 p j) = Cert.Crf.gk f i j := by
  rw [k0_pay2_apply]
  unfold Cert.Crf.gk Cert.Crf.sqn Cert.Crf.cross
  simp only [hl, hr, Cert.Crf.w0_add]

end Cert.KernelIdeal.Hand

end
-- ==== Proof.KI.R0Blocks.lean ====
/-
  Region 0: what the body's two input blocks are, as entries of the arrays the region finds.  The feature table's
  window has one block, the whole [3,4096] table, at every tile; the transposed table's window has, at tile t, rows
  256 t .. 256 t + 255 of the [4096,3] array.  The tile's window of the kernel matrix is at row block t, and the
  column-sum window has one block.
-/
import proofs.«171617_j90795608638216_2_alg».proof.Proof.KI.R0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-- The block indices of the four windows at tile t, decided over the 16 tiles. -/
theorem blockIdx0 : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- The feature table's block at any tile is the whole table. -/
theorem iblk0_0_apply (c : Dev nD) (t : Fin cfg0.N) (k : Fin 3) (j : Fin 4096) :
    (iblk0 V c 0 t : Vec F S3x4096 .f32) (ix2 k j) = (V c main_v15 : S3x4096.Idx → Elt F .f32) (ix2 k j) := by
  obtain ⟨e0, e1, -⟩ := blockIdx0 t
  unfold iblk0
  rw [View.read_apply]
  show V c main_v15 _ = V c main_v15 _
  congr 1
  funext a
  apply Fin.ext
  match a with
  | ⟨0, _⟩ => show win0_0.index t (0 : Fin 2) * 3 + 1 * k.val = k.val; rw [e0]; omega
  | ⟨1, _⟩ => show win0_0.index t (1 : Fin 2) * 4096 + 1 * j.val = j.val; rw [e1]; omega

/-- The transposed table's block at tile t, at (p, k), is the array at (256 t + p, k). -/
theorem iblk0_1_apply (c : Dev nD) (t : Fin cfg0.N) (p : Fin 256) (k : Fin 3) (i : Fin 4096)
    (hi : i.val = 256 * t.val + p.val) :
    (iblk0 V c 1 t : Vec F S256x3 .f32) (ix2 p k) = (V c main_v22 : S4096x3.Idx → Elt F .f32) (ix2 i k) := by
  obtain ⟨-, -, e0, e1, -⟩ := blockIdx0 t
  unfold iblk0
  rw [View.read_apply]
  show V c main_v22 _ = V c main_v22 _
  congr 1
  funext a
  apply Fin.ext
  match a with
  | ⟨0, _⟩ => show win0_1.index t (0 : Fin 2) * 256 + 1 * p.val = i.val; rw [e0, hi]; omega
  | ⟨1, _⟩ => show win0_1.index t (1 : Fin 2) * 3 + 1 * k.val = k.val; rw [e1]; omega

end Cert.KernelIdeal.Hand

end
-- ==== Proof.CrfBlocks.lean ====
/-
  A sum of 4096 terms accumulated in 16 tiles of 256.

  An accumulator that starts at the zero word and at step t adds the sum of the 256 terms of tile t (with or without a
  zero word in front of the tile's sum) holds, after n steps, the sum of the first 256 n terms: the sum over
  256 n + 256 consecutive naturals is the sum over the first 256 n plus the sum over the next 256.  Only the
  commutative-monoid laws of addition are used, so nothing about finiteness is assumed of the terms.
-/
import proofs.«171617_j90795608638216_2_alg».proof.Proof.CrfReal

noncomputable section

namespace Cert.Crf

open Idealize.ShloMosaic

/-- The accumulator fed tile by tile, each tile's sum started from the zero word. -/
def accT (g : ℕ → EReal) : ℕ → EReal
  | 0 => w0
  | (t + 1) => accT g t + (w0 + ∑ r : Fin 256, g (256 * t + r.val))

/-- The accumulator fed tile by tile. -/
def accM (g : ℕ → EReal) : ℕ → EReal
  | 0 => w0
  | (t + 1) => accM g t + ∑ r : Fin 256, g (256 * t + r.val)

theorem accM_zero (g : ℕ → EReal) : accM g 0 = w0 := rfl

theorem accM_succ (g : ℕ → EReal) (t : ℕ) : accM g (t + 1) = accM g t + ∑ r : Fin 256, g (256 * t + r.val) := rfl

theorem accT_zero (g : ℕ → EReal) : accT g 0 = w0 := rfl

theorem accT_succ (g : ℕ → EReal) (t : ℕ) :
    accT g (t + 1) = accT g t + (w0 + ∑ r : Fin 256, g (256 * t + r.val)) := rfl

/-- After n tiles the accumulator holds the sum of the first 256 n terms. -/
theorem accM_eq (g : ℕ → EReal) (n : ℕ) : accM g n = ∑ i ∈ Finset.range (256 * n), g i := by
  induction n with
  | zero => rw [accM_zero, w0_eq_zero, Nat.mul_zero, Finset.range_zero, Finset.sum_empty]
  | succ n ih =>
    rw [accM_succ, ih, Nat.mul_succ, Finset.sum_range_add, Finset.sum_range (fun r => g (256 * n + r))]

/-- The zero word in front of a tile's sum changes nothing. -/
theorem accT_eq_accM (g : ℕ → EReal) (n : ℕ) : accT g n = accM g n := by
  induction n with
  | zero => rfl
  | succ n ih => rw [accT_succ, accM_succ, ih, w0_add]

theorem accT_eq (g : ℕ → EReal) (n : ℕ) : accT g n = ∑ i ∈ Finset.range (256 * n), g i := by
  rw [accT_eq_accM, accM_eq]

/-- Sixteen tiles make the whole sum. -/
theorem accM_16 (g : ℕ → EReal) : accM g 16 = ∑ i : Fin 4096, g i.val := by
  rw [accM_eq, Finset.sum_range]

theorem accT_16 (g : ℕ → EReal) : accT g 16 = w0 + ∑ i : Fin 4096, g i.val := by
  rw [accT_eq_accM, accM_16, w0_add]

end Cert.Crf

end
-- ==== Proof.KI.R0Tiles.lean ====
/-
  Region 0: what the two output buffers hold after each tile, entry by entry, when the region finds the feature
  table X in its first operand and the transpose of X in its second.

  After tile t the tile's buffer holds rows 256 t .. 256 t + 255 of the Gaussian kernel matrix of X: row p of the
  transposed table's block is column 256 t + p of X.  The column-sum buffer holds, at column j, the accumulator of
  column j of that matrix fed tile by tile: cleared before the first tile's sums are added, and at a later tile
  what the tile before left plus the tile's 256 entries of the column.
-/
import proofs.«171617_j90795608638216_2_alg».proof.Proof.KI.R0Pieces
import proofs.«171617_j90795608638216_2_alg».proof.Proof.KI.R0Pay
import proofs.«171617_j90795608638216_2_alg».proof.Proof.KI.R0Blocks
import proofs.«171617_j90795608638216_2_alg».proof.Proof.CrfShapes
import proofs.«171617_j90795608638216_2_alg».proof.Proof.CrfBlocks
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Crf (w0 gk nrm featOf accT)

variable (V : (c : Dev nD) → (b : Ref sig .tc) → Buf (Elt Ideal) ((c : Thread nD τ).loc b))

/-- Column j of the kernel matrix of f as a sequence, continued by zeros past its 4096 entries. -/
def gcol3 (f : Cert.Crf.Feat 3) (j : Fin 4096) : ℕ → EReal := fun i => if h : i < 4096 then gk f ⟨i, h⟩ j else 0

/-- The feature table's block, in the first operand, is X. -/
theorem blk0_0_feat (c : Dev nD) (X : FVec Ideal S3x4096 .f32) (h15 : (V c main_v15 : S3x4096.Idx → EReal) = X)
    (t : Fin cfg0.N) (k : Fin 3) (j : Fin 4096) :
    (iblk0 V c 0 t : Vec Ideal S3x4096 .f32) (ix2 k j) = featOf X k j := by
  rw [iblk0_0_apply V c t k j, h15]
  rfl

/-- Row p of the transposed table's block at tile t is column 256 t + p of X. -/
theorem blk0_1_feat (c : Dev nD) (X : FVec Ideal S3x4096 .f32)
    (h22 : (V c main_v22 : S4096x3.Idx → EReal) = transpose S4096x3 [1, 0] X Facts₀.transposes_S3x4096_S4096x3_1_0)
    (t : Fin cfg0.N) (p : Fin 256) (k : Fin 3) (i : Fin 4096) (hi : i.val = 256 * t.val + p.val) :
    (iblk0 V c 1 t : Vec Ideal S256x3 .f32) (ix2 p k) = featOf X k i := by
  rw [iblk0_1_apply V c t p k i hi, h22]
  exact transpose_ix2_apply X _ i k

/-- After tile t the tile's buffer holds, at (p, j), the kernel entry (256 t + p, j). -/
theorem tile0_apply (c : Dev nD) (X : FVec Ideal S3x4096 .f32) (h15 : (V c main_v15 : S3x4096.Idx → EReal) = X)
    (h22 : (V c main_v22 : S4096x3.Idx → EReal) = transpose S4096x3 [1, 0] X Facts₀.transposes_S3x4096_S4096x3_1_0)
    (t : Fin cfg0.N) (p : Fin 256) (j : Fin 4096) (i : Fin 4096) (hi : i.val = 256 * t.val + p.val) :
    (outsAt0 V c t.val t.isLt).1 (ix2 p j) = gk (featOf X) i j := by
  have key : k0_pay3 (F := Ideal) (iblk0 V c 1 t) (iblk0 V c 0 t) (ix2 p j) = gk (featOf X) i j :=
    (k0_pay3_apply (iblk0 V c 1 t) (iblk0 V c 0 t) p j).trans
      (k0_pay2_gk (featOf X) (iblk0 V c 1 t) (iblk0 V c 0 t) i p j
        (fun k => blk0_1_feat V c X h22 t p k i hi) (fun k => blk0_0_feat V c X h15 t k j))
  by_cases hA : t.val % 16 = 0
  · rw [outsAt0_A V c t hA]
    dsimp only
    rw [out0_A_2_eq]
    exact key
  · rw [outsAt0_B V c t hA]
    dsimp only
    rw [out0_B_2_eq]
    exact key

/-- One tile's step of the column-sum block, over any blocks: with the feature table in the second operand and
    columns 256 n .. 256 n + 255 of it as the rows of the first, the block goes from acc to acc plus the tile's part
    of the column. -/
theorem colstep0 (f : Cert.Crf.Feat 3) (x0 : FVec Ideal S3x4096 .f32) (x1 : FVec Ideal S256x3 .f32)
    (s : FVec Ideal S1x4096 .f32) (n : ℕ) (hn : n < 16) (u : Fin 1) (j : Fin 4096) (acc : EReal)
    (hs : s (ix2 u j) = acc) (h0 : ∀ k : Fin 3, x0 (ix2 k j) = f k j)
    (h1 : ∀ (p : Fin 256) (k : Fin 3), x1 (ix2 p k) = f k ⟨256 * n + p.val, by omega⟩) :
    k0_pay4 (F := Ideal) x1 x0 s (ix2 u j) = acc + (w0 + ∑ p : Fin 256, gcol3 f j (256 * n + p.val)) := by
  rw [k0_pay4_apply, hs, Cert.Crf.w0_add]
  refine congrArg (acc + ·) (Finset.sum_congr rfl fun p _ => ?_)
  rw [k0_pay2_gk f x1 x0 ⟨256 * n + p.val, by omega⟩ p j (h1 p) h0]
  unfold gcol3
  rw [dif_pos (by omega)]

/-- After tile n the column-sum buffer holds, at column j, the accumulator of column j after n + 1 tiles. -/
theorem colsum0_apply (c : Dev nD) (X : FVec Ideal S3x4096 .f32) (h15 : (V c main_v15 : S3x4096.Idx → EReal) = X)
    (h22 : (V c main_v22 : S4096x3.Idx → EReal) = transpose S4096x3 [1, 0] X Facts₀.transposes_S3x4096_S4096x3_1_0) :
    ∀ (n : ℕ) (hn : n < cfg0.N) (u : Fin 1) (j : Fin 4096),
      (outsAt0 V c n hn).2 (ix2 u j) = accT (gcol3 (featOf X) j) (n + 1)
  | 0, hn, u, j => by
    have hN : cfg0.N = 16 := N_0
    refine (congrArg (fun q => q.2 (ix2 u j)) (outsAt0_A V c ⟨0, hn⟩ (Nat.zero_mod 16))).trans ?_
    dsimp only
    rw [out0_A_3_eq]
    exact colstep0 (featOf X) (iblk0 V c 0 ⟨0, hn⟩) (iblk0 V c 1 ⟨0, hn⟩) k0_pay1 0 (by omega) u j w0
      (k0_pay1_apply u j) (fun k => blk0_0_feat V c X h15 ⟨0, hn⟩ k j)
      (fun p k => blk0_1_feat V c X h22 ⟨0, hn⟩ p k _ rfl)
  | n + 1, hn, u, j => by
    have hN : cfg0.N = 16 := N_0
    have hB : ¬(n + 1) % 16 = 0 := by omega
    refine (congrArg (fun q => q.2 (ix2 u j)) (outsAt0_B V c ⟨n + 1, hn⟩ hB)).trans ?_
    dsimp only
    rw [out0_B_3_eq]
    exact (colstep0 (featOf X) (iblk0 V c 0 ⟨n + 1, hn⟩) (iblk0 V c 1 ⟨n + 1, hn⟩)
      (outsAt0 V c n (Nat.lt_of_succ_lt hn)).2 (n + 1) (by omega) u j (accT (gcol3 (featOf X) j) (n + 1))
      (colsum0_apply c X h15 h22 n (Nat.lt_of_succ_lt hn) u j) (fun k => blk0_0_feat V c X h15 ⟨n + 1, hn⟩ k j)
      (fun p k => blk0_1_feat V c X h22 ⟨n + 1, hn⟩ p k _ rfl)).trans (Cert.Crf.accT_succ _ _).symm

end Cert.KernelIdeal.Hand

end
-- ==== Proof.KI.R0Value.lean ====
/-
  Region 0's two result arrays, entry by entry: when the region finds the feature table X in its first operand and
  the transpose of X in its second, the [4096,4096] result ends holding the Gaussian kernel matrix of X and the
  [1,4096] result its column sums.

  Tile t writes back rows 256 t .. 256 t + 255 of the matrix, and row i lies in the block of tile i / 256, so the
  sixteen blocks fill the array.  The column sums are written back once, after the last tile, when the accumulator
  has been fed all sixteen tiles: the sum of the 4096 entries of the column, after the zero word.
-/
import proofs.«171617_j90795608638216_2_alg».proof.Proof.KI.R0Tiles
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Crf (w0 gk nrm featOf accT)

variable (V : (c : Dev nD) → (b : Ref sig .tc) → Buf (Elt Ideal) ((c : Thread nD τ).loc b))

/-- The kernel matrix of f as a [4096,4096] array. -/
def gkArr3 (f : Cert.Crf.Feat 3) : S4096x4096.Idx → EReal := fun idx => gk f (idx 0) (idx 1)

/-- The column sums of the kernel matrix of f as a [1,4096] array. -/
def nrmArr3 (f : Cert.Crf.Feat 3) : S1x4096.Idx → EReal := fun idx => nrm f (idx 1)

/-- What tile t writes back of the matrix is block t of the kernel matrix. -/
theorem flushed0_2 (c : Dev nD) (X : FVec Ideal S3x4096 .f32) (h15 : (V c main_v15 : S3x4096.Idx → EReal) = X)
    (h22 : (V c main_v22 : S4096x3.Idx → EReal) = transpose S4096x3 [1, 0] X Facts₀.transposes_S3x4096_S4096x3_1_0)
    (t : Fin cfg0.N) :
    (dat0 (F := Ideal) V c).flushed 2 t = ((cfg0.win 2).blk t).view.read (Elt Ideal) (gkArr3 (featOf X)) := by
  have hN : cfg0.N = 16 := N_0
  have ht : t.val < 16 := lt_of_lt_of_eq t.isLt hN
  obtain ⟨-, -, -, -, e0, e1, -⟩ := blockIdx0 t
  show (cfg0.win 2).cut (grid0.coords t) ((dat0 V c).after 2 t) = _
  rw [after0_2]
  refine funext fun (y : S256x4096.Idx) => ?_
  obtain ⟨p, j, rfl⟩ : ∃ (p : Fin 256) (j : Fin 4096), y = ix2 p j := ⟨y 0, y 1, eq_ix2 y⟩
  have hemb : ((cfg0.win 2).blk t).view.emb (ix2 p j) = ix2 (⟨256 * t.val + p.val, by omega⟩ : Fin 4096) j :=
    funext fun a => Fin.ext (by
      match a with
      | ⟨0, _⟩ => show win0_2.index t (0 : Fin 2) * 256 + 1 * p.val = 256 * t.val + p.val; rw [e0]; omega
      | ⟨1, _⟩ => show win0_2.index t (1 : Fin 2) * 4096 + 1 * j.val = j.val; rw [e1]; omega)
  show (outsAt0 V c t.val t.isLt).1 (ix2 p j) = gkArr3 (featOf X) (((cfg0.win 2).blk t).view.emb (ix2 p j))
  rw [hemb]
  exact tile0_apply V c X h15 h22 t p j ⟨256 * t.val + p.val, by omega⟩ rfl

/-- Every entry of the matrix lies in the block of the tile of its row. -/
theorem cover0_2 (i : S4096x4096.Idx) :
    ∃ t : Fin cfg0.N, (cfg0.win 2).flush t = true ∧ i ∈ ((cfg0.win 2).blk t).view.set := by
  have hN : cfg0.N = 16 := N_0
  have h0 : (i 0).val < 4096 := (i 0).isLt
  have h1 : (i 1).val < 4096 := (i 1).isLt
  obtain ⟨t, ht⟩ : ∃ t : Fin cfg0.N, t.val = (i 0).val / 256 := ⟨⟨(i 0).val / 256, by omega⟩, rfl⟩
  obtain ⟨-, -, -, -, e0, e1, -⟩ := blockIdx0 t
  refine ⟨t, flush0_2 t, ?_⟩
  show i ∈ ((View.whole main_v23_0).slice (win0_2.rect t)).set
  rw [View.set_slice_whole, Rect.mem_set_unit]
  intro a
  match a with
  | ⟨0, _⟩ =>
    show win0_2.index t (0 : Fin 2) * 256 ≤ (i 0).val ∧ (i 0).val < win0_2.index t (0 : Fin 2) * 256 + 256
    rw [e0, ht]; omega
  | ⟨1, _⟩ =>
    show win0_2.index t (1 : Fin 2) * 4096 ≤ (i 1).val ∧ (i 1).val < win0_2.index t (1 : Fin 2) * 4096 + 4096
    rw [e1]; omega

/-- The [4096,4096] result ends holding the Gaussian kernel matrix of X. -/
theorem arr0_2 (c : Dev nD) (X : FVec Ideal S3x4096 .f32) (h15 : (V c main_v15 : S3x4096.Idx → EReal) = X)
    (h22 : (V c main_v22 : S4096x3.Idx → EReal) = transpose S4096x3 [1, 0] X Facts₀.transposes_S3x4096_S4096x3_1_0) :
    (dat0 (F := Ideal) V c).arrAt 2 cfg0.N = fun idx : S4096x4096.Idx => gk (featOf X) (idx 0) (idx 1) :=
  (dat0 (F := Ideal) V c).arrAt_eq_of_cover 2 (gkArr3 (featOf X)) (fun t _ => flushed0_2 V c X h15 h22 t) cover0_2

/-- The one write-back of the column sums, after the last tile, writes the column sums of the kernel matrix. -/
theorem flushed0_3 (c : Dev nD) (X : FVec Ideal S3x4096 .f32) (h15 : (V c main_v15 : S3x4096.Idx → EReal) = X)
    (h22 : (V c main_v22 : S4096x3.Idx → EReal) = transpose S4096x3 [1, 0] X Facts₀.transposes_S3x4096_S4096x3_1_0)
    (t : Fin cfg0.N) (hf : (cfg0.win 3).flush t = true) :
    (dat0 (F := Ideal) V c).flushed 3 t = ((cfg0.win 3).blk t).view.read (Elt Ideal) (nrmArr3 (featOf X)) := by
  have hN : cfg0.N = 16 := N_0
  have ht : t.val = 15 := by have := (flush0_3 t).mp hf; have := t.isLt; omega
  obtain ⟨-, -, -, -, -, -, e0, e1⟩ := blockIdx0 t
  show (cfg0.win 3).cut (grid0.coords t) ((dat0 V c).after 3 t) = _
  rw [after0_3]
  refine funext fun (y : S1x4096.Idx) => ?_
  obtain ⟨u, j, rfl⟩ : ∃ (u : Fin 1) (j : Fin 4096), y = ix2 u j := ⟨y 0, y 1, eq_ix2 y⟩
  have hemb : ((cfg0.win 3).blk t).view.emb (ix2 u j) = ix2 (0 : Fin 1) j :=
    funext fun a => Fin.ext (by
      match a with
      | ⟨0, _⟩ => show win0_3.index t (0 : Fin 2) * 1 + 1 * u.val = 0; rw [e0]; omega
      | ⟨1, _⟩ => show win0_3.index t (1 : Fin 2) * 4096 + 1 * j.val = j.val; rw [e1]; omega)
  show (outsAt0 V c t.val t.isLt).2 (ix2 u j) = nrmArr3 (featOf X) (((cfg0.win 3).blk t).view.emb (ix2 u j))
  rw [hemb, colsum0_apply V c X h15 h22 t.val t.isLt u j, ht]
  show accT (gcol3 (featOf X) j) 16 = nrm (featOf X) j
  rw [Cert.Crf.accT_16]
  unfold Cert.Crf.nrm gcol3
  refine congrArg (w0 + ·) (Finset.sum_congr rfl fun i _ => ?_)
  rw [dif_pos i.isLt]

/-- The column-sum array's one block is written back by the last tile. -/
theorem cover0_3 (i : S1x4096.Idx) :
    ∃ t : Fin cfg0.N, (cfg0.win 3).flush t = true ∧ i ∈ ((cfg0.win 3).blk t).view.set := by
  have hN : cfg0.N = 16 := N_0
  have h0 : (i 0).val < 1 := (i 0).isLt
  have h1 : (i 1).val < 4096 := (i 1).isLt
  obtain ⟨t, ht⟩ : ∃ t : Fin cfg0.N, t.val = 15 := ⟨⟨15, by omega⟩, rfl⟩
  obtain ⟨-, -, -, -, -, -, e0, e1⟩ := blockIdx0 t
  refine ⟨t, (flush0_3 t).mpr (by omega), ?_⟩
  show i ∈ ((View.whole main_v23_1).slice (win0_3.rect t)).set
  rw [View.set_slice_whole, Rect.mem_set_unit]
  intro a
  match a with
  | ⟨0, _⟩ =>
    show win0_3.index t (0 : Fin 2) * 1 ≤ (i 0).val ∧ (i 0).val < win0_3.index t (0 : Fin 2) * 1 + 1
    rw [e0]; omega
  | ⟨1, _⟩ =>
    show win0_3.index t (1 : Fin 2) * 4096 ≤ (i 1).val ∧ (i 1).val < win0_3.index t (1 : Fin 2) * 4096 + 4096
    rw [e1]; omega

/-- The [1,4096] result ends holding the column sums of the Gaussian kernel matrix of X. -/
theorem arr0_3 (c : Dev nD) (X : FVec Ideal S3x4096 .f32) (h15 : (V c main_v15 : S3x4096.Idx → EReal) = X)
    (h22 : (V c main_v22 : S4096x3.Idx → EReal) = transpose S4096x3 [1, 0] X Facts₀.transposes_S3x4096_S4096x3_1_0) :
    (dat0 (F := Ideal) V c).arrAt 3 cfg0.N = fun idx : S1x4096.Idx => nrm (featOf X) (idx 1) :=
  (dat0 (F := Ideal) V c).arrAt_eq_of_cover 3 (nrmArr3 (featOf X)) (flushed0_3 V c X h15 h22) cover0_3

end Cert.KernelIdeal.Hand

end
-- ==== Proof.KI.R1Pieces.lean ====
/-
  Region 1: the pieces the body leaves in its two output buffers, read back as values of the two input blocks.
  The tile's buffer ends holding the tile of the kernel matrix; the column-sum buffer ends holding what it held
  before the tile (the cleared block at the first tile) plus the tile's column sums.
-/
import proofs.«171617_j90795608638216_2_alg».proof.Proof.KI.R1
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-- Every access of the body starts at the origin of its buffer. -/
theorem origin1 : (![0, 0] : Fin 2 → Nat) = fun _ => 0 := funext fun a => by fin_cases a <;> rfl

/-- First tile: the tile's buffer ends holding the tile of the kernel matrix. -/
theorem out1_A_2_eq (c : Dev nD) (i : grid1.Coords) (arg1 : Memref sig .tc .vmem S6x4096 .f32) (harg1 : arg1.IsWhole) (arg2 : Memref sig .tc .vmem S256x6 .f32) (harg2 : arg2.IsWhole) (arg3 : Memref sig .tc .vmem S256x4096 .bf16) (harg3 : arg3.IsWhole) (arg4 : Memref sig .tc .vmem S1x4096 .f32) (harg4 : arg4.IsWhole) (hc0 : cond1_0 i) (x0 : Vec F S6x4096 .f32) (x1 : Vec F S256x6 .f32) :
    out1_A_2 c i arg1 harg1 arg2 harg2 arg3 harg3 arg4 harg4 hc0 x0 x1 = k1_pay3 x1 x0 := by
  unfold out1_A_2
  rw [View.read_writes_eq_canon _ _ _ (cover1_A_2 c i arg1 harg1 arg2 harg2 arg3 harg3 arg4 harg4 hc0 x0 x1)]
  unfold kernelRun1_A
  dsimp only
  rw [View.canon_unit_zero origin1]
  simp only [View.readAt_eq_ld, harg1.read_unread, harg2.read_unread, View.ld_unit_zero (S := S6x4096) origin1,
    View.ld_unit_zero (S := S256x6) origin1]

/-- First tile: the column-sum buffer ends holding the cleared block plus the tile's column sums. -/
theorem out1_A_3_eq (c : Dev nD) (i : grid1.Coords) (arg1 : Memref sig .tc .vmem S6x4096 .f32) (harg1 : arg1.IsWhole) (arg2 : Memref sig .tc .vmem S256x6 .f32) (harg2 : arg2.IsWhole) (arg3 : Memref sig .tc .vmem S256x4096 .bf16) (harg3 : arg3.IsWhole) (arg4 : Memref sig .tc .vmem S1x4096 .f32) (harg4 : arg4.IsWhole) (hc0 : cond1_0 i) (x0 : Vec F S6x4096 .f32) (x1 : Vec F S256x6 .f32) :
    out1_A_3 c i arg1 harg1 arg2 harg2 arg3 harg3 arg4 harg4 hc0 x0 x1 = k1_pay4 x1 x0 k1_pay1 := by
  unfold out1_A_3
  rw [View.read_writes_eq_canon _ _ _ (cover1_A_3 c i arg1 harg1 arg2 harg2 arg3 harg3 arg4 harg4 hc0 x0 x1)]
  unfold kernelRun1_A
  dsimp only
  sl_unfold_words
  rw [View.canon_cons_unit_zero (S := S1x4096) origin1, View.readCov_unit_zero (S := S1x4096) _ origin1]
  simp only [View.readAt_eq_ld, harg1.read_unread, harg2.read_unread, View.ld_unit_zero (S := S6x4096) origin1,
    View.ld_unit_zero (S := S256x6) origin1, View.ld_unit_zero (S := S1x4096) origin1]

/-- A later tile: the tile's buffer ends holding the tile of the kernel matrix. -/
theorem out1_B_2_eq (c : Dev nD) (i : grid1.Coords) (arg1 : Memref sig .tc .vmem S6x4096 .f32) (harg1 : arg1.IsWhole) (arg2 : Memref sig .tc .vmem S256x6 .f32) (harg2 : arg2.IsWhole) (arg3 : Memref sig .tc .vmem S256x4096 .bf16) (harg3 : arg3.IsWhole) (arg4 : Memref sig .tc .vmem S1x4096 .f32) (harg4 : arg4.IsWhole) (hc0 : ¬cond1_0 i) (x0 : Vec F S6x4096 .f32) (x1 : Vec F S256x6 .f32) (xo3 : Vec F S1x4096 .f32) :
    out1_B_2 c i arg1 harg1 arg2 harg2 arg3 harg3 arg4 harg4 hc0 x0 x1 xo3 = k1_pay3 x1 x0 := by
  unfold out1_B_2
  rw [View.read_writes_eq_canon _ _ _ (cover1_B_2 c i arg1 harg1 arg2 harg2 arg3 harg3 arg4 harg4 hc0 x0 x1 xo3)]
  unfold kernelRun1_B
  dsimp only
  rw [View.canon_unit_zero origin1]
  simp only [View.readAt_eq_ld, harg1.read_unread, harg2.read_unread, View.ld_unit_zero (S := S6x4096) origin1,
    View.ld_unit_zero (S := S256x6) origin1]

/-- A later tile: the column-sum buffer ends holding what it held plus the tile's column sums. -/
theorem out1_B_3_eq (c : Dev nD) (i : grid1.Coords) (arg1 : Memref sig .tc .vmem S6x4096 .f32) (harg1 : arg1.IsWhole) (arg2 : Memref sig .tc .vmem S256x6 .f32) (harg2 : arg2.IsWhole) (arg3 : Memref sig .tc .vmem S256x4096 .bf16) (harg3 : arg3.IsWhole) (arg4 : Memref sig .tc .vmem S1x4096 .f32) (harg4 : arg4.IsWhole) (hc0 : ¬cond1_0 i) (x0 : Vec F S6x4096 .f32) (x1 : Vec F S256x6 .f32) (xo3 : Vec F S1x4096 .f32) :
    out1_B_3 c i arg1 harg1 arg2 harg2 arg3 harg3 arg4 harg4 hc0 x0 x1 xo3 = k1_pay4 x1 x0 xo3 := by
  unfold out1_B_3
  rw [View.read_writes_eq_canon _ _ _ (cover1_B_3 c i arg1 harg1 arg2 harg2 arg3 harg3 arg4 harg4 hc0 x0 x1 xo3)]
  unfold kernelRun1_B
  dsimp only
  rw [View.canon_unit_zero origin1]
  simp only [View.readAt_eq_ld, harg1.read_unread, harg2.read_unread, harg4.read_unread, View.ld_unit_zero (S := S6x4096) origin1,
    View.ld_unit_zero (S := S256x6) origin1, View.ld_unit_zero (S := S1x4096) origin1]

end Cert.KernelIdeal.Hand

end
-- ==== Proof.KI.R1Pay.lean ====
/-
  Region 1's arithmetic, read at an index over the extended reals.

  The body computes, for a tile of 256 rows (the rows of a [256,6] block l) against all 4096 columns of the [6,4096]
  feature table r, the entry exp (-1/2 * max (|l_p|^2 + |r_j|^2 - 2 <l_p, r_j>, 0)) at (p, j): the squared lengths are
  sums over the six feature coordinates (the row one stood up as a column and spread along the rows, the column one
  laid as a row and spread down the columns), the inner products are a matrix product into a zero accumulator, and
  the change to a narrower format is the identity.  The column-sum block is what it held plus, at column j, the sum of
  the tile's 256 entries of that column.  When the tile's rows are columns 256 t + p of the feature table the entry is
  the Gaussian kernel entry (256 t + p, j) of the specification.
-/
import Idealize.ShloMosaic.Lib.ValueLayout
import Idealize.ShloMosaic.PureOps.Ideal.Laws
import proofs.«171617_j90795608638216_2_alg».proof.Proof.Gen.KernelIdeal.Skeleton
import proofs.«171617_j90795608638216_2_alg».proof.Proof.CrfReal
import proofs.«171617_j90795608638216_2_alg».proof.Proof.LibPlainDot
import proofs.«171617_j90795608638216_2_alg».proof.Proof.LibColumnLayout

noncomputable section

namespace Cert.KernelIdeal.Hand

open Cert.KernelIdeal Cert.KernelIdeal.Gen
open Idealize.ShloMosaic Idealize.ShloMosaic.ValueIdx
open Cert.Crf (w0 w2 wmh)

/-- The squared lengths of the tile's rows, spread along the rows. -/
def rowSq1 (v : FVec Ideal S256x6 .f32) : FVec Ideal S256x4096 .f32 :=
  broadcastTo S256x4096 (shapeCast S256x1 (multiReduction (F := Ideal) .add [1] S256 (mulf v v) 0x00000000#32 Facts₀.reduces_S256x6_S256 (.inl rfl) rfl) Facts₀.shapeCasts_S256_S256x1) Facts₀.broadcasts_S256x1_S256x4096

/-- The squared lengths of the table's columns, spread down the columns. -/
def colSq1 (v : FVec Ideal S6x4096 .f32) : FVec Ideal S256x4096 .f32 :=
  broadcastTo S256x4096 (shapeCast S1x4096 (multiReduction (F := Ideal) .add [0] S4096 (mulf v v) 0x00000000#32 Facts₀.reduces_S6x4096_S4096 (.inl rfl) rfl) Facts₀.shapeCasts_S4096_S1x4096) Facts₀.broadcasts_S1x4096_S256x4096

/-- The inner products of the tile's rows with the table's columns. -/
def cross1 (l : FVec Ideal S256x6 .f32) (r : FVec Ideal S6x4096 .f32) : FVec Ideal S256x4096 .f32 :=
  matmul dot_S256x6_S6x4096_S256x4096_1_0_0_1_n_n (some .fp32) l r (constant (F := Ideal) S256x4096 .f32 0x00000000#32)

/-- The sums down the columns of a tile, as a one-row block. -/
def colSum1 (p : FVec Ideal S256x4096 .f32) : FVec Ideal S1x4096 .f32 :=
  shapeCast S1x4096 (multiReduction (F := Ideal) .add [0] S4096 p 0x00000000#32 Facts₀.reduces_S256x4096_S4096 (.inl rfl) rfl) Facts₀.shapeCasts_S4096_S1x4096

theorem rowSq1_apply (v : FVec Ideal S256x6 .f32) (p : Fin 256) (j : Fin 4096) :
    rowSq1 v (ix2 p j) = ∑ k : Fin 6, v (ix2 p k) * v (ix2 p k) := by
  unfold rowSq1
  refine (Cert.ColumnLayout.broadcastTo_a1_ab_apply _ Facts₀.broadcasts_S256x1_S256x4096 p j).trans ?_
  refine (Cert.ColumnLayout.shapeCast_a_a1_apply _ Facts₀.shapeCasts_S256_S256x1 p (0 : Fin 1)).trans ?_
  refine (Ideal.multiReduction_add_single (mulf v v) 0x00000000#32 Facts₀.reduces_S256x6_S256 (.inl rfl) rfl (ix1 p)).trans ?_
  show ∑ k : Fin 6, mulf v v (Facts₀.reduces_S256x6_S256.lift (ix1 p) k) = _
  refine Finset.sum_congr rfl fun k _ => ?_
  have e : Facts₀.reduces_S256x6_S256.lift (ix1 p) k = ix2 p k := funext fun c => Fin.ext (by
    match c with
    | ⟨0, _⟩ => rfl
    | ⟨1, _⟩ => rfl)
  rw [e]
  rfl

theorem colSq1_apply (v : FVec Ideal S6x4096 .f32) (p : Fin 256) (j : Fin 4096) :
    colSq1 v (ix2 p j) = ∑ k : Fin 6, v (ix2 k j) * v (ix2 k j) := by
  unfold colSq1
  refine (broadcastTo_1b_ab_apply _ Facts₀.broadcasts_S1x4096_S256x4096 p j).trans ?_
  refine (shapeCast_a_1a_apply _ Facts₀.shapeCasts_S4096_S1x4096 (0 : Fin 1) j).trans ?_
  refine (Ideal.multiReduction_add_single (mulf v v) 0x00000000#32 Facts₀.reduces_S6x4096_S4096 (.inl rfl) rfl (ix1 j)).trans ?_
  show ∑ k : Fin 6, mulf v v (Facts₀.reduces_S6x4096_S4096.lift (ix1 j) k) = _
  refine Finset.sum_congr rfl fun k _ => ?_
  have e : Facts₀.reduces_S6x4096_S4096.lift (ix1 j) k = ix2 k j := funext fun c => Fin.ext (by
    match c with
    | ⟨0, _⟩ => rfl
    | ⟨1, _⟩ => rfl)
  rw [e]
  rfl

/-- How the body's contraction reads its operands. -/
theorem reads_cross1 : Cert.Lib.PlainDot.Reads dot_S256x6_S6x4096_S256x4096_1_0_0_1_n_n :=
  ⟨rfl, rfl, fun _ _ => rfl, fun _ _ => rfl, fun _ _ => rfl, fun _ _ => rfl⟩

theorem cross1_apply (l : FVec Ideal S256x6 .f32) (r : FVec Ideal S6x4096 .f32) (p : Fin 256) (j : Fin 4096) :
    cross1 l r (ix2 p j) = ∑ k : Fin 6, l (ix2 p k) * r (ix2 k j) :=
  Cert.Lib.PlainDot.matmul_zero_apply reads_cross1 (some .fp32) l r p j

theorem colSum1_apply (x : FVec Ideal S256x4096 .f32) (u : Fin 1) (j : Fin 4096) :
    colSum1 x (ix2 u j) = ∑ p : Fin 256, x (ix2 p j) := by
  unfold colSum1
  refine (shapeCast_a_1a_apply _ Facts₀.shapeCasts_S4096_S1x4096 u j).trans ?_
  refine (Ideal.multiReduction_add_single x 0x00000000#32 Facts₀.reduces_S256x4096_S4096 (.inl rfl) rfl (ix1 j)).trans ?_
  show ∑ p : Fin 256, x (Facts₀.reduces_S256x4096_S4096.lift (ix1 j) p) = _
  refine Finset.sum_congr rfl fun p _ => ?_
  have e : Facts₀.reduces_S256x4096_S4096.lift (ix1 j) p = ix2 p j := funext fun c => Fin.ext (by
    match c with
    | ⟨0, _⟩ => rfl
    | ⟨1, _⟩ => rfl)
  rw [e]

/-- The tile's entry (p, j): the exponential of minus half the clamped squared distance. -/
theorem k1_pay2_apply (l : FVec Ideal S256x6 .f32) (r : FVec Ideal S6x4096 .f32) (p : Fin 256) (j : Fin 4096) :
    k1_pay2 (F := Ideal) l r (ix2 p j)
      = Ideal.exp (wmh * max ((∑ k : Fin 6, l (ix2 p k) * l (ix2 p k)) + (∑ k : Fin 6, r (ix2 k j) * r (ix2 k j))
          - w2 * ∑ k : Fin 6, l (ix2 p k) * r (ix2 k j)) w0) := by
  have e : k1_pay2 (F := Ideal) l r (ix2 p j)
      = Ideal.exp (wmh * max (rowSq1 l (ix2 p j) + colSq1 r (ix2 p j) - w2 * cross1 l r (ix2 p j)) w0) := by
    unfold k1_pay2 rowSq1 colSq1 cross1
    simp only [shapeCast_self]
    rfl
  rw [e, rowSq1_apply, colSq1_apply, cross1_apply]

/-- The stored tile is the computed one: the narrower format holds the same extended real. -/
theorem k1_pay3_apply (l : FVec Ideal S256x6 .f32) (r : FVec Ideal S6x4096 .f32) (p : Fin 256) (j : Fin 4096) :
    k1_pay3 (F := Ideal) l r (ix2 p j) = k1_pay2 (F := Ideal) l r (ix2 p j) := rfl

/-- The cleared column-sum block holds the zero word. -/
theorem k1_pay1_apply (u : Fin 1) (j : Fin 4096) : k1_pay1 (F := Ideal) (ix2 u j) = w0 := rfl

/-- The column-sum block after a tile: what it held plus the tile's column sums. -/
theorem k1_pay4_apply (l : FVec Ideal S256x6 .f32) (r : FVec Ideal S6x4096 .f32) (s : FVec Ideal S1x4096 .f32)
    (u : Fin 1) (j : Fin 4096) :
    k1_pay4 (F := Ideal) l r s (ix2 u j) = s (ix2 u j) + ∑ p : Fin 256, k1_pay2 (F := Ideal) l r (ix2 p j) := by
  have e : k1_pay4 (F := Ideal) l r s = addf s (colSum1 (k1_pay2 (F := Ideal) l r)) := by
    unfold k1_pay4 colSum1
    simp only [shapeCast_self]
  rw [e]
  exact congrArg (s (ix2 u j) + ·) (colSum1_apply _ u j)

/-- When the tile's row p is column i of the feature table f and the second operand is f, the tile's entry (p, j) is
    the Gaussian kernel entry (i, j). -/
theorem k1_pay2_gk (f : Cert.Crf.Feat 6) (l : FVec Ideal S256x6 .f32) (r : FVec Ideal S6x4096 .f32)
    (i : Fin 4096) (p : Fin 256) (j : Fin 4096)
    (hl : ∀ k : Fin 6, l (ix2 p k) = f k i) (hr : ∀ k : Fin 6, r (ix2 k j) = f k j) :
    k1_pay2 (F := Ideal) l r (ix2 p j) = Cert.Crf.gk f i j := by
  rw [k1_pay2_apply]
  unfold Cert.Crf.gk Cert.Crf.sqn Cert.Crf.cross
  simp only [hl, hr, Cert.Crf.w0_add]

end Cert.KernelIdeal.Hand

end
-- ==== Proof.KI.R1Blocks.lean ====
/-
  Region 1: what the body's two input blocks are, as entries of the arrays the region finds.  The feature table's
  window has one block, the whole [6,4096] table, at every tile; the transposed table's window has, at tile t, rows
  256 t .. 256 t + 255 of the [4096,6] array.  The tile's window of the kernel matrix is at row block t, and the
  column-sum window has one block.
-/
import proofs.«171617_j90795608638216_2_alg».proof.Proof.KI.R1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-- The block indices of the four windows at tile t, decided over the 16 tiles. -/
theorem blockIdx1 : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)

/-- The feature table's block at any tile is the whole table. -/
theorem iblk1_0_apply (c : Dev nD) (t : Fin cfg1.N) (k : Fin 6) (j : Fin 4096) :
    (iblk1 V c 0 t : Vec F S6x4096 .f32) (ix2 k j) = (V c main_v21 : S6x4096.Idx → Elt F .f32) (ix2 k j) := by
  obtain ⟨e0, e1, -⟩ := blockIdx1 t
  unfold iblk1
  rw [View.read_apply]
  show V c main_v21 _ = V c main_v21 _
  congr 1
  funext a
  apply Fin.ext
  match a with
  | ⟨0, _⟩ => show win1_0.index t (0 : Fin 2) * 6 + 1 * k.val = k.val; rw [e0]; omega
  | ⟨1, _⟩ => show win1_0.index t (1 : Fin 2) * 4096 + 1 * j.val = j.val; rw [e1]; omega

/-- The transposed table's block at tile t, at (p, k), is the array at (256 t + p, k). -/
theorem iblk1_1_apply (c : Dev nD) (t : Fin cfg1.N) (p : Fin 256) (k : Fin 6) (i : Fin 4096)
    (hi : i.val = 256 * t.val + p.val) :
    (iblk1 V c 1 t : Vec F S256x6 .f32) (ix2 p k) = (V c main_v24 : S4096x6.Idx → Elt F .f32) (ix2 i k) := by
  obtain ⟨-, -, e0, e1, -⟩ := blockIdx1 t
  unfold iblk1
  rw [View.read_apply]
  show V c main_v24 _ = V c main_v24 _
  congr 1
  funext a
  apply Fin.ext
  match a with
  | ⟨0, _⟩ => show win1_1.index t (0 : Fin 2) * 256 + 1 * p.val = i.val; rw [e0, hi]; omega
  | ⟨1, _⟩ => show win1_1.index t (1 : Fin 2) * 6 + 1 * k.val = k.val; rw [e1]; omega

end Cert.KernelIdeal.Hand

end
-- ==== Proof.KI.R1Tiles.lean ====
/-
  Region 1: what the two output buffers hold after each tile, entry by entry, when the region finds the feature
  table X in its first operand and the transpose of X in its second.

  After tile t the tile's buffer holds rows 256 t .. 256 t + 255 of the Gaussian kernel matrix of X: row p of the
  transposed table's block is column 256 t + p of X.  The column-sum buffer holds, at column j, the accumulator of
  column j of that matrix fed tile by tile: cleared before the first tile's sums are added, and at a later tile
  what the tile before left plus the tile's 256 entries of the column.
-/
import proofs.«171617_j90795608638216_2_alg».proof.Proof.KI.R1Pieces
import proofs.«171617_j90795608638216_2_alg».proof.Proof.KI.R1Pay
import proofs.«171617_j90795608638216_2_alg».proof.Proof.KI.R1Blocks
import proofs.«171617_j90795608638216_2_alg».proof.Proof.CrfShapes
import proofs.«171617_j90795608638216_2_alg».proof.Proof.CrfBlocks
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Crf (w0 gk nrm featOf accT)

variable (V : (c : Dev nD) → (b : Ref sig .tc) → Buf (Elt Ideal) ((c : Thread nD τ).loc b))

/-- Column j of the kernel matrix of f as a sequence, continued by zeros past its 4096 entries. -/
def gcol6 (f : Cert.Crf.Feat 6) (j : Fin 4096) : ℕ → EReal := fun i => if h : i < 4096 then gk f ⟨i, h⟩ j else 0

/-- The feature table's block, in the first operand, is X. -/
theorem blk1_0_feat (c : Dev nD) (X : FVec Ideal S6x4096 .f32) (h21 : (V c main_v21 : S6x4096.Idx → EReal) = X)
    (t : Fin cfg1.N) (k : Fin 6) (j : Fin 4096) :
    (iblk1 V c 0 t : Vec Ideal S6x4096 .f32) (ix2 k j) = featOf X k j := by
  rw [iblk1_0_apply V c t k j, h21]
  rfl

/-- Row p of the transposed table's block at tile t is column 256 t + p of X. -/
theorem blk1_1_feat (c : Dev nD) (X : FVec Ideal S6x4096 .f32)
    (h24 : (V c main_v24 : S4096x6.Idx → EReal) = transpose S4096x6 [1, 0] X Facts₀.transposes_S6x4096_S4096x6_1_0)
    (t : Fin cfg1.N) (p : Fin 256) (k : Fin 6) (i : Fin 4096) (hi : i.val = 256 * t.val + p.val) :
    (iblk1 V c 1 t : Vec Ideal S256x6 .f32) (ix2 p k) = featOf X k i := by
  rw [iblk1_1_apply V c t p k i hi, h24]
  exact transpose_ix2_apply X _ i k

/-- After tile t the tile's buffer holds, at (p, j), the kernel entry (256 t + p, j). -/
theorem tile1_apply (c : Dev nD) (X : FVec Ideal S6x4096 .f32) (h21 : (V c main_v21 : S6x4096.Idx → EReal) = X)
    (h24 : (V c main_v24 : S4096x6.Idx → EReal) = transpose S4096x6 [1, 0] X Facts₀.transposes_S6x4096_S4096x6_1_0)
    (t : Fin cfg1.N) (p : Fin 256) (j : Fin 4096) (i : Fin 4096) (hi : i.val = 256 * t.val + p.val) :
    (outsAt1 V c t.val t.isLt).1 (ix2 p j) = gk (featOf X) i j := by
  have key : k1_pay3 (F := Ideal) (iblk1 V c 1 t) (iblk1 V c 0 t) (ix2 p j) = gk (featOf X) i j :=
    (k1_pay3_apply (iblk1 V c 1 t) (iblk1 V c 0 t) p j).trans
      (k1_pay2_gk (featOf X) (iblk1 V c 1 t) (iblk1 V c 0 t) i p j
        (fun k => blk1_1_feat V c X h24 t p k i hi) (fun k => blk1_0_feat V c X h21 t k j))
  by_cases hA : t.val % 16 = 0
  · rw [outsAt1_A V c t hA]
    dsimp only
    rw [out1_A_2_eq]
    exact key
  · rw [outsAt1_B V c t hA]
    dsimp only
    rw [out1_B_2_eq]
    exact key

/-- One tile's step of the column-sum block, over any blocks: with the feature table in the second operand and
    columns 256 n .. 256 n + 255 of it as the rows of the first, the block goes from acc to acc plus the tile's part
    of the column. -/
theorem colstep1 (f : Cert.Crf.Feat 6) (x0 : FVec Ideal S6x4096 .f32) (x1 : FVec Ideal S256x6 .f32)
    (s : FVec Ideal S1x4096 .f32) (n : ℕ) (hn : n < 16) (u : Fin 1) (j : Fin 4096) (acc : EReal)
    (hs : s (ix2 u j) = acc) (h0 : ∀ k : Fin 6, x0 (ix2 k j) = f k j)
    (h1 : ∀ (p : Fin 256) (k : Fin 6), x1 (ix2 p k) = f k ⟨256 * n + p.val, by omega⟩) :
    k1_pay4 (F := Ideal) x1 x0 s (ix2 u j) = acc + (w0 + ∑ p : Fin 256, gcol6 f j (256 * n + p.val)) := by
  rw [k1_pay4_apply, hs, Cert.Crf.w0_add]
  refine congrArg (acc + ·) (Finset.sum_congr rfl fun p _ => ?_)
  rw [k1_pay2_gk f x1 x0 ⟨256 * n + p.val, by omega⟩ p j (h1 p) h0]
  unfold gcol6
  rw [dif_pos (by omega)]

/-- After tile n the column-sum buffer holds, at column j, the accumulator of column j after n + 1 tiles. -/
theorem colsum1_apply (c : Dev nD) (X : FVec Ideal S6x4096 .f32) (h21 : (V c main_v21 : S6x4096.Idx → EReal) = X)
    (h24 : (V c main_v24 : S4096x6.Idx → EReal) = transpose S4096x6 [1, 0] X Facts₀.transposes_S6x4096_S4096x6_1_0) :
    ∀ (n : ℕ) (hn : n < cfg1.N) (u : Fin 1) (j : Fin 4096),
      (outsAt1 V c n hn).2 (ix2 u j) = accT (gcol6 (featOf X) j) (n + 1)
  | 0, hn, u, j => by
    have hN : cfg1.N = 16 := N_1
    refine (congrArg (fun q => q.2 (ix2 u j)) (outsAt1_A V c ⟨0, hn⟩ (Nat.zero_mod 16))).trans ?_
    dsimp only
    rw [out1_A_3_eq]
    exact colstep1 (featOf X) (iblk1 V c 0 ⟨0, hn⟩) (iblk1 V c 1 ⟨0, hn⟩) k1_pay1 0 (by omega) u j w0
      (k1_pay1_apply u j) (fun k => blk1_0_feat V c X h21 ⟨0, hn⟩ k j)
      (fun p k => blk1_1_feat V c X h24 ⟨0, hn⟩ p k _ rfl)
  | n + 1, hn, u, j => by
    have hN : cfg1.N = 16 := N_1
    have hB : ¬(n + 1) % 16 = 0 := by omega
    refine (congrArg (fun q => q.2 (ix2 u j)) (outsAt1_B V c ⟨n + 1, hn⟩ hB)).trans ?_
    dsimp only
    rw [out1_B_3_eq]
    exact (colstep1 (featOf X) (iblk1 V c 0 ⟨n + 1, hn⟩) (iblk1 V c 1 ⟨n + 1, hn⟩)
      (outsAt1 V c n (Nat.lt_of_succ_lt hn)).2 (n + 1) (by omega) u j (accT (gcol6 (featOf X) j) (n + 1))
      (colsum1_apply c X h21 h24 n (Nat.lt_of_succ_lt hn) u j) (fun k => blk1_0_feat V c X h21 ⟨n + 1, hn⟩ k j)
      (fun p k => blk1_1_feat V c X h24 ⟨n + 1, hn⟩ p k _ rfl)).trans (Cert.Crf.accT_succ _ _).symm

end Cert.KernelIdeal.Hand

end
-- ==== Proof.KI.R1Value.lean ====
/-
  Region 1's two result arrays, entry by entry: when the region finds the feature table X in its first operand and
  the transpose of X in its second, the [4096,4096] result ends holding the Gaussian kernel matrix of X and the
  [1,4096] result its column sums.

  Tile t writes back rows 256 t .. 256 t + 255 of the matrix, and row i lies in the block of tile i / 256, so the
  sixteen blocks fill the array.  The column sums are written back once, after the last tile, when the accumulator
  has been fed all sixteen tiles: the sum of the 4096 entries of the column, after the zero word.
-/
import proofs.«171617_j90795608638216_2_alg».proof.Proof.KI.R1Tiles
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Crf (w0 gk nrm featOf accT)

variable (V : (c : Dev nD) → (b : Ref sig .tc) → Buf (Elt Ideal) ((c : Thread nD τ).loc b))

/-- The kernel matrix of f as a [4096,4096] array. -/
def gkArr6 (f : Cert.Crf.Feat 6) : S4096x4096.Idx → EReal := fun idx => gk f (idx 0) (idx 1)

/-- The column sums of the kernel matrix of f as a [1,4096] array. -/
def nrmArr6 (f : Cert.Crf.Feat 6) : S1x4096.Idx → EReal := fun idx => nrm f (idx 1)

/-- What tile t writes back of the matrix is block t of the kernel matrix. -/
theorem flushed1_2 (c : Dev nD) (X : FVec Ideal S6x4096 .f32) (h21 : (V c main_v21 : S6x4096.Idx → EReal) = X)
    (h24 : (V c main_v24 : S4096x6.Idx → EReal) = transpose S4096x6 [1, 0] X Facts₀.transposes_S6x4096_S4096x6_1_0)
    (t : Fin cfg1.N) :
    (dat1 (F := Ideal) V c).flushed 2 t = ((cfg1.win 2).blk t).view.read (Elt Ideal) (gkArr6 (featOf X)) := by
  have hN : cfg1.N = 16 := N_1
  have ht : t.val < 16 := lt_of_lt_of_eq t.isLt hN
  obtain ⟨-, -, -, -, e0, e1, -⟩ := blockIdx1 t
  show (cfg1.win 2).cut (grid1.coords t) ((dat1 V c).after 2 t) = _
  rw [after1_2]
  refine funext fun (y : S256x4096.Idx) => ?_
  obtain ⟨p, j, rfl⟩ : ∃ (p : Fin 256) (j : Fin 4096), y = ix2 p j := ⟨y 0, y 1, eq_ix2 y⟩
  have hemb : ((cfg1.win 2).blk t).view.emb (ix2 p j) = ix2 (⟨256 * t.val + p.val, by omega⟩ : Fin 4096) j :=
    funext fun a => Fin.ext (by
      match a with
      | ⟨0, _⟩ => show win1_2.index t (0 : Fin 2) * 256 + 1 * p.val = 256 * t.val + p.val; rw [e0]; omega
      | ⟨1, _⟩ => show win1_2.index t (1 : Fin 2) * 4096 + 1 * j.val = j.val; rw [e1]; omega)
  show (outsAt1 V c t.val t.isLt).1 (ix2 p j) = gkArr6 (featOf X) (((cfg1.win 2).blk t).view.emb (ix2 p j))
  rw [hemb]
  exact tile1_apply V c X h21 h24 t p j ⟨256 * t.val + p.val, by omega⟩ rfl

/-- Every entry of the matrix lies in the block of the tile of its row. -/
theorem cover1_2 (i : S4096x4096.Idx) :
    ∃ t : Fin cfg1.N, (cfg1.win 2).flush t = true ∧ i ∈ ((cfg1.win 2).blk t).view.set := by
  have hN : cfg1.N = 16 := N_1
  have h0 : (i 0).val < 4096 := (i 0).isLt
  have h1 : (i 1).val < 4096 := (i 1).isLt
  obtain ⟨t, ht⟩ : ∃ t : Fin cfg1.N, t.val = (i 0).val / 256 := ⟨⟨(i 0).val / 256, by omega⟩, rfl⟩
  obtain ⟨-, -, -, -, e0, e1, -⟩ := blockIdx1 t
  refine ⟨t, flush1_2 t, ?_⟩
  show i ∈ ((View.whole main_v25_0).slice (win1_2.rect t)).set
  rw [View.set_slice_whole, Rect.mem_set_unit]
  intro a
  match a with
  | ⟨0, _⟩ =>
    show win1_2.index t (0 : Fin 2) * 256 ≤ (i 0).val ∧ (i 0).val < win1_2.index t (0 : Fin 2) * 256 + 256
    rw [e0, ht]; omega
  | ⟨1, _⟩ =>
    show win1_2.index t (1 : Fin 2) * 4096 ≤ (i 1).val ∧ (i 1).val < win1_2.index t (1 : Fin 2) * 4096 + 4096
    rw [e1]; omega

/-- The [4096,4096] result ends holding the Gaussian kernel matrix of X. -/
theorem arr1_2 (c : Dev nD) (X : FVec Ideal S6x4096 .f32) (h21 : (V c main_v21 : S6x4096.Idx → EReal) = X)
    (h24 : (V c main_v24 : S4096x6.Idx → EReal) = transpose S4096x6 [1, 0] X Facts₀.transposes_S6x4096_S4096x6_1_0) :
    (dat1 (F := Ideal) V c).arrAt 2 cfg1.N = fun idx : S4096x4096.Idx => gk (featOf X) (idx 0) (idx 1) :=
  (dat1 (F := Ideal) V c).arrAt_eq_of_cover 2 (gkArr6 (featOf X)) (fun t _ => flushed1_2 V c X h21 h24 t) cover1_2

/-- The one write-back of the column sums, after the last tile, writes the column sums of the kernel matrix. -/
theorem flushed1_3 (c : Dev nD) (X : FVec Ideal S6x4096 .f32) (h21 : (V c main_v21 : S6x4096.Idx → EReal) = X)
    (h24 : (V c main_v24 : S4096x6.Idx → EReal) = transpose S4096x6 [1, 0] X Facts₀.transposes_S6x4096_S4096x6_1_0)
    (t : Fin cfg1.N) (hf : (cfg1.win 3).flush t = true) :
    (dat1 (F := Ideal) V c).flushed 3 t = ((cfg1.win 3).blk t).view.read (Elt Ideal) (nrmArr6 (featOf X)) := by
  have hN : cfg1.N = 16 := N_1
  have ht : t.val = 15 := by have := (flush1_3 t).mp hf; have := t.isLt; omega
  obtain ⟨-, -, -, -, -, -, e0, e1⟩ := blockIdx1 t
  show (cfg1.win 3).cut (grid1.coords t) ((dat1 V c).after 3 t) = _
  rw [after1_3]
  refine funext fun (y : S1x4096.Idx) => ?_
  obtain ⟨u, j, rfl⟩ : ∃ (u : Fin 1) (j : Fin 4096), y = ix2 u j := ⟨y 0, y 1, eq_ix2 y⟩
  have hemb : ((cfg1.win 3).blk t).view.emb (ix2 u j) = ix2 (0 : Fin 1) j :=
    funext fun a => Fin.ext (by
      match a with
      | ⟨0, _⟩ => show win1_3.index t (0 : Fin 2) * 1 + 1 * u.val = 0; rw [e0]; omega
      | ⟨1, _⟩ => show win1_3.index t (1 : Fin 2) * 4096 + 1 * j.val = j.val; rw [e1]; omega)
  show (outsAt1 V c t.val t.isLt).2 (ix2 u j) = nrmArr6 (featOf X) (((cfg1.win 3).blk t).view.emb (ix2 u j))
  rw [hemb, colsum1_apply V c X h21 h24 t.val t.isLt u j, ht]
  show accT (gcol6 (featOf X) j) 16 = nrm (featOf X) j
  rw [Cert.Crf.accT_16]
  unfold Cert.Crf.nrm gcol6
  refine congrArg (w0 + ·) (Finset.sum_congr rfl fun i _ => ?_)
  rw [dif_pos i.isLt]

/-- The column-sum array's one block is written back by the last tile. -/
theorem cover1_3 (i : S1x4096.Idx) :
    ∃ t : Fin cfg1.N, (cfg1.win 3).flush t = true ∧ i ∈ ((cfg1.win 3).blk t).view.set := by
  have hN : cfg1.N = 16 := N_1
  have h0 : (i 0).val < 1 := (i 0).isLt
  have h1 : (i 1).val < 4096 := (i 1).isLt
  obtain ⟨t, ht⟩ : ∃ t : Fin cfg1.N, t.val = 15 := ⟨⟨15, by omega⟩, rfl⟩
  obtain ⟨-, -, -, -, -, -, e0, e1⟩ := blockIdx1 t
  refine ⟨t, (flush1_3 t).mpr (by omega), ?_⟩
  show i ∈ ((View.whole main_v25_1).slice (win1_3.rect t)).set
  rw [View.set_slice_whole, Rect.mem_set_unit]
  intro a
  match a with
  | ⟨0, _⟩ =>
    show win1_3.index t (0 : Fin 2) * 1 ≤ (i 0).val ∧ (i 0).val < win1_3.index t (0 : Fin 2) * 1 + 1
    rw [e0]; omega
  | ⟨1, _⟩ =>
    show win1_3.index t (1 : Fin 2) * 4096 ≤ (i 1).val ∧ (i 1).val < win1_3.index t (1 : Fin 2) * 4096 + 4096
    rw [e1]; omega

/-- The [1,4096] result ends holding the column sums of the Gaussian kernel matrix of X. -/
theorem arr1_3 (c : Dev nD) (X : FVec Ideal S6x4096 .f32) (h21 : (V c main_v21 : S6x4096.Idx → EReal) = X)
    (h24 : (V c main_v24 : S4096x6.Idx → EReal) = transpose S4096x6 [1, 0] X Facts₀.transposes_S6x4096_S4096x6_1_0) :
    (dat1 (F := Ideal) V c).arrAt 3 cfg1.N = fun idx : S1x4096.Idx => nrm (featOf X) (idx 1) :=
  (dat1 (F := Ideal) V c).arrAt_eq_of_cover 3 (nrmArr6 (featOf X)) (flushed1_3 V c X h21 h24) cover1_3

end Cert.KernelIdeal.Hand

end
-- ==== Proof.CrfModel.lean ====
/-
  The mean-field kernel's grid as a recursion on four tables. The grid has 80 points, point t being tile
  t mod 16 of iteration t / 16. The tables carried from point to point are the logits, their softmax and the
  two filter accumulators. At tile 0 the softmax of the logits is taken and the accumulators are cleared (at
  point 0 the logits are first set to the unary logits); every point adds its tile's 256 products to each
  accumulator; at tile 15 the new logits are formed from the accumulators divided by the column sums,
  multiplied by the folded weight matrices, plus the unary logits.
-/
import proofs.«171617_j90795608638216_2_alg».proof.Proof.CrfSpec

noncomputable section

namespace Cert.Crf

open Idealize.ShloMosaic

/-- A function of a voxel number extended by zero to all naturals. -/
def ext (f : Fin 4096 → EReal) : ℕ → EReal := fun i => if h : i < 4096 then f ⟨i, h⟩ else 0

/-- The four carried tables: logits, softmax, spatial accumulator, bilateral accumulator. -/
structure St where
  cur : Tab
  sm : Tab
  asp : Tab
  abi : Tab

/-- The operands of the mean-field kernel: unary logits, the two folded weight matrices, the two kernel
    matrices and their column sums. -/
structure Ops where
  U : Tab
  CS : Wt
  CB : Wt
  Ksp : Fin 4096 → Fin 4096 → EReal
  Kbi : Fin 4096 → Fin 4096 → EReal
  nsp : Fin 4096 → EReal
  nbi : Fin 4096 → EReal

/-- The tables after point t, from the tables s the point found. -/
def pointK (o : Ops) (t : ℕ) (s : St) : St :=
  let kt := t % 16
  let cur1 : Tab := if t = 0 then o.U else s.cur
  let sm1 : Tab := if kt = 0 then q cur1 else s.sm
  let asp0 : Tab := if kt = 0 then fun _ _ => w0 else s.asp
  let abi0 : Tab := if kt = 0 then fun _ _ => w0 else s.abi
  let asp1 : Tab := fun l j => asp0 l j + ∑ r : Fin 256, ext (fun i => sm1 l i * o.Ksp i j) (256 * kt + r.val)
  let abi1 : Tab := fun l j => abi0 l j + ∑ r : Fin 256, ext (fun i => sm1 l i * o.Kbi i j) (256 * kt + r.val)
  let cur2 : Tab := if kt = 15 then fun l j =>
      ((∑ a, o.CS l a * Ideal.div (asp1 a j) (o.nsp j)) + (∑ a, o.CB l a * Ideal.div (abi1 a j) (o.nbi j))) + o.U l j
    else cur1
  ⟨cur2, sm1, asp1, abi1⟩

/-- The tables after points 0 .. n. -/
def runK (o : Ops) (s0 : St) : ℕ → St
  | 0 => pointK o 0 s0
  | n + 1 => pointK o (n + 1) (runK o s0 n)

/-- The operands when the kernel matrices are the Gaussian kernels of two feature tables and the weight matrices
    are folded with the compatibility matrix. -/
def opsOf (fs : Feat 3) (fb : Feat 6) (S B C : Wt) (U : Tab) : Ops where
  U := U
  CS := fun l a => ∑ k, C l k * S k a
  CB := fun l a => ∑ k, C l k * B k a
  Ksp := gk fs
  Kbi := gk fb
  nsp := nrm fs
  nbi := nrm fb

end Cert.Crf

end
-- ==== Proof.KI.R2ModelDefs.lean ====
/-
  The mean-field region read as the recursion on four tables: its operands as the region finds them, and the
  five carried arrays as tables.
-/
import proofs.«171617_j90795608638216_2_alg».proof.Proof.KI.R2
import proofs.«171617_j90795608638216_2_alg».proof.Proof.CrfModel
import proofs.«171617_j90795608638216_2_alg».proof.Proof.CrfShapes

noncomputable section

namespace Cert.KernelIdeal.Hand

open Cert.KernelIdeal Cert.KernelIdeal.Gen Cert.Crf
open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-- The mean-field kernel's operands, read off the buffers as the region finds them. -/
def o2 (c : Dev nD) : Ops where
  U := tab2Of (V c main_v26 : S21x4096.Idx → EReal)
  CS := wtOf (V c main_v27 : S21x21.Idx → EReal)
  CB := wtOf (V c main_v28 : S21x21.Idx → EReal)
  Ksp := fun i j => (V c main_v23_0 : S4096x4096.Idx → EReal) (ix2 i j)
  Kbi := fun i j => (V c main_v25_0 : S4096x4096.Idx → EReal) (ix2 i j)
  nsp := fun j => (V c main_v23_1 : S1x4096.Idx → EReal) (ix2 (0 : Fin 1) j)
  nbi := fun j => (V c main_v25_1 : S1x4096.Idx → EReal) (ix2 (0 : Fin 1) j)

/-- The four carried arrays as the recursion's state. -/
def stOf (p : T5 Ideal) : St := ⟨tab2Of p.2.1, tab2Of p.2.2.1, tab2Of p.2.2.2.1, tab2Of p.2.2.2.2⟩

end Cert.KernelIdeal.Hand

end
-- ==== Proof.CrfModelRun.lean ====
/-
  The recursion on four tables ends, after its 80 points, at five mean-field steps in the kernel's arrangement.

  Write point n as tile kt = n mod 16 of iteration it = n / 16, and cur_it for the logits after it steps.  After point n
  the softmax table is the softmax of cur_it, each accumulator holds the sum of the first 256 (kt + 1) products of
  its label and voxel, and the logits are still cur_it, except after tile 15, where they are the next step's.  At tile
  15 the accumulator holds all 4096 products, so dividing by the column sum gives the normalised filter response and
  the new logits are one step in the kernel's arrangement, by definition.  What the recursion starts from does not
  matter: point 0 overwrites every table before reading it.
-/
import proofs.«171617_j90795608638216_2_alg».proof.Proof.CrfModel
import proofs.«171617_j90795608638216_2_alg».proof.Proof.CrfBlocks
import proofs.«171617_j90795608638216_2_alg».proof.Proof.CrfReal

noncomputable section

namespace Cert.Crf

open Idealize.ShloMosaic

/-! ### The extension by zero and the full accumulator -/

/-- At a voxel number the extension is the function. -/
theorem ext_val (f : Fin 4096 → EReal) (i : Fin 4096) : ext f i.val = f i := dif_pos i.isLt

/-- Sixteen tiles of the extension make the sum over all voxels. -/
theorem accM_16_ext (f : Fin 4096 → EReal) : accM (ext f) 16 = ∑ i, f i := by
  rw [accM_16]
  exact Finset.sum_congr rfl fun i _ => ext_val f i

/-! ### One point, field by field -/

theorem pointK_sm (o : Ops) (t : ℕ) (s : St) :
    (pointK o t s).sm = if t % 16 = 0 then q (if t = 0 then o.U else s.cur) else s.sm := rfl

theorem pointK_asp (o : Ops) (t : ℕ) (s : St) :
    (pointK o t s).asp = fun l j => (if t % 16 = 0 then (fun _ _ => w0 : Tab) else s.asp) l j
      + ∑ r : Fin 256, ext (fun i => (pointK o t s).sm l i * o.Ksp i j) (256 * (t % 16) + r.val) := rfl

theorem pointK_abi (o : Ops) (t : ℕ) (s : St) :
    (pointK o t s).abi = fun l j => (if t % 16 = 0 then (fun _ _ => w0 : Tab) else s.abi) l j
      + ∑ r : Fin 256, ext (fun i => (pointK o t s).sm l i * o.Kbi i j) (256 * (t % 16) + r.val) := rfl

theorem pointK_cur (o : Ops) (t : ℕ) (s : St) :
    (pointK o t s).cur = if t % 16 = 15 then (fun l j =>
        ((∑ a, o.CS l a * Ideal.div ((pointK o t s).asp a j) (o.nsp j))
          + (∑ a, o.CB l a * Ideal.div ((pointK o t s).abi a j) (o.nbi j))) + o.U l j)
      else (if t = 0 then o.U else s.cur) := rfl

variable (fs : Feat 3) (fb : Feat 6) (S B C : Wt) (U : Tab)

/-- The logits after a number of steps in the kernel's arrangement. -/
def curK (it : ℕ) : Tab := (stepK fs fb S B C U)^[it] U

theorem curK_zero : curK fs fb S B C U 0 = U := rfl

theorem curK_succ (it : ℕ) : curK fs fb S B C U (it + 1) = stepK fs fb S B C U (curK fs fb S B C U it) :=
  Function.iterate_succ_apply' _ _ _

/-- What holds of the four tables after tile kt of iteration it. -/
structure Inv (it kt : ℕ) (s : St) : Prop where
  sm : s.sm = q (curK fs fb S B C U it)
  asp : ∀ l j, s.asp l j = accM (ext fun i => q (curK fs fb S B C U it) l i * gk fs i j) (kt + 1)
  abi : ∀ l j, s.abi l j = accM (ext fun i => q (curK fs fb S B C U it) l i * gk fb i j) (kt + 1)
  cur : s.cur = if kt = 15 then curK fs fb S B C U (it + 1) else curK fs fb S B C U it

/-- With full accumulators the new logits are one step in the kernel's arrangement. -/
theorem newcur_eq (cur asp abi : Tab)
    (hasp : ∀ a j, asp a j = accM (ext fun i => q cur a i * gk fs i j) 16)
    (habi : ∀ a j, abi a j = accM (ext fun i => q cur a i * gk fb i j) 16) :
    (fun l j => ((∑ a, (opsOf fs fb S B C U).CS l a * Ideal.div (asp a j) ((opsOf fs fb S B C U).nsp j))
        + (∑ a, (opsOf fs fb S B C U).CB l a * Ideal.div (abi a j) ((opsOf fs fb S B C U).nbi j)))
        + (opsOf fs fb S B C U).U l j) = stepK fs fb S B C U cur := by
  funext l j
  simp only [hasp, habi, accM_16_ext]
  rfl

/-- Tile 0 of an iteration, from logits that are the iteration's. -/
theorem inv_tile0 (it t : ℕ) (s : St) (ht : t % 16 = 0)
    (hcur : (if t = 0 then (opsOf fs fb S B C U).U else s.cur) = curK fs fb S B C U it) :
    Inv fs fb S B C U it 0 (pointK (opsOf fs fb S B C U) t s) := by
  have hsm : (pointK (opsOf fs fb S B C U) t s).sm = q (curK fs fb S B C U it) := by
    rw [pointK_sm, if_pos ht, hcur]
  refine ⟨hsm, fun l j => ?_, fun l j => ?_, ?_⟩
  · rw [pointK_asp, hsm, if_pos ht, ht, accM_succ, accM_zero]; rfl
  · rw [pointK_abi, hsm, if_pos ht, ht, accM_succ, accM_zero]; rfl
  · rw [pointK_cur, if_neg (by omega), hcur, if_neg (by omega)]

/-- A later tile of an iteration, from the tile before it. -/
theorem inv_tile_succ (it kt t : ℕ) (s : St) (ht : t % 16 = kt + 1) (hkt : kt < 15)
    (h : Inv fs fb S B C U it kt s) : Inv fs fb S B C U it (kt + 1) (pointK (opsOf fs fb S B C U) t s) := by
  have ht0 : ¬ t % 16 = 0 := by omega
  have ht00 : ¬ t = 0 := by intro h0; rw [h0] at ht; omega
  have hsm : (pointK (opsOf fs fb S B C U) t s).sm = q (curK fs fb S B C U it) := by
    rw [pointK_sm, if_neg ht0, h.sm]
  have hasp : ∀ l j, (pointK (opsOf fs fb S B C U) t s).asp l j
      = accM (ext fun i => q (curK fs fb S B C U it) l i * gk fs i j) (kt + 1 + 1) := fun l j => by
    rw [pointK_asp, hsm, if_neg ht0, ht, accM_succ, ← h.asp l j]; rfl
  have habi : ∀ l j, (pointK (opsOf fs fb S B C U) t s).abi l j
      = accM (ext fun i => q (curK fs fb S B C U it) l i * gk fb i j) (kt + 1 + 1) := fun l j => by
    rw [pointK_abi, hsm, if_neg ht0, ht, accM_succ, ← h.abi l j]; rfl
  refine ⟨hsm, hasp, habi, ?_⟩
  rw [pointK_cur, ht]
  by_cases h15 : kt + 1 = 15
  · rw [if_pos h15, if_pos h15, curK_succ]
    have e : kt + 1 + 1 = 16 := by omega
    exact newcur_eq fs fb S B C U _ _ _ (fun a j => by rw [hasp a j, e]) (fun a j => by rw [habi a j, e])
  · rw [if_neg h15, if_neg h15, if_neg ht00, h.cur, if_neg (by omega)]

/-- After every point the invariant of its tile and iteration holds, whatever the recursion starts from. -/
theorem inv_run (s0 : St) (n : ℕ) :
    Inv fs fb S B C U (n / 16) (n % 16) (runK (opsOf fs fb S B C U) s0 n) := by
  induction n with
  | zero => exact inv_tile0 fs fb S B C U 0 0 s0 rfl rfl
  | succ n ih =>
    show Inv fs fb S B C U ((n + 1) / 16) ((n + 1) % 16)
      (pointK (opsOf fs fb S B C U) (n + 1) (runK (opsOf fs fb S B C U) s0 n))
    by_cases h : n % 16 = 15
    · have h1 : (n + 1) % 16 = 0 := by omega
      have h2 : (n + 1) / 16 = n / 16 + 1 := by omega
      rw [h1, h2]
      refine inv_tile0 fs fb S B C U _ _ _ h1 ?_
      rw [if_neg (Nat.succ_ne_zero n), ih.cur, if_pos h]
    · have h1 : (n + 1) % 16 = n % 16 + 1 := by omega
      have h2 : (n + 1) / 16 = n / 16 := by omega
      rw [h1, h2]
      exact inv_tile_succ fs fb S B C U _ _ _ _ h1 (by omega) ih

/-- The logits after the last of the 80 points are five steps in the kernel's arrangement. -/
theorem runK_final (s0 : St) : (runK (opsOf fs fb S B C U) s0 79).cur = netK fs fb S B C U := by
  have h := (inv_run fs fb S B C U s0 79).cur
  rw [h]
  rfl

end Cert.Crf

end
-- ==== Proof.KI.OpsId.lean ====
/-
  The mean-field region's operands, as the region finds them, are the specification's: the unary logits, the two
  weight matrices folded with the compatibility matrix, the two Gaussian kernel tables and their column sums.
  With that, the result buffer holds five steps in the kernel's arrangement once the region's last array is the
  recursion's final logits.
-/
import proofs.«171617_j90795608638216_2_alg».proof.Proof.KI.HostReads
import proofs.«171617_j90795608638216_2_alg».proof.Proof.KI.R0Value
import proofs.«171617_j90795608638216_2_alg».proof.Proof.KI.R1Value
import proofs.«171617_j90795608638216_2_alg».proof.Proof.KI.R2ModelDefs
import proofs.«171617_j90795608638216_2_alg».proof.Proof.CrfModelRun

set_option maxRecDepth 16384

noncomputable section

namespace Cert.KernelIdeal.Hand

open Cert.KernelIdeal Cert.KernelIdeal.Gen Cert.Crf
open Idealize.ShloMosaic Idealize.ShloMosaic.TcCoe Idealize.ShloMosaic.ValueIdx
open Idealize.SL.Sem

variable (m : (ℓ : Loc nD τ sig) → Buf (Elt Ideal) ℓ)

/-- The spatial kernel table region 0 wrote is the Gaussian kernel of the spatial features. -/
theorem ksp_eq (c : Dev nD) :
    (dat0 (F := Ideal) (U1 m) c).arrAt 2 cfg0.N = fun idx : S4096x4096.Idx => gk (featOf fsTerm) (idx 0) (idx 1) :=
  arr0_2 (U1 m) c fsTerm (host1_v15 m c) (host1_v22 m c)

/-- Its column sums. -/
theorem nsp_eq (c : Dev nD) :
    (dat0 (F := Ideal) (U1 m) c).arrAt 3 cfg0.N = fun idx : S1x4096.Idx => nrm (featOf fsTerm) (idx 1) :=
  arr0_3 (U1 m) c fsTerm (host1_v15 m c) (host1_v22 m c)

/-- The bilateral kernel table region 1 wrote is the Gaussian kernel of the bilateral features. -/
theorem kbi_eq (c : Dev nD) :
    (dat1 (F := Ideal) (U3 m) c).arrAt 2 cfg1.N
      = fun idx : S4096x4096.Idx => gk (featOf (fbTerm (m ((c : Thread nD τ).loc main_arg0)))) (idx 0) (idx 1) :=
  arr1_2 (U3 m) c (fbTerm (m ((c : Thread nD τ).loc main_arg0))) (host3_v21 m c) (host3_v24 m c)

/-- Its column sums. -/
theorem nbi_eq (c : Dev nD) :
    (dat1 (F := Ideal) (U3 m) c).arrAt 3 cfg1.N
      = fun idx : S1x4096.Idx => nrm (featOf (fbTerm (m ((c : Thread nD τ).loc main_arg0)))) (idx 1) :=
  arr1_3 (U3 m) c (fbTerm (m ((c : Thread nD τ).loc main_arg0))) (host3_v21 m c) (host3_v24 m c)

/-- The mean-field region's operands are the specification's. -/
theorem o2_eq (c : Dev nD) :
    o2 (U5 (F := Ideal) m) c
      = opsOf (featOf fsTerm) (featOf (fbTerm (m ((c : Thread nD τ).loc main_arg0))))
          (wtOf (m ((c : Thread nD τ).loc main_arg2))) (wtOf (m ((c : Thread nD τ).loc main_arg3)))
          (wtOf (m ((c : Thread nD τ).loc main_arg4))) (tabOf (m ((c : Thread nD τ).loc main_arg1))) := by
  have hU := host5_v26 m c
  have hCS := host5_v27 m c
  have hCB := host5_v28 m c
  have hKsp : (fun i j : Fin 4096 => (W5 (F := Ideal) m c (Proc.devRef .tc main_v23_0) : S4096x4096.Idx → EReal) (ix2 i j))
      = gk (featOf fsTerm) := by
    funext i j
    rw [host5_v23_0]
    exact congrFun (ksp_eq m c) (ix2 i j)
  have hKbi : (fun i j : Fin 4096 => (W5 (F := Ideal) m c (Proc.devRef .tc main_v25_0) : S4096x4096.Idx → EReal) (ix2 i j))
      = gk (featOf (fbTerm (m ((c : Thread nD τ).loc main_arg0)))) := by
    funext i j
    rw [host5_v25_0]
    exact congrFun (kbi_eq m c) (ix2 i j)
  have hnsp : (fun j : Fin 4096 => (W5 (F := Ideal) m c (Proc.devRef .tc main_v23_1) : S1x4096.Idx → EReal) (ix2 (0 : Fin 1) j))
      = nrm (featOf fsTerm) := by
    funext j
    rw [host5_v23_1]
    exact congrFun (nsp_eq m c) (ix2 (0 : Fin 1) j)
  have hnbi : (fun j : Fin 4096 => (W5 (F := Ideal) m c (Proc.devRef .tc main_v25_1) : S1x4096.Idx → EReal) (ix2 (0 : Fin 1) j))
      = nrm (featOf (fbTerm (m ((c : Thread nD τ).loc main_arg0)))) := by
    funext j
    rw [host5_v25_1]
    exact congrFun (nbi_eq m c) (ix2 (0 : Fin 1) j)
  unfold o2 opsOf
  simp only [Ops.mk.injEq]
  exact ⟨hU, hCS, hCB, hKsp, hKbi, hnsp, hnbi⟩

/-- The result buffer holds five steps in the kernel's arrangement, given that the mean-field region's last array
    is the final logits of the recursion on its operands. -/
theorem kernel_out (c : Dev nD) (s0 : St)
    (h7 : tab2Of ((dat2 (F := Ideal) (U5 m) c).arrAt 7 cfg2.N) = (runK (o2 (U5 (F := Ideal) m) c) s0 79).cur) :
    W7 (F := Ideal) m c (Proc.devRef .tc main_v30)
      = outOf (netK (featOf fsTerm) (featOf (fbTerm (m ((c : Thread nD τ).loc main_arg0))))
          (wtOf (m ((c : Thread nD τ).loc main_arg2))) (wtOf (m ((c : Thread nD τ).loc main_arg3)))
          (wtOf (m ((c : Thread nD τ).loc main_arg4))) (tabOf (m ((c : Thread nD τ).loc main_arg1)))) := by
  have e6 : W6 (F := Ideal) m c (Proc.devRef .tc main_v29) = (dat2 (F := Ideal) (U5 m) c).arrAt 7 cfg2.N := W6_arr m c 7
  rw [host7_v30, e6, h7, o2_eq, runK_final]

end Cert.KernelIdeal.Hand

end
-- ==== Proof.RefStep.lean ====
/-
  The reference's composed stages as functions of the arrays they read, and what each is, index by index:
  the Gaussian kernel table of a feature table is gk, the softmax of a [21,16,16,16] array reshaped to [21,4096]
  is q, and one mean-field iteration is stepR of the table the array holds.
-/
import proofs.«171617_j90795608638216_2_alg».proof.Proof.RefLayout
import proofs.«171617_j90795608638216_2_alg».proof.Proof.RefSums

noncomputable section

namespace Cert.Crf

open Idealize.ShloMosaic Idealize.ShloMosaic.ValueIdx Cert.ReferenceIdeal Cert.ReferenceIdeal.Facts₀

/-- A [21,16,16,16] array as a label-by-voxel table. -/
def tab4 (x : S21x16x16x16.Idx → EReal) : Tab := fun l j => x (ix4 l (vz j) (vy j) (vx j))

theorem tab4_vox (x : S21x16x16x16.Idx → EReal) (l : Fin 21) (z y w : Fin 16) :
    tab4 x l (vox z y w) = x (ix4 l z y w) := by
  unfold tab4; rw [vz_vox, vy_vox, vx_vox]

/-! ## The Gaussian kernel tables -/

/-- The squared lengths of the columns of a three-row table. -/
def sq3T (f : FVec Ideal S3x4096 .f32) : FVec Ideal S4096 .f32 :=
  Host.reduceAdd (F := Ideal) (mulf f f) (constant (F := Ideal) S_ .f32 0x00000000#32) reducesTo_S3x4096_S4096_d0 h_S_

/-- The squared lengths of the columns of a six-row table. -/
def sq6T (f : FVec Ideal S6x4096 .f32) : FVec Ideal S4096 .f32 :=
  Host.reduceAdd (F := Ideal) (mulf f f) (constant (F := Ideal) S_ .f32 0x00000000#32) reducesTo_S6x4096_S4096_d0 h_S_

/-- The kernel table of a three-row feature table. -/
def gk3T (f : FVec Ideal S3x4096 .f32) : FVec Ideal S4096x4096 .f32 :=
  Host.exp (F := Ideal) (mulf (broadcastInDim S4096x4096 ![] bcast_S_S4096x4096 (constant (F := Ideal) S_ .f32 0xBF000000#32)) (maximumf (subf (addf (broadcastInDim S4096x4096 ![0, 1] bcast_S4096x1_S4096x4096_0_1 (broadcastInDim S4096x1 ![0] bcast_S4096_S4096x1_0 (sq3T f))) (broadcastInDim S4096x4096 ![0, 1] bcast_S1x4096_S4096x4096_0_1 (broadcastInDim S1x4096 ![1] bcast_S4096_S1x4096_1 (sq3T f)))) (mulf (broadcastInDim S4096x4096 ![] bcast_S_S4096x4096 (constant (F := Ideal) S_ .f32 0x40000000#32)) (Host.dotGeneral (F := Ideal) dot_S4096x3_S3x4096_S4096x4096_1_0_0_1_n_n none (transpose S4096x3 [1, 0] f transposes_S3x4096_S4096x3_1_0) f))) (broadcastInDim S4096x4096 ![] bcast_S_S4096x4096 (constant (F := Ideal) S_ .f32 0x00000000#32))))

/-- The kernel table of a six-row feature table. -/
def gk6T (f : FVec Ideal S6x4096 .f32) : FVec Ideal S4096x4096 .f32 :=
  Host.exp (F := Ideal) (mulf (broadcastInDim S4096x4096 ![] bcast_S_S4096x4096 (constant (F := Ideal) S_ .f32 0xBF000000#32)) (maximumf (subf (addf (broadcastInDim S4096x4096 ![0, 1] bcast_S4096x1_S4096x4096_0_1 (broadcastInDim S4096x1 ![0] bcast_S4096_S4096x1_0 (sq6T f))) (broadcastInDim S4096x4096 ![0, 1] bcast_S1x4096_S4096x4096_0_1 (broadcastInDim S1x4096 ![1] bcast_S4096_S1x4096_1 (sq6T f)))) (mulf (broadcastInDim S4096x4096 ![] bcast_S_S4096x4096 (constant (F := Ideal) S_ .f32 0x40000000#32)) (Host.dotGeneral (F := Ideal) dot_S4096x6_S6x4096_S4096x4096_1_0_0_1_n_n none (transpose S4096x6 [1, 0] f transposes_S6x4096_S4096x6_1_0) f))) (broadcastInDim S4096x4096 ![] bcast_S_S4096x4096 (constant (F := Ideal) S_ .f32 0x00000000#32))))

theorem sq3T_apply (f : FVec Ideal S3x4096 .f32) (j : Fin 4096) : sq3T f (ix1 j) = sqn (featOf f) j :=
  sum3_apply (mulf f f) j

theorem sq6T_apply (f : FVec Ideal S6x4096 .f32) (j : Fin 4096) : sq6T f (ix1 j) = sqn (featOf f) j :=
  sum6_apply (mulf f f) j

theorem gk3T_apply (f : FVec Ideal S3x4096 .f32) (i j : Fin 4096) : gk3T f (ix2 i j) = gk (featOf f) i j := by
  show Ideal.exp (broadcastInDim S4096x4096 ![] bcast_S_S4096x4096 (constant (F := Ideal) S_ .f32 0xBF000000#32) (ix2 i j)
      * max (broadcastInDim S4096x4096 ![0, 1] bcast_S4096x1_S4096x4096_0_1 (broadcastInDim S4096x1 ![0] bcast_S4096_S4096x1_0 (sq3T f)) (ix2 i j)
          + broadcastInDim S4096x4096 ![0, 1] bcast_S1x4096_S4096x4096_0_1 (broadcastInDim S1x4096 ![1] bcast_S4096_S1x4096_1 (sq3T f)) (ix2 i j)
          - broadcastInDim S4096x4096 ![] bcast_S_S4096x4096 (constant (F := Ideal) S_ .f32 0x40000000#32) (ix2 i j)
            * Host.dotGeneral (F := Ideal) dot_S4096x3_S3x4096_S4096x4096_1_0_0_1_n_n none (transpose S4096x3 [1, 0] f transposes_S3x4096_S4096x3_1_0) f (ix2 i j))
        (broadcastInDim S4096x4096 ![] bcast_S_S4096x4096 (constant (F := Ideal) S_ .f32 0x00000000#32) (ix2 i j))) = _
  rw [broadcastInDim_scalar_apply, broadcastInDim_scalar_apply, broadcastInDim_scalar_apply, bcast_colmat_apply,
    bcast_rowmat_apply, gram3_apply, sq3T_apply, sq3T_apply]
  rfl

theorem gk6T_apply (f : FVec Ideal S6x4096 .f32) (i j : Fin 4096) : gk6T f (ix2 i j) = gk (featOf f) i j := by
  show Ideal.exp (broadcastInDim S4096x4096 ![] bcast_S_S4096x4096 (constant (F := Ideal) S_ .f32 0xBF000000#32) (ix2 i j)
      * max (broadcastInDim S4096x4096 ![0, 1] bcast_S4096x1_S4096x4096_0_1 (broadcastInDim S4096x1 ![0] bcast_S4096_S4096x1_0 (sq6T f)) (ix2 i j)
          + broadcastInDim S4096x4096 ![0, 1] bcast_S1x4096_S4096x4096_0_1 (broadcastInDim S1x4096 ![1] bcast_S4096_S1x4096_1 (sq6T f)) (ix2 i j)
          - broadcastInDim S4096x4096 ![] bcast_S_S4096x4096 (constant (F := Ideal) S_ .f32 0x40000000#32) (ix2 i j)
            * Host.dotGeneral (F := Ideal) dot_S4096x6_S6x4096_S4096x4096_1_0_0_1_n_n none (transpose S4096x6 [1, 0] f transposes_S6x4096_S4096x6_1_0) f (ix2 i j))
        (broadcastInDim S4096x4096 ![] bcast_S_S4096x4096 (constant (F := Ideal) S_ .f32 0x00000000#32) (ix2 i j))) = _
  rw [broadcastInDim_scalar_apply, broadcastInDim_scalar_apply, broadcastInDim_scalar_apply, bcast_colmat_apply,
    bcast_rowmat_apply, gram6_apply, sq6T_apply, sq6T_apply]
  rfl

/-! ## The softmax over the labels -/

/-- The largest logit of each voxel. -/
def mxT (cur : FVec Ideal S21x16x16x16 .f32) : FVec Ideal S16x16x16 .f32 :=
  maximumf (broadcastInDim S16x16x16 ![] bcast_S_S16x16x16 (constant (F := Ideal) S_ .f32 0xFF800000#32)) (Host.reduce (FloatOps.maximumf (F := Ideal) (φ := .f32)) cur (constant (F := Ideal) S_ .f32 0xFF800000#32) reducesTo_S21x16x16x16_S16x16x16_d0 h_S_)

/-- The shifted exponentials. -/
def exT (cur : FVec Ideal S21x16x16x16 .f32) : FVec Ideal S21x16x16x16 .f32 :=
  Host.exp (F := Ideal) (subf cur (broadcastInDim S21x16x16x16 ![0, 1, 2, 3] bcast_S1x16x16x16_S21x16x16x16_0_1_2_3 (broadcastInDim S1x16x16x16 ![1, 2, 3] bcast_S16x16x16_S1x16x16x16_1_2_3 (mxT cur))))

/-- The softmax, as a [21,4096] table. -/
def smT (cur : FVec Ideal S21x16x16x16 .f32) : FVec Ideal S21x4096 .f32 :=
  shapeCast _ (Host.divf (F := Ideal) (exT cur) (broadcastInDim S21x16x16x16 ![0, 1, 2, 3] bcast_S1x16x16x16_S21x16x16x16_0_1_2_3 (broadcastInDim S1x16x16x16 ![1, 2, 3] bcast_S16x16x16_S1x16x16x16_1_2_3 (Host.reduceAdd (F := Ideal) (exT cur) (constant (F := Ideal) S_ .f32 0x00000000#32) reducesTo_S21x16x16x16_S16x16x16_d0 h_S_)))) shapeCasts_S21x16x16x16_S21x4096

theorem mxT_apply (cur : FVec Ideal S21x16x16x16 .f32) (j : Fin 4096) :
    mxT cur (ix3 (vz j) (vy j) (vx j)) = smax (tab4 cur) j := by
  show max (broadcastInDim S16x16x16 ![] bcast_S_S16x16x16 (constant (F := Ideal) S_ .f32 0xFF800000#32) (ix3 (vz j) (vy j) (vx j)))
      (Host.reduce (FloatOps.maximumf (F := Ideal) (φ := .f32)) cur (constant (F := Ideal) S_ .f32 0xFF800000#32) reducesTo_S21x16x16x16_S16x16x16_d0 h_S_ (ix3 (vz j) (vy j) (vx j))) = _
  rw [broadcastInDim_scalar_apply, constant_apply, ofBits_ninf, maxL_apply, max_eq_right bot_le]
  rfl

theorem exT_apply (cur : FVec Ideal S21x16x16x16 .f32) (l : Fin 21) (j : Fin 4096) :
    exT cur (ix4 l (vz j) (vy j) (vx j)) = sexp (tab4 cur) l j := by
  show Ideal.exp (cur (ix4 l (vz j) (vy j) (vx j)) - broadcastInDim S21x16x16x16 ![0, 1, 2, 3] bcast_S1x16x16x16_S21x16x16x16_0_1_2_3 (broadcastInDim S1x16x16x16 ![1, 2, 3] bcast_S16x16x16_S1x16x16x16_1_2_3 (mxT cur)) (ix4 l (vz j) (vy j) (vx j))) = _
  rw [bcast_vox_apply, mxT_apply]
  rfl

theorem smT_apply (cur : FVec Ideal S21x16x16x16 .f32) (l : Fin 21) (j : Fin 4096) :
    smT cur (ix2 l j) = q (tab4 cur) l j := by
  unfold smT
  rw [cast_tab_apply]
  show Ideal.div (exT cur (ix4 l (vz j) (vy j) (vx j))) (broadcastInDim S21x16x16x16 ![0, 1, 2, 3] bcast_S1x16x16x16_S21x16x16x16_0_1_2_3 (broadcastInDim S1x16x16x16 ![1, 2, 3] bcast_S16x16x16_S1x16x16x16_1_2_3 (Host.reduceAdd (F := Ideal) (exT cur) (constant (F := Ideal) S_ .f32 0x00000000#32) reducesTo_S21x16x16x16_S16x16x16_d0 h_S_)) (ix4 l (vz j) (vy j) (vx j))) = _
  rw [bcast_vox_apply, sumL_apply, exT_apply]
  unfold q ssum
  exact congrArg (fun s => Ideal.div (sexp (tab4 cur) l j) (w0 + s)) (Finset.sum_congr rfl fun a _ => exT_apply cur a j)

/-! ## One iteration -/

/-- The normalised filter response of a label-by-voxel table through a square kernel table. -/
def filtT (K : FVec Ideal S4096x4096 .f32) (p : FVec Ideal S21x4096 .f32) : FVec Ideal S21x4096 .f32 :=
  Host.divf (F := Ideal) (Host.dotGeneral (F := Ideal) dot_S21x4096_S4096x4096_S21x4096_1_0_0_1_n_n none p K) (broadcastInDim S21x4096 ![0, 1] bcast_S1x4096_S21x4096_0_1 (broadcastInDim S1x4096 ![1] bcast_S4096_S1x4096_1 (Host.reduceAdd (F := Ideal) K (constant (F := Ideal) S_ .f32 0x00000000#32) reducesTo_S4096x4096_S4096_d0 h_S_)))

/-- One mean-field iteration on [21,16,16,16] arrays. -/
def stepT (Ks Kb : FVec Ideal S4096x4096 .f32) (S B C : FVec Ideal S21x21 .f32) (U1 cur : FVec Ideal S21x16x16x16 .f32) :
    FVec Ideal S21x16x16x16 .f32 :=
  addf (shapeCast _ (Host.dotGeneral (F := Ideal) dot_S21x21_S21x4096_S21x4096_1_0_0_1_n_n none C (addf (Host.dotGeneral (F := Ideal) dot_S21x21_S21x4096_S21x4096_1_0_0_1_n_n none S (filtT Ks (smT cur))) (Host.dotGeneral (F := Ideal) dot_S21x21_S21x4096_S21x4096_1_0_0_1_n_n none B (filtT Kb (smT cur))))) shapeCasts_S21x4096_S21x16x16x16) U1

theorem filtT_apply {d : ℕ} (f : Feat d) (K : FVec Ideal S4096x4096 .f32) (hK : ∀ i j, K (ix2 i j) = gk f i j)
    (cur : FVec Ideal S21x16x16x16 .f32) (a : Fin 21) (j : Fin 4096) :
    filtT K (smT cur) (ix2 a j) = filt f (tab4 cur) a j := by
  show Ideal.div (Host.dotGeneral (F := Ideal) dot_S21x4096_S4096x4096_S21x4096_1_0_0_1_n_n none (smT cur) K (ix2 a j))
      (broadcastInDim S21x4096 ![0, 1] bcast_S1x4096_S21x4096_0_1 (broadcastInDim S1x4096 ![1] bcast_S4096_S1x4096_1 (Host.reduceAdd (F := Ideal) K (constant (F := Ideal) S_ .f32 0x00000000#32) reducesTo_S4096x4096_S4096_d0 h_S_)) (ix2 a j)) = _
  rw [filter_apply, bcast_rowtab_apply, sumN_apply]
  unfold filt nrm
  refine congrArg₂ Ideal.div (Finset.sum_congr rfl fun i _ => ?_) (congrArg (w0 + ·) (Finset.sum_congr rfl fun i _ => hK i j))
  rw [smT_apply, hK]

theorem stepT_apply (fs : Feat 3) (fb : Feat 6) (Ks Kb : FVec Ideal S4096x4096 .f32)
    (hs : ∀ i j, Ks (ix2 i j) = gk fs i j) (hb : ∀ i j, Kb (ix2 i j) = gk fb i j)
    (S B C : FVec Ideal S21x21 .f32) (U1 cur : FVec Ideal S21x16x16x16 .f32) :
    tab4 (stepT Ks Kb S B C U1 cur) = stepR fs fb (wtOf S) (wtOf B) (wtOf C) (tab4 U1) (tab4 cur) := by
  funext l j
  show shapeCast S21x16x16x16 (Host.dotGeneral (F := Ideal) dot_S21x21_S21x4096_S21x4096_1_0_0_1_n_n none C (addf (Host.dotGeneral (F := Ideal) dot_S21x21_S21x4096_S21x4096_1_0_0_1_n_n none S (filtT Ks (smT cur))) (Host.dotGeneral (F := Ideal) dot_S21x21_S21x4096_S21x4096_1_0_0_1_n_n none B (filtT Kb (smT cur))))) shapeCasts_S21x4096_S21x16x16x16 (ix4 l (vz j) (vy j) (vx j))
      + U1 (ix4 l (vz j) (vy j) (vx j)) = _
  rw [cast_vol_apply, vox_vz_vy_vx, weight_apply]
  unfold stepR
  refine congrArg (· + tab4 U1 l j) (Finset.sum_congr rfl fun k _ => congrArg (wtOf C l k * ·) ?_)
  show Host.dotGeneral (F := Ideal) dot_S21x21_S21x4096_S21x4096_1_0_0_1_n_n none S (filtT Ks (smT cur)) (ix2 k j)
      + Host.dotGeneral (F := Ideal) dot_S21x21_S21x4096_S21x4096_1_0_0_1_n_n none B (filtT Kb (smT cur)) (ix2 k j) = _
  rw [weight_apply, weight_apply]
  refine congrArg₂ (· + ·) (Finset.sum_congr rfl fun a _ => ?_) (Finset.sum_congr rfl fun a _ => ?_)
  · rw [filtT_apply fs Ks hs]; rfl
  · rw [filtT_apply fb Kb hb]; rfl

end Cert.Crf

end
-- ==== Proof.RefRun.lean ====
/-
  The reference's run read back to the specification: every weakly fair execution ends with the result buffer
  holding five mean-field steps (the reference's arrangement) from the unary logits, over the two feature tables.
  The named stages of the run are the stage functions read in RefStep; each iteration is the same function of the
  previous one.
-/
import proofs.«171617_j90795608638216_2_alg».proof.Proof.Gen.ReferenceIdeal.Run
import proofs.«171617_j90795608638216_2_alg».proof.Proof.RefStep
import proofs.«171617_j90795608638216_2_alg».proof.Proof.RefFeat

noncomputable section

namespace Cert.Crf

open Idealize.ShloMosaic Idealize.ShloMosaic.ValueIdx Idealize.SL.Sem Cert.ReferenceIdeal Cert.ReferenceIdeal.Value

section Stages
variable (V0 : Valuation τ sig (Elt Ideal))

/-- The five argument arrays of a valuation. -/
abbrev arg0 : FVec Ideal S1x3x16x16x16 .f32 := V0 (Proc.devRef .tc main_arg0)
abbrev arg1 : FVec Ideal S1x21x16x16x16 .f32 := V0 (Proc.devRef .tc main_arg1)
abbrev arg2 : FVec Ideal S21x21 .f32 := V0 (Proc.devRef .tc main_arg2)
abbrev arg3 : FVec Ideal S21x21 .f32 := V0 (Proc.devRef .tc main_arg3)
abbrev arg4 : FVec Ideal S21x21 .f32 := V0 (Proc.devRef .tc main_arg4)

set_option maxRecDepth 8192 in
theorem v32_eq : res_main_v32 (F := Ideal) V0 = gk3T fsTerm := rfl
set_option maxRecDepth 8192 in
theorem v55_eq : res_main_v55 (F := Ideal) V0 = gk6T (fbTerm (arg0 V0)) := rfl

/-- One iteration from the array cur, over the run's two kernel tables and unary logits. -/
def iter (cur : FVec Ideal S21x16x16x16 .f32) : FVec Ideal S21x16x16x16 .f32 :=
  stepT (res_main_v32 (F := Ideal) V0) (res_main_v55 (F := Ideal) V0) (arg2 V0) (arg3 V0) (arg4 V0) (res_main_v1 (F := Ideal) V0) cur

set_option maxRecDepth 8192 in
theorem v83_eq : res_main_v83 (F := Ideal) V0 = iter V0 (res_main_v1 (F := Ideal) V0) := rfl
set_option maxRecDepth 8192 in
theorem v111_eq : res_main_v111 (F := Ideal) V0 = iter V0 (res_main_v83 (F := Ideal) V0) := rfl
set_option maxRecDepth 8192 in
theorem v139_eq : res_main_v139 (F := Ideal) V0 = iter V0 (res_main_v111 (F := Ideal) V0) := rfl
set_option maxRecDepth 8192 in
theorem v167_eq : res_main_v167 (F := Ideal) V0 = iter V0 (res_main_v139 (F := Ideal) V0) := rfl

/-- The unary logits of the run are the second argument read as a table. -/
theorem tab4_v1 : tab4 (res_main_v1 (F := Ideal) V0) = tabOf (arg1 V0) := by
  funext l j
  exact cast_drop_apply (arg1 V0) l (vz j) (vy j) (vx j)

/-- One iteration is one step of the specification. -/
theorem tab4_iter (cur : FVec Ideal S21x16x16x16 .f32) :
    tab4 (iter V0 cur) = stepR (featOf fsTerm) (featOf (fbTerm (arg0 V0))) (wtOf (arg2 V0)) (wtOf (arg3 V0)) (wtOf (arg4 V0))
      (tabOf (arg1 V0)) (tab4 cur) := by
  unfold iter
  rw [stepT_apply (featOf fsTerm) (featOf (fbTerm (arg0 V0))) _ _
    (fun i j => by rw [v32_eq]; exact gk3T_apply fsTerm i j)
    (fun i j => by rw [v55_eq]; exact gk6T_apply (fbTerm (arg0 V0)) i j), tab4_v1]

/-- A [21,16,16,16] array given a leading unit axis is its table laid out as [1,21,16,16,16]. -/
theorem lead_eq_outOf (X : FVec Ideal S21x16x16x16 .f32) :
    broadcastInDim S1x21x16x16x16 ![1, 2, 3, 4] Cert.ReferenceIdeal.Gen.bcast_S21x16x16x16_S1x21x16x16x16_1_2_3_4 X = outOf (tab4 X) := by
  funext i
  exact (bcast_lead_apply X i).trans (tab4_vox X (i 1) (i 2) (i 3) (i 4)).symm

/-- The result array of the run is the table after five steps, laid out as [1,21,16,16,16]. -/
theorem result_eq :
    val4 (F := Ideal) V0 (Proc.devRef .tc main_v196)
      = outOf (netR (featOf fsTerm) (featOf (fbTerm (arg0 V0))) (wtOf (arg2 V0)) (wtOf (arg3 V0)) (wtOf (arg4 V0)) (tabOf (arg1 V0))) := by
  have h := val4_main_v196 (F := Ideal) V0
  refine h.trans ?_
  show broadcastInDim S1x21x16x16x16 ![1, 2, 3, 4] Cert.ReferenceIdeal.Gen.bcast_S21x16x16x16_S1x21x16x16x16_1_2_3_4
      (iter V0 (res_main_v167 (F := Ideal) V0)) = _
  refine (lead_eq_outOf _).trans (congrArg outOf ?_)
  rw [tab4_iter, v167_eq, tab4_iter, v139_eq, tab4_iter, v111_eq, tab4_iter, v83_eq, tab4_iter, tab4_v1]
  rfl

end Stages

/-- The reference's run: it ends with the result at five steps of the specification and the arguments unchanged. -/
theorem ref_run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v196)
          = outOf (netR (featOf fsTerm)
              (featOf (fbTerm (m ((c.tc : Thread Cert.ReferenceIdeal.nD Cert.ReferenceIdeal.τ).loc Cert.ReferenceIdeal.main_arg0))))
              (wtOf (m ((c.tc : Thread Cert.ReferenceIdeal.nD Cert.ReferenceIdeal.τ).loc Cert.ReferenceIdeal.main_arg2)))
              (wtOf (m ((c.tc : Thread Cert.ReferenceIdeal.nD Cert.ReferenceIdeal.τ).loc Cert.ReferenceIdeal.main_arg3)))
              (wtOf (m ((c.tc : Thread Cert.ReferenceIdeal.nD Cert.ReferenceIdeal.τ).loc Cert.ReferenceIdeal.main_arg4)))
              (tabOf (m ((c.tc : Thread Cert.ReferenceIdeal.nD Cert.ReferenceIdeal.τ).loc Cert.ReferenceIdeal.main_arg1))))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run (Cert.ReferenceIdeal.defs (F := Ideal)) _ _).mono
    (fun _ h c => ⟨(h c).1.trans ((val4_main_v196 (F := Ideal) (StableHlo.launchContents m c)).symm.trans (result_eq (StableHlo.launchContents m c))), (h c).2⟩)
    (Cert.ReferenceIdeal.Value.run (F := Ideal) m ρ)

end Cert.Crf

end
-- ==== Proof.CrfRealTab.lean ====
/-
  Every quantity of a mean-field step is a real number when the tables it starts from are.

  For real logits the largest logit of a voxel is one of them, the shifted exponentials are positive reals, their sum
  over the 21 labels is a positive real, so the softmax entries are reals.  For real features the squared lengths and
  inner products are reals, the Gaussian kernel entries are exponentials of reals, hence positive reals, their column
  sums over the 4096 voxels are positive reals, and the normalised filter responses are reals.
-/
import proofs.«171617_j90795608638216_2_alg».proof.Proof.CrfReal

noncomputable section

namespace Cert.Crf

open Idealize.ShloMosaic

variable {d : ℕ}

/-- The largest of finitely many real logits is one of them. -/
theorem smax_isR {cur : Tab} (h : RealTab cur) (j : Fin 4096) : IsR (smax cur j) := by
  obtain ⟨l, -, hl⟩ := Finset.exists_mem_eq_sup (Finset.univ : Finset (Fin 21)) Finset.univ_nonempty
    (fun l => cur l j)
  unfold smax
  rw [hl]
  exact h l j

theorem sexp_isPos {cur : Tab} (h : RealTab cur) (l : Fin 21) (j : Fin 4096) : IsPos (sexp cur l j) :=
  IsPos.exp (IsR.sub (h l j) (smax_isR h j))

theorem ssum_isPos {cur : Tab} (h : RealTab cur) (j : Fin 4096) : IsPos (ssum cur j) := by
  unfold ssum
  rw [w0_add]
  exact IsPos.sum _ Finset.univ_nonempty _ fun l => sexp_isPos h l j

theorem q_isR {cur : Tab} (h : RealTab cur) (l : Fin 21) (j : Fin 4096) : IsR (q cur l j) :=
  IsR.div (sexp_isPos h l j).isR (ssum_isPos h j)

theorem sqn_isR {f : Feat d} (hf : RealTab f) (j : Fin 4096) : IsR (sqn f j) := by
  unfold sqn
  rw [w0_add]
  exact IsR.sum _ _ fun k => IsR.mul (hf k j) (hf k j)

theorem cross_isR {f : Feat d} (hf : RealTab f) (i j : Fin 4096) : IsR (cross f i j) :=
  IsR.sum _ _ fun k => IsR.mul (hf k i) (hf k j)

theorem gk_isPos {f : Feat d} (hf : RealTab f) (i j : Fin 4096) : IsPos (gk f i j) :=
  IsPos.exp (IsR.mul wmh_isR (IsR.max
    (IsR.sub (IsR.add (sqn_isR hf i) (sqn_isR hf j)) (IsR.mul w2_isR (cross_isR hf i j))) w0_isR))

theorem nrm_isPos {f : Feat d} (hf : RealTab f) (j : Fin 4096) : IsPos (nrm f j) := by
  unfold nrm
  rw [w0_add]
  exact IsPos.sum _ Finset.univ_nonempty _ fun i => gk_isPos hf i j

theorem filt_isR {f : Feat d} {cur : Tab} (hf : RealTab f) (hcur : RealTab cur) (l : Fin 21) (j : Fin 4096) :
    IsR (filt f cur l j) :=
  IsR.div (IsR.sum _ _ fun i => IsR.mul (q_isR hcur l i) (gk_isPos hf i j).isR) (nrm_isPos hf j)

end Cert.Crf

end
-- ==== Proof.LibMatChain.lean ====
/-
  Reassociating a chain of two matrix products over the extended reals.

  `EReal` is not a ring: multiplication does not distribute over addition when infinite
  values are present.  When every entry is a real number, all the sums and products below are
  images of real sums and products under the coercion `ℝ → EReal`, so distributivity and
  associativity of `ℝ` give `(c · a) · b = c · (a · b)` entry by entry.
-/
import Mathlib.Data.EReal.Inv
import Mathlib.Algebra.BigOperators.Ring.Finset

namespace Cert.Lib.MatChain

open scoped BigOperators

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real-valued extended reals is real-valued. -/
theorem exists_real_sum {ι : Type*} (s : Finset ι) (f : ι → EReal)
    (hf : ∀ i, ∃ r : ℝ, f i = (r : EReal)) : ∃ r : ℝ, ∑ i ∈ s, f i = (r : EReal) := by
  choose g hg using hf
  exact ⟨∑ i ∈ s, g i, by rw [coe_sum]; exact Finset.sum_congr rfl fun i _ => hg i⟩

/-- A product of two real-valued extended reals is real-valued. -/
theorem exists_real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A sum of two real-valued extended reals is real-valued. -/
theorem exists_real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- Associativity of a chain of two matrix products, at one output entry: for a row `c`, a matrix `a`
    and a column `b` whose entries are all real,
    `Σ_k (Σ_j c j * a j k) * b k = Σ_j c j * Σ_k a j k * b k`. -/
theorem sum_sum_mul_assoc {ι κ : Type*} [Fintype ι] [Fintype κ]
    (c : ι → EReal) (a : ι → κ → EReal) (b : κ → EReal)
    (hc : ∀ j, ∃ r : ℝ, c j = (r : EReal)) (ha : ∀ j k, ∃ r : ℝ, a j k = (r : EReal))
    (hb : ∀ k, ∃ r : ℝ, b k = (r : EReal)) :
    ∑ k, (∑ j, c j * a j k) * b k = ∑ j, c j * ∑ k, a j k * b k := by
  choose c' hc' using hc
  choose a' ha' using ha
  choose b' hb' using hb
  have hL : ∑ k, (∑ j, c j * a j k) * b k = ((∑ k, (∑ j, c' j * a' j k) * b' k : ℝ) : EReal) := by
    rw [coe_sum]
    refine Finset.sum_congr rfl fun k _ => ?_
    rw [EReal.coe_mul, coe_sum, hb' k]
    congr 1
    refine Finset.sum_congr rfl fun j _ => ?_
    rw [EReal.coe_mul, hc' j, ha' j k]
  have hR : ∑ j, c j * ∑ k, a j k * b k = ((∑ j, c' j * ∑ k, a' j k * b' k : ℝ) : EReal) := by
    rw [coe_sum]
    refine Finset.sum_congr rfl fun j _ => ?_
    rw [EReal.coe_mul, coe_sum, hc' j]
    congr 1
    refine Finset.sum_congr rfl fun k _ => ?_
    rw [EReal.coe_mul, ha' j k, hb' k]
  rw [hL, hR]
  congr 1
  simp only [Finset.sum_mul, Finset.mul_sum]
  rw [Finset.sum_comm]
  refine Finset.sum_congr rfl fun j _ => Finset.sum_congr rfl fun k _ => ?_
  rw [mul_assoc]

end Cert.Lib.MatChain
-- ==== Proof.CrfBridge.lean ====
/-
  The two arrangements of a mean-field step agree on real tables, and so do five steps of each.

  With every entry a real number, the weights folded first or applied last give the same table: the chain of two
  matrix products reassociates, sum_a (sum_k C l k * S k a) * F a j = sum_k C l k * sum_a S k a * F a j, and the
  outer factor distributes over the sum of the two filter terms.  Both are laws of the real numbers, carried to the
  extended reals by the coercion.  A step sends real logits to real logits, so the agreement persists through the
  five steps.
-/
import proofs.«171617_j90795608638216_2_alg».proof.Proof.CrfRealTab
import proofs.«171617_j90795608638216_2_alg».proof.Proof.LibMatChain

noncomputable section

namespace Cert.Crf

open Idealize.ShloMosaic

/-- A real row distributes over the entrywise sum of two real columns. -/
theorem sum_mul_add {ι : Type*} [Fintype ι] (c x y : ι → EReal)
    (hc : ∀ k, IsR (c k)) (hx : ∀ k, IsR (x k)) (hy : ∀ k, IsR (y k)) :
    ∑ k, c k * x k + ∑ k, c k * y k = ∑ k, c k * (x k + y k) := by
  choose c' hc' using hc
  choose x' hx' using hx
  choose y' hy' using hy
  simp only [hc', hx', hy', ← EReal.coe_mul, ← EReal.coe_add, ← coe_sum]
  congr 1
  rw [← Finset.sum_add_distrib]
  exact Finset.sum_congr rfl fun k _ => by ring

variable (fs : Feat 3) (fb : Feat 6) (S B C : Wt) (U : Tab)

/-- On real logits the kernel's arrangement of a step is the reference's. -/
theorem stepK_eq_stepR (hfs : RealTab fs) (hfb : RealTab fb) (hS : RealTab S) (hB : RealTab B) (hC : RealTab C)
    (cur : Tab) (hcur : RealTab cur) : stepK fs fb S B C U cur = stepR fs fb S B C U cur := by
  funext l j
  have hFs : ∀ a, IsR (filt fs cur a j) := fun a => filt_isR hfs hcur a j
  have hFb : ∀ a, IsR (filt fb cur a j) := fun a => filt_isR hfb hcur a j
  have e1 : ∑ a, (∑ k, C l k * S k a) * filt fs cur a j = ∑ k, C l k * ∑ a, S k a * filt fs cur a j :=
    Cert.Lib.MatChain.sum_sum_mul_assoc (C l) S (fun a => filt fs cur a j) (hC l) hS hFs
  have e2 : ∑ a, (∑ k, C l k * B k a) * filt fb cur a j = ∑ k, C l k * ∑ a, B k a * filt fb cur a j :=
    Cert.Lib.MatChain.sum_sum_mul_assoc (C l) B (fun a => filt fb cur a j) (hC l) hB hFb
  have e3 := sum_mul_add (C l) (fun k => ∑ a, S k a * filt fs cur a j) (fun k => ∑ a, B k a * filt fb cur a j)
    (hC l) (fun k => IsR.sum _ _ fun a => IsR.mul (hS k a) (hFs a))
    (fun k => IsR.sum _ _ fun a => IsR.mul (hB k a) (hFb a))
  show ((∑ a, (∑ k, C l k * S k a) * filt fs cur a j) + (∑ a, (∑ k, C l k * B k a) * filt fb cur a j)) + U l j
    = (∑ k, C l k * ((∑ a, S k a * filt fs cur a j) + (∑ a, B k a * filt fb cur a j))) + U l j
  rw [e1, e2]
  exact congrArg (· + U l j) e3

/-- A step sends real logits to real logits. -/
theorem stepR_real (hfs : RealTab fs) (hfb : RealTab fb) (hS : RealTab S) (hB : RealTab B) (hC : RealTab C)
    (hU : RealTab U) (cur : Tab) (hcur : RealTab cur) : RealTab (stepR fs fb S B C U cur) := fun l j =>
  IsR.add (IsR.sum _ _ fun k => IsR.mul (hC l k) (IsR.add
    (IsR.sum _ _ fun a => IsR.mul (hS k a) (filt_isR hfs hcur a j))
    (IsR.sum _ _ fun a => IsR.mul (hB k a) (filt_isR hfb hcur a j)))) (hU l j)

/-- Two maps that agree wherever an invariant of the first holds have the same iterates from a point where it holds. -/
theorem iterate_eq_of_invariant {α : Type*} (f g : α → α) (P : α → Prop) (hP : ∀ x, P x → P (f x))
    (hfg : ∀ x, P x → g x = f x) (x : α) (hx : P x) (n : ℕ) : g^[n] x = f^[n] x ∧ P (f^[n] x) := by
  induction n with
  | zero => exact ⟨rfl, hx⟩
  | succ n ih =>
    rw [Function.iterate_succ_apply', Function.iterate_succ_apply', ih.1]
    exact ⟨hfg _ ih.2, hP _ ih.2⟩

/-- After any number of steps from the unary logits the two arrangements hold the same real table. -/
theorem iterK_eq_iterR (hfs : RealTab fs) (hfb : RealTab fb) (hS : RealTab S) (hB : RealTab B) (hC : RealTab C)
    (hU : RealTab U) (n : ℕ) :
    (stepK fs fb S B C U)^[n] U = (stepR fs fb S B C U)^[n] U ∧ RealTab ((stepR fs fb S B C U)^[n] U) :=
  iterate_eq_of_invariant (stepR fs fb S B C U) (stepK fs fb S B C U) (fun cur : Tab => RealTab cur)
    (stepR_real fs fb S B C U hfs hfb hS hB hC hU) (stepK_eq_stepR fs fb S B C U hfs hfb hS hB hC) U hU n

/-- Five steps in the kernel's arrangement are five steps in the reference's, on real inputs. -/
theorem netK_eq_netR (hfs : RealTab fs) (hfb : RealTab fb) (hS : RealTab S) (hB : RealTab B) (hC : RealTab C)
    (hU : RealTab U) : netK fs fb S B C U = netR fs fb S B C U :=
  (iterK_eq_iterR fs fb S B C U hfs hfb hS hB hC hU 5).1

/-- The result of the five steps is a real table. -/
theorem netR_real (hfs : RealTab fs) (hfb : RealTab fb) (hS : RealTab S) (hB : RealTab B) (hC : RealTab C)
    (hU : RealTab U) : RealTab (netR fs fb S B C U) :=
  (iterK_eq_iterR fs fb S B C U hfs hfb hS hB hC hU 5).2

end Cert.Crf

end
-- ==== Proof.CrfPre.lean ====
/-
  The precondition makes every input entry a real number.

  The precondition tests, for each of the five input arrays, that every entry x has |x| below plus infinity, and takes
  the conjunction of the five tests.  On the extended reals |x| = max x (-x) is plus infinity exactly at the two
  infinities, so an entry that passes is a real number.  A conjunction that is true has every conjunct true, and an
  "all" over an array that is true is true at every index.
-/
import Idealize.ShloMosaic.Lib.ReduceAll
import Idealize.ShloMosaic.Lib.ValueIdx
import proofs.«171617_j90795608638216_2_alg».proof.Pre_finite_inputs
import proofs.«171617_j90795608638216_2_alg».proof.Proof.Gen.Pre_finite_inputs
import proofs.«171617_j90795608638216_2_alg».proof.Proof.CrfShapes
import proofs.«171617_j90795608638216_2_alg».proof.Proof.CrfReal

noncomputable section

namespace Cert.Crf

open Idealize.ShloMosaic Idealize.ShloMosaic.ValueIdx
open Cert.Pre_finite_inputs (S1x3x16x16x16 S1x21x16x16x16 S21x21 S_)

/-- The two spellings of "is a real number" are one. -/
theorem isR_iff (x : EReal) : IsR x ↔ ∃ r : ℝ, x = (r : EReal) := Iff.rfl

theorem realTab_iff {α β : Type} (x : α → β → EReal) : RealTab x ↔ ∀ a b, IsR (x a b) := Iff.rfl

/-- The rank-0 shape has one index. -/
instance subsingleton_S_Idx : Subsingleton S_.Idx := ⟨fun a b => funext fun d => d.elim0⟩

/-- The word of plus infinity is the top element. -/
theorem winf_eq_top : Ideal.ofBits .f32 0x7F800000#32 = ⊤ := by simp [Ideal.ofBits, Ideal.ieee]

/-- An extended real whose absolute value compares below the word of plus infinity is a real number. -/
theorem isR_of_test (x : EReal)
    (h : Ideal.cmp .olt (max x (-x)) (Ideal.ofBits .f32 0x7F800000#32) = 1#1) : IsR x := by
  rw [winf_eq_top] at h
  induction x using EReal.rec with
  | bot => simp [Ideal.cmp] at h
  | coe r => exact ⟨r, rfl⟩
  | top => simp [Ideal.cmp] at h

/-- An array that passes the "all entries finite" test has real entries. -/
theorem isR_of_all {s : Shape} (a : FVec Ideal s .f32) (hb : S_.BroadcastsInDim s (![] : Fin 0 → Fin s.rank))
    {axes : List (Fin s.rank)} (hr : s.ReducesTo axes S_) (hu : 0 < S_.numel)
    (e : Host.reduce IntOp.andi
        (cmpf (F := Ideal) .olt (Host.absf a) (broadcastInDim s ![] hb (constant (F := Ideal) S_ .f32 0x7F800000#32)))
        (constantI S_ 1 1#1) hr hu ix0 = 1#1) (i : s.Idx) : IsR (a i) :=
  isR_of_test (a i) (Host.reduce_andi_all _ _ hr hu ix0 e i)

/-- Under the precondition every entry of every input is a real number. -/
theorem pre_real [Cert.Pre_finite_inputs.Facts] (a0 : FVec Ideal S1x3x16x16x16 .f32)
    (a1 : FVec Ideal S1x21x16x16x16 .f32) (a2 a3 a4 : FVec Ideal S21x21 .f32)
    (h : Cert.Pre_finite_inputs.fn (F := Ideal) a0 a1 a2 a3 a4 = fun _ => 1#1) :
    (∀ i, IsR (a0 i)) ∧ (∀ i, IsR (a1 i)) ∧ (∀ i, IsR (a2 i)) ∧ (∀ i, IsR (a3 i)) ∧ (∀ i, IsR (a4 i)) := by
  have h0 := congrFun h ValueIdx.ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨isR_of_all a0 _ _ _ e0, isR_of_all a1 _ _ _ e1, isR_of_all a2 _ _ _ e2, isR_of_all a3 _ _ _ e3,
    isR_of_all a4 _ _ _ e4⟩

section Corollaries

variable [Cert.Pre_finite_inputs.Facts] (a0 : FVec Ideal S1x3x16x16x16 .f32)
  (a1 : FVec Ideal S1x21x16x16x16 .f32) (a2 a3 a4 : FVec Ideal S21x21 .f32)
  (h : Cert.Pre_finite_inputs.fn (F := Ideal) a0 a1 a2 a3 a4 = fun _ => 1#1)

include h

theorem pre_real_a0 : ∀ i, ∃ r : ℝ, a0 i = (r : EReal) := (pre_real a0 a1 a2 a3 a4 h).1

theorem pre_realTab_a1 : RealTab (tabOf a1) := fun _ _ => (pre_real a0 a1 a2 a3 a4 h).2.1 _

theorem pre_realTab_a2 : RealTab (wtOf a2) := fun _ _ => (pre_real a0 a1 a2 a3 a4 h).2.2.1 _

theorem pre_realTab_a3 : RealTab (wtOf a3) := fun _ _ => (pre_real a0 a1 a2 a3 a4 h).2.2.2.1 _

theorem pre_realTab_a4 : RealTab (wtOf a4) := fun _ _ => (pre_real a0 a1 a2 a3 a4 h).2.2.2.2 _

end Corollaries

end Cert.Crf

end
-- ==== Proof.KI.Algebraic.lean ====
/-
  The two programs end with equal results.  The kernel's run leaves five mean-field steps in the kernel's arrangement
  in its result buffer, the reference's run five steps in the reference's arrangement; under the precondition every
  input entry is a real number, the two feature tables are real, and on real tables the two arrangements agree.
-/
import proofs.«171617_j90795608638216_2_alg».proof.Defs
import proofs.«171617_j90795608638216_2_alg».proof.Proof.KI.Run
import proofs.«171617_j90795608638216_2_alg».proof.Proof.KI.OpsId
import proofs.«171617_j90795608638216_2_alg».proof.Proof.RefRun
import proofs.«171617_j90795608638216_2_alg».proof.Proof.CrfBridge
import proofs.«171617_j90795608638216_2_alg».proof.Proof.CrfPre

set_option maxRecDepth 16384

noncomputable section

namespace Cert.KernelIdeal.Hand

open Cert.KernelIdeal Cert.KernelIdeal.Gen Cert.Crf
open Idealize.ShloMosaic Idealize.ShloMosaic.TcCoe Idealize.ShloMosaic.ValueIdx
open Idealize.SL.Sem

/-- The result in the kernel's arrangement, as a function of the five argument arrays. -/
def outK (a0 : FVec Ideal S1x3x16x16x16 .f32) (a1 : FVec Ideal S1x21x16x16x16 .f32) (a2 a3 a4 : FVec Ideal S21x21 .f32) :
    S1x21x16x16x16.Idx → EReal :=
  outOf (netK (featOf fsTerm) (featOf (fbTerm a0)) (wtOf a2) (wtOf a3) (wtOf a4) (tabOf a1))

/-- The result in the reference's arrangement, as a function of the five argument arrays. -/
def outR (a0 : FVec Ideal S1x3x16x16x16 .f32) (a1 : FVec Ideal S1x21x16x16x16 .f32) (a2 a3 a4 : FVec Ideal S21x21 .f32) :
    S1x21x16x16x16.Idx → EReal :=
  outOf (netR (featOf fsTerm) (featOf (fbTerm a0)) (wtOf a2) (wtOf a3) (wtOf a4) (tabOf a1))

/-- Under the precondition the two arrangements give one result. -/
theorem outR_eq_outK (a0 : FVec Ideal S1x3x16x16x16 .f32) (a1 : FVec Ideal S1x21x16x16x16 .f32) (a2 a3 a4 : FVec Ideal S21x21 .f32)
    (h : Cert.Pre_finite_inputs.fn (F := Ideal) a0 a1 a2 a3 a4 = fun _ => 1#1) :
    outR a0 a1 a2 a3 a4 = outK a0 a1 a2 a3 a4 :=
  congrArg outOf (netK_eq_netR (featOf fsTerm) (featOf (fbTerm a0)) (wtOf a2) (wtOf a3) (wtOf a4) (tabOf a1)
    fsTerm_real (fbTerm_real a0 (pre_real_a0 a0 a1 a2 a3 a4 h)) (pre_realTab_a2 a0 a1 a2 a3 a4 h)
    (pre_realTab_a3 a0 a1 a2 a3 a4 h) (pre_realTab_a4 a0 a1 a2 a3 a4 h) (pre_realTab_a1 a0 a1 a2 a3 a4 h)).symm

/-- From arrays that agree, under the precondition, the reference's result is the kernel's. -/
theorem agree_out (a0' a0 : FVec Ideal S1x3x16x16x16 .f32) (a1' a1 : FVec Ideal S1x21x16x16x16 .f32)
    (a2' a2 a3' a3 a4' a4 : FVec Ideal S21x21 .f32)
    (e0 : a0' = a0) (e1 : a1' = a1) (e2 : a2' = a2) (e3 : a3' = a3) (e4 : a4' = a4)
    (h : Cert.Pre_finite_inputs.fn (F := Ideal) a0 a1 a2 a3 a4 = fun _ => 1#1) :
    outR a0' a1' a2' a3' a4' = outK a0 a1 a2 a3 a4 := by
  subst e0 e1 e2 e3 e4
  exact outR_eq_outK _ _ _ _ _ h

variable (s0 : St)

/-- The kernel's run: the result buffer ends at five steps in the kernel's arrangement, the arguments unchanged. -/
theorem kernel_run (m : (ℓ : Loc nD τ sig) → Buf (Elt Ideal) ℓ) (ρ : Dev nD → PrngReg)
    (h7 : ∀ c : Dev nD, tab2Of ((dat2 (F := Ideal) (U5 m) c).arrAt 7 cfg2.N) = (runK (o2 (U5 (F := Ideal) m) c) s0 79).cur) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v30)
          = outK (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run (Cert.KernelIdeal.defs (F := Ideal)) _ _).mono (fun r h c =>
    ⟨(h c _ (mem_uc main_v30 (by decide))).trans (kernel_out m c s0 (h7 c)),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c)⟩) (run_all (F := Ideal) m ρ)

/-- The algebraic claim, given that the mean-field region's last array is the final logits of the recursion on its
    operands. -/
theorem algebraic_of
    (h7 : ∀ (m : (ℓ : Loc nD τ sig) → Buf (Elt Ideal) ℓ) (c : Dev nD),
      tab2Of ((dat2 (F := Ideal) (U5 m) c).arrAt 7 cfg2.N) = (runK (o2 (U5 (F := Ideal) m) c) s0 79).cur) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) :=
  fun m g m' g' hpre hagree =>
    ⟨fun c => outK (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)),
      kernel_run s0 m g (h7 m),
      (θ_run (Cert.ReferenceIdeal.defs (F := Ideal)) _ _).mono (fun r h c =>
        ⟨(h c).1.trans (agree_out _ _ _ _ _ _ _ _ _ _ (hagree c).1 (hagree c).2.1 (hagree c).2.2.1 (hagree c).2.2.2.1
            (hagree c).2.2.2.2 (hpre c)), (h c).2⟩) (ref_run m' g')⟩

end Cert.KernelIdeal.Hand

end
-- ==== Proof.KI.R2Pieces.lean ====
/-
  Region 2: the pieces each case leaves in the buffers it stores into, read back as values of the blocks and
  tables the body loaded. The softmax table is read one tile of 256 voxels at a time, the resident bilateral
  kernel matrix one tile of 256 rows at a time.
-/
import proofs.«171617_j90795608638216_2_alg».proof.Proof.KI.R2
import Idealize.ShloMosaic.Lib.Pipeline.Value
import Idealize.ShloMosaic.Lib.Tactic

set_option maxRecDepth 16384
set_option pp.maxSteps 20000
set_option pp.deepTerms false

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

theorem origin2 : (![0, 0] : Fin 2 → Nat) = fun _ => 0 := funext fun a => by fin_cases a <;> rfl

/-- The 256 voxels of the point's tile, out of a label-by-voxel table. -/
abbrev qtile (i : grid2.Coords) (v : Vec F S21x4096 .f32) : Vec F S21x256 .f32 :=
  View.ld v (Rect.unit (s := S21x4096) (k2_off1 i) S21x256.size (Facts₀.k2_off1_inb i))
/-- The 256 rows of the point's tile, out of the resident kernel matrix. -/
abbrev ktile (i : grid2.Coords) (v : Vec F S4096x4096 .bf16) : Vec F S256x4096 .bf16 :=
  View.ld v (Rect.unit (s := S4096x4096) (k2_off2 i) S256x4096.size (Facts₀.k2_off2_inb i))

theorem sout2_A_0_eq (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) :
    sout2_A_0 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 = k2_pay2 x0 := by
  unfold sout2_A_0
  rw [View.read_writes_eq_canon _ _ _ (scover2_A_0 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6)]
  unfold kernelRun2_A
  dsimp only
  sl_unfold_run_names
  simp only [View.readAt_eq_ld, View.read_writes_junk_eq_canon, harg2.read_unread, harg3.read_unread, harg4.read_unread, harg5.read_unread, harg6.read_unread, harg7.read_unread, harg8.read_unread, harg9.read_unread, harg10.read_unread, harg11.read_unread, harg12.read_unread, harg13.read_unread,
    View.canon_unit_zero (S := S21x4096) origin2, View.canon_cons_unit_zero (S := S21x4096) origin2, View.readCov_unit_zero (S := S21x4096) _ origin2,
    View.ld_unit_zero (S := S21x4096) origin2, View.ld_unit_zero (S := S256x4096) origin2, View.ld_unit_zero (S := S21x21) origin2, View.ld_unit_zero (S := S1x4096) origin2]
  try rfl

theorem sout2_A_1_eq (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) :
    sout2_A_1 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 = k2_pay3 (k2_pay2 x0) (k2_pay2 x0) := by
  unfold sout2_A_1
  rw [View.read_writes_eq_canon _ _ _ (scover2_A_1 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6)]
  unfold kernelRun2_A
  dsimp only
  sl_unfold_run_names
  simp only [View.readAt_eq_ld, View.read_writes_junk_eq_canon, harg2.read_unread, harg3.read_unread, harg4.read_unread, harg5.read_unread, harg6.read_unread, harg7.read_unread, harg8.read_unread, harg9.read_unread, harg10.read_unread, harg11.read_unread, harg12.read_unread, harg13.read_unread,
    View.canon_unit_zero (S := S21x4096) origin2, View.canon_cons_unit_zero (S := S21x4096) origin2, View.readCov_unit_zero (S := S21x4096) _ origin2,
    View.ld_unit_zero (S := S21x4096) origin2, View.ld_unit_zero (S := S256x4096) origin2, View.ld_unit_zero (S := S21x21) origin2, View.ld_unit_zero (S := S1x4096) origin2]
  try rfl

theorem sout2_A_2_eq (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) :
    sout2_A_2 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 = k2_pay7 (qtile i (k2_pay3 (k2_pay2 x0) (k2_pay2 x0))) x3 k2_pay4 := by
  unfold sout2_A_2
  rw [View.read_writes_eq_canon _ _ _ (scover2_A_2 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6)]
  unfold kernelRun2_A
  dsimp only
  sl_unfold_run_names
  simp only [View.readAt_eq_ld, View.read_writes_junk_eq_canon, harg2.read_unread, harg3.read_unread, harg4.read_unread, harg5.read_unread, harg6.read_unread, harg7.read_unread, harg8.read_unread, harg9.read_unread, harg10.read_unread, harg11.read_unread, harg12.read_unread, harg13.read_unread,
    View.canon_unit_zero (S := S21x4096) origin2, View.canon_cons_unit_zero (S := S21x4096) origin2, View.readCov_unit_zero (S := S21x4096) _ origin2,
    View.ld_unit_zero (S := S21x4096) origin2, View.ld_unit_zero (S := S256x4096) origin2, View.ld_unit_zero (S := S21x21) origin2, View.ld_unit_zero (S := S1x4096) origin2]
  try rfl

theorem sout2_A_3_eq (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) :
    sout2_A_3 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 = k2_pay8 (qtile i (k2_pay3 (k2_pay2 x0) (k2_pay2 x0))) (ktile i x4) k2_pay5 := by
  unfold sout2_A_3
  rw [View.read_writes_eq_canon _ _ _ (scover2_A_3 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6)]
  unfold kernelRun2_A
  dsimp only
  sl_unfold_run_names
  simp only [View.readAt_eq_ld, View.read_writes_junk_eq_canon, harg2.read_unread, harg3.read_unread, harg4.read_unread, harg5.read_unread, harg6.read_unread, harg7.read_unread, harg8.read_unread, harg9.read_unread, harg10.read_unread, harg11.read_unread, harg12.read_unread, harg13.read_unread,
    View.canon_unit_zero (S := S21x4096) origin2, View.canon_cons_unit_zero (S := S21x4096) origin2, View.readCov_unit_zero (S := S21x4096) _ origin2,
    View.ld_unit_zero (S := S21x4096) origin2, View.ld_unit_zero (S := S256x4096) origin2, View.ld_unit_zero (S := S21x21) origin2, View.ld_unit_zero (S := S1x4096) origin2]
  try rfl

theorem sout2_B_1_eq (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) :
    sout2_B_1 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3 = k2_pay3 xs0 xs0 := by
  unfold sout2_B_1
  rw [View.read_writes_eq_canon _ _ _ (scover2_B_1 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3)]
  unfold kernelRun2_B
  dsimp only
  sl_unfold_run_names
  simp only [View.readAt_eq_ld, View.read_writes_junk_eq_canon, harg2.read_unread, harg3.read_unread, harg4.read_unread, harg5.read_unread, harg6.read_unread, harg7.read_unread, harg8.read_unread, harg9.read_unread, harg10.read_unread, harg11.read_unread, harg12.read_unread, harg13.read_unread,
    View.canon_unit_zero (S := S21x4096) origin2, View.canon_cons_unit_zero (S := S21x4096) origin2, View.readCov_unit_zero (S := S21x4096) _ origin2,
    View.ld_unit_zero (S := S21x4096) origin2, View.ld_unit_zero (S := S256x4096) origin2, View.ld_unit_zero (S := S21x21) origin2, View.ld_unit_zero (S := S1x4096) origin2]
  try rfl

theorem sout2_B_2_eq (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) :
    sout2_B_2 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3 = k2_pay7 (qtile i (k2_pay3 xs0 xs0)) x3 k2_pay4 := by
  unfold sout2_B_2
  rw [View.read_writes_eq_canon _ _ _ (scover2_B_2 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3)]
  unfold kernelRun2_B
  dsimp only
  sl_unfold_run_names
  simp only [View.readAt_eq_ld, View.read_writes_junk_eq_canon, harg2.read_unread, harg3.read_unread, harg4.read_unread, harg5.read_unread, harg6.read_unread, harg7.read_unread, harg8.read_unread, harg9.read_unread, harg10.read_unread, harg11.read_unread, harg12.read_unread, harg13.read_unread,
    View.canon_unit_zero (S := S21x4096) origin2, View.canon_cons_unit_zero (S := S21x4096) origin2, View.readCov_unit_zero (S := S21x4096) _ origin2,
    View.ld_unit_zero (S := S21x4096) origin2, View.ld_unit_zero (S := S256x4096) origin2, View.ld_unit_zero (S := S21x21) origin2, View.ld_unit_zero (S := S1x4096) origin2]
  try rfl

theorem sout2_B_3_eq (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) :
    sout2_B_3 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3 = k2_pay8 (qtile i (k2_pay3 xs0 xs0)) (ktile i x4) k2_pay5 := by
  unfold sout2_B_3
  rw [View.read_writes_eq_canon _ _ _ (scover2_B_3 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3)]
  unfold kernelRun2_B
  dsimp only
  sl_unfold_run_names
  simp only [View.readAt_eq_ld, View.read_writes_junk_eq_canon, harg2.read_unread, harg3.read_unread, harg4.read_unread, harg5.read_unread, harg6.read_unread, harg7.read_unread, harg8.read_unread, harg9.read_unread, harg10.read_unread, harg11.read_unread, harg12.read_unread, harg13.read_unread,
    View.canon_unit_zero (S := S21x4096) origin2, View.canon_cons_unit_zero (S := S21x4096) origin2, View.readCov_unit_zero (S := S21x4096) _ origin2,
    View.ld_unit_zero (S := S21x4096) origin2, View.ld_unit_zero (S := S256x4096) origin2, View.ld_unit_zero (S := S21x21) origin2, View.ld_unit_zero (S := S1x4096) origin2]
  try rfl

theorem sout2_C_2_eq (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) :
    sout2_C_2 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3 = k2_pay7 (qtile i xs1) x3 xs2 := by
  unfold sout2_C_2
  rw [View.read_writes_eq_canon _ _ _ (scover2_C_2 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3)]
  unfold kernelRun2_C
  dsimp only
  sl_unfold_run_names
  simp only [View.readAt_eq_ld, View.read_writes_junk_eq_canon, harg2.read_unread, harg3.read_unread, harg4.read_unread, harg5.read_unread, harg6.read_unread, harg7.read_unread, harg8.read_unread, harg9.read_unread, harg10.read_unread, harg11.read_unread, harg12.read_unread, harg13.read_unread,
    View.canon_unit_zero (S := S21x4096) origin2, View.canon_cons_unit_zero (S := S21x4096) origin2, View.readCov_unit_zero (S := S21x4096) _ origin2,
    View.ld_unit_zero (S := S21x4096) origin2, View.ld_unit_zero (S := S256x4096) origin2, View.ld_unit_zero (S := S21x21) origin2, View.ld_unit_zero (S := S1x4096) origin2]
  try rfl

theorem sout2_C_3_eq (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : ¬cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) :
    sout2_C_3 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3 = k2_pay8 (qtile i xs1) (ktile i x4) xs3 := by
  unfold sout2_C_3
  rw [View.read_writes_eq_canon _ _ _ (scover2_C_3 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3)]
  unfold kernelRun2_C
  dsimp only
  sl_unfold_run_names
  simp only [View.readAt_eq_ld, View.read_writes_junk_eq_canon, harg2.read_unread, harg3.read_unread, harg4.read_unread, harg5.read_unread, harg6.read_unread, harg7.read_unread, harg8.read_unread, harg9.read_unread, harg10.read_unread, harg11.read_unread, harg12.read_unread, harg13.read_unread,
    View.canon_unit_zero (S := S21x4096) origin2, View.canon_cons_unit_zero (S := S21x4096) origin2, View.readCov_unit_zero (S := S21x4096) _ origin2,
    View.ld_unit_zero (S := S21x4096) origin2, View.ld_unit_zero (S := S256x4096) origin2, View.ld_unit_zero (S := S21x21) origin2, View.ld_unit_zero (S := S1x4096) origin2]
  try rfl

theorem sout2_D_0_eq (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) :
    sout2_D_0 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3 = k2_pay1 (k2_pay7 (qtile i xs1) x3 xs2) x5 (k2_pay8 (qtile i xs1) (ktile i x4) xs3) x6 x1 x2 x0 := by
  unfold sout2_D_0
  rw [View.read_writes_eq_canon _ _ _ (scover2_D_0 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3)]
  unfold kernelRun2_D
  dsimp only
  sl_unfold_run_names
  simp only [View.readAt_eq_ld, View.read_writes_junk_eq_canon, harg2.read_unread, harg3.read_unread, harg4.read_unread, harg5.read_unread, harg6.read_unread, harg7.read_unread, harg8.read_unread, harg9.read_unread, harg10.read_unread, harg11.read_unread, harg12.read_unread, harg13.read_unread,
    View.canon_unit_zero (S := S21x4096) origin2, View.canon_cons_unit_zero (S := S21x4096) origin2, View.readCov_unit_zero (S := S21x4096) _ origin2,
    View.ld_unit_zero (S := S21x4096) origin2, View.ld_unit_zero (S := S256x4096) origin2, View.ld_unit_zero (S := S21x21) origin2, View.ld_unit_zero (S := S1x4096) origin2]
  try rfl

theorem sout2_D_2_eq (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) :
    sout2_D_2 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3 = k2_pay7 (qtile i xs1) x3 xs2 := by
  unfold sout2_D_2
  rw [View.read_writes_eq_canon _ _ _ (scover2_D_2 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3)]
  unfold kernelRun2_D
  dsimp only
  sl_unfold_run_names
  simp only [View.readAt_eq_ld, View.read_writes_junk_eq_canon, harg2.read_unread, harg3.read_unread, harg4.read_unread, harg5.read_unread, harg6.read_unread, harg7.read_unread, harg8.read_unread, harg9.read_unread, harg10.read_unread, harg11.read_unread, harg12.read_unread, harg13.read_unread,
    View.canon_unit_zero (S := S21x4096) origin2, View.canon_cons_unit_zero (S := S21x4096) origin2, View.readCov_unit_zero (S := S21x4096) _ origin2,
    View.ld_unit_zero (S := S21x4096) origin2, View.ld_unit_zero (S := S256x4096) origin2, View.ld_unit_zero (S := S21x21) origin2, View.ld_unit_zero (S := S1x4096) origin2]
  try rfl

theorem sout2_D_3_eq (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : ¬cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) :
    sout2_D_3 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3 = k2_pay8 (qtile i xs1) (ktile i x4) xs3 := by
  unfold sout2_D_3
  rw [View.read_writes_eq_canon _ _ _ (scover2_D_3 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3)]
  unfold kernelRun2_D
  dsimp only
  sl_unfold_run_names
  simp only [View.readAt_eq_ld, View.read_writes_junk_eq_canon, harg2.read_unread, harg3.read_unread, harg4.read_unread, harg5.read_unread, harg6.read_unread, harg7.read_unread, harg8.read_unread, harg9.read_unread, harg10.read_unread, harg11.read_unread, harg12.read_unread, harg13.read_unread,
    View.canon_unit_zero (S := S21x4096) origin2, View.canon_cons_unit_zero (S := S21x4096) origin2, View.readCov_unit_zero (S := S21x4096) _ origin2,
    View.ld_unit_zero (S := S21x4096) origin2, View.ld_unit_zero (S := S256x4096) origin2, View.ld_unit_zero (S := S21x21) origin2, View.ld_unit_zero (S := S1x4096) origin2]
  try rfl

theorem sout2_E_0_eq (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) :
    sout2_E_0 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3 = k2_pay1 (k2_pay7 (qtile i xs1) x3 xs2) x5 (k2_pay8 (qtile i xs1) (ktile i x4) xs3) x6 x1 x2 x0 := by
  unfold sout2_E_0
  rw [View.read_writes_eq_canon _ _ _ (scover2_E_0 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3)]
  unfold kernelRun2_E
  dsimp only
  sl_unfold_run_names
  simp only [View.readAt_eq_ld, View.read_writes_junk_eq_canon, harg2.read_unread, harg3.read_unread, harg4.read_unread, harg5.read_unread, harg6.read_unread, harg7.read_unread, harg8.read_unread, harg9.read_unread, harg10.read_unread, harg11.read_unread, harg12.read_unread, harg13.read_unread,
    View.canon_unit_zero (S := S21x4096) origin2, View.canon_cons_unit_zero (S := S21x4096) origin2, View.readCov_unit_zero (S := S21x4096) _ origin2,
    View.ld_unit_zero (S := S21x4096) origin2, View.ld_unit_zero (S := S256x4096) origin2, View.ld_unit_zero (S := S21x21) origin2, View.ld_unit_zero (S := S1x4096) origin2]
  try rfl

theorem sout2_E_2_eq (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) :
    sout2_E_2 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3 = k2_pay7 (qtile i xs1) x3 xs2 := by
  unfold sout2_E_2
  rw [View.read_writes_eq_canon _ _ _ (scover2_E_2 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3)]
  unfold kernelRun2_E
  dsimp only
  sl_unfold_run_names
  simp only [View.readAt_eq_ld, View.read_writes_junk_eq_canon, harg2.read_unread, harg3.read_unread, harg4.read_unread, harg5.read_unread, harg6.read_unread, harg7.read_unread, harg8.read_unread, harg9.read_unread, harg10.read_unread, harg11.read_unread, harg12.read_unread, harg13.read_unread,
    View.canon_unit_zero (S := S21x4096) origin2, View.canon_cons_unit_zero (S := S21x4096) origin2, View.readCov_unit_zero (S := S21x4096) _ origin2,
    View.ld_unit_zero (S := S21x4096) origin2, View.ld_unit_zero (S := S256x4096) origin2, View.ld_unit_zero (S := S21x21) origin2, View.ld_unit_zero (S := S1x4096) origin2]
  try rfl

theorem sout2_E_3_eq (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) :
    sout2_E_3 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3 = k2_pay8 (qtile i xs1) (ktile i x4) xs3 := by
  unfold sout2_E_3
  rw [View.read_writes_eq_canon _ _ _ (scover2_E_3 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3)]
  unfold kernelRun2_E
  dsimp only
  sl_unfold_run_names
  simp only [View.readAt_eq_ld, View.read_writes_junk_eq_canon, harg2.read_unread, harg3.read_unread, harg4.read_unread, harg5.read_unread, harg6.read_unread, harg7.read_unread, harg8.read_unread, harg9.read_unread, harg10.read_unread, harg11.read_unread, harg12.read_unread, harg13.read_unread,
    View.canon_unit_zero (S := S21x4096) origin2, View.canon_cons_unit_zero (S := S21x4096) origin2, View.readCov_unit_zero (S := S21x4096) _ origin2,
    View.ld_unit_zero (S := S21x4096) origin2, View.ld_unit_zero (S := S256x4096) origin2, View.ld_unit_zero (S := S21x21) origin2, View.ld_unit_zero (S := S1x4096) origin2]
  try rfl

theorem out2_E_7_eq (c : Dev nD) (i : grid2.Coords) (arg2 : Memref sig .tc .vmem S21x4096 .f32) (harg2 : arg2.IsWhole) (arg3 : Memref sig .tc .vmem S21x21 .f32) (harg3 : arg3.IsWhole) (arg4 : Memref sig .tc .vmem S21x21 .f32) (harg4 : arg4.IsWhole) (arg5 : Memref sig .tc .vmem S256x4096 .bf16) (harg5 : arg5.IsWhole) (arg6 : Memref sig .tc .vmem S4096x4096 .bf16) (harg6 : arg6.IsWhole) (arg7 : Memref sig .tc .vmem S1x4096 .f32) (harg7 : arg7.IsWhole) (arg8 : Memref sig .tc .vmem S1x4096 .f32) (harg8 : arg8.IsWhole) (arg9 : Memref sig .tc .vmem S21x4096 .f32) (harg9 : arg9.IsWhole) (arg10 : Memref sig .tc .vmem S21x4096 .f32) (harg10 : arg10.IsWhole) (arg11 : Memref sig .tc .vmem S21x4096 .f32) (harg11 : arg11.IsWhole) (arg12 : Memref sig .tc .vmem S21x4096 .f32) (harg12 : arg12.IsWhole) (arg13 : Memref sig .tc .vmem S21x4096 .f32) (harg13 : arg13.IsWhole) (hc0 : ¬cond2_0 i) (hc1 : ¬cond2_1 i) (hc2 : cond2_2 i) (hc3 : cond2_3 i) (x0 : Vec F S21x4096 .f32) (x1 : Vec F S21x21 .f32) (x2 : Vec F S21x21 .f32) (x3 : Vec F S256x4096 .bf16) (x4 : Vec F S4096x4096 .bf16) (x5 : Vec F S1x4096 .f32) (x6 : Vec F S1x4096 .f32) (xs0 : Vec F S21x4096 .f32) (xs1 : Vec F S21x4096 .f32) (xs2 : Vec F S21x4096 .f32) (xs3 : Vec F S21x4096 .f32) :
    out2_E_7 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3 = k2_pay1 (k2_pay7 (qtile i xs1) x3 xs2) x5 (k2_pay8 (qtile i xs1) (ktile i x4) xs3) x6 x1 x2 x0 := by
  unfold out2_E_7
  rw [View.read_writes_eq_canon _ _ _ (cover2_E_7 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 xs0 xs1 xs2 xs3)]
  unfold kernelRun2_E
  dsimp only
  sl_unfold_run_names
  simp only [View.readAt_eq_ld, View.read_writes_junk_eq_canon, harg2.read_unread, harg3.read_unread, harg4.read_unread, harg5.read_unread, harg6.read_unread, harg7.read_unread, harg8.read_unread, harg9.read_unread, harg10.read_unread, harg11.read_unread, harg12.read_unread, harg13.read_unread,
    View.canon_unit_zero (S := S21x4096) origin2, View.canon_cons_unit_zero (S := S21x4096) origin2, View.readCov_unit_zero (S := S21x4096) _ origin2,
    View.ld_unit_zero (S := S21x4096) origin2, View.ld_unit_zero (S := S256x4096) origin2, View.ld_unit_zero (S := S21x21) origin2, View.ld_unit_zero (S := S1x4096) origin2]
  try rfl

end Cert.KernelIdeal.Hand

end
-- ==== Proof.CrfMax.lean ====
/-
  The largest of finitely many extended reals, as a supremum and as a fold of max from minus infinity.

  A fold of max from a floor b over a list, from the left or from the right, and the fold of max over a finite index
  set, all have the same upper bounds as the supremum: c bounds any of them exactly when b ≤ c and every entry is ≤ c.
  With the floor the bottom element (which the word of minus infinity denotes) the floor's condition is void, so the
  folds are the supremum; no order of evaluation enters.
-/
import proofs.«171617_j90795608638216_2_alg».proof.Proof.CrfReal

noncomputable section

namespace Cert.Crf

open Idealize.ShloMosaic

/-- Minus infinity is neutral for max. -/
theorem bot_max (y : EReal) : max ⊥ y = y := max_bot_left y

theorem max_bot (y : EReal) : max y ⊥ = y := max_bot_right y

theorem wninf_max (y : EReal) : max wninf y = y := by rw [wninf_eq_bot]; exact max_bot_left y

theorem max_wninf (y : EReal) : max y wninf = y := by rw [wninf_eq_bot]; exact max_bot_right y

/-- The upper bounds of a right fold of max from b. -/
theorem foldr_max_le_iff (l : List EReal) (b c : EReal) :
    List.foldr max b l ≤ c ↔ b ≤ c ∧ ∀ y ∈ l, y ≤ c := by
  induction l with
  | nil => simp
  | cons a l ih => rw [List.foldr_cons, max_le_iff, ih, List.forall_mem_cons]; tauto

/-- The upper bounds of a left fold of max from b. -/
theorem foldl_max_le_iff (l : List EReal) (b c : EReal) :
    List.foldl max b l ≤ c ↔ b ≤ c ∧ ∀ y ∈ l, y ≤ c := by
  induction l generalizing b with
  | nil => simp
  | cons a l ih => rw [List.foldl_cons, ih, max_le_iff, List.forall_mem_cons]; tauto

/-- Every entry of the list of values of x is a value of x, and conversely. -/
theorem forall_mem_ofFn {n : ℕ} (x : Fin n → EReal) (c : EReal) :
    (∀ y ∈ List.ofFn x, y ≤ c) ↔ ∀ i, x i ≤ c := by
  constructor
  · intro h i
    exact h _ ((List.mem_ofFn' x (x i)).mpr ⟨i, rfl⟩)
  · intro h y hy
    obtain ⟨i, rfl⟩ := (List.mem_ofFn' x y).mp hy
    exact h i

/-- The supremum over Fin n is the right fold of max from minus infinity over the list of values. -/
theorem sup_eq_foldr {n : ℕ} (x : Fin n → EReal) :
    (Finset.univ : Finset (Fin n)).sup x = List.foldr max ⊥ (List.ofFn x) := by
  refine eq_of_forall_ge_iff fun c => ?_
  rw [Finset.sup_le_iff, foldr_max_le_iff, forall_mem_ofFn]
  simp only [Finset.mem_univ, forall_true_left, bot_le, true_and]

/-- The supremum over Fin n is the left fold of max from minus infinity over the list of values. -/
theorem sup_eq_foldl {n : ℕ} (x : Fin n → EReal) :
    (Finset.univ : Finset (Fin n)).sup x = List.foldl max ⊥ (List.ofFn x) := by
  refine eq_of_forall_ge_iff fun c => ?_
  rw [Finset.sup_le_iff, foldl_max_le_iff, forall_mem_ofFn]
  simp only [Finset.mem_univ, forall_true_left, bot_le, true_and]

/-- The supremum over a finite index set is the fold of max from minus infinity over it. -/
theorem sup_eq_fold {ι : Type*} (s : Finset ι) (x : ι → EReal) : s.sup x = s.fold max ⊥ x := by
  refine eq_of_forall_ge_iff fun c => ?_
  rw [Finset.sup_le_iff, Finset.fold_max_le]
  simp only [bot_le, true_and]

/-- The three readings of the largest of 21 extended reals. -/
theorem smax_eq_fold (x : Fin 21 → EReal) :
    (Finset.univ : Finset (Fin 21)).sup x = List.foldl max ⊥ (List.ofFn x)
      ∧ (Finset.univ : Finset (Fin 21)).sup x = List.foldr max ⊥ (List.ofFn x)
      ∧ (Finset.univ : Finset (Fin 21)).sup x = (Finset.univ : Finset (Fin 21)).fold max ⊥ x :=
  ⟨sup_eq_foldl x, sup_eq_foldr x, sup_eq_fold _ x⟩

/-- The largest logit of a voxel as the fold of max over the labels from the word of minus infinity. -/
theorem smax_eq_fold_wninf (cur : Tab) (j : Fin 4096) :
    smax cur j = (Finset.univ : Finset (Fin 21)).fold max wninf (fun l => cur l j) := by
  rw [wninf_eq_bot]; exact sup_eq_fold _ _

theorem smax_eq_foldl_wninf (cur : Tab) (j : Fin 4096) :
    smax cur j = List.foldl max wninf (List.ofFn fun l => cur l j) := by
  rw [wninf_eq_bot]; exact sup_eq_foldl _

theorem smax_eq_foldr_wninf (cur : Tab) (j : Fin 4096) :
    smax cur j = List.foldr max wninf (List.ofFn fun l => cur l j) := by
  rw [wninf_eq_bot]; exact sup_eq_foldr _

end Cert.Crf

end
-- ==== Proof.KI.R2Pay.lean ====
/-
  The values the mean-field kernel stores, read at a label l and a voxel j.

  Each stored value is a composition of pointwise operations, layout changes that move no entry, reductions along
  the label axis and matrix products.  Read at (l, j): a cast to the same shape and a change of format are the
  identity; a row [1, 4096] broadcast over the 21 labels reads its one row at j; the maximum over the label axis from
  the word of minus infinity is the largest logit of voxel j; the sum over the label axis is the sum over the 21
  labels; a matrix product into the zero accumulator is the sum of products over the inner index.
-/
import Idealize.ShloMosaic.Lib.ValueIdx
import Idealize.ShloMosaic.Lib.ValueLayout
import Idealize.ShloMosaic.Lib.Pipeline.Value
import Idealize.ShloMosaic.PureOps.Ideal.Laws
import proofs.«171617_j90795608638216_2_alg».proof.Proof.Gen.KernelIdeal.Skeleton
import proofs.«171617_j90795608638216_2_alg».proof.Proof.CrfShapes
import proofs.«171617_j90795608638216_2_alg».proof.Proof.CrfMax
import proofs.«171617_j90795608638216_2_alg».proof.Proof.LibPlainDot

noncomputable section

namespace Cert.KernelIdeal.Hand

open Idealize.ShloMosaic Idealize.ShloMosaic.ValueIdx
open Cert.KernelIdeal Cert.KernelIdeal.Gen Cert.Crf

/-! ### The pieces -/

/-- Label k put back in front of voxel j. -/
theorem lift_ix1 (hr : S21x4096.Reduces [0] S4096) (j : Fin 4096) (k : Fin 21) : hr.lift (ix1 j) k = ix2 k j := by
  funext a
  apply Fin.ext
  match a with
  | ⟨0, _⟩ => rfl
  | ⟨1, _⟩ => rfl

/-- The maximum over the label axis, kept as a row and broadcast back over the labels, is the largest logit of the voxel. -/
theorem colmax_apply (v : FVec Ideal S21x4096 .f32) (hr : S21x4096.Reduces [0] S4096) (hφ : FKind.Formats .f32)
    (hacc : (0xFF800000#32 : BitVec 32) = FKind.maximumf.neutral .f32 hφ) (hsc : S4096.ShapeCasts S1x4096)
    (hb : S1x4096.Broadcasts S21x4096) (l : Fin 21) (j : Fin 4096) :
    broadcastTo S21x4096 (shapeCast S1x4096 (multiReduction .maximumf [0] S4096 v 0xFF800000#32 hr hφ hacc) hsc) hb (ix2 l j)
      = smax (tab2Of v) j := by
  refine (broadcastTo_1b_ab_apply _ hb l j).trans ?_
  refine (shapeCast_a_1a_apply _ hsc 0 j).trans ?_
  refine (Ideal.multiReduction_maximumf_single v _ hr hφ hacc (ix1 j)).trans ?_
  rw [smax_eq_fold_wninf]
  exact congrArg (fun f : Fin 21 → EReal => (Finset.univ : Finset (Fin 21)).fold max wninf f)
    (funext fun k => congrArg v (lift_ix1 hr j k))

/-- The sum over the label axis, kept as a row and broadcast back over the labels, is the sum over the 21 labels. -/
theorem colsum_apply (w : FVec Ideal S21x4096 .f32) (hr : S21x4096.Reduces [0] S4096) (hφ : FKind.Formats .f32)
    (hacc : (0x00000000#32 : BitVec 32) = FKind.add.neutral .f32 hφ) (hsc : S4096.ShapeCasts S1x4096)
    (hb : S1x4096.Broadcasts S21x4096) (l : Fin 21) (j : Fin 4096) :
    broadcastTo S21x4096 (shapeCast S1x4096 (multiReduction .add [0] S4096 w 0x00000000#32 hr hφ hacc) hsc) hb (ix2 l j)
      = ∑ k : Fin 21, w (ix2 k j) := by
  refine (broadcastTo_1b_ab_apply _ hb l j).trans ?_
  refine (shapeCast_a_1a_apply _ hsc 0 j).trans ?_
  refine (Ideal.multiReduction_add_single w _ hr hφ hacc (ix1 j)).trans ?_
  exact Finset.sum_congr rfl fun k _ => congrArg w (lift_ix1 hr j k)

/-- The exponential of a logit less the voxel's largest logit. -/
theorem sexp_apply (v : FVec Ideal S21x4096 .f32) (hr : S21x4096.Reduces [0] S4096) (hφ : FKind.Formats .f32)
    (hacc : (0xFF800000#32 : BitVec 32) = FKind.maximumf.neutral .f32 hφ) (hsc : S4096.ShapeCasts S1x4096)
    (hb : S1x4096.Broadcasts S21x4096) (l : Fin 21) (j : Fin 4096) :
    exp (subf v (broadcastTo S21x4096
      (shapeCast S1x4096 (multiReduction .maximumf [0] S4096 v 0xFF800000#32 hr hφ hacc) hsc) hb)) (ix2 l j)
      = sexp (tab2Of v) l j :=
  congrArg (fun m : EReal => Ideal.exp (v (ix2 l j) - m)) (colmax_apply v hr hφ hacc hsc hb l j)

/-- How the 21 x 256 by 256 x 4096 product reads its operands. -/
theorem reads_tile : Cert.Lib.PlainDot.Reads dot_S21x256_S256x4096_S21x4096_1_0_0_1_n_n :=
  ⟨rfl, rfl, fun _ _ => rfl, fun _ _ => rfl, fun _ _ => rfl, fun _ _ => rfl⟩

/-- How the 21 x 21 by 21 x 4096 product reads its operands. -/
theorem reads_mix : Cert.Lib.PlainDot.Reads dot_S21x21_S21x4096_S21x4096_1_0_0_1_n_n :=
  ⟨rfl, rfl, fun _ _ => rfl, fun _ _ => rfl, fun _ _ => rfl, fun _ _ => rfl⟩

/-! ### The stored values -/

/-- The logits are set to the unary logits. -/
theorem pay2_apply (v : FVec Ideal S21x4096 .f32) (l : Fin 21) (j : Fin 4096) :
    k2_pay2 (F := Ideal) v (ix2 l j) = v (ix2 l j) := by
  unfold k2_pay2
  rw [shapeCast_self, shapeCast_self]

/-- The softmax over the 21 labels. -/
theorem pay3_apply (v : FVec Ideal S21x4096 .f32) (l : Fin 21) (j : Fin 4096) :
    k2_pay3 (F := Ideal) v v (ix2 l j) = q (tab2Of v) l j := by
  unfold k2_pay3
  rw [shapeCast_self]
  refine (divf_apply _ _ _).trans ?_
  refine congrArg₂ Ideal.div (sexp_apply v _ _ _ _ _ l j) ?_
  refine (colsum_apply _ _ _ _ _ _ l j).trans ?_
  unfold ssum
  rw [w0_add]
  exact Finset.sum_congr rfl fun k _ => sexp_apply v _ _ _ _ _ k j

/-- The cleared accumulators. -/
theorem pay4_apply (l : Fin 21) (j : Fin 4096) : k2_pay4 (F := Ideal) (ix2 l j) = w0 := by
  unfold k2_pay4
  rw [shapeCast_self]
  rfl

theorem pay5_apply (l : Fin 21) (j : Fin 4096) : k2_pay5 (F := Ideal) (ix2 l j) = w0 := by
  unfold k2_pay5
  rw [shapeCast_self]
  rfl

/-- One tile's products added to the accumulator. -/
theorem pay7_apply (v11 : FVec Ideal S21x256 .f32) (v13 : FVec Ideal S256x4096 .bf16) (v18 : FVec Ideal S21x4096 .f32)
    (l : Fin 21) (j : Fin 4096) :
    k2_pay7 (F := Ideal) v11 v13 v18 (ix2 l j) = v18 (ix2 l j) + ∑ r : Fin 256, v11 (ix2 l r) * v13 (ix2 r j) := by
  unfold k2_pay7 k2_pay6
  rw [shapeCast_self, shapeCast_self]
  refine (addf_apply _ _ _).trans ?_
  refine congrArg (v18 (ix2 l j) + ·) ?_
  exact Cert.Lib.PlainDot.matmul_zero_apply reads_tile none _ _ l j

theorem pay8_apply (v11 : FVec Ideal S21x256 .f32) (v16 : FVec Ideal S256x4096 .bf16) (v24 : FVec Ideal S21x4096 .f32)
    (l : Fin 21) (j : Fin 4096) :
    k2_pay8 (F := Ideal) v11 v16 v24 (ix2 l j) = v24 (ix2 l j) + ∑ r : Fin 256, v11 (ix2 l r) * v16 (ix2 r j) := by
  unfold k2_pay8 k2_pay6
  rw [shapeCast_self, shapeCast_self]
  refine (addf_apply _ _ _).trans ?_
  refine congrArg (v24 (ix2 l j) + ·) ?_
  exact Cert.Lib.PlainDot.matmul_zero_apply reads_tile none _ _ l j

/-- One weight matrix applied to one normalised filter response. -/
theorem mix_apply (M : FVec Ideal S21x21 .f32) (x : FVec Ideal S21x4096 .f32) (n : FVec Ideal S1x4096 .f32)
    (hlt : FTy.bits .bf16 < FTy.bits .f32) (hb : S1x4096.Broadcasts S21x4096) (l : Fin 21) (j : Fin 4096) :
    matmul dot_S21x21_S21x4096_S21x4096_1_0_0_1_n_n none (truncf .bf16 M hlt)
        (truncf .bf16 (divf x (broadcastTo S21x4096 n hb)) hlt) (constant S21x4096 .f32 0x00000000#32) (ix2 l j)
      = ∑ a : Fin 21, M (ix2 l a) * Ideal.div (x (ix2 a j)) (n (ix2 (0 : Fin 1) j)) := by
  refine (Cert.Lib.PlainDot.matmul_zero_apply reads_mix none _ _ l j).trans ?_
  refine Finset.sum_congr rfl fun a _ => ?_
  refine congrArg (M (ix2 l a) * ·) ?_
  refine (divf_apply _ _ _).trans ?_
  exact congrArg (Ideal.div (x (ix2 a j))) (broadcastTo_1b_ab_apply n hb a j)

/-- The new logits: the two mixed filter responses added, then the unary logits added. -/
theorem pay1_apply (v38 : FVec Ideal S21x4096 .f32) (v39 : FVec Ideal S1x4096 .f32) (v44 : FVec Ideal S21x4096 .f32)
    (v45 : FVec Ideal S1x4096 .f32) (v50 v54 : FVec Ideal S21x21 .f32) (v59 : FVec Ideal S21x4096 .f32)
    (l : Fin 21) (j : Fin 4096) :
    k2_pay1 (F := Ideal) v38 v39 v44 v45 v50 v54 v59 (ix2 l j)
      = ((∑ a : Fin 21, v50 (ix2 l a) * Ideal.div (v38 (ix2 a j)) (v39 (ix2 (0 : Fin 1) j)))
          + (∑ a : Fin 21, v54 (ix2 l a) * Ideal.div (v44 (ix2 a j)) (v45 (ix2 (0 : Fin 1) j))))
        + v59 (ix2 l j) := by
  unfold k2_pay1
  simp only [shapeCast_self]
  refine (addf_apply _ _ _).trans ?_
  refine congrArg (· + v59 (ix2 l j)) ?_
  refine (addf_apply _ _ _).trans ?_
  exact congrArg₂ (· + ·) (mix_apply v50 v38 v39 _ _ l j) (mix_apply v54 v44 v45 _ _ l j)

end Cert.KernelIdeal.Hand

end
-- ==== Proof.KI.R2Blocks.lean ====
/-
  Region 2: what the body's seven input blocks are, as entries of the arrays the region finds.  Six of the windows
  have one block, the whole array, at every point; the window of the first kernel matrix has, at a point of
  contraction tile k = t mod 16, rows 256 k .. 256 k + 255 of the [4096,4096] array.
-/
import proofs.«171617_j90795608638216_2_alg».proof.Proof.KI.R2Runs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-- The block indices of the eight windows at point t, decided over the 80 points: all zero but the first kernel
    matrix's row block, which is the point's contraction tile. -/
theorem blockIdx2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val % 16 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- The unary logits' block at any point is the whole table. -/
theorem iblk2_0_apply (c : Dev nD) (t : Fin cfg2.N) (l : Fin 21) (j : Fin 4096) :
    (iblk2 V c 0 t : Vec F S21x4096 .f32) (ix2 l j) = (V c main_v26 : S21x4096.Idx → Elt F .f32) (ix2 l j) := by
  have e0 : win2_0.index t (0 : Fin 2) = 0 := (blockIdx2 t).1
  have e1 : win2_0.index t (1 : Fin 2) = 0 := (blockIdx2 t).2.1
  unfold iblk2
  rw [View.read_apply]
  show V c main_v26 _ = V c main_v26 _
  congr 1
  funext a
  apply Fin.ext
  match a with
  | ⟨0, _⟩ => show win2_0.index t (0 : Fin 2) * 21 + 1 * l.val = l.val; rw [e0]; omega
  | ⟨1, _⟩ => show win2_0.index t (1 : Fin 2) * 4096 + 1 * j.val = j.val; rw [e1]; omega

/-- The first folded weight matrix's block at any point is the whole matrix. -/
theorem iblk2_1_apply (c : Dev nD) (t : Fin cfg2.N) (l : Fin 21) (b : Fin 21) :
    (iblk2 V c 1 t : Vec F S21x21 .f32) (ix2 l b) = (V c main_v27 : S21x21.Idx → Elt F .f32) (ix2 l b) := by
  have e0 : win2_1.index t (0 : Fin 2) = 0 := (blockIdx2 t).2.2.1
  have e1 : win2_1.index t (1 : Fin 2) = 0 := (blockIdx2 t).2.2.2.1
  unfold iblk2
  rw [View.read_apply]
  show V c main_v27 _ = V c main_v27 _
  congr 1
  funext a
  apply Fin.ext
  match a with
  | ⟨0, _⟩ => show win2_1.index t (0 : Fin 2) * 21 + 1 * l.val = l.val; rw [e0]; omega
  | ⟨1, _⟩ => show win2_1.index t (1 : Fin 2) * 21 + 1 * b.val = b.val; rw [e1]; omega

/-- The second folded weight matrix's block at any point is the whole matrix. -/
theorem iblk2_2_apply (c : Dev nD) (t : Fin cfg2.N) (l : Fin 21) (b : Fin 21) :
    (iblk2 V c 2 t : Vec F S21x21 .f32) (ix2 l b) = (V c main_v28 : S21x21.Idx → Elt F .f32) (ix2 l b) := by
  have e0 : win2_2.index t (0 : Fin 2) = 0 := (blockIdx2 t).2.2.2.2.1
  have e1 : win2_2.index t (1 : Fin 2) = 0 := (blockIdx2 t).2.2.2.2.2.1
  unfold iblk2
  rw [View.read_apply]
  show V c main_v28 _ = V c main_v28 _
  congr 1
  funext a
  apply Fin.ext
  match a with
  | ⟨0, _⟩ => show win2_2.index t (0 : Fin 2) * 21 + 1 * l.val = l.val; rw [e0]; omega
  | ⟨1, _⟩ => show win2_2.index t (1 : Fin 2) * 21 + 1 * b.val = b.val; rw [e1]; omega

/-- The first kernel matrix's block at point t, at (r, j), is the array at (256 (t mod 16) + r, j). -/
theorem iblk2_3_apply (c : Dev nD) (t : Fin cfg2.N) (r : Fin 256) (j : Fin 4096) (i : Fin 4096)
    (hi : i.val = 256 * (t.val % 16) + r.val) :
    (iblk2 V c 3 t : Vec F S256x4096 .bf16) (ix2 r j) = (V c main_v23_0 : S4096x4096.Idx → Elt F .bf16) (ix2 i j) := by
  have e0 : win2_3.index t (0 : Fin 2) = t.val % 16 := (blockIdx2 t).2.2.2.2.2.2.1
  have e1 : win2_3.index t (1 : Fin 2) = 0 := (blockIdx2 t).2.2.2.2.2.2.2.1
  unfold iblk2
  rw [View.read_apply]
  show V c main_v23_0 _ = V c main_v23_0 _
  congr 1
  funext a
  apply Fin.ext
  match a with
  | ⟨0, _⟩ => show win2_3.index t (0 : Fin 2) * 256 + 1 * r.val = i.val; rw [e0, hi]; omega
  | ⟨1, _⟩ => show win2_3.index t (1 : Fin 2) * 4096 + 1 * j.val = j.val; rw [e1]; omega

/-- The same with the row written out. -/
theorem iblk2_3_apply' (c : Dev nD) (t : Fin cfg2.N) (r : Fin 256) (j : Fin 4096) :
    (iblk2 V c 3 t : Vec F S256x4096 .bf16) (ix2 r j)
      = (V c main_v23_0 : S4096x4096.Idx → Elt F .bf16) (ix2 (⟨256 * (t.val % 16) + r.val, by omega⟩ : Fin 4096) j) :=
  iblk2_3_apply V c t r j _ rfl

/-- The second kernel matrix's block at any point is the whole matrix. -/
theorem iblk2_4_apply (c : Dev nD) (t : Fin cfg2.N) (i : Fin 4096) (j : Fin 4096) :
    (iblk2 V c 4 t : Vec F S4096x4096 .bf16) (ix2 i j) = (V c main_v25_0 : S4096x4096.Idx → Elt F .bf16) (ix2 i j) := by
  have e0 : win2_4.index t (0 : Fin 2) = 0 := (blockIdx2 t).2.2.2.2.2.2.2.2.1
  have e1 : win2_4.index t (1 : Fin 2) = 0 := (blockIdx2 t).2.2.2.2.2.2.2.2.2.1
  unfold iblk2
  rw [View.read_apply]
  show V c main_v25_0 _ = V c main_v25_0 _
  congr 1
  funext a
  apply Fin.ext
  match a with
  | ⟨0, _⟩ => show win2_4.index t (0 : Fin 2) * 4096 + 1 * i.val = i.val; rw [e0]; omega
  | ⟨1, _⟩ => show win2_4.index t (1 : Fin 2) * 4096 + 1 * j.val = j.val; rw [e1]; omega

/-- The first kernel matrix's column sums: one block, the whole row. -/
theorem iblk2_5_apply (c : Dev nD) (t : Fin cfg2.N) (u : Fin 1) (j : Fin 4096) :
    (iblk2 V c 5 t : Vec F S1x4096 .f32) (ix2 u j) = (V c main_v23_1 : S1x4096.Idx → Elt F .f32) (ix2 u j) := by
  have e0 : win2_5.index t (0 : Fin 2) = 0 := (blockIdx2 t).2.2.2.2.2.2.2.2.2.2.1
  have e1 : win2_5.index t (1 : Fin 2) = 0 := (blockIdx2 t).2.2.2.2.2.2.2.2.2.2.2.1
  unfold iblk2
  rw [View.read_apply]
  show V c main_v23_1 _ = V c main_v23_1 _
  congr 1
  funext a
  apply Fin.ext
  match a with
  | ⟨0, _⟩ => show win2_5.index t (0 : Fin 2) * 1 + 1 * u.val = u.val; rw [e0]; omega
  | ⟨1, _⟩ => show win2_5.index t (1 : Fin 2) * 4096 + 1 * j.val = j.val; rw [e1]; omega

/-- The second kernel matrix's column sums: one block, the whole row. -/
theorem iblk2_6_apply (c : Dev nD) (t : Fin cfg2.N) (u : Fin 1) (j : Fin 4096) :
    (iblk2 V c 6 t : Vec F S1x4096 .f32) (ix2 u j) = (V c main_v25_1 : S1x4096.Idx → Elt F .f32) (ix2 u j) := by
  have e0 : win2_6.index t (0 : Fin 2) = 0 := (blockIdx2 t).2.2.2.2.2.2.2.2.2.2.2.2.1
  have e1 : win2_6.index t (1 : Fin 2) = 0 := (blockIdx2 t).2.2.2.2.2.2.2.2.2.2.2.2.2.1
  unfold iblk2
  rw [View.read_apply]
  show V c main_v25_1 _ = V c main_v25_1 _
  congr 1
  funext a
  apply Fin.ext
  match a with
  | ⟨0, _⟩ => show win2_6.index t (0 : Fin 2) * 1 + 1 * u.val = u.val; rw [e0]; omega
  | ⟨1, _⟩ => show win2_6.index t (1 : Fin 2) * 4096 + 1 * j.val = j.val; rw [e1]; omega

end Cert.KernelIdeal.Hand

end
-- ==== Proof.KI.R2TileLoads.lean ====
/-
  Region 2: the body's two tile loads read at an index.  At a point of contraction tile k = t mod 16 the body
  reads columns 256 k .. 256 k + 255 of a label-by-voxel table and rows 256 k .. 256 k + 255 of the resident
  kernel matrix: the offset it computes is 256 times the point's second grid coordinate, which is k.
-/
import proofs.«171617_j90795608638216_2_alg».proof.Proof.KI.R2Pieces
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-- The second grid coordinate of point t is its contraction tile t mod 16 (the grid is 5 by 16, row-major). -/
theorem tileCoord2 : ∀ t : Fin cfg2.N, (grid2.coords t (1 : Fin 2)).val = t.val % 16 :=
  (by decide +kernel : ∀ t : Fin grid2.N, (grid2.coords t (1 : Fin 2)).val = t.val % 16)

/-- The tile of a label-by-voxel table at point t, at (l, r), is the table at (l, 256 (t mod 16) + r). -/
theorem qtile_apply (t : Fin cfg2.N) (v : Vec F S21x4096 .f32) (l : Fin 21) (r : Fin 256) (i : Fin 4096)
    (hi : i.val = 256 * (t.val % 16) + r.val) :
    qtile (grid2.coords t) v (ix2 l r) = v (ix2 l i) := by
  have hc := tileCoord2 t
  show v ((Rect.unit (s := S21x4096) (k2_off1 (grid2.coords t)) S21x256.size (Facts₀.k2_off1_inb (grid2.coords t))).toLoadRect.idx (ix2 l r)) = v (ix2 l i)
  congr 1
  funext a
  apply Fin.ext
  match a with
  | ⟨0, _⟩ =>
    show (k2_off1 (grid2.coords t)) 0 + 1 * l.val = l.val
    rw [k2_off1_eq]
    show 0 + 1 * l.val = l.val
    omega
  | ⟨1, _⟩ =>
    show (k2_off1 (grid2.coords t)) 1 + 1 * r.val = i.val
    rw [k2_off1_eq]
    show 256 * (grid2.coords t (1 : Fin 2)).val + 1 * r.val = i.val
    rw [hc, hi]
    omega

/-- The same with the column written out. -/
theorem qtile_apply' (t : Fin cfg2.N) (v : Vec F S21x4096 .f32) (l : Fin 21) (r : Fin 256) :
    qtile (grid2.coords t) v (ix2 l r) = v (ix2 l (⟨256 * (t.val % 16) + r.val, by omega⟩ : Fin 4096)) :=
  qtile_apply t v l r _ rfl

/-- The tile of the resident kernel matrix at point t, at (r, j), is the matrix at (256 (t mod 16) + r, j). -/
theorem ktile_apply (t : Fin cfg2.N) (v : Vec F S4096x4096 .bf16) (r : Fin 256) (j : Fin 4096) (i : Fin 4096)
    (hi : i.val = 256 * (t.val % 16) + r.val) :
    ktile (grid2.coords t) v (ix2 r j) = v (ix2 i j) := by
  have hc := tileCoord2 t
  show v ((Rect.unit (s := S4096x4096) (k2_off2 (grid2.coords t)) S256x4096.size (Facts₀.k2_off2_inb (grid2.coords t))).toLoadRect.idx (ix2 r j)) = v (ix2 i j)
  congr 1
  funext a
  apply Fin.ext
  match a with
  | ⟨0, _⟩ =>
    show (k2_off2 (grid2.coords t)) 0 + 1 * r.val = i.val
    rw [k2_off2_eq]
    show 256 * (grid2.coords t (1 : Fin 2)).val + 1 * r.val = i.val
    rw [hc, hi]
    omega
  | ⟨1, _⟩ =>
    show (k2_off2 (grid2.coords t)) 1 + 1 * j.val = j.val
    rw [k2_off2_eq]
    show 0 + 1 * j.val = j.val
    omega

/-- The same with the row written out. -/
theorem ktile_apply' (t : Fin cfg2.N) (v : Vec F S4096x4096 .bf16) (r : Fin 256) (j : Fin 4096) :
    ktile (grid2.coords t) v (ix2 r j) = v (ix2 (⟨256 * (t.val % 16) + r.val, by omega⟩ : Fin 4096) j) :=
  ktile_apply t v r j _ rfl

end Cert.KernelIdeal.Hand

end
-- ==== Proof.KI.R2Out.lean ====
/-
  Region 2's result array.  The output window has one block, the whole [21,4096] array, and it is written back
  once, after the last of the 80 points: the array ends holding what the body left in the output buffer at point 79.
-/
import proofs.«171617_j90795608638216_2_alg».proof.Proof.KI.R2
import proofs.«171617_j90795608638216_2_alg».proof.Proof.KI.R2Blocks
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-- There are 80 points, so 79 is one. -/
theorem last2_lt : 79 < cfg2.N := by rw [show cfg2.N = 80 from N_2]; decide

/-- What the body leaves in the output buffer at the last point. -/
abbrev outLast2 (c : Dev nD) : Vec F S21x4096 .f32 := (outsAt2 V c 79 last2_lt).1

/-- The buffer's contents after a point that is point 79. -/
theorem outsAt2_last (c : Dev nD) (n : ℕ) (hn : n < cfg2.N) (h : n = 79) :
    (outsAt2 V c n hn).1 = outLast2 V c := by
  subst h
  rfl

/-- The one write-back, at point 79, writes the whole of it. -/
theorem flushed2_7 (c : Dev nD) (t : Fin cfg2.N) (hf : (cfg2.win 7).flush t = true) :
    (dat2 V c).flushed 7 t = ((cfg2.win 7).blk t).view.read (Elt F) (outLast2 V c) := by
  have hN : cfg2.N = 80 := N_2
  have ht : t.val = 79 := by have := (flush2_7 t).mp hf; have := t.isLt; omega
  have e0 : win2_7.index t (0 : Fin 2) = 0 := (blockIdx2 t).2.2.2.2.2.2.2.2.2.2.2.2.2.2.1
  have e1 : win2_7.index t (1 : Fin 2) = 0 := (blockIdx2 t).2.2.2.2.2.2.2.2.2.2.2.2.2.2.2
  show (cfg2.win 7).cut (grid2.coords t) ((dat2 V c).after 7 t) = _
  rw [after2_7, outsAt2_last V c t.val t.isLt ht]
  refine funext fun (y : S21x4096.Idx) => ?_
  have hemb : ((cfg2.win 7).blk t).view.emb y = y :=
    funext fun a => Fin.ext (by
      match a with
      | ⟨0, _⟩ => show win2_7.index t (0 : Fin 2) * 21 + 1 * (y 0).val = (y 0).val; rw [e0]; omega
      | ⟨1, _⟩ => show win2_7.index t (1 : Fin 2) * 4096 + 1 * (y 1).val = (y 1).val; rw [e1]; omega)
  show outLast2 V c y = outLast2 V c (((cfg2.win 7).blk t).view.emb y)
  rw [hemb]

/-- Every entry of the result array lies in that one block. -/
theorem cover2_7 (i : S21x4096.Idx) :
    ∃ t : Fin cfg2.N, (cfg2.win 7).flush t = true ∧ i ∈ ((cfg2.win 7).blk t).view.set := by
  have h0 : (i 0).val < 21 := (i 0).isLt
  have h1 : (i 1).val < 4096 := (i 1).isLt
  obtain ⟨t, ht⟩ : ∃ t : Fin cfg2.N, t.val = 79 := ⟨⟨79, last2_lt⟩, rfl⟩
  have e0 : win2_7.index t (0 : Fin 2) = 0 := (blockIdx2 t).2.2.2.2.2.2.2.2.2.2.2.2.2.2.1
  have e1 : win2_7.index t (1 : Fin 2) = 0 := (blockIdx2 t).2.2.2.2.2.2.2.2.2.2.2.2.2.2.2
  refine ⟨t, (flush2_7 t).mpr (by omega), ?_⟩
  show i ∈ ((View.whole main_v29).slice (win2_7.rect t)).set
  rw [View.set_slice_whole, Rect.mem_set_unit]
  intro a
  match a with
  | ⟨0, _⟩ =>
    show win2_7.index t (0 : Fin 2) * 21 ≤ (i 0).val ∧ (i 0).val < win2_7.index t (0 : Fin 2) * 21 + 21
    rw [e0]; omega
  | ⟨1, _⟩ =>
    show win2_7.index t (1 : Fin 2) * 4096 ≤ (i 1).val ∧ (i 1).val < win2_7.index t (1 : Fin 2) * 4096 + 4096
    rw [e1]; omega

/-- The result array ends holding what the body left in the output buffer at the last point. -/
theorem arr2_7 (c : Dev nD) : (dat2 V c).arrAt 7 cfg2.N = (outsAt2 V c 79 last2_lt).1 :=
  (dat2 V c).arrAt_eq_of_cover 7 (outLast2 V c) (flushed2_7 V c) cover2_7

end Cert.KernelIdeal.Hand

end
-- ==== Proof.KI.R2Model.lean ====
/-
  The mean-field region follows the recursion on four tables: whatever case a point is in, the tables its
  body leaves are the recursion's step applied to the tables it found; so after point n they are the
  recursion's state after n, and the output block written back at the last point holds its logits.
-/
import proofs.«171617_j90795608638216_2_alg».proof.Proof.KI.R2ModelDefs
import proofs.«171617_j90795608638216_2_alg».proof.Proof.KI.R2Pieces
import proofs.«171617_j90795608638216_2_alg».proof.Proof.KI.R2Pay
import proofs.«171617_j90795608638216_2_alg».proof.Proof.KI.R2Blocks
import proofs.«171617_j90795608638216_2_alg».proof.Proof.KI.R2TileLoads
import proofs.«171617_j90795608638216_2_alg».proof.Proof.KI.R2Out
import proofs.«171617_j90795608638216_2_alg».proof.Proof.CrfModelRun

set_option maxRecDepth 16384
set_option pp.maxSteps 20000
set_option pp.deepTerms false

noncomputable section

namespace Cert.KernelIdeal.Hand

open Cert.KernelIdeal Cert.KernelIdeal.Gen Cert.Crf
open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

theorem St.ext' {a b : St} (h1 : a.cur = b.cur) (h2 : a.sm = b.sm) (h3 : a.asp = b.asp) (h4 : a.abi = b.abi) : a = b := by
  cases a; cases b; simp only [St.mk.injEq]; exact ⟨h1, h2, h3, h4⟩

/-! ## The operands' blocks are the operands -/

theorem hU (c : Dev nD) (t : Fin cfg2.N) : tab2Of (iblk2 V c 0 t : Vec Ideal S21x4096 .f32) = (o2 V c).U :=
  funext fun l => funext fun j => iblk2_0_apply V c t l j
theorem hpay2 (v : FVec Ideal S21x4096 .f32) : tab2Of (k2_pay2 (F := Ideal) v) = tab2Of v :=
  funext fun l => funext fun j => pay2_apply v l j
theorem hpay3 (v : FVec Ideal S21x4096 .f32) : tab2Of (k2_pay3 (F := Ideal) v v) = q (tab2Of v) :=
  funext fun l => funext fun j => pay3_apply v l j

/-! ## One tile's products -/

theorem tile_sp (c : Dev nD) (t : Fin cfg2.N) (sm a : FVec Ideal S21x4096 .f32) (l : Fin 21) (j : Fin 4096) :
    k2_pay7 (F := Ideal) (qtile (grid2.coords t) sm) (iblk2 V c 3 t : Vec Ideal S256x4096 .bf16) a (ix2 l j)
      = a (ix2 l j) + ∑ r : Fin 256, ext (fun i => tab2Of sm l i * (o2 V c).Ksp i j) (256 * (t.val % 16) + r.val) := by
  refine (pay7_apply _ _ _ l j).trans ?_
  refine congrArg (a (ix2 l j) + ·) (Finset.sum_congr rfl fun r _ => ?_)
  have hlt : 256 * (t.val % 16) + r.val < 4096 := by omega
  refine (congr (congrArg HMul.hMul (qtile_apply' (F := Ideal) t sm l r)) (iblk2_3_apply' V c t r j)).trans ?_
  unfold ext; rw [dif_pos hlt]; rfl

theorem tile_bi (c : Dev nD) (t : Fin cfg2.N) (sm a : FVec Ideal S21x4096 .f32) (l : Fin 21) (j : Fin 4096) :
    k2_pay8 (F := Ideal) (qtile (grid2.coords t) sm) (ktile (grid2.coords t) (iblk2 V c 4 t : Vec Ideal S4096x4096 .bf16)) a (ix2 l j)
      = a (ix2 l j) + ∑ r : Fin 256, ext (fun i => tab2Of sm l i * (o2 V c).Kbi i j) (256 * (t.val % 16) + r.val) := by
  refine (pay8_apply _ _ _ l j).trans ?_
  refine congrArg (a (ix2 l j) + ·) (Finset.sum_congr rfl fun r _ => ?_)
  have hlt : 256 * (t.val % 16) + r.val < 4096 := by omega
  refine (congr (congrArg HMul.hMul (qtile_apply' (F := Ideal) t sm l r)) ((ktile_apply' (F := Ideal) t _ r j).trans (iblk2_4_apply V c t _ j))).trans ?_
  unfold ext; rw [dif_pos hlt]; rfl

/-- The new logits from the full accumulators. -/
theorem newcur (c : Dev nD) (t : Fin cfg2.N) (A B : FVec Ideal S21x4096 .f32) (l : Fin 21) (j : Fin 4096) :
    k2_pay1 (F := Ideal) A (iblk2 V c 5 t : Vec Ideal S1x4096 .f32) B (iblk2 V c 6 t : Vec Ideal S1x4096 .f32)
        (iblk2 V c 1 t : Vec Ideal S21x21 .f32) (iblk2 V c 2 t : Vec Ideal S21x21 .f32) (iblk2 V c 0 t : Vec Ideal S21x4096 .f32) (ix2 l j)
      = ((∑ a, (o2 V c).CS l a * Ideal.div (A (ix2 a j)) ((o2 V c).nsp j))
          + (∑ a, (o2 V c).CB l a * Ideal.div (B (ix2 a j)) ((o2 V c).nbi j))) + (o2 V c).U l j := by
  refine (pay1_apply _ _ _ _ _ _ _ l j).trans ?_
  refine congr (congrArg HAdd.hAdd (congr (congrArg HAdd.hAdd (Finset.sum_congr rfl fun a _ => ?_)) (Finset.sum_congr rfl fun a _ => ?_))) (iblk2_0_apply V c t l j)
  · exact congr (congrArg HMul.hMul (iblk2_1_apply V c t l a)) (congrArg (Ideal.div (A (ix2 a j))) (iblk2_5_apply V c t 0 j))
  · exact congr (congrArg HMul.hMul (iblk2_2_apply V c t l a)) (congrArg (Ideal.div (B (ix2 a j))) (iblk2_6_apply V c t 0 j))

/-! ## Each case is the recursion's step -/

set_option maxHeartbeats 2000000 in
theorem stepA_model (c : Dev nD) (t : Fin cfg2.N) (hz : t.val = 0) (s : St) :
    stOf (stepA V c t hz) = pointK (o2 V c) t.val s := by
  have hk : t.val % 16 = 0 := by omega
  have h15 : ¬t.val % 16 = 15 := by omega
  apply St.ext'
  · simp only [pointK_cur, pointK_sm, pointK_asp, pointK_abi, if_pos hk, if_pos hz, if_neg h15]
    unfold stOf stepA; (try dsimp only)
    rw [sout2_A_0_eq, hpay2, hU]
  · simp only [pointK_cur, pointK_sm, pointK_asp, pointK_abi, if_pos hk, if_pos hz, if_neg h15]
    unfold stOf stepA; (try dsimp only)
    rw [sout2_A_1_eq, hpay3, hpay2, hU]
  · simp only [pointK_cur, pointK_sm, pointK_asp, pointK_abi, if_pos hk, if_pos hz, if_neg h15]
    unfold stOf stepA; (try dsimp only)
    rw [sout2_A_2_eq]
    funext l j
    refine (tile_sp V c t _ _ l j).trans ?_
    rw [pay4_apply, hpay3, hpay2, hU]
  · simp only [pointK_cur, pointK_sm, pointK_asp, pointK_abi, if_pos hk, if_pos hz, if_neg h15]
    unfold stOf stepA; (try dsimp only)
    rw [sout2_A_3_eq]
    funext l j
    refine (tile_bi V c t _ _ l j).trans ?_
    rw [pay5_apply, hpay3, hpay2, hU]

set_option maxHeartbeats 2000000 in
theorem stepB_model (c : Dev nD) (t : Fin cfg2.N) (hz : t.val ≠ 0) (h1 : t.val % 16 = 0) (p : T5 Ideal) :
    stOf (stepB V c t hz h1 p) = pointK (o2 V c) t.val (stOf p) := by
  have h15 : ¬t.val % 16 = 15 := by omega
  apply St.ext'
  · simp only [pointK_cur, pointK_sm, pointK_asp, pointK_abi, if_pos h1, if_neg hz, if_neg h15]
    unfold stOf stepB; (try dsimp only)
    try rfl
  · simp only [pointK_cur, pointK_sm, pointK_asp, pointK_abi, if_pos h1, if_neg hz, if_neg h15]
    unfold stOf stepB; (try dsimp only)
    rw [sout2_B_1_eq, hpay3]
  · simp only [pointK_cur, pointK_sm, pointK_asp, pointK_abi, if_pos h1, if_neg hz, if_neg h15]
    unfold stOf stepB; (try dsimp only)
    rw [sout2_B_2_eq]
    funext l j
    refine (tile_sp V c t _ _ l j).trans ?_
    rw [pay4_apply, hpay3]
  · simp only [pointK_cur, pointK_sm, pointK_asp, pointK_abi, if_pos h1, if_neg hz, if_neg h15]
    unfold stOf stepB; (try dsimp only)
    rw [sout2_B_3_eq]
    funext l j
    refine (tile_bi V c t _ _ l j).trans ?_
    rw [pay5_apply, hpay3]

set_option maxHeartbeats 2000000 in
theorem stepC_model (c : Dev nD) (t : Fin cfg2.N) (hz : t.val ≠ 0) (h1 : ¬t.val % 16 = 0) (h2 : ¬t.val % 16 = 15) (p : T5 Ideal) :
    stOf (stepC V c t hz h1 h2 p) = pointK (o2 V c) t.val (stOf p) := by
  apply St.ext'
  · simp only [pointK_cur, pointK_sm, pointK_asp, pointK_abi, if_neg h1, if_neg h2, if_neg hz]
    unfold stOf stepC; (try dsimp only)
    try rfl
  · simp only [pointK_cur, pointK_sm, pointK_asp, pointK_abi, if_neg h1, if_neg h2, if_neg hz]
    unfold stOf stepC; (try dsimp only)
    try rfl
  · simp only [pointK_cur, pointK_sm, pointK_asp, pointK_abi, if_neg h1, if_neg h2, if_neg hz]
    unfold stOf stepC; (try dsimp only)
    rw [sout2_C_2_eq]
    funext l j
    exact tile_sp V c t _ _ l j
  · simp only [pointK_cur, pointK_sm, pointK_asp, pointK_abi, if_neg h1, if_neg h2, if_neg hz]
    unfold stOf stepC; (try dsimp only)
    rw [sout2_C_3_eq]
    funext l j
    exact tile_bi V c t _ _ l j

set_option maxHeartbeats 2000000 in
theorem stepD_model (c : Dev nD) (t : Fin cfg2.N) (h2 : t.val % 16 = 15) (h3 : ¬t.val % 80 = 79) (p : T5 Ideal) :
    stOf (stepD V c t h2 h3 p) = pointK (o2 V c) t.val (stOf p) := by
  have h1 : ¬t.val % 16 = 0 := by omega
  have hz : t.val ≠ 0 := by omega
  apply St.ext'
  · simp only [pointK_cur, pointK_sm, pointK_asp, pointK_abi, if_pos h2, if_neg h1, if_neg hz]
    unfold stOf stepD; (try dsimp only)
    rw [sout2_D_0_eq]
    funext l j
    refine (newcur V c t _ _ l j).trans ?_
    simp only [tile_sp V c t, tile_bi V c t]
    rfl
  · simp only [pointK_cur, pointK_sm, pointK_asp, pointK_abi, if_pos h2, if_neg h1, if_neg hz]
    unfold stOf stepD; (try dsimp only)
    try rfl
  · simp only [pointK_cur, pointK_sm, pointK_asp, pointK_abi, if_pos h2, if_neg h1, if_neg hz]
    unfold stOf stepD; (try dsimp only)
    rw [sout2_D_2_eq]
    funext l j
    exact tile_sp V c t _ _ l j
  · simp only [pointK_cur, pointK_sm, pointK_asp, pointK_abi, if_pos h2, if_neg h1, if_neg hz]
    unfold stOf stepD; (try dsimp only)
    rw [sout2_D_3_eq]
    funext l j
    exact tile_bi V c t _ _ l j

set_option maxHeartbeats 2000000 in
theorem stepE_model (c : Dev nD) (t : Fin cfg2.N) (h3 : t.val % 80 = 79) (p : T5 Ideal) :
    stOf (stepE V c t h3 p) = pointK (o2 V c) t.val (stOf p) := by
  have hN := hN2 t
  have h2 : t.val % 16 = 15 := by omega
  have h1 : ¬t.val % 16 = 0 := by omega
  have hz : t.val ≠ 0 := by omega
  apply St.ext'
  · simp only [pointK_cur, pointK_sm, pointK_asp, pointK_abi, if_pos h2, if_neg h1, if_neg hz]
    unfold stOf stepE; (try dsimp only)
    rw [sout2_E_0_eq]
    funext l j
    refine (newcur V c t _ _ l j).trans ?_
    simp only [tile_sp V c t, tile_bi V c t]
    rfl
  · simp only [pointK_cur, pointK_sm, pointK_asp, pointK_abi, if_pos h2, if_neg h1, if_neg hz]
    unfold stOf stepE; (try dsimp only)
    try rfl
  · simp only [pointK_cur, pointK_sm, pointK_asp, pointK_abi, if_pos h2, if_neg h1, if_neg hz]
    unfold stOf stepE; (try dsimp only)
    rw [sout2_E_2_eq]
    funext l j
    exact tile_sp V c t _ _ l j
  · simp only [pointK_cur, pointK_sm, pointK_asp, pointK_abi, if_pos h2, if_neg h1, if_neg hz]
    unfold stOf stepE; (try dsimp only)
    rw [sout2_E_3_eq]
    funext l j
    exact tile_bi V c t _ _ l j

set_option maxHeartbeats 2000000 in
/-- At the last point the output block holds the new logits. -/
theorem stepE_out (c : Dev nD) (t : Fin cfg2.N) (h3 : t.val % 80 = 79) (p : T5 Ideal) :
    tab2Of (stepE V c t h3 p).1 = (stOf (stepE V c t h3 p)).cur := by
  unfold stOf stepE; dsimp only
  rw [out2_E_7_eq, sout2_E_0_eq]

/-! ## The tables after every point -/

theorem outs_run (c : Dev nD) (s0 : St) : ∀ (n : ℕ) (hn : n < cfg2.N), stOf (outsAt2 V c n hn) = runK (o2 V c) s0 n
  | 0, hn => by
    rw [show outsAt2 V c 0 hn = stepA V c ⟨0, hn⟩ rfl from rfl]
    exact stepA_model V c ⟨0, hn⟩ rfl s0
  | n + 1, hn => by
    have ih := outs_run c s0 n (Nat.lt_of_succ_lt hn)
    have hN : n + 1 < 80 := lt_of_lt_of_eq hn (show cfg2.N = 80 from N_2)
    show _ = pointK (o2 V c) (n + 1) (runK (o2 V c) s0 n)
    rw [← ih]
    by_cases h1 : (n + 1) % 16 = 0
    · rw [show outsAt2 V c (n + 1) hn = stepB V c ⟨n + 1, hn⟩ (Nat.succ_ne_zero n) h1 (outsAt2 V c n (Nat.lt_of_succ_lt hn)) from dif_pos h1]
      exact stepB_model V c ⟨n + 1, hn⟩ _ h1 _
    · by_cases h2 : (n + 1) % 16 = 15
      · by_cases h3 : (n + 1) % 80 = 79
        · rw [show outsAt2 V c (n + 1) hn = stepE V c ⟨n + 1, hn⟩ h3 (outsAt2 V c n (Nat.lt_of_succ_lt hn)) from
            (dif_neg h1).trans ((dif_pos h2).trans (dif_pos h3))]
          exact stepE_model V c ⟨n + 1, hn⟩ h3 _
        · rw [show outsAt2 V c (n + 1) hn = stepD V c ⟨n + 1, hn⟩ h2 h3 (outsAt2 V c n (Nat.lt_of_succ_lt hn)) from
            (dif_neg h1).trans ((dif_pos h2).trans (dif_neg h3))]
          exact stepD_model V c ⟨n + 1, hn⟩ h2 h3 _
      · rw [show outsAt2 V c (n + 1) hn = stepC V c ⟨n + 1, hn⟩ (Nat.succ_ne_zero n) h1 h2 (outsAt2 V c n (Nat.lt_of_succ_lt hn)) from
          (dif_neg h1).trans (dif_neg h2)]
        exact stepC_model V c ⟨n + 1, hn⟩ _ h1 h2 _

/-- The region's output array is the recursion's logits after the last point. -/
theorem arr2_7_model (c : Dev nD) (s0 : St) :
    tab2Of ((dat2 (F := Ideal) V c).arrAt 7 cfg2.N) = (runK (o2 V c) s0 79).cur := by
  rw [arr2_7 V c, ← outs_run V c s0 79 last2_lt]
  rw [outsAt2_E V c ⟨79, last2_lt⟩ (by decide)]
  exact stepE_out V c ⟨79, last2_lt⟩ (by decide) _

end Cert.KernelIdeal.Hand

end
-- ==== Proof.KI.AlgebraicFinal.lean ====
/-
  The algebraic claim: the mean-field region's last array is the final logits of the recursion on its operands,
  from any starting tables.
-/
import proofs.«171617_j90795608638216_2_alg».proof.Proof.KI.Algebraic
import proofs.«171617_j90795608638216_2_alg».proof.Proof.KI.R2Model

noncomputable section

namespace Cert.KernelIdeal.Hand

open Cert.KernelIdeal Cert.KernelIdeal.Gen Cert.Crf
open Idealize.ShloMosaic Idealize.ShloMosaic.TcCoe

/-- Starting tables for the recursion: all zero (the result does not depend on them). -/
def st0 : St := ⟨fun _ _ => 0, fun _ _ => 0, fun _ _ => 0, fun _ _ => 0⟩

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  algebraic_of st0 fun m c => arr2_7_model (U5 (F := Ideal) m) c st0

end Cert.KernelIdeal.Hand

end
-- ==== Proof.RefFrame.lean ====
/-
  The reference program runs to the end from every memory, faults nowhere and leaves its five arguments unchanged:
  its run read back, with the result's value dropped.
-/
import proofs.«171617_j90795608638216_2_alg».proof.Defs
import proofs.«171617_j90795608638216_2_alg».proof.Proof.Gen.Pre_finite_inputs
import proofs.«171617_j90795608638216_2_alg».proof.Proof.Gen.ReferenceIdeal.Run

namespace Cert.Crf

open Idealize.ShloMosaic Idealize.SL.Sem

theorem ref_frame : Cert.frame_ReferenceIdeal :=
  fun m ρ _ => (θ_run (Cert.ReferenceIdeal.defs (F := Ideal)) _ _).mono (fun _ h c => (h c).2)
    (Cert.ReferenceIdeal.Value.run (F := Ideal) m ρ)

end Cert.Crf
-- ==== Proof.lean ====
/-
  A dense conditional random field on a 16 x 16 x 16 voxel grid with 21 labels, five mean-field iterations: the
  Pallas kernel against its jnp reference.

  The kernel first builds, tile by tile, the two Gaussian kernel matrices exp(-1/2 max(|f_i|^2 + |f_j|^2 - 2 <f_i, f_j>, 0))
  (spatial features; spatial-and-colour features) together with their column sums, then runs the five iterations
  on a 5 x 16 grid, carrying the logits, their softmax and two filter accumulators from point to point: each
  point adds one tile of 256 voxels to the accumulators, the last tile of an iteration forms the new logits
  (C S) F_s + (C B) F_b + U from the normalised filter responses F_s, F_b. The reference forms C (S F_s + B F_b) + U
  with whole matrix products.

  At the exact extended reals a change of float format is the identity and a sum may be regrouped freely, so
  the blocked accumulations are the whole sums. The two arrangements of the weight matrices agree because, the
  inputs being finite, every table met in the five iterations is real: exponentials of reals are positive reals,
  so the softmax denominators and the kernels' column sums are positive, the quotients are real, and over the
  reals matrix products associate and distribute. That is the one place the precondition is used.

  The three frames: the kernel's (word level and idealized, one text generic in the float instance) runs each
  region's body case by case over the grid with the carried tables in the region's invariant; the reference's is
  its run with the result dropped. The idealized kernel differs from the printed one by two removed round trips
  through bf16, each the identity at the exact reals.
-/
import proofs.«171617_j90795608638216_2_alg».proof.Defs
import proofs.«171617_j90795608638216_2_alg».proof.Proof.Gen.Kernel
import proofs.«171617_j90795608638216_2_alg».proof.Proof.Gen.KernelIdeal
import proofs.«171617_j90795608638216_2_alg».proof.Proof.Gen.ReferenceIdeal
import proofs.«171617_j90795608638216_2_alg».proof.Proof.Gen.Pre_finite_inputs
import proofs.«171617_j90795608638216_2_alg».proof.Proof.K.Run
import proofs.«171617_j90795608638216_2_alg».proof.Proof.KI.Run
import proofs.«171617_j90795608638216_2_alg».proof.Proof.KI.AlgebraicFinal
import proofs.«171617_j90795608638216_2_alg».proof.Proof.RefFrame
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.Hand.frame (F := Bits) m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The two removed round trips through bf16 are the identity at the exact reals. -/
theorem preserves : Cert.preserves_Kernel_KernelIdeal :=
  ⟨IdealRules.truncf_extf.statement _ .f32 .bf16, IdealRules.truncf_extf.statement _ .f32 .bf16⟩

theorem claim : Cert.Claim :=
  ⟨Cert.Kernel.Gen.facts, Cert.KernelIdeal.Gen.facts, Cert.ReferenceIdeal.Gen.facts, Cert.Pre_finite_inputs.Gen.facts,
    frame_kernel, frame_kernelIdeal, Cert.Crf.ref_frame, preserves, Cert.KernelIdeal.Hand.algebraic⟩

end Cert.Proof

end
